-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S1000x64 : Shape := ⟨2, ![1000, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg1 : IVec S4096x50 32) (main_v15 : IVec S_ 1) (main_c_5 : IVec S_ 32) : IVec S_ 1 :=
  let main_v16 : IVec S4096x50 32 := broadcastInDim S4096x50 ![] bcast_S_S4096x50 main_c_5
  let main_v17 : IVec S4096x50 1 := cmpi .sge main_arg1 main_v16
  let main_c_6 : IVec S_ 32 := constantI S_ 32 999#32
  let main_v18 : IVec S4096x50 32 := broadcastInDim S4096x50 ![] bcast_S_S4096x50 main_c_6
  let main_v19 : IVec S4096x50 1 := cmpi .sle main_arg1 main_v18
  let main_v20 : IVec S4096x50 1 := andi main_v17 main_v19
  let main_c_7 : IVec S_ 1 := constantI S_ 1 1#1
  let main_v21 : IVec S_ 1 := (fun x v => Host.reduce IntOp.andi x v reducesTo_S4096x50_S_d0_1 h_S_) main_v20 main_c_7
  let main_v22 : IVec S_ 1 := andi main_v15 main_v21
  main_v22

def fn {F : FTy → Type} [FloatOps F] (main_arg0 : IVec S4096x50 32) (main_arg1 : IVec S4096x50 32) (main_arg2 : FVec F S100000x128 .f32) (main_arg3 : FVec F S1000x64 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_c_2 : IVec S_ 32 := constantI S_ 32 0#32
  let main_v9 : IVec S4096x50 32 := broadcastInDim S4096x50 ![] bcast_S_S4096x50 main_c_2
  let main_v10 : IVec S4096x50 1 := cmpi .sge main_arg0 main_v9
  let main_c_3 : IVec S_ 32 := constantI S_ 32 99999#32
  let main_v11 : IVec S4096x50 32 := broadcastInDim S4096x50 ![] bcast_S_S4096x50 main_c_3
  let main_v12 : IVec S4096x50 1 := cmpi .sle main_arg0 main_v11
  let main_v13 : IVec S4096x50 1 := andi main_v10 main_v12
  let main_c_4 : IVec S_ 1 := constantI S_ 1 1#1
  let main_v14 : IVec S_ 1 := (fun x v => Host.reduce IntOp.andi x v reducesTo_S4096x50_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x50 : Shape := ⟨2, ![4096, 50]⟩
abbrev S100000x128 : Shape := ⟨2, ![100000, 128]⟩
abbrev S1000x64 : Shape := ⟨2, ![1000, 64]⟩
abbrev S4096x1x50 : Shape := ⟨3, ![4096, 1, 50]⟩
abbrev S4096x2x50 : Shape := ⟨3, ![4096, 2, 50]⟩
abbrev S_ : Shape := ⟨0, ![]⟩
abbrev S1000x128 : Shape := ⟨2, ![1000, 128]⟩
abbrev S4096x1x50x192 : Shape := ⟨4, ![4096, 1, 50, 192]⟩
abbrev S2x50 : Shape := ⟨2, ![2, 50]⟩
abbrev S50x128 : Shape := ⟨2, ![50, 128]⟩
abbrev S1x50x192 : Shape := ⟨3, ![1, 50, 192]⟩
abbrev S1x2x50 : Shape := ⟨3, ![1, 2, 50]⟩
abbrev S1x50x128 : Shape := ⟨3, ![1, 50, 128]⟩
abbrev S1x50 : Shape := ⟨2, ![1, 50]⟩
abbrev S50 : Shape := ⟨1, ![50]⟩
abbrev S1x1x50x192 : Shape := ⟨4, ![1, 1, 50, 192]⟩
abbrev S1x16 : Shape := ⟨2, ![1, 16]⟩
abbrev S16 : Shape := ⟨1, ![16]⟩
abbrev S1x1x16 : Shape := ⟨3, ![1, 1, 16]⟩
abbrev S4096x50x192 : Shape := ⟨3, ![4096, 50, 192]⟩

abbrev nBuf : Table → Nat
  | .hbm => 12
  | .local .scVector .vmem => 12
  | _ => 0

abbrev bufTy : (tb : Table) → Fin (nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S1000x64, .f32⟩
  | .hbm, ⟨4, _⟩ => ⟨S4096x1x50, .i32⟩
  | .hbm, ⟨5, _⟩ => ⟨S4096x1x50, .i32⟩
  | .hbm, ⟨6, _⟩ => ⟨S4096x2x50, .i32⟩
  | .hbm, ⟨7, _⟩ => ⟨S_, .i32⟩
  | .hbm, ⟨8, _⟩ => ⟨S_, .f32⟩
  | .hbm, ⟨9, _⟩ => ⟨S1000x128, .f32⟩
  | .hbm, ⟨10, _⟩ => ⟨S4096x1x50x192, .f32⟩
  | .hbm, ⟨11, _⟩ => ⟨S4096x50x192, .f32⟩
  | .local .scVector .vmem, ⟨0, _⟩ => ⟨S2x50, .i32⟩
  | .local .scVector .vmem, ⟨1, _⟩ => ⟨S2x50, .i32⟩
  | .local .scVector .vmem, ⟨2, _⟩ => ⟨S2x50, .i32⟩
  | .local .scVector .vmem, ⟨3, _⟩ => ⟨S2x50, .i32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | .local .scVector .vmem, ⟨8, _⟩ => ⟨S1x50x192, .f32⟩
  | .local .scVector .vmem, ⟨9, _⟩ => ⟨S1x50x192, .f32⟩
  | .local .scVector .vmem, ⟨10, _⟩ => ⟨S1x50x192, .f32⟩
  | .local .scVector .vmem, ⟨11, _⟩ => ⟨S1x50x192, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v2_scv : Ref sig .scVector := ⟨.hbm, 6, rfl⟩
abbrev main_arg2_scv : Ref sig .scVector := ⟨.hbm, 2, rfl⟩
abbrev main_v3_scv : Ref sig .scVector := ⟨.hbm, 9, rfl⟩
abbrev main_v4_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  let c0_i32_1 : BitVec 32 := 0#32
  ![v3.toNat, 0, 0]
@[reducible] def k0_t1_loop : Scf.Loop 32 :=
  let c0_i32_25 : BitVec 32 := 0#32
  let c32_i32 : BitVec 32 := 32#32
  let v26 : BitVec 32 := Scalar.addi c0_i32_25 c32_i32
  let c1_i32_26 : BitVec 32 := 1#32
  ⟨c0_i32_25, v26, c1_i32_26⟩
def k0_cond2 (k0_t1 : Fin k0_t1_loop.trips) : BitVec 1 :=
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c0_i32_51 : BitVec 32 := 0#32
  let v42 : BitVec 32 := Scalar.addi v41 c0_i32_51
  let c2_i32_53 : BitVec 32 := 2#32
  let v46 : BitVec 32 := Scalar.addi v42 c2_i32_53
  let c128_i32_54 : BitVec 32 := 128#32
  let v47 : BitVec 1 := Scalar.cmpi .slt v46 c128_i32_54
  let v48 : BitVec 32 := Scalar.extui v47
  let c0_i32_55 : BitVec 32 := 0#32
  let v49 : BitVec 1 := Scalar.cmpi .ne v48 c0_i32_55
  v49

def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_174 : BitVec 32 := 128#32
  let v151 : BitVec 32 := Scalar.muli v1 c128_i32_174
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c0_i32_51 : BitVec 32 := 0#32
  let v42 : BitVec 32 := Scalar.addi v41 c0_i32_51
  let c2_i32_173 : BitVec 32 := 2#32
  let v150 : BitVec 32 := Scalar.addi v42 c2_i32_173
  let v152 : BitVec 32 := Scalar.addi v151 v150
  let c0_i32_175 : BitVec 32 := 0#32
  let c0_i32_176 : BitVec 32 := 0#32
  ![v152.toNat, 0, 0]
@[reducible] def k0_t2_loop : Scf.Loop 32 :=
  let c0_i32_63 : BitVec 32 := 0#32
  let c50_i32 : BitVec 32 := 50#32
  let v57 : BitVec 32 := Scalar.addi c0_i32_63 c50_i32
  let c1_i32_64 : BitVec 32 := 1#32
  ⟨c0_i32_63, v57, c1_i32_64⟩
def k0_off3 (k0_t2 : Fin k0_t2_loop.trips) : Fin 2 → Nat :=
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v152 : Index := Scalar.indexCast v151
  let c0 : Index := 0#32
  ![v152.toNat, 0]
def k0_off4 (k0_t2 : Fin k0_t2_loop.trips) : Fin 3 → Nat :=
  let c0_i32_175 : BitVec 32 := 0#32
  let v155 : Index := Scalar.indexCast c0_i32_175
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v156 : Index := Scalar.indexCast v151
  let c128 : Index := 128#32
  ![0, v156.toNat, 128]
def k0_off5 (k0_t2 : Fin k0_t2_loop.trips) : Fin 2 → Nat :=
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v160 : Index := Scalar.indexCast v151
  let c16 : Index := 16#32
  ![v160.toNat, 16]
def k0_off6 (k0_t2 : Fin k0_t2_loop.trips) : Fin 3 → Nat :=
  let c0_i32_176 : BitVec 32 := 0#32
  let v163 : Index := Scalar.indexCast c0_i32_176
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v164 : Index := Scalar.indexCast v151
  let c144 : Index := 144#32
  ![0, v164.toNat, 144]
def k0_off7 (k0_t2 : Fin k0_t2_loop.trips) : Fin 2 → Nat :=
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v168 : Index := Scalar.indexCast v151
  let c32 : Index := 32#32
  ![v168.toNat, 32]
def k0_off8 (k0_t2 : Fin k0_t2_loop.trips) : Fin 3 → Nat :=
  let c0_i32_177 : BitVec 32 := 0#32
  let v171 : Index := Scalar.indexCast c0_i32_177
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v172 : Index := Scalar.indexCast v151
  let c160 : Index := 160#32
  ![0, v172.toNat, 160]
def k0_off9 (k0_t2 : Fin k0_t2_loop.trips) : Fin 2 → Nat :=
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v176 : Index := Scalar.indexCast v151
  let c48 : Index := 48#32
  ![v176.toNat, 48]
def k0_off10 (k0_t2 : Fin k0_t2_loop.trips) : Fin 3 → Nat :=
  let c0_i32_178 : BitVec 32 := 0#32
  let v179 : Index := Scalar.indexCast c0_i32_178
  let c0_i32_174 : BitVec 32 := 0#32
  let c0_i32_63 : BitVec 32 := 0#32
  let c1_i32_64 : BitVec 32 := 1#32
  let arg35 : BitVec 32 := Scf.iv c0_i32_63 c1_i32_64 k0_t2
  let c1_i32_173 : BitVec 32 := 1#32
  let v150 : BitVec 32 := Scalar.muli arg35 c1_i32_173
  let v151 : BitVec 32 := Scalar.addi c0_i32_174 v150
  let v180 : Index := Scalar.indexCast v151
  let c176 : Index := 176#32
  ![0, v180.toNat, 176]
def k0_off11 (i : grid0.Coords) (k0_t1 : Fin k0_t1_loop.trips) (c0_i32_51 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_73 : BitVec 32 := 128#32
  let v63 : BitVec 32 := Scalar.muli v1 c128_i32_73
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let v42 : BitVec 32 := Scalar.addi v41 c0_i32_51
  let v64 : BitVec 32 := Scalar.addi v63 v42
  let c0_i32_74 : BitVec 32 := 0#32
  let c0_i32_75 : BitVec 32 := 0#32
  let c0_i32_76 : BitVec 32 := 0#32
  ![v64.toNat, 0, 0, 0]
def k0_cond5 (k0_t1 : Fin k0_t1_loop.trips) : BitVec 1 :=
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c1_i32_80 : BitVec 32 := 1#32
  let v69 : BitVec 32 := Scalar.addi v41 c1_i32_80
  let c2_i32_83 : BitVec 32 := 2#32
  let v73 : BitVec 32 := Scalar.addi v69 c2_i32_83
  let c128_i32_84 : BitVec 32 := 128#32
  let v74 : BitVec 1 := Scalar.cmpi .slt v73 c128_i32_84
  let v75 : BitVec 32 := Scalar.extui v74
  let c0_i32_85 : BitVec 32 := 0#32
  let v76 : BitVec 1 := Scalar.cmpi .ne v75 c0_i32_85
  v76

def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_174 : BitVec 32 := 128#32
  let v151 : BitVec 32 := Scalar.muli v1 c128_i32_174
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c1_i32_80 : BitVec 32 := 1#32
  let v69 : BitVec 32 := Scalar.addi v41 c1_i32_80
  let c2_i32_173 : BitVec 32 := 2#32
  let v150 : BitVec 32 := Scalar.addi v69 c2_i32_173
  let v152 : BitVec 32 := Scalar.addi v151 v150
  let c0_i32_175 : BitVec 32 := 0#32
  let c0_i32_176 : BitVec 32 := 0#32
  ![v152.toNat, 0, 0]
@[reducible] def k0_t3_loop : Scf.Loop 32 :=
  let c0_i32_93 : BitVec 32 := 0#32
  let c50_i32_94 : BitVec 32 := 50#32
  let v84 : BitVec 32 := Scalar.addi c0_i32_93 c50_i32_94
  let c1_i32_95 : BitVec 32 := 1#32
  ⟨c0_i32_93, v84, c1_i32_95⟩
def k0_off13 (k0_t3 : Fin k0_t3_loop.trips) : Fin 2 → Nat :=
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v152 : Index := Scalar.indexCast v151
  let c0 : Index := 0#32
  ![v152.toNat, 0]
def k0_off14 (k0_t3 : Fin k0_t3_loop.trips) : Fin 3 → Nat :=
  let c0_i32_175 : BitVec 32 := 0#32
  let v155 : Index := Scalar.indexCast c0_i32_175
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v156 : Index := Scalar.indexCast v151
  let c128 : Index := 128#32
  ![0, v156.toNat, 128]
def k0_off15 (k0_t3 : Fin k0_t3_loop.trips) : Fin 2 → Nat :=
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v160 : Index := Scalar.indexCast v151
  let c16 : Index := 16#32
  ![v160.toNat, 16]
def k0_off16 (k0_t3 : Fin k0_t3_loop.trips) : Fin 3 → Nat :=
  let c0_i32_176 : BitVec 32 := 0#32
  let v163 : Index := Scalar.indexCast c0_i32_176
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v164 : Index := Scalar.indexCast v151
  let c144 : Index := 144#32
  ![0, v164.toNat, 144]
def k0_off17 (k0_t3 : Fin k0_t3_loop.trips) : Fin 2 → Nat :=
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v168 : Index := Scalar.indexCast v151
  let c32 : Index := 32#32
  ![v168.toNat, 32]
def k0_off18 (k0_t3 : Fin k0_t3_loop.trips) : Fin 3 → Nat :=
  let c0_i32_177 : BitVec 32 := 0#32
  let v171 : Index := Scalar.indexCast c0_i32_177
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v172 : Index := Scalar.indexCast v151
  let c160 : Index := 160#32
  ![0, v172.toNat, 160]
def k0_off19 (k0_t3 : Fin k0_t3_loop.trips) : Fin 2 → Nat :=
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v176 : Index := Scalar.indexCast v151
  let c48 : Index := 48#32
  ![v176.toNat, 48]
def k0_off20 (k0_t3 : Fin k0_t3_loop.trips) : Fin 3 → Nat :=
  let c0_i32_178 : BitVec 32 := 0#32
  let v179 : Index := Scalar.indexCast c0_i32_178
  let c0_i32_174 : BitVec 32 := 0#32
  let c0_i32_93 : BitVec 32 := 0#32
  let c1_i32_95 : BitVec 32 := 1#32
  let arg35 : BitVec 32 := Scf.iv c0_i32_93 c1_i32_95 k0_t3
  let c1_i32_173 : BitVec 32 := 1#32
  let v150 : BitVec 32 := Scalar.muli arg35 c1_i32_173
  let v151 : BitVec 32 := Scalar.addi c0_i32_174 v150
  let v180 : Index := Scalar.indexCast v151
  let c176 : Index := 176#32
  ![0, v180.toNat, 176]
def k0_cond8 (k0_t1 : Fin k0_t1_loop.trips) : BitVec 1 :=
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c2_i32_111 : BitVec 32 := 2#32
  let v96 : BitVec 32 := Scalar.addi v41 c2_i32_111
  let c2_i32_114 : BitVec 32 := 2#32
  let v100 : BitVec 32 := Scalar.addi v96 c2_i32_114
  let c128_i32_115 : BitVec 32 := 128#32
  let v101 : BitVec 1 := Scalar.cmpi .slt v100 c128_i32_115
  let v102 : BitVec 32 := Scalar.extui v101
  let c0_i32_116 : BitVec 32 := 0#32
  let v103 : BitVec 1 := Scalar.cmpi .ne v102 c0_i32_116
  v103

def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_174 : BitVec 32 := 128#32
  let v151 : BitVec 32 := Scalar.muli v1 c128_i32_174
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c2_i32_111 : BitVec 32 := 2#32
  let v96 : BitVec 32 := Scalar.addi v41 c2_i32_111
  let c2_i32_173 : BitVec 32 := 2#32
  let v150 : BitVec 32 := Scalar.addi v96 c2_i32_173
  let v152 : BitVec 32 := Scalar.addi v151 v150
  let c0_i32_175 : BitVec 32 := 0#32
  let c0_i32_176 : BitVec 32 := 0#32
  ![v152.toNat, 0, 0]
@[reducible] def k0_t4_loop : Scf.Loop 32 :=
  let c0_i32_124 : BitVec 32 := 0#32
  let c50_i32_125 : BitVec 32 := 50#32
  let v111 : BitVec 32 := Scalar.addi c0_i32_124 c50_i32_125
  let c1_i32_126 : BitVec 32 := 1#32
  ⟨c0_i32_124, v111, c1_i32_126⟩
def k0_off22 (k0_t4 : Fin k0_t4_loop.trips) : Fin 2 → Nat :=
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v152 : Index := Scalar.indexCast v151
  let c0 : Index := 0#32
  ![v152.toNat, 0]
def k0_off23 (k0_t4 : Fin k0_t4_loop.trips) : Fin 3 → Nat :=
  let c0_i32_175 : BitVec 32 := 0#32
  let v155 : Index := Scalar.indexCast c0_i32_175
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v156 : Index := Scalar.indexCast v151
  let c128 : Index := 128#32
  ![0, v156.toNat, 128]
def k0_off24 (k0_t4 : Fin k0_t4_loop.trips) : Fin 2 → Nat :=
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v160 : Index := Scalar.indexCast v151
  let c16 : Index := 16#32
  ![v160.toNat, 16]
def k0_off25 (k0_t4 : Fin k0_t4_loop.trips) : Fin 3 → Nat :=
  let c0_i32_176 : BitVec 32 := 0#32
  let v163 : Index := Scalar.indexCast c0_i32_176
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v164 : Index := Scalar.indexCast v151
  let c144 : Index := 144#32
  ![0, v164.toNat, 144]
def k0_off26 (k0_t4 : Fin k0_t4_loop.trips) : Fin 2 → Nat :=
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v168 : Index := Scalar.indexCast v151
  let c32 : Index := 32#32
  ![v168.toNat, 32]
def k0_off27 (k0_t4 : Fin k0_t4_loop.trips) : Fin 3 → Nat :=
  let c0_i32_177 : BitVec 32 := 0#32
  let v171 : Index := Scalar.indexCast c0_i32_177
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v172 : Index := Scalar.indexCast v151
  let c160 : Index := 160#32
  ![0, v172.toNat, 160]
def k0_off28 (k0_t4 : Fin k0_t4_loop.trips) : Fin 2 → Nat :=
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v176 : Index := Scalar.indexCast v151
  let c48 : Index := 48#32
  ![v176.toNat, 48]
def k0_off29 (k0_t4 : Fin k0_t4_loop.trips) : Fin 3 → Nat :=
  let c0_i32_178 : BitVec 32 := 0#32
  let v179 : Index := Scalar.indexCast c0_i32_178
  let c0_i32_174 : BitVec 32 := 0#32
  let c0_i32_124 : BitVec 32 := 0#32
  let c1_i32_126 : BitVec 32 := 1#32
  let arg35 : BitVec 32 := Scf.iv c0_i32_124 c1_i32_126 k0_t4
  let c1_i32_173 : BitVec 32 := 1#32
  let v150 : BitVec 32 := Scalar.muli arg35 c1_i32_173
  let v151 : BitVec 32 := Scalar.addi c0_i32_174 v150
  let v180 : Index := Scalar.indexCast v151
  let c176 : Index := 176#32
  ![0, v180.toNat, 176]
def k0_cond11 (k0_t1 : Fin k0_t1_loop.trips) : BitVec 1 :=
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c3_i32_142 : BitVec 32 := 3#32
  let v123 : BitVec 32 := Scalar.addi v41 c3_i32_142
  let c2_i32_145 : BitVec 32 := 2#32
  let v127 : BitVec 32 := Scalar.addi v123 c2_i32_145
  let c128_i32_146 : BitVec 32 := 128#32
  let v128 : BitVec 1 := Scalar.cmpi .slt v127 c128_i32_146
  let v129 : BitVec 32 := Scalar.extui v128
  let c0_i32_147 : BitVec 32 := 0#32
  let v130 : BitVec 1 := Scalar.cmpi .ne v129 c0_i32_147
  v130

def k0_off30 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_174 : BitVec 32 := 128#32
  let v151 : BitVec 32 := Scalar.muli v1 c128_i32_174
  let c4_i32 : BitVec 32 := 4#32
  let c0_i32_50 : BitVec 32 := 0#32
  let c0_i32_25 : BitVec 32 := 0#32
  let c1_i32_26 : BitVec 32 := 1#32
  let arg34 : BitVec 32 := Scf.iv c0_i32_25 c1_i32_26 k0_t1
  let c1_i32_49 : BitVec 32 := 1#32
  let v39 : BitVec 32 := Scalar.muli arg34 c1_i32_49
  let v40 : BitVec 32 := Scalar.addi c0_i32_50 v39
  let v41 : BitVec 32 := Scalar.muli c4_i32 v40
  let c3_i32_142 : BitVec 32 := 3#32
  let v123 : BitVec 32 := Scalar.addi v41 c3_i32_142
  let c2_i32_173 : BitVec 32 := 2#32
  let v150 : BitVec 32 := Scalar.addi v123 c2_i32_173
  let v152 : BitVec 32 := Scalar.addi v151 v150
  let c0_i32_175 : BitVec 32 := 0#32
  let c0_i32_176 : BitVec 32 := 0#32
  ![v152.toNat, 0, 0]
@[reducible] def k0_t5_loop : Scf.Loop 32 :=
  let c0_i32_155 : BitVec 32 := 0#32
  let c50_i32_156 : BitVec 32 := 50#32
  let v138 : BitVec 32 := Scalar.addi c0_i32_155 c50_i32_156
  let c1_i32_157 : BitVec 32 := 1#32
  ⟨c0_i32_155, v138, c1_i32_157⟩
def k0_off31 (k0_t5 : Fin k0_t5_loop.trips) : Fin 2 → Nat :=
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v152 : Index := Scalar.indexCast v151
  let c0 : Index := 0#32
  ![v152.toNat, 0]
def k0_off32 (k0_t5 : Fin k0_t5_loop.trips) : Fin 3 → Nat :=
  let c0_i32_175 : BitVec 32 := 0#32
  let v155 : Index := Scalar.indexCast c0_i32_175
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v156 : Index := Scalar.indexCast v151
  let c128 : Index := 128#32
  ![0, v156.toNat, 128]
def k0_off33 (k0_t5 : Fin k0_t5_loop.trips) : Fin 2 → Nat :=
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v160 : Index := Scalar.indexCast v151
  let c16 : Index := 16#32
  ![v160.toNat, 16]
def k0_off34 (k0_t5 : Fin k0_t5_loop.trips) : Fin 3 → Nat :=
  let c0_i32_176 : BitVec 32 := 0#32
  let v163 : Index := Scalar.indexCast c0_i32_176
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v164 : Index := Scalar.indexCast v151
  let c144 : Index := 144#32
  ![0, v164.toNat, 144]
def k0_off35 (k0_t5 : Fin k0_t5_loop.trips) : Fin 2 → Nat :=
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v168 : Index := Scalar.indexCast v151
  let c32 : Index := 32#32
  ![v168.toNat, 32]
def k0_off36 (k0_t5 : Fin k0_t5_loop.trips) : Fin 3 → Nat :=
  let c0_i32_177 : BitVec 32 := 0#32
  let v171 : Index := Scalar.indexCast c0_i32_177
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v172 : Index := Scalar.indexCast v151
  let c160 : Index := 160#32
  ![0, v172.toNat, 160]
def k0_off37 (k0_t5 : Fin k0_t5_loop.trips) : Fin 2 → Nat :=
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v176 : Index := Scalar.indexCast v151
  let c48 : Index := 48#32
  ![v176.toNat, 48]
def k0_off38 (k0_t5 : Fin k0_t5_loop.trips) : Fin 3 → Nat :=
  let c0_i32_178 : BitVec 32 := 0#32
  let v179 : Index := Scalar.indexCast c0_i32_178
  let c0_i32_174 : BitVec 32 := 0#32
  let c0_i32_155 : BitVec 32 := 0#32
  let c1_i32_157 : BitVec 32 := 1#32
  let arg35 : BitVec 32 := Scf.iv c0_i32_155 c1_i32_157 k0_t5
  let c1_i32_173 : BitVec 32 := 1#32
  let v150 : BitVec 32 := Scalar.muli arg35 c1_i32_173
  let v151 : BitVec 32 := Scalar.addi c0_i32_174 v150
  let v180 : Index := Scalar.indexCast v151
  let c176 : Index := 176#32
  ![0, v180.toNat, 176]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S4096x1x50 : S4096x50.ShapeCasts S4096x1x50
  concatenates_S4096x1x50_S4096x1x50_S4096x2x50_d1 : Shape.Concatenates [S4096x1x50, S4096x1x50] S4096x2x50 1
  pads_S1000x64_S1000x128_000_0640 : S1000x64.Pads (![0, 0] : Fin 2 → Nat) ![0, 64] ![0, 0] S1000x128
  h_S_ : 0 < S_.numel
  squeezes_S1x2x50_S2x50 : S1x2x50.Squeezes S2x50
  inb_S4096x2x50_S1x2x50_0_0_0 : ∀ a, (![0, 0, 0] : Fin 3 → Nat) a + S1x2x50.size a ≤ S4096x2x50.size a
  inb_S1x50x192_S1x50x128_0_0_0 : ∀ a, (![0, 0, 0] : Fin 3 → Nat) a + S1x50x128.size a ≤ S1x50x192.size a
  squeezes_S1x50x128_S50x128 : S1x50x128.Squeezes S50x128
  inb_S2x50_S1x50_0_0 : ∀ a, (![0, 0] : Fin 2 → Nat) a + S1x50.size a ≤ S2x50.size a
  squeezes_S1x50_S50 : S1x50.Squeezes S50
  inb_S100000x128_S100000x128_0_0 : ∀ a, (![0, 0] : Fin 2 → Nat) a + S100000x128.size a ≤ S100000x128.size a
  gathers_S100000x128_S50x128 : S100000x128.Gathers 0 S50x128
  inb_S2x50_S1x50_1_0 : ∀ a, (![1, 0] : Fin 2 → Nat) a + S1x50.size a ≤ S2x50.size a
  inb_S1000x128_S1000x128_0_0 : ∀ a, (![0, 0] : Fin 2 → Nat) a + S1000x128.size a ≤ S1000x128.size a
  gathers_S1000x128_S50x128 : S1000x128.Gathers 0 S50x128
  inb_S4096x1x50x192_S1x1x50x192_0_0_0_0 : ∀ a, (![0, 0, 0, 0] : Fin 4 → Nat) a + S1x1x50x192.size a ≤ S4096x1x50x192.size a
  squeezes_S1x1x50x192_S1x50x192 : S1x1x50x192.Squeezes S1x50x192
  h_S1x16 : 0 < S1x16.numel
  shapeCasts_S1x16_S16 : S1x16.ShapeCasts S16
  h_S1x1x16 : 0 < S1x1x16.numel
  shapeCasts_S1x1x16_S16 : S1x1x16.ShapeCasts S16
  shapeCasts_S16_S1x1x16 : S16.ShapeCasts S1x1x16
  shapeCasts_S4096x1x50x192_S4096x50x192 : S4096x1x50x192.ShapeCasts S4096x50x192
  hcc0_scratch12 : 0 + S_.numel ≤ 16
  hcc0_scratch13 : 1 + S_.numel ≤ 16
  hcc0_scratch14 : 2 + S_.numel ≤ 16
  hcc0_scratch15 : 3 + S_.numel ≤ 16
  hcc0_scratch16 : 4 + S_.numel ≤ 16
  hcc0_scratch17 : 5 + S_.numel ≤ 16
  hcc0_scratch18 : 6 + S_.numel ≤ 16
  hcc0_scratch19 : 7 + S_.numel ≤ 16
  hcc0_scratch20 : 8 + S_.numel ≤ 16
  hcc0_scratch21 : 9 + S_.numel ≤ 16
  hcc0_scratch22 : 10 + S_.numel ≤ 16
  hcc0_scratch23 : 11 + S_.numel ≤ 16
  hcc0_scratch24 : 12 + S_.numel ≤ 16
  hcc0_scratch25 : 13 + S_.numel ≤ 16
  hcc0_scratch26 : 14 + S_.numel ≤ 16
  hcc0_scratch27 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x2x50.size a ≤ S4096x2x50.size a
  k0_t1_ok : k0_t1_loop.OK
  k0_off2_inb : ∀ (i : grid0.Coords) (k0_t1 : Fin k0_t1_loop.trips), ∀ (k0_h2 : k0_cond2 k0_t1 = 1#1), ∀ a, (k0_off2 i k0_t1) a + S1x2x50.size a ≤ S4096x2x50.size a
  k0_t2_ok : k0_t2_loop.OK
  k0_off3_inb : ∀ k0_t2 : Fin k0_t2_loop.trips, ∀ a, (k0_off3 k0_t2) a + S1x16.size a ≤ S50x128.size a
  k0_off4_inb : ∀ k0_t2 : Fin k0_t2_loop.trips, ∀ a, (k0_off4 k0_t2) a + S1x1x16.size a ≤ S1x50x192.size a
  k0_off5_inb : ∀ k0_t2 : Fin k0_t2_loop.trips, ∀ a, (k0_off5 k0_t2) a + S1x16.size a ≤ S50x128.size a
  k0_off6_inb : ∀ k0_t2 : Fin k0_t2_loop.trips, ∀ a, (k0_off6 k0_t2) a + S1x1x16.size a ≤ S1x50x192.size a
  k0_off7_inb : ∀ k0_t2 : Fin k0_t2_loop.trips, ∀ a, (k0_off7 k0_t2) a + S1x16.size a ≤ S50x128.size a
  k0_off8_inb : ∀ k0_t2 : Fin k0_t2_loop.trips, ∀ a, (k0_off8 k0_t2) a + S1x1x16.size a ≤ S1x50x192.size a
  k0_off9_inb : ∀ k0_t2 : Fin k0_t2_loop.trips, ∀ a, (k0_off9 k0_t2) a + S1x16.size a ≤ S50x128.size a
  k0_off10_inb : ∀ k0_t2 : Fin k0_t2_loop.trips, ∀ a, (k0_off10 k0_t2) a + S1x1x16.size a ≤ S1x50x192.size a
  k0_off11_inb : ∀ (i : grid0.Coords) (k0_t1 : Fin k0_t1_loop.trips), ∀ (r : Fin 4), ∀ a, (k0_off11 i k0_t1 (BitVec.ofNat 32 r.val)) a + S1x1x50x192.size a ≤ S4096x1x50x192.size a
  k0_off12_inb : ∀ (i : grid0.Coords) (k0_t1 : Fin k0_t1_loop.trips), ∀ (k0_h5 : k0_cond5 k0_t1 = 1#1), ∀ a, (k0_off12 i k0_t1) a + S1x2x50.size a ≤ S4096x2x50.size a
  k0_t3_ok : k0_t3_loop.OK
  k0_off13_inb : ∀ k0_t3 : Fin k0_t3_loop.trips, ∀ a, (k0_off13 k0_t3) a + S1x16.size a ≤ S50x128.size a
  k0_off14_inb : ∀ k0_t3 : Fin k0_t3_loop.trips, ∀ a, (k0_off14 k0_t3) a + S1x1x16.size a ≤ S1x50x192.size a
  k0_off15_inb : ∀ k0_t3 : Fin k0_t3_loop.trips, ∀ a, (k0_off15 k0_t3) a + S1x16.size a ≤ S50x128.size a
  k0_off16_inb : ∀ k0_t3 : Fin k0_t3_loop.trips, ∀ a, (k0_off16 k0_t3) a + S1x1x16.size a ≤ S1x50x192.size a
  k0_off17_inb : ∀ k0_t3 : Fin k0_t3_loop.trips, ∀ a, (k0_off17 k0_t3) a + S1x16.size a ≤ S50x128.size a
  k0_off18_inb : ∀ k0_t3 : Fin k0_t3_loop.trips, ∀ a, (k0_off18 k0_t3) a + S1x1x16.size a ≤ S1x50x192.size a
  k0_off19_inb : ∀ k0_t3 : Fin k0_t3_loop.trips, ∀ a, (k0_off19 k0_t3) a + S1x16.size a ≤ S50x128.size a
  k0_off20_inb : ∀ k0_t3 : Fin k0_t3_loop.trips, ∀ a, (k0_off20 k0_t3) a + S1x1x16.size a ≤ S1x50x192.size a
  k0_off21_inb : ∀ (i : grid0.Coords) (k0_t1 : Fin k0_t1_loop.trips), ∀ (k0_h8 : k0_cond8 k0_t1 = 1#1), ∀ a, (k0_off21 i k0_t1) a + S1x2x50.size a ≤ S4096x2x50.size a
  k0_t4_ok : k0_t4_loop.OK
  k0_off22_inb : ∀ k0_t4 : Fin k0_t4_loop.trips, ∀ a, (k0_off22 k0_t4) a + S1x16.size a ≤ S50x128.size a
  k0_off23_inb : ∀ k0_t4 : Fin k0_t4_loop.trips, ∀ a, (k0_off23 k0_t4) a + S1x1x16.size a ≤ S1x50x192.size a
  k0_off24_inb : ∀ k0_t4 : Fin k0_t4_loop.trips, ∀ a, (k0_off24 k0_t4) a + S1x16.size a ≤ S50x128.size a
  k0_off25_inb : ∀ k0_t4 : Fin k0_t4_loop.trips, ∀ a, (k0_off25 k0_t4) a + S1x1x16.size a ≤ S1x50x192.size a
  k0_off26_inb : ∀ k0_t4 : Fin k0_t4_loop.trips, ∀ a, (k0_off26 k0_t4) a + S1x16.size a ≤ S50x128.size a
  k0_off27_inb : ∀ k0_t4 : Fin k0_t4_loop.trips, ∀ a, (k0_off27 k0_t4) a + S1x1x16.size a ≤ S1x50x192.size a
  k0_off28_inb : ∀ k0_t4 : Fin k0_t4_loop.trips, ∀ a, (k0_off28 k0_t4) a + S1x16.size a ≤ S50x128.size a
  k0_off29_inb : ∀ k0_t4 : Fin k0_t4_loop.trips, ∀ a, (k0_off29 k0_t4) a + S1x1x16.size a ≤ S1x50x192.size a
  k0_off30_inb : ∀ (i : grid0.Coords) (k0_t1 : Fin k0_t1_loop.trips), ∀ (k0_h11 : k0_cond11 k0_t1 = 1#1), ∀ a, (k0_off30 i k0_t1) a + S1x2x50.size a ≤ S4096x2x50.size a
  k0_t5_ok : k0_t5_loop.OK
  k0_off31_inb : ∀ k0_t5 : Fin k0_t5_loop.trips, ∀ a, (k0_off31 k0_t5) a + S1x16.size a ≤ S50x128.size a
  k0_off32_inb : ∀ k0_t5 : Fin k0_t5_loop.trips, ∀ a, (k0_off32 k0_t5) a + S1x1x16.size a ≤ S1x50x192.size a
  k0_off33_inb : ∀ k0_t5 : Fin k0_t5_loop.trips, ∀ a, (k0_off33 k0_t5) a + S1x16.size a ≤ S50x128.size a
  k0_off34_inb : ∀ k0_t5 : Fin k0_t5_loop.trips, ∀ a, (k0_off34 k0_t5) a + S1x1x16.size a ≤ S1x50x192.size a
  k0_off35_inb : ∀ k0_t5 : Fin k0_t5_loop.trips, ∀ a, (k0_off35 k0_t5) a + S1x16.size a ≤ S50x128.size a
  k0_off36_inb : ∀ k0_t5 : Fin k0_t5_loop.trips, ∀ a, (k0_off36 k0_t5) a + S1x1x16.size a ≤ S1x50x192.size a
  k0_off37_inb : ∀ k0_t5 : Fin k0_t5_loop.trips, ∀ a, (k0_off37 k0_t5) a + S1x16.size a ≤ S50x128.size a
  k0_off38_inb : ∀ k0_t5 : Fin k0_t5_loop.trips, ∀ a, (k0_off38 k0_t5) a + S1x1x16.size a ≤ S1x50x192.size a

variable [Facts₀]

abbrev cc0_scratch12 : DmaSems sig S_ := SemArray.consecutive 0 S_ hcc0_scratch12
abbrev cc0_scratch13 : DmaSems sig S_ := SemArray.consecutive 1 S_ hcc0_scratch13
abbrev cc0_scratch14 : DmaSems sig S_ := SemArray.consecutive 2 S_ hcc0_scratch14
abbrev cc0_scratch15 : DmaSems sig S_ := SemArray.consecutive 3 S_ hcc0_scratch15
abbrev cc0_scratch16 : DmaSems sig S_ := SemArray.consecutive 4 S_ hcc0_scratch16
abbrev cc0_scratch17 : DmaSems sig S_ := SemArray.consecutive 5 S_ hcc0_scratch17
abbrev cc0_scratch18 : DmaSems sig S_ := SemArray.consecutive 6 S_ hcc0_scratch18
abbrev cc0_scratch19 : DmaSems sig S_ := SemArray.consecutive 7 S_ hcc0_scratch19
abbrev cc0_scratch20 : DmaSems sig S_ := SemArray.consecutive 8 S_ hcc0_scratch20
abbrev cc0_scratch21 : DmaSems sig S_ := SemArray.consecutive 9 S_ hcc0_scratch21
abbrev cc0_scratch22 : DmaSems sig S_ := SemArray.consecutive 10 S_ hcc0_scratch22
abbrev cc0_scratch23 : DmaSems sig S_ := SemArray.consecutive 11 S_ hcc0_scratch23
abbrev cc0_scratch24 : DmaSems sig S_ := SemArray.consecutive 12 S_ hcc0_scratch24
abbrev cc0_scratch25 : DmaSems sig S_ := SemArray.consecutive 13 S_ hcc0_scratch25
abbrev cc0_scratch26 : DmaSems sig S_ := SemArray.consecutive 14 S_ hcc0_scratch26
abbrev cc0_scratch27 : DmaSems sig S_ := SemArray.consecutive 15 S_ hcc0_scratch27

class Facts : Prop extends Facts₀ where

variable [Facts]
-- ==== ReferenceIdeal.lean ====
abbrev S4096x50 : Shape := ⟨2, ![4096, 50]⟩
abbrev S100000x128 : Shape := ⟨2, ![100000, 128]⟩
abbrev S1000x64 : Shape := ⟨2, ![1000, 64]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x50x64 : Shape := ⟨3, ![4096, 50, 64]⟩
abbrev S4096x50x192 : Shape := ⟨3, ![4096, 50, 192]⟩

abbrev nBuf : Space → Nat
  | .hbm => 51
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S1000x64, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S_, .i32⟩
  | .hbm, ⟨28, _⟩ => ⟨S4096x50, .i32⟩
  | .hbm, ⟨29, _⟩ => ⟨S4096x50, .i1⟩
  | .hbm, ⟨30, _⟩ => ⟨S_, .i32⟩
  | .hbm, ⟨31, _⟩ => ⟨S4096x50, .i32⟩
  | .hbm, ⟨32, _⟩ => ⟨S4096x50, .i32⟩
  | .hbm, ⟨33, _⟩ => ⟨S4096x50, .i32⟩
  | .hbm, ⟨34, _⟩ => ⟨S4096x50x1, .i32⟩
  | .hbm, ⟨35, _⟩ => ⟨S1, .i32⟩
  | .hbm, ⟨36, _⟩ => ⟨S_, .i32⟩
  | .hbm, ⟨37, _⟩ => ⟨S4096x50x1, .i32⟩
  | .hbm, ⟨38, _⟩ => ⟨S4096x50x1, .i1⟩
  | .hbm, ⟨39, _⟩ => ⟨S1x1x1, .i32⟩
  | .hbm, ⟨40, _⟩ => ⟨S4096x50x1, .i32⟩
  | .hbm, ⟨41, _⟩ => ⟨S4096x50x1, .i1⟩
  | .hbm, ⟨42, _⟩ => ⟨S4096x50x1, .i1⟩
  | .hbm, ⟨43, _⟩ => ⟨S_, .i1⟩
  | .hbm, ⟨44, _⟩ => ⟨S4096x50, .i1⟩
  | .hbm, ⟨45, _⟩ => ⟨S4096x50x64, .f32⟩
  | .hbm, ⟨46, _⟩ => ⟨S4096x50x64, .i1⟩
  | .hbm, ⟨47, _⟩ => ⟨S_, .f32⟩
  | .hbm, ⟨48, _⟩ => ⟨S4096x50x64, .f32⟩
  | .hbm, ⟨49, _⟩ => ⟨S4096x50x64, .f32⟩
  | .hbm, ⟨50, _⟩ => ⟨S4096x50x192, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  bcast_S4096x50_S4096x50x64_0_1 : S4096x50.BroadcastsInDim S4096x50x64 (![0, 1] : Fin 2 → Fin S4096x50x64.rank)
  bcast_S_S4096x50x64 : S_.BroadcastsInDim S4096x50x64 (![] : Fin 0 → Fin S4096x50x64.rank)
  concatenates_S4096x50x128_S4096x50x64_S4096x50x192_d2 : Shape.Concatenates [S4096x50x128, S4096x50x64] S4096x50x192 2
  gather_S100000x128_S4096x50x1_S4096x50x128_2_0_n_n_0_2_1128_wf : GatherDims.WF S100000x128 S4096x50x1 S4096x50x128 [2] [0] [] [0] [] 2 ![1, 128]
  gather_S1000x64_S4096x50x1_S4096x50x64_2_0_n_n_0_2_164_wf : GatherDims.WF S1000x64 S4096x50x1 S4096x50x64 [2] [0] [] [0] [] 2 ![1, 64]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def gather_S1000x64_S4096x50x1_S4096x50x64_2_0_n_n_0_2_164 : GatherDims S1000x64 S4096x50x1 S4096x50x64 where
  offsetDims := [2]
  collapsedSliceDims := [0]
  operandBatchingDims := []
  startIndicesBatchingDims := []
  startIndexMap := [0]
  indexVectorDim := 2
  sliceSizes := ![1, 64]
  wf := gather_S1000x64_S4096x50x1_S4096x50x64_2_0_n_n_0_2_164_wf

class Facts : Prop extends Facts₀ where

variable [Facts]
-- ==== Proof.LibTakeRows.lean ====
/-
  General lemma: a lookup of whole rows of a table through a three-axis index array, read at an index.

  `jnp.take(x, idx, axis=0)` of an n × k table `x` at an index array of shape R × C lowers to a gather whose start
  indices have shape R × C × 1 (the last axis the index vector's), whose one start-index component names the table's
  axis 0, which collapses that axis and keeps axis 1 whole as the result's last axis. Its result element (t, j, b) is
  the table's element (r, b), where r is the index word at (t, j, 0) read as a signed integer and clamped into
  [0, n − 1].
-/
import Idealize.ShloMosaic.PureOps
import Idealize.ShloMosaic.Lib.ValueIdx

noncomputable section

open Idealize.ShloMosaic Idealize.ShloMosaic.ValueIdx

namespace Cert.Lib

/-- The table row an index word names: the word read as a signed integer, clamped into [0, n − 1]. -/
def takeRow (n : ℕ) (hn : 0 < n) (w : BitVec 32) : Fin n := ⟨min w.toInt.toNat (n - 1), by omega⟩

theorem takeRow_val (n : ℕ) (hn : 0 < n) (w : BitVec 32) : (takeRow n hn w).val = min w.toInt.toNat (n - 1) := rfl

/-- A word that, read unsigned, is below n names its own row. -/
theorem takeRow_of_lt (n : ℕ) (hn : 0 < n) (hn' : n ≤ 2 ^ 31) (w : BitVec 32) (h : w.toNat < n) :
    (takeRow n hn w).val = w.toNat := by
  rw [takeRow_val]
  have h1 : w.toInt = (w.toNat : ℤ) := by
    rw [BitVec.toInt_eq_toNat_cond]
    split
    · rfl
    · omega
  rw [h1]
  simp only [Int.toNat_natCast]
  omega

/-- THE LOOKUP READ AT (t, j, b): the table at the row the index word at (t, j, 0) names, column b. -/
theorem take_rows_apply {α : Type} {n k R C : ℕ} (hn : 0 < n)
    (d : GatherDims ⟨2, ![n, k]⟩ ⟨3, ![R, C, 1]⟩ ⟨3, ![R, C, k]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, k])
    (x : (⟨2, ![n, k]⟩ : Shape).Idx → α) (idx : IVec ⟨3, ![R, C, 1]⟩ 32) (t : Fin R) (j : Fin C) (b : Fin k) :
    Host.gather d x idx (ix3 t j b) = x (ix2 (takeRow n hn (idx (ix3 t j 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix3 t j b) idx 0 + GatherDims.batchCoord _ (ix3 t j b) 0 + GatherDims.offCoord _ (ix3 t j b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨3, ![R, C, 1]⟩ ⟨3, ![R, C, k]⟩)
        (hD : D = ⟨[2], [0], [], [], [0], 2, ![1, k], wf⟩) (c : Fin D.startIndexMap.length),
        D.siIdx (ix3 t j b) c = ix3 t j 0 := by
      intro D hD c
      subst hD
      funext q; refine Fin.ext ?_
      match q with
      | ⟨0, _⟩ => rfl
      | ⟨1, _⟩ => rfl
      | ⟨2, _⟩ =>
        have := c.isLt
        show c.val = 0
        simpa using this
    rw [hsi _ rfl]
    rfl
  | ⟨1, _⟩ =>
    show GatherDims.start _ (ix3 t j b) idx 1 + GatherDims.batchCoord _ (ix3 t j b) 1 + GatherDims.offCoord _ (ix3 t j b) 1 = _
    rw [GatherDims.batchCoord_eq_zero _ _ _ List.not_mem_nil]
    have hst : GatherDims.start (⟨[2], [0], [], [], [0], 2, ![1, k], wf⟩ :
        GatherDims ⟨2, ![n, k]⟩ ⟨3, ![R, C, 1]⟩ ⟨3, ![R, C, k]⟩) (ix3 t j b) idx 1 = 0 := by
      unfold GatherDims.start
      rw [dif_neg (fun h => absurd (congrArg Fin.val (List.mem_singleton.mp h)) Nat.one_ne_zero)]
    have hoff : GatherDims.offCoord (⟨[2], [0], [], [], [0], 2, ![1, k], wf⟩ :
        GatherDims ⟨2, ![n, k]⟩ ⟨3, ![R, C, 1]⟩ ⟨3, ![R, C, k]⟩) (ix3 t j b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

end Cert.Lib

end
-- ==== Proof.Spec.lean ====
/-
  The function both programs compute.

  The result has shape 4096 × 50 × 192. Its entry (n, l, q) is, for q < 128, column q of the row of the word table
  that the index word(n, l) names, and for 128 ≤ q < 192, column q − 128 of the row of the feature table that
  feat(n, l) names: a lookup of one row in each table, the two rows laid side by side. A row is named by reading the
  index word as a signed integer clamped into the table's rows; for a word in range this is the word itself.
-/
import Idealize.ShloMosaic.PureOps
import Idealize.ShloMosaic.Lib.ValueIdx
import proofs.«206843_g13322988552399_fold_wed_c4_279_34_alg».proof.Proof.LibTakeRows

noncomputable section

open Idealize.ShloMosaic Idealize.ShloMosaic.ValueIdx

namespace Cert.Stack

abbrev SIdx : Shape := ⟨2, ![4096, 50]⟩
abbrev SWord : Shape := ⟨2, ![100000, 128]⟩
abbrev SFeat : Shape := ⟨2, ![1000, 64]⟩
abbrev SOut : Shape := ⟨3, ![4096, 50, 192]⟩

/-- The two looked-up rows side by side: entry (n, l, q) of the result. -/
def G {α : Type} (word feat : IVec SIdx 32) (Ww : SWord.Idx → α) (Wf : SFeat.Idx → α) : SOut.Idx → α := fun j =>
  let n : Fin 4096 := j 0
  let l : Fin 50 := j 1
  if h : (j 2).val < 128 then
    Ww (ix2 (Cert.Lib.takeRow 100000 (by norm_num) (word (ix2 n l))) (⟨(j 2).val, h⟩ : Fin 128))
  else
    Wf (ix2 (Cert.Lib.takeRow 1000 (by norm_num) (feat (ix2 n l))) (⟨(j 2).val - 128, by have := (j 2).isLt; simp at this; omega⟩ : Fin 64))

theorem G_word {α : Type} (word feat : IVec SIdx 32) (Ww : SWord.Idx → α) (Wf : SFeat.Idx → α)
    (n : Fin 4096) (l : Fin 50) (q : Fin 192) (h : q.val < 128) :
    G word feat Ww Wf (ix3 n l q) = Ww (ix2 (Cert.Lib.takeRow 100000 (by norm_num) (word (ix2 n l))) (⟨q.val, h⟩ : Fin 128)) := by
  unfold G
  exact dif_pos h

theorem G_feat {α : Type} (word feat : IVec SIdx 32) (Ww : SWord.Idx → α) (Wf : SFeat.Idx → α)
    (n : Fin 4096) (l : Fin 50) (q : Fin 192) (h : 128 ≤ q.val) :
    G word feat Ww Wf (ix3 n l q) = Wf (ix2 (Cert.Lib.takeRow 1000 (by norm_num) (feat (ix2 n l))) (⟨q.val - 128, by have := q.isLt; omega⟩ : Fin 64)) := by
  unfold G
  exact dif_neg (by show ¬ q.val < 128; omega)

/-! ## The same function as the kernel's call sees its operands

The call is handed the two index arrays stacked as one of shape 4096 × 2 × 50 (plane 0 the word indices, plane 1 the
feature indices), the word table, and the feature table widened with zero columns to 1000 × 128; its result has a unit
axis, 4096 × 1 × 50 × 192. -/

abbrev SIdx2 : Shape := ⟨3, ![4096, 2, 50]⟩
abbrev SFeatW : Shape := ⟨2, ![1000, 128]⟩
abbrev SOut4 : Shape := ⟨4, ![4096, 1, 50, 192]⟩

/-- Entry (n, 0, l, q) of the call's result: the word table's row named by plane 0 of the stacked indices for q < 128,
    columns 0 … 63 of the widened feature table's row named by plane 1 for 128 ≤ q. -/
def Gk {α : Type} (I : IVec SIdx2 32) (A : SWord.Idx → α) (B : SFeatW.Idx → α) : SOut4.Idx → α := fun j =>
  let n : Fin 4096 := j 0
  let l : Fin 50 := j 2
  if h : (j 3).val < 128 then
    A (ix2 (Cert.Lib.takeRow 100000 (by norm_num) (I (ix3 n (0 : Fin 2) l))) (⟨(j 3).val, h⟩ : Fin 128))
  else
    B (ix2 (Cert.Lib.takeRow 1000 (by norm_num) (I (ix3 n (1 : Fin 2) l))) (⟨(j 3).val - 128, by have := (j 3).isLt; simp at this; omega⟩ : Fin 128))

theorem Gk_word {α : Type} (I : IVec SIdx2 32) (A : SWord.Idx → α) (B : SFeatW.Idx → α)
    (n : Fin 4096) (u : Fin 1) (l : Fin 50) (q : Fin 192) (h : q.val < 128) :
    Gk I A B (ix4 n u l q) = A (ix2 (Cert.Lib.takeRow 100000 (by norm_num) (I (ix3 n (0 : Fin 2) l))) (⟨q.val, h⟩ : Fin 128)) := by
  unfold Gk
  exact dif_pos h

theorem Gk_feat {α : Type} (I : IVec SIdx2 32) (A : SWord.Idx → α) (B : SFeatW.Idx → α)
    (n : Fin 4096) (u : Fin 1) (l : Fin 50) (q : Fin 192) (h : 128 ≤ q.val) :
    Gk I A B (ix4 n u l q) = B (ix2 (Cert.Lib.takeRow 1000 (by norm_num) (I (ix3 n (1 : Fin 2) l))) (⟨q.val - 128, by have := q.isLt; omega⟩ : Fin 128)) := by
  unfold Gk
  exact dif_neg (by show ¬ q.val < 128; omega)

end Cert.Stack

end
-- ==== Proof.KI.Setup.lean ====
/-
  The idealized kernel's program as the launch theorem sees it, and what its one call carries.

  The call runs one task on each of the 32 vector subcores (2 cores × 16 subcores). Task w = 2·s + c owns result rows
  128·w … 128·w + 127 and only READS the stacked index array and the two tables, so each task is handed a read share of
  those three arrays whole and its own block of result rows outright, and hands the block back holding the lookup's
  function there.
-/
import proofs.«206843_g13322988552399_fold_wed_c4_279_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206843_g13322988552399_fold_wed_c4_279_34_alg».proof.Proof.Gen.KernelIdeal
import proofs.«206843_g13322988552399_fold_wed_c4_279_34_alg».proof.Proof.Gen.KernelIdeal.Skeleton
import proofs.«206843_g13322988552399_fold_wed_c4_279_34_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four arrays of the call, as the TensorCore names them -/

/-- The stacked indices (4096 × 2 × 50), the word table, the widened feature table (1000 × 128), the call's result. -/
abbrev idxLoc (d : Dev nD) : Loc nD τ sig := (SparseCore.T d).loc main_v2
abbrev wwLoc (d : Dev nD) : Loc nD τ sig := (SparseCore.T d).loc main_arg2
abbrev wfLoc (d : Dev nD) : Loc nD τ sig := (SparseCore.T d).loc main_v3
abbrev outLoc (d : Dev nD) : Loc nD τ sig := (SparseCore.T d).loc main_v4

/-- The same arrays as a vector subcore's kernel addresses them. -/
abbrev idxV : Memref sig .scVector .hbm S4096x2x50 .i32 := Memref.whole main_v2_scv
abbrev wwV : Memref sig .scVector .hbm S100000x128 .f32 := Memref.whole main_arg2_scv
abbrev wfV : Memref sig .scVector .hbm S1000x128 .f32 := Memref.whole main_v3_scv
abbrev outV : Memref sig .scVector .hbm S4096x1x50x192 .f32 := Memref.whole main_v4_scv

/-- Task number of subcore s of core c. -/
def wid (c : Fin 2) (s : Fin 16) : Fin 32 := ⟨2 * s.val + c.val, by omega⟩

theorem hdivO : 32 ∣ S4096x1x50x192.size 0 := ⟨128, rfl⟩
/-- Result rows 128·w … 128·w + 127. -/
abbrev outRect (w : Fin 32) : Rect S4096x1x50x192 := Rect.part (s := S4096x1x50x192) (a₀ := 0) hdivO w
abbrev outBlk (w : Fin 32) : Finset S4096x1x50x192.Idx := ((outV : Memref sig .scVector .hbm S4096x1x50x192 .f32).view.slice (outRect w)).set

/-! ## What the call carries -/

section Pay

variable [FloatOps F]
-- the three arrays the tasks read, at the contents the call finds them with, and the result array's contents before the call
variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The function the call leaves in the result array. -/
abbrev gk (d : Dev nD) : Buf (Elt F) (outLoc d) := Cert.Stack.Gk (cI d) (cA d) (cB d)

/-- What task w is handed: a read share of each array it reads, its block of result rows. -/
def tileGo (d : Dev nD) (w : Fin 32) : sProp 𝕄 :=
  iprop((idxLoc d ↦{shareTok fullShare 32 w} cI d) ∗ (wwLoc d ↦{shareTok fullShare 32 w} cA d) ∗ (wfLoc d ↦{shareTok fullShare 32 w} cB d)
    ∗ (outLoc d ↦[outBlk w]{fullShare} cO d))
/-- What it hands back: the shares, and the block at the lookup's function. -/
def tileTd (d : Dev nD) (w : Fin 32) : sProp 𝕄 :=
  iprop((idxLoc d ↦{shareTok fullShare 32 w} cI d) ∗ (wwLoc d ↦{shareTok fullShare 32 w} cA d) ∗ (wfLoc d ↦{shareTok fullShare 32 w} cB d)
    ∗ (outLoc d ↦[outBlk w]{fullShare} gk cI cA cB d))

def P : (K (F := F)).Pay (nD := nD) (Val := Elt F) (Name := ℕ) (U := UU) where
  st := fun q d c => match q with | 0 => bigSep Finset.univ fun s : Fin 16 => tileGo cI cA cB cO d (wid (Fin.cast nCore_zero c) s)
  dn := fun q d c => match q with | 0 => bigSep Finset.univ fun s : Fin 16 => tileTd cI cA cB d (wid (Fin.cast nCore_zero c) s)
  go := fun q d c s => match q with | 0 => tileGo cI cA cB cO d (wid (Fin.cast nCore_zero c) (Fin.cast nSub_zero s))
  td := fun q d c s => match q with | 0 => tileTd cI cA cB d (wid (Fin.cast nCore_zero c) (Fin.cast nSub_zero s))
  x := fun _ _ => iprop(emp)

instance tileGo_storable (d : Dev nD) (w : Fin 32) : BI.Storable (upEmb : UEmb _ 𝕄) (tileGo cI cA cB cO d w) := by
  unfold tileGo; infer_instance
instance tileTd_storable (d : Dev nD) (w : Fin 32) : BI.Storable (upEmb : UEmb _ 𝕄) (tileTd cI cA cB d w) := by
  unfold tileTd; infer_instance

instance P_storable : (P (F := F) cI cA cB cO).IsStorable where
  st q d c := match q with | 0 => by unfold P; dsimp only; infer_instance
  dn q d c := match q with | 0 => by unfold P; dsimp only; infer_instance
  go q d c s := match q with | 0 => by unfold P; dsimp only; infer_instance
  td q d c s := match q with | 0 => by unfold P; dsimp only; infer_instance

/-- What the tasks need of the index words: each names a row of its table. -/
def InRange (d : Dev nD) : Prop :=
  ∀ (n : Fin 4096) (l : Fin 50), (cI d (ValueIdx.ix3 n (0 : Fin 2) l)).toNat < 100000 ∧ (cI d (ValueIdx.ix3 n (1 : Fin 2) l)).toNat < 1000

end Pay

end Cert.Proof.KI

end
-- ==== Proof.KI.Tile.lean ====
/-
  One task's view of the lookup: its buffers, what each holds when a copy into it has landed, and the copies in flight.

  A task works through its 128 rows in a ring of four slots. For the row numbered n of the result, slot b's index
  buffer holds the two index rows of n; its feature buffer holds, per position l, the widened feature table's row
  named by the second index row at l; and its assembly buffer holds the finished row: columns 0 … 127 the word table's
  row named by the first index row at l, columns 128 … 191 the first 64 columns of the feature buffer. Each of these is
  ONE function of the arrays the task reads, stated for the whole buffer, so that pieces written by different copies
  are pieces of the same function.
-/
import proofs.«206843_g13322988552399_fold_wed_c4_279_34_alg».proof.Proof.KI.Setup

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-! ## The task's thread and buffers -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cix0 : Memref sig .scVector .vmem S2x50 .i32 := Memref.whole cc0_scratch0
abbrev cix1 : Memref sig .scVector .vmem S2x50 .i32 := Memref.whole cc0_scratch1
abbrev cix2 : Memref sig .scVector .vmem S2x50 .i32 := Memref.whole cc0_scratch2
abbrev cix3 : Memref sig .scVector .vmem S2x50 .i32 := Memref.whole cc0_scratch3
abbrev rf0 : Memref sig .scVector .vmem S50x128 .f32 := Memref.whole cc0_scratch4
abbrev rf1 : Memref sig .scVector .vmem S50x128 .f32 := Memref.whole cc0_scratch5
abbrev rf2 : Memref sig .scVector .vmem S50x128 .f32 := Memref.whole cc0_scratch6
abbrev rf3 : Memref sig .scVector .vmem S50x128 .f32 := Memref.whole cc0_scratch7
abbrev asm0 : Memref sig .scVector .vmem S1x50x192 .f32 := Memref.whole cc0_scratch8
abbrev asm1 : Memref sig .scVector .vmem S1x50x192 .f32 := Memref.whole cc0_scratch9
abbrev asm2 : Memref sig .scVector .vmem S1x50x192 .f32 := Memref.whole cc0_scratch10
abbrev asm3 : Memref sig .scVector .vmem S1x50x192 .f32 := Memref.whole cc0_scratch11

/-- Columns 0 … 127 of an assembly buffer, as the word gather addresses them. -/
abbrev asmCols (m : Memref sig .scVector .vmem S1x50x192 .f32) : Memref sig .scVector .vmem S50x128 .f32 :=
  (m.slice (Rect.unit (s := S1x50x192) ![0, 0, 0] S1x50x128.size inb_S1x50x192_S1x50x128_0_0_0) (fun _ => rfl)).squeeze S50x128 squeezes_S1x50x128_S50x128
/-- The two rows of an index buffer, as the gathers read their offsets. -/
abbrev cixRow0 (m : Memref sig .scVector .vmem S2x50 .i32) : Memref sig .scVector .vmem S50 .i32 :=
  (m.slice (Rect.unit (s := S2x50) ![0, 0] S1x50.size inb_S2x50_S1x50_0_0) (fun _ => rfl)).squeeze S50 squeezes_S1x50_S50
abbrev cixRow1 (m : Memref sig .scVector .vmem S2x50 .i32) : Memref sig .scVector .vmem S50 .i32 :=
  (m.slice (Rect.unit (s := S2x50) ![1, 0] S1x50.size inb_S2x50_S1x50_1_0) (fun _ => rfl)).squeeze S50 squeezes_S1x50_S50
/-- The two tables, as the gathers address them. -/
abbrev wwS : Memref sig .scVector .hbm S100000x128 .f32 := wwV.slice (Rect.unit (s := S100000x128) ![0, 0] S100000x128.size inb_S100000x128_S100000x128_0_0) (fun _ => rfl)
abbrev wfS : Memref sig .scVector .hbm S1000x128 .f32 := wfV.slice (Rect.unit (s := S1000x128) ![0, 0] S1000x128.size inb_S1000x128_S1000x128_0_0) (fun _ => rfl)

/-- One row of the stacked indices / of the result, at explicit offsets. -/
abbrev idxRowM (o : Fin 3 → ℕ) (h : ∀ a, o a + S1x2x50.size a ≤ S4096x2x50.size a) : Memref sig .scVector .hbm S2x50 .i32 :=
  (idxV.slice (Rect.unit (s := S4096x2x50) o S1x2x50.size h) (fun _ => rfl)).squeeze S2x50 squeezes_S1x2x50_S2x50
abbrev outRowM (o : Fin 4 → ℕ) (h : ∀ a, o a + S1x1x50x192.size a ≤ S4096x1x50x192.size a) : Memref sig .scVector .hbm S1x50x192 .f32 :=
  (outV.slice (Rect.unit (s := S4096x1x50x192) o S1x1x50x192.size h) (fun _ => rfl)).squeeze S1x50x192 squeezes_S1x1x50x192_S1x50x192

/-- The entries of row n of the stacked indices / of the result. -/
def idxRowSet (n : ℕ) : Finset S4096x2x50.Idx := Finset.univ.filter fun j => (j 0).val = n
/-- Rows a ≤ r < b of the result; one row. -/
def outRows (a b : ℕ) : Finset S4096x1x50x192.Idx := Finset.univ.filter fun j => a ≤ (j 0).val ∧ (j 0).val < b
abbrev outRowSet (n : ℕ) : Finset S4096x1x50x192.Idx := outRows n (n + 1)

theorem outRows_sdiff {a b c : ℕ} (hab : a ≤ b) : outRows a c \ outRows a b = outRows b c := by
  ext j
  simp only [outRows, Finset.mem_sdiff, Finset.mem_filter, Finset.mem_univ, true_and]
  omega
theorem outRows_subset {a b c : ℕ} (hbc : b ≤ c) : outRows a b ⊆ outRows a c := by
  intro j
  simp only [outRows, Finset.mem_filter, Finset.mem_univ, true_and]
  omega
theorem outRows_empty (a : ℕ) : outRows a a = ∅ := by
  ext j
  simp only [outRows, Finset.mem_filter, Finset.mem_univ, true_and, Finset.notMem_empty, iff_false]
  omega

/-! ## What the buffers hold for result row n -/

section Contents

variable (fI : S4096x2x50.Idx → BitVec 32) (fA : S100000x128.Idx → Elt F .f32) (fB : S1000x128.Idx → Elt F .f32)

/-- Row n as an index (rows beyond the array never arise; the remainder keeps the function total). -/
def rowFin (n : ℕ) : Fin 4096 := ⟨n % 4096, Nat.mod_lt _ (by norm_num)⟩
theorem rowFin_val {n : ℕ} (h : n < 4096) : (rowFin n).val = n := Nat.mod_eq_of_lt h

/-- An index buffer holding the two index rows of n. -/
def cixOf (n : ℕ) : S2x50.Idx → BitVec 32 := fun j => fI (ix3 (rowFin n) (j 0) (j 1))
/-- A feature buffer holding, at position l, the widened feature table's row named by the second index row at l. -/
def rfOf (n : ℕ) : S50x128.Idx → Elt F .f32 := fun j => fB (ix2 (Cert.Lib.takeRow 1000 (by norm_num) (fI (ix3 (rowFin n) (1 : Fin 2) (j 0)))) (j 1))
/-- An assembly buffer holding the finished row n of the result. -/
def asmOf (n : ℕ) : S1x50x192.Idx → Elt F .f32 := fun j => Cert.Stack.Gk fI fA fB (ix4 (rowFin n) (0 : Fin 1) (j 1) (j 2))

end Contents

/-! ## Copies in flight: what each delivers when it lands -/

section Flights

variable (d : Dev nD) (L : grid0.Coords)
variable (fI : Buf (Elt F) ((idxV).view.loc (thr d L))) (fA : Buf (Elt F) ((wwV).view.loc (thr d L))) (fB : Buf (Elt F) ((wfV).view.loc (thr d L)))

/-- Slot 0: the index rows of n into its index buffer; -/
abbrev DIdx0 (q : PosShare TreeShare) (n : ℕ) : sProp 𝕄 :=
  iprop(((cix0).view.loc (thr d L) ↦{fullShare} cixOf fI n) ∗ ((idxV).view.loc (thr d L) ↦[idxRowSet n]{q} fI))
/-- the word table's rows into columns 0 … 127 of its assembly buffer; -/
abbrev DWord0 (q : PosShare TreeShare) (n : ℕ) : sProp 𝕄 :=
  iprop((((asm0).view.loc (thr d L) ↦[(asmCols asm0).view.set]{fullShare} asmOf fI fA fB n)
      ∗ ((cix0).view.loc (thr d L) ↦[(cixRow0 cix0).view.set]{fullShare} cixOf fI n))
    ∗ ((wwV).view.loc (thr d L) ↦[(wwS).view.set]{q} fA))
/-- the widened feature table's rows into its feature buffer; -/
abbrev DFeat0 (q : PosShare TreeShare) (n : ℕ) : sProp 𝕄 :=
  iprop((((rf0).view.loc (thr d L) ↦{fullShare} rfOf fI fB n)
      ∗ ((cix0).view.loc (thr d L) ↦[(cixRow1 cix0).view.set]{fullShare} cixOf fI n))
    ∗ ((wfV).view.loc (thr d L) ↦[(wfS).view.set]{q} fB))
/-- its finished row out into row n of the result. -/
abbrev DOut0 (n : ℕ) : sProp 𝕄 :=
  iprop(((outV).view.loc (thr d L) ↦[outRowSet n]{fullShare} Cert.Stack.Gk fI fA fB) ∗ ((asm0).view.loc (thr d L) ↦{fullShare} asmOf fI fA fB n))

/-- Slot 1: the index rows of n into its index buffer; -/
abbrev DIdx1 (q : PosShare TreeShare) (n : ℕ) : sProp 𝕄 :=
  iprop(((cix1).view.loc (thr d L) ↦{fullShare} cixOf fI n) ∗ ((idxV).view.loc (thr d L) ↦[idxRowSet n]{q} fI))
/-- the word table's rows into columns 0 … 127 of its assembly buffer; -/
abbrev DWord1 (q : PosShare TreeShare) (n : ℕ) : sProp 𝕄 :=
  iprop((((asm1).view.loc (thr d L) ↦[(asmCols asm1).view.set]{fullShare} asmOf fI fA fB n)
      ∗ ((cix1).view.loc (thr d L) ↦[(cixRow0 cix1).view.set]{fullShare} cixOf fI n))
    ∗ ((wwV).view.loc (thr d L) ↦[(wwS).view.set]{q} fA))
/-- the widened feature table's rows into its feature buffer; -/
abbrev DFeat1 (q : PosShare TreeShare) (n : ℕ) : sProp 𝕄 :=
  iprop((((rf1).view.loc (thr d L) ↦{fullShare} rfOf fI fB n)
      ∗ ((cix1).view.loc (thr d L) ↦[(cixRow1 cix1).view.set]{fullShare} cixOf fI n))
    ∗ ((wfV).view.loc (thr d L) ↦[(wfS).view.set]{q} fB))
/-- its finished row out into row n of the result. -/
abbrev DOut1 (n : ℕ) : sProp 𝕄 :=
  iprop(((outV).view.loc (thr d L) ↦[outRowSet n]{fullShare} Cert.Stack.Gk fI fA fB) ∗ ((asm1).view.loc (thr d L) ↦{fullShare} asmOf fI fA fB n))

/-- Slot 2: the index rows of n into its index buffer; -/
abbrev DIdx2 (q : PosShare TreeShare) (n : ℕ) : sProp 𝕄 :=
  iprop(((cix2).view.loc (thr d L) ↦{fullShare} cixOf fI n) ∗ ((idxV).view.loc (thr d L) ↦[idxRowSet n]{q} fI))
/-- the word table's rows into columns 0 … 127 of its assembly buffer; -/
abbrev DWord2 (q : PosShare TreeShare) (n : ℕ) : sProp 𝕄 :=
  iprop((((asm2).view.loc (thr d L) ↦[(asmCols asm2).view.set]{fullShare} asmOf fI fA fB n)
      ∗ ((cix2).view.loc (thr d L) ↦[(cixRow0 cix2).view.set]{fullShare} cixOf fI n))
    ∗ ((wwV).view.loc (thr d L) ↦[(wwS).view.set]{q} fA))
/-- the widened feature table's rows into its feature buffer; -/
abbrev DFeat2 (q : PosShare TreeShare) (n : ℕ) : sProp 𝕄 :=
  iprop((((rf2).view.loc (thr d L) ↦{fullShare} rfOf fI fB n)
      ∗ ((cix2).view.loc (thr d L) ↦[(cixRow1 cix2).view.set]{fullShare} cixOf fI n))
    ∗ ((wfV).view.loc (thr d L) ↦[(wfS).view.set]{q} fB))
/-- its finished row out into row n of the result. -/
abbrev DOut2 (n : ℕ) : sProp 𝕄 :=
  iprop(((outV).view.loc (thr d L) ↦[outRowSet n]{fullShare} Cert.Stack.Gk fI fA fB) ∗ ((asm2).view.loc (thr d L) ↦{fullShare} asmOf fI fA fB n))

/-- Slot 3: the index rows of n into its index buffer; -/
abbrev DIdx3 (q : PosShare TreeShare) (n : ℕ) : sProp 𝕄 :=
  iprop(((cix3).view.loc (thr d L) ↦{fullShare} cixOf fI n) ∗ ((idxV).view.loc (thr d L) ↦[idxRowSet n]{q} fI))
/-- the word table's rows into columns 0 … 127 of its assembly buffer; -/
abbrev DWord3 (q : PosShare TreeShare) (n : ℕ) : sProp 𝕄 :=
  iprop((((asm3).view.loc (thr d L) ↦[(asmCols asm3).view.set]{fullShare} asmOf fI fA fB n)
      ∗ ((cix3).view.loc (thr d L) ↦[(cixRow0 cix3).view.set]{fullShare} cixOf fI n))
    ∗ ((wwV).view.loc (thr d L) ↦[(wwS).view.set]{q} fA))
/-- the widened feature table's rows into its feature buffer; -/
abbrev DFeat3 (q : PosShare TreeShare) (n : ℕ) : sProp 𝕄 :=
  iprop((((rf3).view.loc (thr d L) ↦{fullShare} rfOf fI fB n)
      ∗ ((cix3).view.loc (thr d L) ↦[(cixRow1 cix3).view.set]{fullShare} cixOf fI n))
    ∗ ((wfV).view.loc (thr d L) ↦[(wfS).view.set]{q} fB))
/-- its finished row out into row n of the result. -/
abbrev DOut3 (n : ℕ) : sProp 𝕄 :=
  iprop(((outV).view.loc (thr d L) ↦[outRowSet n]{fullShare} Cert.Stack.Gk fI fA fB) ∗ ((asm3).view.loc (thr d L) ↦{fullShare} asmOf fI fA fB n))

end Flights

end Cert.Proof.KI

end
-- ==== Proof.KI.Inv.lean ====
/-
  What a task holds between two rounds of its ring.

  Before round k (rows N0 L + 4k … N0 L + 4k + 3 of the task's block, N its first row) the gathers for row N0 L + 4k are in
  flight into slot 0, the index rows of N0 L + 4k + 1 are in flight into slot 1, and — from the second round on — the
  finished rows N0 L + 4k − 3, N0 L + 4k − 2, N0 L + 4k − 1 are on their way out of slots 1, 2, 3. Rows below N0 L + 4k − 3 of the
  block hold the lookup; rows from N0 L + 4k on are untouched. After the last round (k = 32) nothing is in flight into a
  slot and the last three rows are still on their way out.
-/
import proofs.«206843_g13322988552399_fold_wed_c4_279_34_alg».proof.Proof.KI.Tile

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Inv

/-- The task's first row. -/
abbrev N0 (L : grid0.Coords) : ℕ := 256 * (L 1).val + 128 * (L 0).val

/-- Slot 0's gathers: for row N0 L + 4k in flight, or (after the last round) everything at rest. -/
def gath0On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(Flight countersEmb (thr d L) (SemLoc.dma cc0_scratch16.sem) (default : HIx 1) 204800 (DWord0 d L fI fA fB (shareTok qA 4 0) (N0 L + 4 * k)) ∗ ((wwV).view.loc (thr d L) ↦[Finset.univ \ (wwS).view.set]{shareTok qA 4 0} fA)
    ∗ Flight countersEmb (thr d L) (SemLoc.dma cc0_scratch20.sem) (default : HIx 1) 204800 (DFeat0 d L fI fB (shareTok qB 4 0) (N0 L + 4 * k)) ∗ ((wfV).view.loc (thr d L) ↦[Finset.univ \ (wfS).view.set]{shareTok qB 4 0} fB)
    ∗ ((cix0).view.loc (thr d L) ↦[(Finset.univ \ (cixRow0 cix0).view.set) \ (cixRow1 cix0).view.set]{fullShare} cixOf fI (N0 L + 4 * k))
    ∗ ∃ fa, ((asm0).view.loc (thr d L) ↦[Finset.univ \ (asmCols asm0).view.set]{fullShare} fa))
def gath0Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch16.sem) 0 ∗ semVal ((thr d L), SemLoc.dma cc0_scratch20.sem) 0 ∗ ((wwV).view.loc (thr d L) ↦{shareTok qA 4 0} fA) ∗ ((wfV).view.loc (thr d L) ↦{shareTok qB 4 0} fB)
    ∗ (∃ f, ((cix0).view.loc (thr d L) ↦{fullShare} f)) ∗ (∃ f, ((rf0).view.loc (thr d L) ↦{fullShare} f)) ∗ ∃ f, ((asm0).view.loc (thr d L) ↦{fullShare} f))
def gath0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if k < 32 then gath0On d L fI fA fB qI qA qB k else gath0Off d L fI fA fB qI qA qB
theorem gath0_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : k < 32) : gath0 d L fI fA fB qI qA qB k = gath0On d L fI fA fB qI qA qB k := if_pos h
theorem gath0_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ k < 32) : gath0 d L fI fA fB qI qA qB k = gath0Off d L fI fA fB qI qA qB := if_neg h

/-- Slot 1's index rows: of N0 L + 4k + 1 in flight, or at rest. -/
def stage1On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(Flight countersEmb (thr d L) (SemLoc.dma cc0_scratch13.sem) (default : HIx 1) 3200 (DIdx1 d L fI (shareTok qI 4 1) (N0 L + 4 * k + 1)) ∗ ((idxV).view.loc (thr d L) ↦[Finset.univ \ idxRowSet (N0 L + 4 * k + 1)]{shareTok qI 4 1} fI))
def stage1Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch13.sem) 0 ∗ ((idxV).view.loc (thr d L) ↦{shareTok qI 4 1} fI) ∗ ∃ f, ((cix1).view.loc (thr d L) ↦{fullShare} f))
def stage1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if k < 32 then stage1On d L fI fA fB qI qA qB k else stage1Off d L fI fA fB qI qA qB
theorem stage1_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : k < 32) : stage1 d L fI fA fB qI qA qB k = stage1On d L fI fA fB qI qA qB k := if_pos h
theorem stage1_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ k < 32) : stage1 d L fI fA fB qI qA qB k = stage1Off d L fI fA fB qI qA qB := if_neg h

/-- Slot 1's way out: row N0 L + 4k − 3 in flight from the second round on; before that its assembly buffer at rest. -/
def outgo1On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch25.sem) (default : HIx 1) 307200 (DOut1 d L fI fA fB (N0 L + 4 * k - 3))
def outgo1Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch25.sem) 0 ∗ ∃ f, ((asm1).view.loc (thr d L) ↦{fullShare} f))
def outgo1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo1On d L fI fA fB qI qA qB k else outgo1Off d L fI fA fB qI qA qB
theorem outgo1_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo1 d L fI fA fB qI qA qB k = outgo1On d L fI fA fB qI qA qB k := if_pos h
theorem outgo1_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo1 d L fI fA fB qI qA qB k = outgo1Off d L fI fA fB qI qA qB := if_neg h

/-- Slot 2's way out: row N0 L + 4k − 2 in flight from the second round on; before that its assembly buffer at rest. -/
def outgo2On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch26.sem) (default : HIx 1) 307200 (DOut2 d L fI fA fB (N0 L + 4 * k - 2))
def outgo2Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch26.sem) 0 ∗ ∃ f, ((asm2).view.loc (thr d L) ↦{fullShare} f))
def outgo2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo2On d L fI fA fB qI qA qB k else outgo2Off d L fI fA fB qI qA qB
theorem outgo2_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo2 d L fI fA fB qI qA qB k = outgo2On d L fI fA fB qI qA qB k := if_pos h
theorem outgo2_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo2 d L fI fA fB qI qA qB k = outgo2Off d L fI fA fB qI qA qB := if_neg h

/-- Slot 3's way out: row N0 L + 4k − 1 in flight from the second round on; before that its assembly buffer at rest. -/
def outgo3On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch27.sem) (default : HIx 1) 307200 (DOut3 d L fI fA fB (N0 L + 4 * k - 1))
def outgo3Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch27.sem) 0 ∗ ∃ f, ((asm3).view.loc (thr d L) ↦{fullShare} f))
def outgo3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo3On d L fI fA fB qI qA qB k else outgo3Off d L fI fA fB qI qA qB
theorem outgo3_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo3 d L fI fA fB qI qA qB k = outgo3On d L fI fA fB qI qA qB k := if_pos h
theorem outgo3_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo3 d L fI fA fB qI qA qB k = outgo3Off d L fI fA fB qI qA qB := if_neg h

/-- Slot 0. -/
def slot0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 0} fI) ∗ semVal ((thr d L), SemLoc.dma cc0_scratch12.sem) 0 ∗ semVal ((thr d L), SemLoc.dma cc0_scratch24.sem) 0 ∗ gath0 d L fI fA fB qI qA qB k)
/-- Slot 1: its gathers at rest. -/
def slot1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((wwV).view.loc (thr d L) ↦{shareTok qA 4 1} fA) ∗ ((wfV).view.loc (thr d L) ↦{shareTok qB 4 1} fB) ∗ (∃ f, ((rf1).view.loc (thr d L) ↦{fullShare} f)) ∗ semVal ((thr d L), SemLoc.dma cc0_scratch17.sem) 0 ∗ semVal ((thr d L), SemLoc.dma cc0_scratch21.sem) 0
    ∗ stage1 d L fI fA fB qI qA qB k ∗ outgo1 d L fI fA fB qI qA qB k)
/-- Slots 2 and 3: at rest but for the rows on their way out. -/
def slot2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 2} fI) ∗ semVal ((thr d L), SemLoc.dma cc0_scratch14.sem) 0 ∗ (∃ f, ((cix2).view.loc (thr d L) ↦{fullShare} f))
    ∗ ((wwV).view.loc (thr d L) ↦{shareTok qA 4 2} fA) ∗ ((wfV).view.loc (thr d L) ↦{shareTok qB 4 2} fB) ∗ (∃ f, ((rf2).view.loc (thr d L) ↦{fullShare} f)) ∗ semVal ((thr d L), SemLoc.dma cc0_scratch18.sem) 0 ∗ semVal ((thr d L), SemLoc.dma cc0_scratch22.sem) 0
    ∗ outgo2 d L fI fA fB qI qA qB k)
def slot3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 3} fI) ∗ semVal ((thr d L), SemLoc.dma cc0_scratch15.sem) 0 ∗ (∃ f, ((cix3).view.loc (thr d L) ↦{fullShare} f))
    ∗ ((wwV).view.loc (thr d L) ↦{shareTok qA 4 3} fA) ∗ ((wfV).view.loc (thr d L) ↦{shareTok qB 4 3} fB) ∗ (∃ f, ((rf3).view.loc (thr d L) ↦{fullShare} f)) ∗ semVal ((thr d L), SemLoc.dma cc0_scratch19.sem) 0 ∗ semVal ((thr d L), SemLoc.dma cc0_scratch23.sem) 0
    ∗ outgo3 d L fI fA fB qI qA qB k)

/-- The task's block of the result: untouched from row N0 L + 4k on, the lookup below row N0 L + 4k − 3. -/
def outState (d : Dev nD) (L : grid0.Coords) (fI : Buf (Elt F) ((idxV).view.loc (thr d L))) (fA : Buf (Elt F) ((wwV).view.loc (thr d L))) (fB : Buf (Elt F) ((wfV).view.loc (thr d L))) (fO : Buf (Elt F) ((outV).view.loc (thr d L))) (k : ℕ) : sProp 𝕄 :=
  iprop(((outV).view.loc (thr d L) ↦[outRows (N0 L + 4 * k) (N0 L + 128)]{fullShare} fO) ∗ ((outV).view.loc (thr d L) ↦[outRows (N0 L) (N0 L + 4 * k - 3)]{fullShare} Cert.Stack.Gk fI fA fB))

/-- A slot at rest: its read token of each array, its three buffers at some contents, its four semaphores at zero. -/
def slotRest0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 0} fI) ∗ ((wwV).view.loc (thr d L) ↦{shareTok qA 4 0} fA) ∗ ((wfV).view.loc (thr d L) ↦{shareTok qB 4 0} fB)
      ∗ (∃ f, ((cix0).view.loc (thr d L) ↦{fullShare} f)) ∗ (∃ f, ((rf0).view.loc (thr d L) ↦{fullShare} f)) ∗ (∃ f, ((asm0).view.loc (thr d L) ↦{fullShare} f))
      ∗ semVal ((thr d L), SemLoc.dma cc0_scratch12.sem) 0 ∗ semVal ((thr d L), SemLoc.dma cc0_scratch16.sem) 0 ∗ semVal ((thr d L), SemLoc.dma cc0_scratch20.sem) 0 ∗ semVal ((thr d L), SemLoc.dma cc0_scratch24.sem) 0)
def slotRest1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 1} fI) ∗ ((wwV).view.loc (thr d L) ↦{shareTok qA 4 1} fA) ∗ ((wfV).view.loc (thr d L) ↦{shareTok qB 4 1} fB)
      ∗ (∃ f, ((cix1).view.loc (thr d L) ↦{fullShare} f)) ∗ (∃ f, ((rf1).view.loc (thr d L) ↦{fullShare} f)) ∗ (∃ f, ((asm1).view.loc (thr d L) ↦{fullShare} f))
      ∗ semVal ((thr d L), SemLoc.dma cc0_scratch13.sem) 0 ∗ semVal ((thr d L), SemLoc.dma cc0_scratch17.sem) 0 ∗ semVal ((thr d L), SemLoc.dma cc0_scratch21.sem) 0 ∗ semVal ((thr d L), SemLoc.dma cc0_scratch25.sem) 0)
def slotRest2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 2} fI) ∗ ((wwV).view.loc (thr d L) ↦{shareTok qA 4 2} fA) ∗ ((wfV).view.loc (thr d L) ↦{shareTok qB 4 2} fB)
      ∗ (∃ f, ((cix2).view.loc (thr d L) ↦{fullShare} f)) ∗ (∃ f, ((rf2).view.loc (thr d L) ↦{fullShare} f)) ∗ (∃ f, ((asm2).view.loc (thr d L) ↦{fullShare} f))
      ∗ semVal ((thr d L), SemLoc.dma cc0_scratch14.sem) 0 ∗ semVal ((thr d L), SemLoc.dma cc0_scratch18.sem) 0 ∗ semVal ((thr d L), SemLoc.dma cc0_scratch22.sem) 0 ∗ semVal ((thr d L), SemLoc.dma cc0_scratch26.sem) 0)
def slotRest3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 3} fI) ∗ ((wwV).view.loc (thr d L) ↦{shareTok qA 4 3} fA) ∗ ((wfV).view.loc (thr d L) ↦{shareTok qB 4 3} fB)
      ∗ (∃ f, ((cix3).view.loc (thr d L) ↦{fullShare} f)) ∗ (∃ f, ((rf3).view.loc (thr d L) ↦{fullShare} f)) ∗ (∃ f, ((asm3).view.loc (thr d L) ↦{fullShare} f))
      ∗ semVal ((thr d L), SemLoc.dma cc0_scratch15.sem) 0 ∗ semVal ((thr d L), SemLoc.dma cc0_scratch19.sem) 0 ∗ semVal ((thr d L), SemLoc.dma cc0_scratch23.sem) 0 ∗ semVal ((thr d L), SemLoc.dma cc0_scratch27.sem) 0)

/-- What a task works from and ends with: its four slots at rest and its block of the result at given contents. -/
def tileRes (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (g : Buf (Elt F) ((outV).view.loc (thr d L))) : sProp 𝕄 :=
  iprop(slotRest0 d L fI fA fB qI qA qB ∗ slotRest1 d L fI fA fB qI qA qB ∗ slotRest2 d L fI fA fB qI qA qB ∗ slotRest3 d L fI fA fB qI qA qB
    ∗ ((outV).view.loc (thr d L) ↦[outRows (N0 L) (N0 L + 128)]{fullShare} g))

/-- The invariant of the ring's loop. -/
def ringInv (d : Dev nD) (L : grid0.Coords) (fI : Buf (Elt F) ((idxV).view.loc (thr d L))) (fA : Buf (Elt F) ((wwV).view.loc (thr d L))) (fB : Buf (Elt F) ((wfV).view.loc (thr d L))) (fO : Buf (Elt F) ((outV).view.loc (thr d L))) (qI qA qB : PosShare TreeShare) (O : CellTallies nD τ sig (HIx 1)) (W : Waits sig (HIx 1)) (k : ℕ) (_ : PUnit) : sProp 𝕄 :=
  iprop(Transfers.MayWaits (thr d L) (none : HIx 1) O
    ∗ (∃ W', ⌜∀ p ∈ W', p ∈ W ∨ p.2 = none⌝ ∗ owes (thr d L) O W')
    ∗ slot0 d L fI fA fB qI qA qB k ∗ slot1 d L fI fA fB qI qA qB k ∗ slot2 d L fI fA fB qI qA qB k ∗ slot3 d L fI fA fB qI qA qB k
    ∗ outState d L fI fA fB fO k)

end Inv

end Cert.Proof.KI

end
-- ==== Proof.KI.Values.lean ====
/-
  Value lemmas for one task's copies: each pending copy's destination, left by the symbolic run at a raw "payload
  written through a view" term, restated at the one clean function of the arrays the task reads.

  A points-to on an element set only speaks of the function's values on that set, so each restatement is an equation
  of two functions on the set: the index rows read through a row slice are the stacked indices at that row; a
  gathered table row, for an index word below the table's extent, is the table's row the word names; the assembled
  row's last 64 columns are the feature buffer's first 64 columns.
-/
import proofs.«206843_g13322988552399_fold_wed_c4_279_34_alg».proof.Proof.KI.Tile
import Idealize.ShloMosaic.Lib.ValueLayout
import Idealize.ShloMosaic.Lib.Writes

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-! ## The element sets of a row slice -/

/-- The row slice of the stacked indices at row n covers exactly the entries of row n. -/
theorem set_idxRowM (n : ℕ) (o : Fin 3 → ℕ) (h : ∀ a, o a + S1x2x50.size a ≤ S4096x2x50.size a) (ho : o = ![n, 0, 0]) :
    (idxRowM o h).view.set = idxRowSet n := by
  subst ho
  show (((View.whole main_v2_scv : View sig .scVector _ _ _).slice (Rect.unit (s := S4096x2x50) ![n, 0, 0] S1x2x50.size h)).reshape S2x50
    squeezes_S1x2x50_S2x50.numel_eq).set = idxRowSet n
  rw [View.set_reshape, View.set_slice_whole]
  ext j
  rw [Rect.mem_set_unit]
  simp only [idxRowSet, Finset.mem_filter, Finset.mem_univ, true_and]
  constructor
  · intro hj
    have := hj 0
    simp at this
    omega
  · intro hj a
    match a with
    | ⟨0, _⟩ => simp; omega
    | ⟨1, _⟩ => have h1 : (j 1).val < 2 := (j 1).isLt; simp; omega
    | ⟨2, hlt⟩ => have h2 : (j ⟨2, hlt⟩).val < 50 := (j ⟨2, hlt⟩).isLt; simp; omega

/-- The row slice of the result at row n covers exactly the entries of row n. -/
theorem set_outRowM (n : ℕ) (o : Fin 4 → ℕ) (h : ∀ a, o a + S1x1x50x192.size a ≤ S4096x1x50x192.size a) (ho : o = ![n, 0, 0, 0]) :
    (outRowM o h).view.set = outRowSet n := by
  subst ho
  show (((View.whole main_v4_scv : View sig .scVector _ _ _).slice (Rect.unit (s := S4096x1x50x192) ![n, 0, 0, 0] S1x1x50x192.size h)).reshape S1x50x192
    squeezes_S1x1x50x192_S1x50x192.numel_eq).set = outRowSet n
  rw [View.set_reshape, View.set_slice_whole]
  ext j
  rw [Rect.mem_set_unit]
  simp only [outRows, Finset.mem_filter, Finset.mem_univ, true_and]
  constructor
  · intro hj
    have := hj 0
    simp at this
    omega
  · intro hj a
    match a with
    | ⟨0, _⟩ => simp; omega
    | ⟨1, _⟩ => have h1 : (j 1).val < 1 := (j 1).isLt; simp; omega
    | ⟨2, hlt⟩ => have h2 : (j ⟨2, hlt⟩).val < 50 := (j ⟨2, hlt⟩).isLt; simp; omega
    | ⟨3, hlt⟩ => have h3 : (j ⟨3, hlt⟩).val < 192 := (j ⟨3, hlt⟩).isLt; simp; omega

/-! ## The index rows delivered -/

/-- Where the row slice at row n puts its entry (r, l): entry (n, r, l) of the stacked indices. -/
theorem emb_idxRowM (n : ℕ) (hn : n < 4096) (h : ∀ a, (![n, 0, 0] : Fin 3 → ℕ) a + S1x2x50.size a ≤ S4096x2x50.size a) (r : Fin 2) (l : Fin 50) :
    (idxRowM ![n, 0, 0] h).view.emb (ix2 r l) = (ix3 (rowFin n) r l : S4096x2x50.Idx) := by
  show (Rect.unit (s := S4096x2x50) ![n, 0, 0] S1x2x50.size h).emb (Shape.reshapeEquiv squeezes_S1x2x50_S2x50.numel_eq (ix2 r l)) = _
  rw [reshapeEquiv_ix2_1ab]
  funext a
  refine Fin.ext ?_
  rw [Rect.emb_apply]
  match a with
  | ⟨0, _⟩ => have hr := rowFin_val hn; show n + 1 * 0 = (rowFin n).val; omega
  | ⟨1, _⟩ => show 0 + 1 * r.val = r.val; omega
  | ⟨2, _⟩ => show 0 + 1 * l.val = l.val; omega

/-- The index rows read through the row slice at row n are the stacked indices at row n. -/
theorem read_idxRowM (n : ℕ) (hn : n < 4096) (o : Fin 3 → ℕ) (h : ∀ a, o a + S1x2x50.size a ≤ S4096x2x50.size a) (ho : o = ![n, 0, 0])
    (fI : S4096x2x50.Idx → BitVec 32) : View.read (Elt F) (idxRowM o h).view fI = cixOf fI n := by
  subst ho
  funext x
  obtain ⟨r, l, rfl⟩ : ∃ (r : Fin 2) (l : Fin 50), x = ix2 r l := ⟨x 0, x 1, eq_ix2 x⟩
  rw [View.read_apply, emb_idxRowM n hn h r l]
  rfl

section Deliver

variable (d : Dev nD) (L : grid0.Coords)
variable (fI : Buf (Elt F) ((idxV).view.loc (thr d L))) (fA : Buf (Elt F) ((wwV).view.loc (thr d L))) (fB : Buf (Elt F) ((wfV).view.loc (thr d L)))
variable (q : PosShare TreeShare) (n : ℕ) (hn : n < 4096)

include hn in
theorem idx_deliver0 (o : Fin 3 → ℕ) (h : ∀ a, o a + S1x2x50.size a ≤ S4096x2x50.size a) (ho : o = ![n, 0, 0])
    (f : Buf (Elt F) ((cix0).view.loc (thr d L))) :
    (iprop(((cix0).view.loc (thr d L) ↦{fullShare} View.write (Elt F) (cix0).view f (ReadAs.same.apply (View.read (Elt F) (idxRowM o h).view fI)) Finset.univ)
      ∗ ((idxV).view.loc (thr d L) ↦[(idxRowM o h).view.set]{q} fI)) : sProp 𝕄) ⊢ DIdx0 d L fI q n := by
  rw [set_idxRowM n o h ho, read_idxRowM n hn o h ho, ReadAs.apply_same, View.write_whole_univ]

include hn in
theorem idx_deliver1 (o : Fin 3 → ℕ) (h : ∀ a, o a + S1x2x50.size a ≤ S4096x2x50.size a) (ho : o = ![n, 0, 0])
    (f : Buf (Elt F) ((cix1).view.loc (thr d L))) :
    (iprop(((cix1).view.loc (thr d L) ↦{fullShare} View.write (Elt F) (cix1).view f (ReadAs.same.apply (View.read (Elt F) (idxRowM o h).view fI)) Finset.univ)
      ∗ ((idxV).view.loc (thr d L) ↦[(idxRowM o h).view.set]{q} fI)) : sProp 𝕄) ⊢ DIdx1 d L fI q n := by
  rw [set_idxRowM n o h ho, read_idxRowM n hn o h ho, ReadAs.apply_same, View.write_whole_univ]

include hn in
theorem idx_deliver2 (o : Fin 3 → ℕ) (h : ∀ a, o a + S1x2x50.size a ≤ S4096x2x50.size a) (ho : o = ![n, 0, 0])
    (f : Buf (Elt F) ((cix2).view.loc (thr d L))) :
    (iprop(((cix2).view.loc (thr d L) ↦{fullShare} View.write (Elt F) (cix2).view f (ReadAs.same.apply (View.read (Elt F) (idxRowM o h).view fI)) Finset.univ)
      ∗ ((idxV).view.loc (thr d L) ↦[(idxRowM o h).view.set]{q} fI)) : sProp 𝕄) ⊢ DIdx2 d L fI q n := by
  rw [set_idxRowM n o h ho, read_idxRowM n hn o h ho, ReadAs.apply_same, View.write_whole_univ]

include hn in
theorem idx_deliver3 (o : Fin 3 → ℕ) (h : ∀ a, o a + S1x2x50.size a ≤ S4096x2x50.size a) (ho : o = ![n, 0, 0])
    (f : Buf (Elt F) ((cix3).view.loc (thr d L))) :
    (iprop(((cix3).view.loc (thr d L) ↦{fullShare} View.write (Elt F) (cix3).view f (ReadAs.same.apply (View.read (Elt F) (idxRowM o h).view fI)) Finset.univ)
      ∗ ((idxV).view.loc (thr d L) ↦[(idxRowM o h).view.set]{q} fI)) : sProp 𝕄) ⊢ DIdx3 d L fI q n := by
  rw [set_idxRowM n o h ho, read_idxRowM n hn o h ho, ReadAs.apply_same, View.write_whole_univ]

end Deliver

/-! ## The offsets the gathers read are in range -/

/-- A rank-one index sits, in the shape with a unit axis in front, at (0, l). -/
theorem reshapeEquiv_ix1_1a {a : ℕ} (h : (⟨1, ![a]⟩ : Shape).numel = (⟨2, ![1, a]⟩ : Shape).numel) (l : Fin a) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * a + l.val = l.val
    omega)

/-- The first row of an index buffer, read as an offset list, is the buffer's row 0. -/
theorem read_cixRow0 (m : Memref sig .scVector .vmem S2x50 .i32) (g : m.view.ty.Contents (Elt F)) (l : Fin 50) :
    (cixRow0 m).view.read (Elt F) g (ix1 l) = m.view.read (Elt F) g (ix2 (0 : Fin 2) l) := by
  rw [View.read_apply, View.read_apply]
  show _root_.cast _ (g (m.view.emb ((Rect.unit (s := S2x50) ![0, 0] S1x50.size inb_S2x50_S1x50_0_0).emb
    (Shape.reshapeEquiv squeezes_S1x50_S50.numel_eq (ix1 l))))) = _
  rw [reshapeEquiv_ix1_1a]
  have he : (Rect.unit (s := S2x50) ![0, 0] S1x50.size inb_S2x50_S1x50_0_0).emb (ix2 (⟨0, Nat.one_pos⟩ : Fin 1) l) = (ix2 (0 : Fin 2) l : S2x50.Idx) := by
    funext a
    refine Fin.ext ?_
    rw [Rect.emb_apply]
    match a with
    | ⟨0, _⟩ => show 0 + 1 * 0 = 0; omega
    | ⟨1, _⟩ => show 0 + 1 * l.val = l.val; omega
  rw [he]

/-- The second row of an index buffer, read as an offset list, is the buffer's row 1. -/
theorem read_cixRow1 (m : Memref sig .scVector .vmem S2x50 .i32) (g : m.view.ty.Contents (Elt F)) (l : Fin 50) :
    (cixRow1 m).view.read (Elt F) g (ix1 l) = m.view.read (Elt F) g (ix2 (1 : Fin 2) l) := by
  rw [View.read_apply, View.read_apply]
  show _root_.cast _ (g (m.view.emb ((Rect.unit (s := S2x50) ![1, 0] S1x50.size inb_S2x50_S1x50_1_0).emb
    (Shape.reshapeEquiv squeezes_S1x50_S50.numel_eq (ix1 l))))) = _
  rw [reshapeEquiv_ix1_1a]
  have he : (Rect.unit (s := S2x50) ![1, 0] S1x50.size inb_S2x50_S1x50_1_0).emb (ix2 (⟨0, Nat.one_pos⟩ : Fin 1) l) = (ix2 (1 : Fin 2) l : S2x50.Idx) := by
    funext a
    refine Fin.ext ?_
    rw [Rect.emb_apply]
    match a with
    | ⟨0, _⟩ => show 1 + 1 * 0 = 1; omega
    | ⟨1, _⟩ => show 0 + 1 * l.val = l.val; omega
  rw [he]

section InRange

variable (d : Dev nD) (L : grid0.Coords)
variable (fI : Buf (Elt F) ((idxV).view.loc (thr d L))) (n : ℕ)

theorem hinW0 (hI : ∀ (r : Fin 4096) (l : Fin 50), (fI (ix3 r (0 : Fin 2) l)).toNat < 100000 ∧ (fI (ix3 r (1 : Fin 2) l)).toNat < 1000) :
    ∀ x, ((cixRow0 cix0).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF0 (hI : ∀ (r : Fin 4096) (l : Fin 50), (fI (ix3 r (0 : Fin 2) l)).toNat < 100000 ∧ (fI (ix3 r (1 : Fin 2) l)).toNat < 1000) :
    ∀ x, ((cixRow1 cix0).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW1 (hI : ∀ (r : Fin 4096) (l : Fin 50), (fI (ix3 r (0 : Fin 2) l)).toNat < 100000 ∧ (fI (ix3 r (1 : Fin 2) l)).toNat < 1000) :
    ∀ x, ((cixRow0 cix1).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF1 (hI : ∀ (r : Fin 4096) (l : Fin 50), (fI (ix3 r (0 : Fin 2) l)).toNat < 100000 ∧ (fI (ix3 r (1 : Fin 2) l)).toNat < 1000) :
    ∀ x, ((cixRow1 cix1).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW2 (hI : ∀ (r : Fin 4096) (l : Fin 50), (fI (ix3 r (0 : Fin 2) l)).toNat < 100000 ∧ (fI (ix3 r (1 : Fin 2) l)).toNat < 1000) :
    ∀ x, ((cixRow0 cix2).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF2 (hI : ∀ (r : Fin 4096) (l : Fin 50), (fI (ix3 r (0 : Fin 2) l)).toNat < 100000 ∧ (fI (ix3 r (1 : Fin 2) l)).toNat < 1000) :
    ∀ x, ((cixRow1 cix2).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW3 (hI : ∀ (r : Fin 4096) (l : Fin 50), (fI (ix3 r (0 : Fin 2) l)).toNat < 100000 ∧ (fI (ix3 r (1 : Fin 2) l)).toNat < 1000) :
    ∀ x, ((cixRow0 cix3).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF3 (hI : ∀ (r : Fin 4096) (l : Fin 50), (fI (ix3 r (0 : Fin 2) l)).toNat < 100000 ∧ (fI (ix3 r (1 : Fin 2) l)).toNat < 1000) :
    ∀ x, ((cixRow1 cix3).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

end InRange

/-! ## The gathered rows delivered -/

/-- The row an offset list names for position l is the list's word at l, read unsigned (position k of a rank-one shape,
    in row-major order, is the index k). -/
theorem rows_val {o z : ℕ} (idx : S50.Idx → BitVec 32) (hn : S50.numel = o) (h : ∀ x, (idx x).toNat < z) (k : Fin o) (l : Fin 50)
    (hl : k.val = l.val) : (SparseCore.rows (F := F) idx hn h k).val = (idx (ix1 l)).toNat := by
  unfold SparseCore.rows
  show (idx (S50.rowMajor.symm (k.cast hn.symm))).toNat = _
  have e : S50.rowMajor.symm (k.cast hn.symm) = ix1 l :=
    (Equiv.symm_apply_eq _).2 (Fin.ext (by rw [Shape.rowMajor_val_one]; exact hl))
  rw [e]

/-- A rank-two gather along axis 0 reads, for the destination's entry (l, c), the source's entry (row named for l, c). -/
theorem gathers_idx_ix2 {z o w : ℕ} (hg : (⟨2, ![z, w]⟩ : Shape).Gathers 0 ⟨2, ![o, w]⟩) (rows : Fin o → Fin z) (l : Fin o) (c : Fin w) :
    hg.idx rows (ix2 l c) = ix2 (rows l) c := by
  funext b
  match b with
  | ⟨0, h0⟩ => exact Shape.Gathers.idx_axis hg rows (ix2 l c)
  | ⟨1, h1⟩ => exact Fin.ext (Shape.Gathers.idx_of_ne hg rows (ix2 l c) ⟨1, h1⟩ Nat.one_ne_zero)

/-- A table read through the slice that is the whole table is the table. -/
theorem read_wwS (fA : S100000x128.Idx → Elt F .f32) (y : S100000x128.Idx) : View.read (Elt F) (wwS).view fA y = fA y := by
  rw [View.read_apply]
  show fA ((Rect.unit (s := S100000x128) ![0, 0] S100000x128.size inb_S100000x128_S100000x128_0_0).emb y) = fA y
  refine congrArg fA (funext fun a => Fin.ext ?_)
  rw [Rect.emb_apply]
  match a with
  | ⟨0, _⟩ => show 0 + 1 * (y 0).val = (y 0).val; omega
  | ⟨1, _⟩ => show 0 + 1 * (y 1).val = (y 1).val; omega

theorem read_wfS (fB : S1000x128.Idx → Elt F .f32) (y : S1000x128.Idx) : View.read (Elt F) (wfS).view fB y = fB y := by
  rw [View.read_apply]
  show fB ((Rect.unit (s := S1000x128) ![0, 0] S1000x128.size inb_S1000x128_S1000x128_0_0).emb y) = fB y
  refine congrArg fB (funext fun a => Fin.ext ?_)
  rw [Rect.emb_apply]
  match a with
  | ⟨0, _⟩ => show 0 + 1 * (y 0).val = (y 0).val; omega
  | ⟨1, _⟩ => show 0 + 1 * (y 1).val = (y 1).val; omega

/-- The word gather's payload at (l, c): the word table's row named by the first index row at l, column c — the
    assembled row's entry (l, c). -/
theorem word_payload_apply (fI : S4096x2x50.Idx → BitVec 32) (fA : S100000x128.Idx → Elt F .f32) (fB : S1000x128.Idx → Elt F .f32) (n : ℕ)
    (idx : S50.Idx → BitVec 32) (hidx : ∀ l, idx (ix1 l) = fI (ix3 (rowFin n) (0 : Fin 2) l))
    (hin : ∀ x, (idx x).toNat < S100000x128.size (gathers_S100000x128_S50x128).axis) (u : Fin 1) (l : Fin 50) (c : Fin 128) :
    SparseCore.gatherPayload gathers_S100000x128_S50x128 (View.read (Elt F) (wwS).view fA) (SparseCore.rows (F := F) idx rfl hin) (ix2 l c)
      = asmOf fI fA fB n (ix3 u l (⟨c.val, by omega⟩ : Fin 192)) := by
  unfold SparseCore.gatherPayload asmOf
  rw [read_wwS, Cert.Stack.Gk_word _ _ _ _ _ _ _ (by exact c.isLt)]
  refine congrArg fA (Eq.trans (gathers_idx_ix2 gathers_S100000x128_S50x128 _ l c) (funext fun b => Fin.ext ?_))
  match b with
  | ⟨0, _⟩ =>
    have hlt : (fI (ix3 (rowFin n) (0 : Fin 2) l)).toNat < 100000 := by have := hin (ix1 l); rw [hidx] at this; exact this
    have h1 : (SparseCore.rows (F := F) idx rfl hin l).val = (idx (ix1 l)).toNat := rows_val (F := F) idx rfl hin l l rfl
    exact (h1.trans (by rw [hidx])).trans (Cert.Lib.takeRow_of_lt 100000 _ (by norm_num) _ hlt).symm
  | ⟨1, _⟩ => rfl

/-- The feature gather's payload at (l, c): the widened feature table's row named by the second index row at l, column c. -/
theorem feat_payload_apply (fI : S4096x2x50.Idx → BitVec 32) (fB : S1000x128.Idx → Elt F .f32) (n : ℕ)
    (idx : S50.Idx → BitVec 32) (hidx : ∀ l, idx (ix1 l) = fI (ix3 (rowFin n) (1 : Fin 2) l))
    (hin : ∀ x, (idx x).toNat < S1000x128.size (gathers_S1000x128_S50x128).axis) (l : Fin 50) (c : Fin 128) :
    SparseCore.gatherPayload gathers_S1000x128_S50x128 (View.read (Elt F) (wfS).view fB) (SparseCore.rows (F := F) idx rfl hin) (ix2 l c)
      = rfOf fI fB n (ix2 l c) := by
  unfold SparseCore.gatherPayload rfOf
  rw [read_wfS]
  refine congrArg fB (Eq.trans (gathers_idx_ix2 gathers_S1000x128_S50x128 _ l c) (funext fun b => Fin.ext ?_))
  match b with
  | ⟨0, _⟩ =>
    have hlt : (fI (ix3 (rowFin n) (1 : Fin 2) l)).toNat < 1000 := by have := hin (ix1 l); rw [hidx] at this; exact this
    have h1 : (SparseCore.rows (F := F) idx rfl hin l).val = (idx (ix1 l)).toNat := rows_val (F := F) idx rfl hin l l rfl
    exact (h1.trans (by rw [hidx])).trans (Cert.Lib.takeRow_of_lt 1000 _ (by norm_num) _ hlt).symm
  | ⟨1, _⟩ => rfl

/-- Where the columns' view of an assembly buffer puts its entry (l, c): the buffer's entry (0, l, c). -/
theorem emb_asmCols (m : Memref sig .scVector .vmem S1x50x192 .f32) (l : Fin 50) (c : Fin 128) :
    (asmCols m).view.emb (ix2 l c) = m.view.emb (ix3 (0 : Fin 1) l (⟨c.val, by omega⟩ : Fin 192)) := by
  show m.view.emb ((Rect.unit (s := S1x50x192) ![0, 0, 0] S1x50x128.size inb_S1x50x192_S1x50x128_0_0_0).emb
    (Shape.reshapeEquiv squeezes_S1x50x128_S50x128.numel_eq (ix2 l c))) = _
  rw [reshapeEquiv_ix2_1ab]
  refine congrArg m.view.emb (funext fun a => Fin.ext ?_)
  rw [Rect.emb_apply]
  match a with
  | ⟨0, _⟩ => show 0 + 1 * 0 = 0; omega
  | ⟨1, _⟩ => show 0 + 1 * l.val = l.val; omega
  | ⟨2, _⟩ => show 0 + 1 * c.val = c.val; omega

section Deliver2

variable (d : Dev nD) (L : grid0.Coords)
variable (fI : Buf (Elt F) ((idxV).view.loc (thr d L))) (fA : Buf (Elt F) ((wwV).view.loc (thr d L))) (fB : Buf (Elt F) ((wfV).view.loc (thr d L)))
variable (q : PosShare TreeShare) (n : ℕ) (hn : n < 4096)

theorem word_deliver0 (fa : Buf (Elt F) ((asm0).view.loc (thr d L)))
    (hin : ∀ x, ((cixRow0 cix0).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix0).view (cixOf fI n)) rfl hin)) :
    (iprop((((asm0).view.loc (thr d L) ↦[(asmCols asm0).view.set]{fullShare} View.write (Elt F) (asmCols asm0).view fa g Finset.univ)
        ∗ ((cix0).view.loc (thr d L) ↦[(cixRow0 cix0).view.set]{fullShare} cixOf fI n))
      ∗ ((wwV).view.loc (thr d L) ↦[(wwS).view.set]{q} fA)) : sProp 𝕄) ⊢ DWord0 d L fI fA fB q n := by
  subst hg
  have e : ∀ i ∈ (asmCols asm0).view.set,
      View.write (Elt F) (asmCols asm0).view fa (SparseCore.gatherPayload gathers_S100000x128_S50x128 (View.read (Elt F) (wwS).view fA)
        (SparseCore.rows (View.read (Elt F) (cixRow0 cix0).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix0 _ l) hin 0 l c
  rw [pointsTo_congr e]

theorem feat_deliver0 (fr : Buf (Elt F) ((rf0).view.loc (thr d L)))
    (hin : ∀ x, ((cixRow1 cix0).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix0).view (cixOf fI n)) rfl hin)) :
    (iprop((((rf0).view.loc (thr d L) ↦[(rf0).view.set]{fullShare} (rf0).view.writes (Elt F) fr [⟨Rect.whole S50x128, g⟩])
        ∗ ((cix0).view.loc (thr d L) ↦[(cixRow1 cix0).view.set]{fullShare} cixOf fI n))
      ∗ ((wfV).view.loc (thr d L) ↦[(wfS).view.set]{q} fB)) : sProp 𝕄) ⊢ DFeat0 d L fI fB q n := by
  subst hg
  have e : (rf0).view.writes (Elt F) fr [⟨Rect.whole S50x128, SparseCore.gatherPayload gathers_S1000x128_S50x128 (View.read (Elt F) (wfS).view fB)
      (SparseCore.rows (View.read (Elt F) (cixRow1 cix0).view (cixOf fI n)) rfl hin)⟩] = rfOf fI fB n := by
    funext i
    obtain ⟨l, c, rfl⟩ : ∃ (l : Fin 50) (c : Fin 128), i = ix2 l c := ⟨i 0, i 1, eq_ix2 i⟩
    have hi : ((rf0).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix0 _ l) hin l c
  rw [e, show (rf0).view.set = Finset.univ from View.set_whole _]

theorem word_deliver1 (fa : Buf (Elt F) ((asm1).view.loc (thr d L)))
    (hin : ∀ x, ((cixRow0 cix1).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix1).view (cixOf fI n)) rfl hin)) :
    (iprop((((asm1).view.loc (thr d L) ↦[(asmCols asm1).view.set]{fullShare} View.write (Elt F) (asmCols asm1).view fa g Finset.univ)
        ∗ ((cix1).view.loc (thr d L) ↦[(cixRow0 cix1).view.set]{fullShare} cixOf fI n))
      ∗ ((wwV).view.loc (thr d L) ↦[(wwS).view.set]{q} fA)) : sProp 𝕄) ⊢ DWord1 d L fI fA fB q n := by
  subst hg
  have e : ∀ i ∈ (asmCols asm1).view.set,
      View.write (Elt F) (asmCols asm1).view fa (SparseCore.gatherPayload gathers_S100000x128_S50x128 (View.read (Elt F) (wwS).view fA)
        (SparseCore.rows (View.read (Elt F) (cixRow0 cix1).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix1 _ l) hin 0 l c
  rw [pointsTo_congr e]

theorem feat_deliver1 (fr : Buf (Elt F) ((rf1).view.loc (thr d L)))
    (hin : ∀ x, ((cixRow1 cix1).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix1).view (cixOf fI n)) rfl hin)) :
    (iprop((((rf1).view.loc (thr d L) ↦[(rf1).view.set]{fullShare} (rf1).view.writes (Elt F) fr [⟨Rect.whole S50x128, g⟩])
        ∗ ((cix1).view.loc (thr d L) ↦[(cixRow1 cix1).view.set]{fullShare} cixOf fI n))
      ∗ ((wfV).view.loc (thr d L) ↦[(wfS).view.set]{q} fB)) : sProp 𝕄) ⊢ DFeat1 d L fI fB q n := by
  subst hg
  have e : (rf1).view.writes (Elt F) fr [⟨Rect.whole S50x128, SparseCore.gatherPayload gathers_S1000x128_S50x128 (View.read (Elt F) (wfS).view fB)
      (SparseCore.rows (View.read (Elt F) (cixRow1 cix1).view (cixOf fI n)) rfl hin)⟩] = rfOf fI fB n := by
    funext i
    obtain ⟨l, c, rfl⟩ : ∃ (l : Fin 50) (c : Fin 128), i = ix2 l c := ⟨i 0, i 1, eq_ix2 i⟩
    have hi : ((rf1).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix1 _ l) hin l c
  rw [e, show (rf1).view.set = Finset.univ from View.set_whole _]

theorem word_deliver2 (fa : Buf (Elt F) ((asm2).view.loc (thr d L)))
    (hin : ∀ x, ((cixRow0 cix2).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix2).view (cixOf fI n)) rfl hin)) :
    (iprop((((asm2).view.loc (thr d L) ↦[(asmCols asm2).view.set]{fullShare} View.write (Elt F) (asmCols asm2).view fa g Finset.univ)
        ∗ ((cix2).view.loc (thr d L) ↦[(cixRow0 cix2).view.set]{fullShare} cixOf fI n))
      ∗ ((wwV).view.loc (thr d L) ↦[(wwS).view.set]{q} fA)) : sProp 𝕄) ⊢ DWord2 d L fI fA fB q n := by
  subst hg
  have e : ∀ i ∈ (asmCols asm2).view.set,
      View.write (Elt F) (asmCols asm2).view fa (SparseCore.gatherPayload gathers_S100000x128_S50x128 (View.read (Elt F) (wwS).view fA)
        (SparseCore.rows (View.read (Elt F) (cixRow0 cix2).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix2 _ l) hin 0 l c
  rw [pointsTo_congr e]

theorem feat_deliver2 (fr : Buf (Elt F) ((rf2).view.loc (thr d L)))
    (hin : ∀ x, ((cixRow1 cix2).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix2).view (cixOf fI n)) rfl hin)) :
    (iprop((((rf2).view.loc (thr d L) ↦[(rf2).view.set]{fullShare} (rf2).view.writes (Elt F) fr [⟨Rect.whole S50x128, g⟩])
        ∗ ((cix2).view.loc (thr d L) ↦[(cixRow1 cix2).view.set]{fullShare} cixOf fI n))
      ∗ ((wfV).view.loc (thr d L) ↦[(wfS).view.set]{q} fB)) : sProp 𝕄) ⊢ DFeat2 d L fI fB q n := by
  subst hg
  have e : (rf2).view.writes (Elt F) fr [⟨Rect.whole S50x128, SparseCore.gatherPayload gathers_S1000x128_S50x128 (View.read (Elt F) (wfS).view fB)
      (SparseCore.rows (View.read (Elt F) (cixRow1 cix2).view (cixOf fI n)) rfl hin)⟩] = rfOf fI fB n := by
    funext i
    obtain ⟨l, c, rfl⟩ : ∃ (l : Fin 50) (c : Fin 128), i = ix2 l c := ⟨i 0, i 1, eq_ix2 i⟩
    have hi : ((rf2).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix2 _ l) hin l c
  rw [e, show (rf2).view.set = Finset.univ from View.set_whole _]

theorem word_deliver3 (fa : Buf (Elt F) ((asm3).view.loc (thr d L)))
    (hin : ∀ x, ((cixRow0 cix3).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix3).view (cixOf fI n)) rfl hin)) :
    (iprop((((asm3).view.loc (thr d L) ↦[(asmCols asm3).view.set]{fullShare} View.write (Elt F) (asmCols asm3).view fa g Finset.univ)
        ∗ ((cix3).view.loc (thr d L) ↦[(cixRow0 cix3).view.set]{fullShare} cixOf fI n))
      ∗ ((wwV).view.loc (thr d L) ↦[(wwS).view.set]{q} fA)) : sProp 𝕄) ⊢ DWord3 d L fI fA fB q n := by
  subst hg
  have e : ∀ i ∈ (asmCols asm3).view.set,
      View.write (Elt F) (asmCols asm3).view fa (SparseCore.gatherPayload gathers_S100000x128_S50x128 (View.read (Elt F) (wwS).view fA)
        (SparseCore.rows (View.read (Elt F) (cixRow0 cix3).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix3 _ l) hin 0 l c
  rw [pointsTo_congr e]

theorem feat_deliver3 (fr : Buf (Elt F) ((rf3).view.loc (thr d L)))
    (hin : ∀ x, ((cixRow1 cix3).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix3).view (cixOf fI n)) rfl hin)) :
    (iprop((((rf3).view.loc (thr d L) ↦[(rf3).view.set]{fullShare} (rf3).view.writes (Elt F) fr [⟨Rect.whole S50x128, g⟩])
        ∗ ((cix3).view.loc (thr d L) ↦[(cixRow1 cix3).view.set]{fullShare} cixOf fI n))
      ∗ ((wfV).view.loc (thr d L) ↦[(wfS).view.set]{q} fB)) : sProp 𝕄) ⊢ DFeat3 d L fI fB q n := by
  subst hg
  have e : (rf3).view.writes (Elt F) fr [⟨Rect.whole S50x128, SparseCore.gatherPayload gathers_S1000x128_S50x128 (View.read (Elt F) (wfS).view fB)
      (SparseCore.rows (View.read (Elt F) (cixRow1 cix3).view (cixOf fI n)) rfl hin)⟩] = rfOf fI fB n := by
    funext i
    obtain ⟨l, c, rfl⟩ : ∃ (l : Fin 50) (c : Fin 128), i = ix2 l c := ⟨i 0, i 1, eq_ix2 i⟩
    have hi : ((rf3).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix3 _ l) hin l c
  rw [e, show (rf3).view.set = Finset.univ from View.set_whole _]

end Deliver2

/-! ## The finished row delivered -/

/-- Where the row slice of the result at row n puts its entry (u, l, c): entry (n, 0, l, c) of the result. -/
theorem emb_outRowM (n : ℕ) (hn : n < 4096) (h : ∀ a, (![n, 0, 0, 0] : Fin 4 → ℕ) a + S1x1x50x192.size a ≤ S4096x1x50x192.size a)
    (u : Fin 1) (l : Fin 50) (c : Fin 192) :
    (outRowM ![n, 0, 0, 0] h).view.emb (ix3 u l c) = (ix4 (rowFin n) (0 : Fin 1) l c : S4096x1x50x192.Idx) := by
  show (Rect.unit (s := S4096x1x50x192) ![n, 0, 0, 0] S1x1x50x192.size h).emb
    (Shape.reshapeEquiv squeezes_S1x1x50x192_S1x50x192.numel_eq (ix3 u l c)) = _
  rw [reshapeEquiv_ix3_1abc]
  funext a
  refine Fin.ext ?_
  rw [Rect.emb_apply]
  match a with
  | ⟨0, _⟩ => have hr := rowFin_val hn; show n + 1 * 0 = (rowFin n).val; omega
  | ⟨1, _⟩ => show 0 + 1 * u.val = 0; omega
  | ⟨2, _⟩ => show 0 + 1 * l.val = l.val; omega
  | ⟨3, _⟩ => show 0 + 1 * c.val = c.val; omega

section Deliver3

variable (d : Dev nD) (L : grid0.Coords)
variable (fI : Buf (Elt F) ((idxV).view.loc (thr d L))) (fA : Buf (Elt F) ((wwV).view.loc (thr d L))) (fB : Buf (Elt F) ((wfV).view.loc (thr d L)))
variable (n : ℕ) (hn : n < 4096)

include hn in
theorem out_deliver0 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm0).view (asmOf fI fA fB n))) :
    (iprop(((outV).view.loc (thr d L) ↦[(outRowM o h).view.set]{fullShare} View.write (Elt F) (outRowM o h).view fO g Finset.univ)
        ∗ ((asm0).view.loc (thr d L) ↦{fullShare} asmOf fI fA fB n)) : sProp 𝕄) ⊢ DOut0 d L fI fA fB n := by
  subst ho hg
  have e : ∀ i ∈ (outRowM ![n, 0, 0, 0] h).view.set,
      View.write (Elt F) (outRowM ![n, 0, 0, 0] h).view fO (ReadAs.same.apply (View.read (Elt F) (asm0).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver1 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm1).view (asmOf fI fA fB n))) :
    (iprop(((outV).view.loc (thr d L) ↦[(outRowM o h).view.set]{fullShare} View.write (Elt F) (outRowM o h).view fO g Finset.univ)
        ∗ ((asm1).view.loc (thr d L) ↦{fullShare} asmOf fI fA fB n)) : sProp 𝕄) ⊢ DOut1 d L fI fA fB n := by
  subst ho hg
  have e : ∀ i ∈ (outRowM ![n, 0, 0, 0] h).view.set,
      View.write (Elt F) (outRowM ![n, 0, 0, 0] h).view fO (ReadAs.same.apply (View.read (Elt F) (asm1).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver2 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm2).view (asmOf fI fA fB n))) :
    (iprop(((outV).view.loc (thr d L) ↦[(outRowM o h).view.set]{fullShare} View.write (Elt F) (outRowM o h).view fO g Finset.univ)
        ∗ ((asm2).view.loc (thr d L) ↦{fullShare} asmOf fI fA fB n)) : sProp 𝕄) ⊢ DOut2 d L fI fA fB n := by
  subst ho hg
  have e : ∀ i ∈ (outRowM ![n, 0, 0, 0] h).view.set,
      View.write (Elt F) (outRowM ![n, 0, 0, 0] h).view fO (ReadAs.same.apply (View.read (Elt F) (asm2).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver3 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm3).view (asmOf fI fA fB n))) :
    (iprop(((outV).view.loc (thr d L) ↦[(outRowM o h).view.set]{fullShare} View.write (Elt F) (outRowM o h).view fO g Finset.univ)
        ∗ ((asm3).view.loc (thr d L) ↦{fullShare} asmOf fI fA fB n)) : sProp 𝕄) ⊢ DOut3 d L fI fA fB n := by
  subst ho hg
  have e : ∀ i ∈ (outRowM ![n, 0, 0, 0] h).view.set,
      View.write (Elt F) (outRowM ![n, 0, 0, 0] h).view fO (ReadAs.same.apply (View.read (Elt F) (asm3).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

end Deliver3

/-! ## The row loop: the feature buffer's first 64 columns copied into the assembly buffer's last 64 -/

/-- An entry of row t whose column lies in a strip of sixteen from c is in the strip's rectangle. -/
theorem mem_strip (t c : ℕ) (h : ∀ a, (![0, t, c] : Fin 3 → ℕ) a + S1x1x16.size a ≤ S1x50x192.size a) (j : S1x50x192.Idx)
    (hj1 : (j 1).val = t) (hlo : c ≤ (j 2).val) (hhi : (j 2).val < c + 16) :
    j ∈ (Rect.unit (s := S1x50x192) ![0, t, c] S1x1x16.size h).set := by
  rw [Rect.mem_set_unit]
  intro a
  match a with
  | ⟨0, _⟩ => have h0 : (j 0).val < 1 := (j 0).isLt; simp; omega
  | ⟨1, _⟩ => simp; omega
  | ⟨2, hlt⟩ => have e2 : (j ⟨2, hlt⟩).val = (j 2).val := rfl; simp; omega

/-- Two shape casts, to a flat vector of sixteen and back to 1 × 1 × 16, read at (a, b, k): the 1 × 16 vector at (0, k). -/
theorem pay_apply (v : FVec F S1x16 .f32) (a b : Fin 1) (k : Fin 16) :
    shapeCast S1x1x16 (shapeCast S16 v shapeCasts_S1x16_S16) shapeCasts_S16_S1x1x16 (ix3 a b k) = v (ix2 (0 : Fin 1) k) := by
  have h0 : a.val < 1 := a.isLt
  have h1 : b.val < 1 := b.isLt
  refine (shapeCast_apply _ _ (ix3 a b k) (ix1 k) (by
    rw [Shape.rowMajor_val_three, Shape.rowMajor_val_one]
    show k.val = (a.val * 1 + b.val) * 16 + k.val
    omega)).trans ?_
  exact shapeCast_apply _ _ (ix1 k) (ix2 (0 : Fin 1) k) (by
    rw [Shape.rowMajor_val_two, Shape.rowMajor_val_one]
    show 0 * 16 + k.val = k.val
    omega)

/-- One strip of the copy: sixteen entries of the feature buffer's row t from column c, through the two shape casts,
    are the assembled row's entries (0, t, 128 + c …). -/
theorem pay_strip (fI : S4096x2x50.Idx → BitVec 32) (fA : S100000x128.Idx → Elt F .f32) (fB : S1000x128.Idx → Elt F .f32) (n t c ca : ℕ)
    (hc : c + 16 ≤ 64) (hca : ca = 128 + c)
    (orf : Fin 2 → ℕ) (hr : ∀ a, orf a + S1x16.size a ≤ S50x128.size a) (er : orf = ![t, c])
    (oa : Fin 3 → ℕ) (ha : ∀ a, oa a + S1x1x16.size a ≤ S1x50x192.size a) (ea : oa = ![0, t, ca])
    (vr : FVec F S1x16 .f32) (hvr : ∀ y, vr y = rfOf fI fB n ((Rect.unit (s := S50x128) orf S1x16.size hr).toLoadRect.idx y))
    (x : S1x1x16.Idx) :
    shapeCast S1x1x16 (shapeCast S16 vr shapeCasts_S1x16_S16) shapeCasts_S16_S1x1x16 x
      = asmOf fI fA fB n ((Rect.unit (s := S1x50x192) oa S1x1x16.size ha).emb x) := by
  subst er ea hca
  obtain ⟨a0, a1, k, rfl⟩ : ∃ (a0 a1 : Fin 1) (k : Fin 16), x = ix3 a0 a1 k := ⟨x 0, x 1, x 2, eq_ix3 x⟩
  have h0 : a0.val < 1 := a0.isLt
  have h1 : a1.val < 1 := a1.isLt
  have h2 : k.val < 16 := k.isLt
  have ht : t + 1 ≤ 50 := ha 1
  refine (pay_apply vr a0 a1 k).trans ((hvr _).trans ?_)
  -- both sides at explicit coordinates
  have eL : (Rect.unit (s := S50x128) ![t, c] S1x16.size hr).toLoadRect.idx (ix2 (0 : Fin 1) k)
      = (ix2 (⟨t, by omega⟩ : Fin 50) (⟨c + k.val, by omega⟩ : Fin 128) : S50x128.Idx) := by
    funext a
    refine Fin.ext ?_
    match a with
    | ⟨0, _⟩ => show t + 1 * 0 = t; omega
    | ⟨1, _⟩ => show c + 1 * k.val = c + k.val; omega
  have eR : (Rect.unit (s := S1x50x192) ![0, t, 128 + c] S1x1x16.size ha).emb (ix3 a0 a1 k)
      = (ix3 (0 : Fin 1) (⟨t, by omega⟩ : Fin 50) (⟨128 + c + k.val, by omega⟩ : Fin 192) : S1x50x192.Idx) := by
    funext a
    refine Fin.ext ?_
    rw [Rect.emb_apply]
    match a with
    | ⟨0, _⟩ => show 0 + 1 * a0.val = 0; omega
    | ⟨1, _⟩ => show t + 1 * a1.val = t; omega
    | ⟨2, _⟩ => show 128 + c + 1 * k.val = 128 + c + k.val; omega
  rw [eL, eR]
  unfold rfOf asmOf
  rw [Cert.Stack.Gk_feat _ _ _ _ _ _ _ (by show 128 ≤ 128 + c + k.val; omega)]
  refine congrArg fB (funext fun b => Fin.ext ?_)
  match b with
  | ⟨0, _⟩ => rfl
  | ⟨1, _⟩ => show c + k.val = 128 + c + k.val - 128; omega

/-- One trip of the copy, for any four strips at columns 128, 144, 160, 176 of row t whose payloads are the target
    function there: rows below t + 1 are done if rows below t were. -/
theorem rows_core {κ : Kind} {sp : Space} (v : View sig κ sp S1x50x192 .f32) (f : v.ty.Contents (Elt F))
    (G : S1x50x192.Idx → Elt F .f32) (t : ℕ)
    (o1 o2 o3 o4 : Fin 3 → ℕ)
    (h1 : ∀ a, o1 a + S1x1x16.size a ≤ S1x50x192.size a) (h2 : ∀ a, o2 a + S1x1x16.size a ≤ S1x50x192.size a)
    (h3 : ∀ a, o3 a + S1x1x16.size a ≤ S1x50x192.size a) (h4 : ∀ a, o4 a + S1x1x16.size a ≤ S1x50x192.size a)
    (e1 : o1 = ![0, t, 128]) (e2 : o2 = ![0, t, 144]) (e3 : o3 = ![0, t, 160]) (e4 : o4 = ![0, t, 176])
    (w1 w2 w3 w4 : S1x1x16.Idx → Elt F .f32)
    (hw1 : ∀ x, w1 x = G ((Rect.unit (s := S1x50x192) o1 S1x1x16.size h1).emb x))
    (hw2 : ∀ x, w2 x = G ((Rect.unit (s := S1x50x192) o2 S1x1x16.size h2).emb x))
    (hw3 : ∀ x, w3 x = G ((Rect.unit (s := S1x50x192) o3 S1x1x16.size h3).emb x))
    (hw4 : ∀ x, w4 x = G ((Rect.unit (s := S1x50x192) o4 S1x1x16.size h4).emb x))
    (hf : ∀ j : S1x50x192.Idx, (j 1).val < t → 128 ≤ (j 2).val → v.read (Elt F) f j = G j) :
    ∀ j : S1x50x192.Idx, (j 1).val < t + 1 → 128 ≤ (j 2).val →
      v.read (Elt F) (v.writes (Elt F) f [⟨Rect.unit (s := S1x50x192) o4 S1x1x16.size h4, w4⟩, ⟨Rect.unit (s := S1x50x192) o3 S1x1x16.size h3, w3⟩,
        ⟨Rect.unit (s := S1x50x192) o2 S1x1x16.size h2, w2⟩, ⟨Rect.unit (s := S1x50x192) o1 S1x1x16.size h1, w1⟩]) j = G j := by
  subst e1 e2 e3 e4
  intro j hj1 hj2
  by_cases hc : ∃ p ∈ ([⟨Rect.unit (s := S1x50x192) ![0, t, 176] S1x1x16.size h4, w4⟩, ⟨Rect.unit (s := S1x50x192) ![0, t, 160] S1x1x16.size h3, w3⟩,
      ⟨Rect.unit (s := S1x50x192) ![0, t, 144] S1x1x16.size h2, w2⟩, ⟨Rect.unit (s := S1x50x192) ![0, t, 128] S1x1x16.size h1, w1⟩] : List (View.Piece (Elt F) S1x50x192 .f32)),
      j ∈ p.1.set
  · refine View.read_writes_apply_of_pieces v f G _ ?_ j hc
    intro p hp x
    simp only [List.mem_cons, List.mem_nil_iff, or_false] at hp
    rcases hp with rfl | rfl | rfl | rfl
    · exact hw4 x
    · exact hw3 x
    · exact hw2 x
    · exact hw1 x
  · have hn : ∀ p ∈ ([⟨Rect.unit (s := S1x50x192) ![0, t, 176] S1x1x16.size h4, w4⟩, ⟨Rect.unit (s := S1x50x192) ![0, t, 160] S1x1x16.size h3, w3⟩,
        ⟨Rect.unit (s := S1x50x192) ![0, t, 144] S1x1x16.size h2, w2⟩, ⟨Rect.unit (s := S1x50x192) ![0, t, 128] S1x1x16.size h1, w1⟩] : List (View.Piece (Elt F) S1x50x192 .f32)),
        j ∉ p.1.set := fun p hp hj => hc ⟨p, hp, hj⟩
    rw [View.read_writes_apply_of_forall_not_mem v f j _ hn]
    refine hf j ?_ hj2
    by_contra hlt
    have hjt : (j 1).val = t := by omega
    have hj192 : (j 2).val < 192 := (j 2).isLt
    refine hc ?_
    by_cases c1 : (j 2).val < 144
    · exact ⟨_, List.mem_cons_of_mem _ (List.mem_cons_of_mem _ (List.mem_cons_of_mem _ List.mem_cons_self)), mem_strip t 128 h1 j hjt hj2 (by omega)⟩
    · by_cases c2 : (j 2).val < 160
      · exact ⟨_, List.mem_cons_of_mem _ (List.mem_cons_of_mem _ List.mem_cons_self), mem_strip t 144 h2 j hjt (by omega) (by omega)⟩
      · by_cases c3 : (j 2).val < 176
        · exact ⟨_, List.mem_cons_of_mem _ List.mem_cons_self, mem_strip t 160 h3 j hjt (by omega) (by omega)⟩
        · exact ⟨_, List.mem_cons_self, mem_strip t 176 h4 j hjt (by omega) (by omega)⟩

/-- Slot 0: rows below t of the assembly buffer's last 64 columns hold the finished row's entries. -/
def RowsDone0 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm0).view.loc (thr d L))) : Prop :=
  ∀ j : S1x50x192.Idx, (j 1).val < t → 128 ≤ (j 2).val → fa j = asmOf fI fA fB n j

theorem rows_zero0 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm0).view.loc (thr d L))) : RowsDone0 d L fI fA fB n 0 fa :=
  fun _ h _ => absurd h (Nat.not_lt_zero _)

theorem rows_step0 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t2_loop.trips) (fa : Buf (Elt F) ((asm0).view.loc (thr d L)))
    (h : RowsDone0 d L fI fA fB n t.val fa) :
    RowsDone0 d L fI fA fB n (t.val + 1) ((asm0).view.writes (Elt F) fa
      [⟨Rect.unit (s := S1x50x192) (k0_off10 t) S1x1x16.size (k0_off10_inb t),
          k0_pay4 (View.readAt (Elt F) (rf0).view (Rect.unit (s := S50x128) (k0_off9 t) S1x16.size (k0_off9_inb t)).toLoadRect (rfOf fI fB n))⟩,
        ⟨Rect.unit (s := S1x50x192) (k0_off8 t) S1x1x16.size (k0_off8_inb t),
          k0_pay3 (View.readAt (Elt F) (rf0).view (Rect.unit (s := S50x128) (k0_off7 t) S1x16.size (k0_off7_inb t)).toLoadRect (rfOf fI fB n))⟩,
        ⟨Rect.unit (s := S1x50x192) (k0_off6 t) S1x1x16.size (k0_off6_inb t),
          k0_pay2 (View.readAt (Elt F) (rf0).view (Rect.unit (s := S50x128) (k0_off5 t) S1x16.size (k0_off5_inb t)).toLoadRect (rfOf fI fB n))⟩,
        ⟨Rect.unit (s := S1x50x192) (k0_off4 t) S1x1x16.size (k0_off4_inb t),
          k0_pay1 (View.readAt (Elt F) (rf0).view (Rect.unit (s := S50x128) (k0_off3 t) S1x16.size (k0_off3_inb t)).toLoadRect (rfOf fI fB n))⟩]) :=
  rows_core (asm0).view fa (asmOf fI fA fB n) t.val (k0_off4 t) (k0_off6 t) (k0_off8 t) (k0_off10 t)
    (k0_off4_inb t) (k0_off6_inb t) (k0_off8_inb t) (k0_off10_inb t)
    (k0_off4_eq t) (k0_off6_eq t) (k0_off8_eq t) (k0_off10_eq t) _ _ _ _
    (fun x => pay_strip fI fA fB n t.val 0 128 (by norm_num) rfl (k0_off3 t) (k0_off3_inb t) (k0_off3_eq t)
      (k0_off4 t) (k0_off4_inb t) (k0_off4_eq t) _ (fun _ => rfl) x)
    (fun x => pay_strip fI fA fB n t.val 16 144 (by norm_num) rfl (k0_off5 t) (k0_off5_inb t) (k0_off5_eq t)
      (k0_off6 t) (k0_off6_inb t) (k0_off6_eq t) _ (fun _ => rfl) x)
    (fun x => pay_strip fI fA fB n t.val 32 160 (by norm_num) rfl (k0_off7 t) (k0_off7_inb t) (k0_off7_eq t)
      (k0_off8 t) (k0_off8_inb t) (k0_off8_eq t) _ (fun _ => rfl) x)
    (fun x => pay_strip fI fA fB n t.val 48 176 (by norm_num) rfl (k0_off9 t) (k0_off9_inb t) (k0_off9_eq t)
      (k0_off10 t) (k0_off10_inb t) (k0_off10_eq t) _ (fun _ => rfl) x)
    h

theorem rows_done0 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm0).view.loc (thr d L))) (h : RowsDone0 d L fI fA fB n 50 fa) :
    ((asm0).view.loc (thr d L) ↦[Finset.univ \ (asmCols asm0).view.set]{fullShare} fa : sProp 𝕄)
      ⊢ (asm0).view.loc (thr d L) ↦[Finset.univ \ (asmCols asm0).view.set]{fullShare} asmOf fI fA fB n := by
  have e : ∀ i ∈ Finset.univ \ (asmCols asm0).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 1: rows below t of the assembly buffer's last 64 columns hold the finished row's entries. -/
def RowsDone1 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm1).view.loc (thr d L))) : Prop :=
  ∀ j : S1x50x192.Idx, (j 1).val < t → 128 ≤ (j 2).val → fa j = asmOf fI fA fB n j

theorem rows_zero1 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm1).view.loc (thr d L))) : RowsDone1 d L fI fA fB n 0 fa :=
  fun _ h _ => absurd h (Nat.not_lt_zero _)

theorem rows_step1 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t3_loop.trips) (fa : Buf (Elt F) ((asm1).view.loc (thr d L)))
    (h : RowsDone1 d L fI fA fB n t.val fa) :
    RowsDone1 d L fI fA fB n (t.val + 1) ((asm1).view.writes (Elt F) fa
      [⟨Rect.unit (s := S1x50x192) (k0_off20 t) S1x1x16.size (k0_off20_inb t),
          k0_pay8 (View.readAt (Elt F) (rf1).view (Rect.unit (s := S50x128) (k0_off19 t) S1x16.size (k0_off19_inb t)).toLoadRect (rfOf fI fB n))⟩,
        ⟨Rect.unit (s := S1x50x192) (k0_off18 t) S1x1x16.size (k0_off18_inb t),
          k0_pay7 (View.readAt (Elt F) (rf1).view (Rect.unit (s := S50x128) (k0_off17 t) S1x16.size (k0_off17_inb t)).toLoadRect (rfOf fI fB n))⟩,
        ⟨Rect.unit (s := S1x50x192) (k0_off16 t) S1x1x16.size (k0_off16_inb t),
          k0_pay6 (View.readAt (Elt F) (rf1).view (Rect.unit (s := S50x128) (k0_off15 t) S1x16.size (k0_off15_inb t)).toLoadRect (rfOf fI fB n))⟩,
        ⟨Rect.unit (s := S1x50x192) (k0_off14 t) S1x1x16.size (k0_off14_inb t),
          k0_pay5 (View.readAt (Elt F) (rf1).view (Rect.unit (s := S50x128) (k0_off13 t) S1x16.size (k0_off13_inb t)).toLoadRect (rfOf fI fB n))⟩]) :=
  rows_core (asm1).view fa (asmOf fI fA fB n) t.val (k0_off14 t) (k0_off16 t) (k0_off18 t) (k0_off20 t)
    (k0_off14_inb t) (k0_off16_inb t) (k0_off18_inb t) (k0_off20_inb t)
    (k0_off14_eq t) (k0_off16_eq t) (k0_off18_eq t) (k0_off20_eq t) _ _ _ _
    (fun x => pay_strip fI fA fB n t.val 0 128 (by norm_num) rfl (k0_off13 t) (k0_off13_inb t) (k0_off13_eq t)
      (k0_off14 t) (k0_off14_inb t) (k0_off14_eq t) _ (fun _ => rfl) x)
    (fun x => pay_strip fI fA fB n t.val 16 144 (by norm_num) rfl (k0_off15 t) (k0_off15_inb t) (k0_off15_eq t)
      (k0_off16 t) (k0_off16_inb t) (k0_off16_eq t) _ (fun _ => rfl) x)
    (fun x => pay_strip fI fA fB n t.val 32 160 (by norm_num) rfl (k0_off17 t) (k0_off17_inb t) (k0_off17_eq t)
      (k0_off18 t) (k0_off18_inb t) (k0_off18_eq t) _ (fun _ => rfl) x)
    (fun x => pay_strip fI fA fB n t.val 48 176 (by norm_num) rfl (k0_off19 t) (k0_off19_inb t) (k0_off19_eq t)
      (k0_off20 t) (k0_off20_inb t) (k0_off20_eq t) _ (fun _ => rfl) x)
    h

theorem rows_done1 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm1).view.loc (thr d L))) (h : RowsDone1 d L fI fA fB n 50 fa) :
    ((asm1).view.loc (thr d L) ↦[Finset.univ \ (asmCols asm1).view.set]{fullShare} fa : sProp 𝕄)
      ⊢ (asm1).view.loc (thr d L) ↦[Finset.univ \ (asmCols asm1).view.set]{fullShare} asmOf fI fA fB n := by
  have e : ∀ i ∈ Finset.univ \ (asmCols asm1).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 2: rows below t of the assembly buffer's last 64 columns hold the finished row's entries. -/
def RowsDone2 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm2).view.loc (thr d L))) : Prop :=
  ∀ j : S1x50x192.Idx, (j 1).val < t → 128 ≤ (j 2).val → fa j = asmOf fI fA fB n j

theorem rows_zero2 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm2).view.loc (thr d L))) : RowsDone2 d L fI fA fB n 0 fa :=
  fun _ h _ => absurd h (Nat.not_lt_zero _)

theorem rows_step2 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t4_loop.trips) (fa : Buf (Elt F) ((asm2).view.loc (thr d L)))
    (h : RowsDone2 d L fI fA fB n t.val fa) :
    RowsDone2 d L fI fA fB n (t.val + 1) ((asm2).view.writes (Elt F) fa
      [⟨Rect.unit (s := S1x50x192) (k0_off29 t) S1x1x16.size (k0_off29_inb t),
          k0_pay12 (View.readAt (Elt F) (rf2).view (Rect.unit (s := S50x128) (k0_off28 t) S1x16.size (k0_off28_inb t)).toLoadRect (rfOf fI fB n))⟩,
        ⟨Rect.unit (s := S1x50x192) (k0_off27 t) S1x1x16.size (k0_off27_inb t),
          k0_pay11 (View.readAt (Elt F) (rf2).view (Rect.unit (s := S50x128) (k0_off26 t) S1x16.size (k0_off26_inb t)).toLoadRect (rfOf fI fB n))⟩,
        ⟨Rect.unit (s := S1x50x192) (k0_off25 t) S1x1x16.size (k0_off25_inb t),
          k0_pay10 (View.readAt (Elt F) (rf2).view (Rect.unit (s := S50x128) (k0_off24 t) S1x16.size (k0_off24_inb t)).toLoadRect (rfOf fI fB n))⟩,
        ⟨Rect.unit (s := S1x50x192) (k0_off23 t) S1x1x16.size (k0_off23_inb t),
          k0_pay9 (View.readAt (Elt F) (rf2).view (Rect.unit (s := S50x128) (k0_off22 t) S1x16.size (k0_off22_inb t)).toLoadRect (rfOf fI fB n))⟩]) :=
  rows_core (asm2).view fa (asmOf fI fA fB n) t.val (k0_off23 t) (k0_off25 t) (k0_off27 t) (k0_off29 t)
    (k0_off23_inb t) (k0_off25_inb t) (k0_off27_inb t) (k0_off29_inb t)
    (k0_off23_eq t) (k0_off25_eq t) (k0_off27_eq t) (k0_off29_eq t) _ _ _ _
    (fun x => pay_strip fI fA fB n t.val 0 128 (by norm_num) rfl (k0_off22 t) (k0_off22_inb t) (k0_off22_eq t)
      (k0_off23 t) (k0_off23_inb t) (k0_off23_eq t) _ (fun _ => rfl) x)
    (fun x => pay_strip fI fA fB n t.val 16 144 (by norm_num) rfl (k0_off24 t) (k0_off24_inb t) (k0_off24_eq t)
      (k0_off25 t) (k0_off25_inb t) (k0_off25_eq t) _ (fun _ => rfl) x)
    (fun x => pay_strip fI fA fB n t.val 32 160 (by norm_num) rfl (k0_off26 t) (k0_off26_inb t) (k0_off26_eq t)
      (k0_off27 t) (k0_off27_inb t) (k0_off27_eq t) _ (fun _ => rfl) x)
    (fun x => pay_strip fI fA fB n t.val 48 176 (by norm_num) rfl (k0_off28 t) (k0_off28_inb t) (k0_off28_eq t)
      (k0_off29 t) (k0_off29_inb t) (k0_off29_eq t) _ (fun _ => rfl) x)
    h

theorem rows_done2 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm2).view.loc (thr d L))) (h : RowsDone2 d L fI fA fB n 50 fa) :
    ((asm2).view.loc (thr d L) ↦[Finset.univ \ (asmCols asm2).view.set]{fullShare} fa : sProp 𝕄)
      ⊢ (asm2).view.loc (thr d L) ↦[Finset.univ \ (asmCols asm2).view.set]{fullShare} asmOf fI fA fB n := by
  have e : ∀ i ∈ Finset.univ \ (asmCols asm2).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 3: rows below t of the assembly buffer's last 64 columns hold the finished row's entries. -/
def RowsDone3 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm3).view.loc (thr d L))) : Prop :=
  ∀ j : S1x50x192.Idx, (j 1).val < t → 128 ≤ (j 2).val → fa j = asmOf fI fA fB n j

theorem rows_zero3 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm3).view.loc (thr d L))) : RowsDone3 d L fI fA fB n 0 fa :=
  fun _ h _ => absurd h (Nat.not_lt_zero _)

theorem rows_step3 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t5_loop.trips) (fa : Buf (Elt F) ((asm3).view.loc (thr d L)))
    (h : RowsDone3 d L fI fA fB n t.val fa) :
    RowsDone3 d L fI fA fB n (t.val + 1) ((asm3).view.writes (Elt F) fa
      [⟨Rect.unit (s := S1x50x192) (k0_off38 t) S1x1x16.size (k0_off38_inb t),
          k0_pay16 (View.readAt (Elt F) (rf3).view (Rect.unit (s := S50x128) (k0_off37 t) S1x16.size (k0_off37_inb t)).toLoadRect (rfOf fI fB n))⟩,
        ⟨Rect.unit (s := S1x50x192) (k0_off36 t) S1x1x16.size (k0_off36_inb t),
          k0_pay15 (View.readAt (Elt F) (rf3).view (Rect.unit (s := S50x128) (k0_off35 t) S1x16.size (k0_off35_inb t)).toLoadRect (rfOf fI fB n))⟩,
        ⟨Rect.unit (s := S1x50x192) (k0_off34 t) S1x1x16.size (k0_off34_inb t),
          k0_pay14 (View.readAt (Elt F) (rf3).view (Rect.unit (s := S50x128) (k0_off33 t) S1x16.size (k0_off33_inb t)).toLoadRect (rfOf fI fB n))⟩,
        ⟨Rect.unit (s := S1x50x192) (k0_off32 t) S1x1x16.size (k0_off32_inb t),
          k0_pay13 (View.readAt (Elt F) (rf3).view (Rect.unit (s := S50x128) (k0_off31 t) S1x16.size (k0_off31_inb t)).toLoadRect (rfOf fI fB n))⟩]) :=
  rows_core (asm3).view fa (asmOf fI fA fB n) t.val (k0_off32 t) (k0_off34 t) (k0_off36 t) (k0_off38 t)
    (k0_off32_inb t) (k0_off34_inb t) (k0_off36_inb t) (k0_off38_inb t)
    (k0_off32_eq t) (k0_off34_eq t) (k0_off36_eq t) (k0_off38_eq t) _ _ _ _
    (fun x => pay_strip fI fA fB n t.val 0 128 (by norm_num) rfl (k0_off31 t) (k0_off31_inb t) (k0_off31_eq t)
      (k0_off32 t) (k0_off32_inb t) (k0_off32_eq t) _ (fun _ => rfl) x)
    (fun x => pay_strip fI fA fB n t.val 16 144 (by norm_num) rfl (k0_off33 t) (k0_off33_inb t) (k0_off33_eq t)
      (k0_off34 t) (k0_off34_inb t) (k0_off34_eq t) _ (fun _ => rfl) x)
    (fun x => pay_strip fI fA fB n t.val 32 160 (by norm_num) rfl (k0_off35 t) (k0_off35_inb t) (k0_off35_eq t)
      (k0_off36 t) (k0_off36_inb t) (k0_off36_eq t) _ (fun _ => rfl) x)
    (fun x => pay_strip fI fA fB n t.val 48 176 (by norm_num) rfl (k0_off37 t) (k0_off37_inb t) (k0_off37_eq t)
      (k0_off38 t) (k0_off38_inb t) (k0_off38_eq t) _ (fun _ => rfl) x)
    h

theorem rows_done3 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm3).view.loc (thr d L))) (h : RowsDone3 d L fI fA fB n 50 fa) :
    ((asm3).view.loc (thr d L) ↦[Finset.univ \ (asmCols asm3).view.set]{fullShare} fa : sProp 𝕄)
      ⊢ (asm3).view.loc (thr d L) ↦[Finset.univ \ (asmCols asm3).view.set]{fullShare} asmOf fI fA fB n := by
  have e : ∀ i ∈ Finset.univ \ (asmCols asm3).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

section Land

variable (d : Dev nD) (L : grid0.Coords)
variable (fI : Buf (Elt F) ((idxV).view.loc (thr d L))) (fA : Buf (Elt F) ((wwV).view.loc (thr d L))) (fB : Buf (Elt F) ((wfV).view.loc (thr d L)))
variable (n : ℕ) (hn : n < 4096)

include hn in
/-- The same delivery as the copy's landing spells it: the destination named through the row slice, the contents a
    one-piece list over the whole row, the source's element set written out. -/
theorem out_land0 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm0).view (asmOf fI fA fB n))) :
    (iprop(((outRowM o h).view.loc (thr d L) ↦[(outRowM o h).view.set]{fullShare} (outRowM o h).view.writes (Elt F) fO [⟨Rect.whole S1x50x192, g⟩])
        ∗ ((asm0).view.loc (thr d L) ↦[(asm0).view.set]{fullShare} asmOf fI fA fB n)) : sProp 𝕄) ⊢ DOut0 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm0).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm0).view (asmOf fI fA fB n))⟩])
      ∗ ((asm0).view.loc (thr d L) ↦[(asm0).view.set]{fullShare} asmOf fI fA fB n)) : sProp 𝕄) ⊢ _
  rw [pointsTo_congr e, set_outRowM n _ h rfl, show (asm0).view.set = Finset.univ from View.set_whole _]

include hn in
/-- The same delivery as the copy's landing spells it: the destination named through the row slice, the contents a
    one-piece list over the whole row, the source's element set written out. -/
theorem out_land1 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm1).view (asmOf fI fA fB n))) :
    (iprop(((outRowM o h).view.loc (thr d L) ↦[(outRowM o h).view.set]{fullShare} (outRowM o h).view.writes (Elt F) fO [⟨Rect.whole S1x50x192, g⟩])
        ∗ ((asm1).view.loc (thr d L) ↦[(asm1).view.set]{fullShare} asmOf fI fA fB n)) : sProp 𝕄) ⊢ DOut1 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm1).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm1).view (asmOf fI fA fB n))⟩])
      ∗ ((asm1).view.loc (thr d L) ↦[(asm1).view.set]{fullShare} asmOf fI fA fB n)) : sProp 𝕄) ⊢ _
  rw [pointsTo_congr e, set_outRowM n _ h rfl, show (asm1).view.set = Finset.univ from View.set_whole _]

include hn in
/-- The same delivery as the copy's landing spells it: the destination named through the row slice, the contents a
    one-piece list over the whole row, the source's element set written out. -/
theorem out_land2 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm2).view (asmOf fI fA fB n))) :
    (iprop(((outRowM o h).view.loc (thr d L) ↦[(outRowM o h).view.set]{fullShare} (outRowM o h).view.writes (Elt F) fO [⟨Rect.whole S1x50x192, g⟩])
        ∗ ((asm2).view.loc (thr d L) ↦[(asm2).view.set]{fullShare} asmOf fI fA fB n)) : sProp 𝕄) ⊢ DOut2 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm2).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm2).view (asmOf fI fA fB n))⟩])
      ∗ ((asm2).view.loc (thr d L) ↦[(asm2).view.set]{fullShare} asmOf fI fA fB n)) : sProp 𝕄) ⊢ _
  rw [pointsTo_congr e, set_outRowM n _ h rfl, show (asm2).view.set = Finset.univ from View.set_whole _]

include hn in
/-- The same delivery as the copy's landing spells it: the destination named through the row slice, the contents a
    one-piece list over the whole row, the source's element set written out. -/
theorem out_land3 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm3).view (asmOf fI fA fB n))) :
    (iprop(((outRowM o h).view.loc (thr d L) ↦[(outRowM o h).view.set]{fullShare} (outRowM o h).view.writes (Elt F) fO [⟨Rect.whole S1x50x192, g⟩])
        ∗ ((asm3).view.loc (thr d L) ↦[(asm3).view.set]{fullShare} asmOf fI fA fB n)) : sProp 𝕄) ⊢ DOut3 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm3).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm3).view (asmOf fI fA fB n))⟩])
      ∗ ((asm3).view.loc (thr d L) ↦[(asm3).view.set]{fullShare} asmOf fI fA fB n)) : sProp 𝕄) ⊢ _
  rw [pointsTo_congr e, set_outRowM n _ h rfl, show (asm3).view.set = Finset.univ from View.set_whole _]

end Land

end Cert.Proof.KI

end
-- ==== Proof.KI.TripLemmas.lean ====
/-
  Facts one round of a task's ring uses: a copy in flight restated at what it delivers, the row loop's invariant per
  slot, and how row ranges of the result split and join.
-/
import proofs.«206843_g13322988552399_fold_wed_c4_279_34_alg».proof.Proof.KI.Inv
import proofs.«206843_g13322988552399_fold_wed_c4_279_34_alg».proof.Proof.KI.Values

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section TripLemmas

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

omit [FloatOps F] in
theorem out_split (f : Buf (Elt F) ((outV).view.loc (thr d L))) {a b c : ℕ} (hab : a ≤ b) (hbc : b ≤ c) :
    (((outV).view.loc (thr d L) ↦[outRows a c]{fullShare} f) : sProp 𝕄)
      ⊣⊢ iprop(((outV).view.loc (thr d L) ↦[outRows a b]{fullShare} f) ∗ ((outV).view.loc (thr d L) ↦[outRows b c]{fullShare} f)) := by
  have h : (((outV).view.loc (thr d L) ↦[outRows a c]{fullShare} f) : sProp 𝕄)
      ⊣⊢ iprop(((outV).view.loc (thr d L) ↦[outRows a b]{fullShare} f) ∗ ((outV).view.loc (thr d L) ↦[outRows a c \ outRows a b]{fullShare} f)) :=
    pointsTo_split_subset (outRows_subset (a := a) hbc)
  rw [outRows_sdiff hab] at h
  exact h

theorem idx_deliver0' (q : PosShare TreeShare) (n : ℕ) (hn : n < 4096) (o : Fin 3 → ℕ) (h : ∀ a, o a + S1x2x50.size a ≤ S4096x2x50.size a) (ho : o = ![n, 0, 0])
    (f : Buf (Elt F) ((cix0).view.loc (thr d L))) (g : S2x50.Idx → Elt F .i32) (hg : g = ReadAs.same.apply (View.read (Elt F) (idxRowM o h).view fI)) :
    iprop(((cix0).view.loc (thr d L) ↦{fullShare} View.write (Elt F) (cix0).view f g Finset.univ) ∗ ((idxV).view.loc (thr d L) ↦[(idxRowM o h).view.set]{q} fI))
      ⊢ (DIdx0 d L fI q n : sProp 𝕄) := by
  subst hg; exact idx_deliver0 d L fI q n hn o h ho f

theorem idx_deliver1' (q : PosShare TreeShare) (n : ℕ) (hn : n < 4096) (o : Fin 3 → ℕ) (h : ∀ a, o a + S1x2x50.size a ≤ S4096x2x50.size a) (ho : o = ![n, 0, 0])
    (f : Buf (Elt F) ((cix1).view.loc (thr d L))) (g : S2x50.Idx → Elt F .i32) (hg : g = ReadAs.same.apply (View.read (Elt F) (idxRowM o h).view fI)) :
    iprop(((cix1).view.loc (thr d L) ↦{fullShare} View.write (Elt F) (cix1).view f g Finset.univ) ∗ ((idxV).view.loc (thr d L) ↦[(idxRowM o h).view.set]{q} fI))
      ⊢ (DIdx1 d L fI q n : sProp 𝕄) := by
  subst hg; exact idx_deliver1 d L fI q n hn o h ho f

theorem idx_deliver2' (q : PosShare TreeShare) (n : ℕ) (hn : n < 4096) (o : Fin 3 → ℕ) (h : ∀ a, o a + S1x2x50.size a ≤ S4096x2x50.size a) (ho : o = ![n, 0, 0])
    (f : Buf (Elt F) ((cix2).view.loc (thr d L))) (g : S2x50.Idx → Elt F .i32) (hg : g = ReadAs.same.apply (View.read (Elt F) (idxRowM o h).view fI)) :
    iprop(((cix2).view.loc (thr d L) ↦{fullShare} View.write (Elt F) (cix2).view f g Finset.univ) ∗ ((idxV).view.loc (thr d L) ↦[(idxRowM o h).view.set]{q} fI))
      ⊢ (DIdx2 d L fI q n : sProp 𝕄) := by
  subst hg; exact idx_deliver2 d L fI q n hn o h ho f

theorem idx_deliver3' (q : PosShare TreeShare) (n : ℕ) (hn : n < 4096) (o : Fin 3 → ℕ) (h : ∀ a, o a + S1x2x50.size a ≤ S4096x2x50.size a) (ho : o = ![n, 0, 0])
    (f : Buf (Elt F) ((cix3).view.loc (thr d L))) (g : S2x50.Idx → Elt F .i32) (hg : g = ReadAs.same.apply (View.read (Elt F) (idxRowM o h).view fI)) :
    iprop(((cix3).view.loc (thr d L) ↦{fullShare} View.write (Elt F) (cix3).view f g Finset.univ) ∗ ((idxV).view.loc (thr d L) ↦[(idxRowM o h).view.set]{q} fI))
      ⊢ (DIdx3 d L fI q n : sProp 𝕄) := by
  subst hg; exact idx_deliver3 d L fI q n hn o h ho f

omit [FloatOps F] in
/-- What is left of a read token once a row of the stacked indices is lent, by the row's number. -/
theorem idx_rest (n : ℕ) (o : Fin 3 → ℕ) (h : ∀ a, o a + S1x2x50.size a ≤ S4096x2x50.size a) (ho : o = ![n, 0, 0]) (q : PosShare TreeShare) :
    (((idxV).view.loc (thr d L) ↦[Finset.univ \ (idxRowM o h).view.set]{q} fI) : sProp 𝕄)
      ⊢ ((idxV).view.loc (thr d L) ↦[Finset.univ \ idxRowSet n]{q} fI) := by
  rw [set_idxRowM n o h ho]

/-- Slot 0's row loop: the feature buffer at the looked-up rows; of the assembly buffer, outside columns 0 … 127, the
    rows before t hold the finished row's feature columns. -/
def rowInv0 (n : ℕ) (t : ℕ) (_ : Unit) : sProp 𝕄 :=
  iprop(((rf0).view.loc (thr d L) ↦{fullShare} rfOf fI fB n)
    ∗ ∃ fa, ⌜RowsDone0 d L fI fA fB n t fa⌝ ∗ ((asm0).view.loc (thr d L) ↦[Finset.univ \ (asmCols asm0).view.set]{fullShare} fa))

/-- The two column ranges of slot 0's assembly buffer, at one function, are the buffer whole. -/
theorem asm_join0 (f : Buf (Elt F) ((asm0).view.loc (thr d L))) :
    iprop(((asm0).view.loc (thr d L) ↦[(asmCols asm0).view.set]{fullShare} f) ∗ ((asm0).view.loc (thr d L) ↦[Finset.univ \ (asmCols asm0).view.set]{fullShare} f))
      ⊢ (((asm0).view.loc (thr d L) ↦{fullShare} f) : sProp 𝕄) :=
  (pointsTo_split_subset (Finset.subset_univ _)).2

/-- Slot 1's row loop: the feature buffer at the looked-up rows; of the assembly buffer, outside columns 0 … 127, the
    rows before t hold the finished row's feature columns. -/
def rowInv1 (n : ℕ) (t : ℕ) (_ : Unit) : sProp 𝕄 :=
  iprop(((rf1).view.loc (thr d L) ↦{fullShare} rfOf fI fB n)
    ∗ ∃ fa, ⌜RowsDone1 d L fI fA fB n t fa⌝ ∗ ((asm1).view.loc (thr d L) ↦[Finset.univ \ (asmCols asm1).view.set]{fullShare} fa))

/-- The two column ranges of slot 1's assembly buffer, at one function, are the buffer whole. -/
theorem asm_join1 (f : Buf (Elt F) ((asm1).view.loc (thr d L))) :
    iprop(((asm1).view.loc (thr d L) ↦[(asmCols asm1).view.set]{fullShare} f) ∗ ((asm1).view.loc (thr d L) ↦[Finset.univ \ (asmCols asm1).view.set]{fullShare} f))
      ⊢ (((asm1).view.loc (thr d L) ↦{fullShare} f) : sProp 𝕄) :=
  (pointsTo_split_subset (Finset.subset_univ _)).2

/-- Slot 2's row loop: the feature buffer at the looked-up rows; of the assembly buffer, outside columns 0 … 127, the
    rows before t hold the finished row's feature columns. -/
def rowInv2 (n : ℕ) (t : ℕ) (_ : Unit) : sProp 𝕄 :=
  iprop(((rf2).view.loc (thr d L) ↦{fullShare} rfOf fI fB n)
    ∗ ∃ fa, ⌜RowsDone2 d L fI fA fB n t fa⌝ ∗ ((asm2).view.loc (thr d L) ↦[Finset.univ \ (asmCols asm2).view.set]{fullShare} fa))

/-- The two column ranges of slot 2's assembly buffer, at one function, are the buffer whole. -/
theorem asm_join2 (f : Buf (Elt F) ((asm2).view.loc (thr d L))) :
    iprop(((asm2).view.loc (thr d L) ↦[(asmCols asm2).view.set]{fullShare} f) ∗ ((asm2).view.loc (thr d L) ↦[Finset.univ \ (asmCols asm2).view.set]{fullShare} f))
      ⊢ (((asm2).view.loc (thr d L) ↦{fullShare} f) : sProp 𝕄) :=
  (pointsTo_split_subset (Finset.subset_univ _)).2

/-- Slot 3's row loop: the feature buffer at the looked-up rows; of the assembly buffer, outside columns 0 … 127, the
    rows before t hold the finished row's feature columns. -/
def rowInv3 (n : ℕ) (t : ℕ) (_ : Unit) : sProp 𝕄 :=
  iprop(((rf3).view.loc (thr d L) ↦{fullShare} rfOf fI fB n)
    ∗ ∃ fa, ⌜RowsDone3 d L fI fA fB n t fa⌝ ∗ ((asm3).view.loc (thr d L) ↦[Finset.univ \ (asmCols asm3).view.set]{fullShare} fa))

/-- The two column ranges of slot 3's assembly buffer, at one function, are the buffer whole. -/
theorem asm_join3 (f : Buf (Elt F) ((asm3).view.loc (thr d L))) :
    iprop(((asm3).view.loc (thr d L) ↦[(asmCols asm3).view.set]{fullShare} f) ∗ ((asm3).view.loc (thr d L) ↦[Finset.univ \ (asmCols asm3).view.set]{fullShare} f))
      ⊢ (((asm3).view.loc (thr d L) ↦{fullShare} f) : sProp 𝕄) :=
  (pointsTo_split_subset (Finset.subset_univ _)).2

/-- A row of the result, as the copy out addresses it. -/
theorem out_row (n : ℕ) {a b : ℕ} (ha : a = n) (hb : b = n + 1) (o : Fin 4 → ℕ) (h : ∀ a, o a + S1x1x50x192.size a ≤ S4096x1x50x192.size a) (ho : o = ![n, 0, 0, 0])
    (f : Buf (Elt F) ((outV).view.loc (thr d L))) :
    (((outV).view.loc (thr d L) ↦[outRows a b]{fullShare} f) : sProp 𝕄) ⊢ ((outRowM o h).view.loc (thr d L) ↦[(outRowM o h).view.set]{fullShare} f) := by
  obtain rfl := ha
  obtain rfl := hb
  rw [show outRows a (a + 1) = (outRowM o h).view.set from (set_outRowM a o h ho).symm]

/-- Adjacent row ranges at one function join. -/
theorem out_join (f : Buf (Elt F) ((outV).view.loc (thr d L))) {a b c : ℕ} (b' c' : ℕ) (hb : b' = b) (hc : c' = c) (hab : a ≤ b) (hbc : b ≤ c) :
    iprop(((outV).view.loc (thr d L) ↦[outRows a b]{fullShare} f) ∗ ((outV).view.loc (thr d L) ↦[outRows b' c']{fullShare} f))
      ⊢ (((outV).view.loc (thr d L) ↦[outRows a c]{fullShare} f) : sProp 𝕄) := by
  subst hb hc; exact (out_split d L f hab hbc).2

/-- A row range under another spelling of its bounds. -/
theorem out_cast (f : Buf (Elt F) ((outV).view.loc (thr d L))) {a b : ℕ} (a' b' : ℕ) (ha : a' = a) (hb : b' = b) :
    (((outV).view.loc (thr d L) ↦[outRows a b]{fullShare} f) : sProp 𝕄) ⊢ ((outV).view.loc (thr d L) ↦[outRows a' b']{fullShare} f) := by
  subst ha hb; exact BI.Entails.refl _

/-- A wait at no index recorded keeps the record within bounds. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

end TripLemmas

end Cert.Proof.KI

end
-- ==== Proof.KI.TripFirst.lean ====
/-
  The first round of the ring (k = 0): no row is yet on its way out of slots 1, 2, 3, so the round's first three waits
  for a written row are skipped and those slots' assembly buffers are simply at rest; only row N, sent out in this round
  from slot 0, comes home in it.
-/
import proofs.«206843_g13322988552399_fold_wed_c4_279_34_alg».proof.Proof.KI.TripLemmas

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_first (v1 : BitVec 32) (k : Fin k0_t1_loop.trips) (hk0 : k.val = 0)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk2 : k.val < 31 := by omega
  have hk32 : k.val < 32 := by omega
  have k0_h1 : ¬ (Scalar.cmpi .ne (Scalar.extui (Scalar.cmpi .sge (Scalar.addi (Scalar.muli 4#32 (Scalar.addi 0#32 (Scalar.muli (Scf.iv 0#32 1#32 k) 1#32))) 0#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 0#32) 3#32)) 0#32 = 1#1) := by decide
    exact this k hk0
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : ¬ (Scalar.cmpi .ne (Scalar.extui (Scalar.cmpi .sge (Scalar.addi (Scalar.muli 4#32 (Scalar.addi 0#32 (Scalar.muli (Scf.iv 0#32 1#32 k) 1#32))) 1#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 1#32) 3#32)) 0#32 = 1#1) := by decide
    exact this k hk0
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : ¬ (Scalar.cmpi .ne (Scalar.extui (Scalar.cmpi .sge (Scalar.addi (Scalar.muli 4#32 (Scalar.addi 0#32 (Scalar.muli (Scf.iv 0#32 1#32 k) 1#32))) 2#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 2#32) 3#32)) 0#32 = 1#1) := by decide
    exact this k hk0
  have k0_h8 : k0_cond8 k = 1#1 := by
    have : ∀ k : Fin k0_t1_loop.trips, k.val < 31 → k0_cond8 k = 1#1 := by decide
    exact this k hk2
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : k0_cond11 k = 1#1 := by
    have : ∀ k : Fin k0_t1_loop.trips, k.val < 31 → k0_cond11 k = 1#1 := by decide
    exact this k hk2
  have k0_h12 : Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by
    have : ∀ k : Fin k0_t1_loop.trips, k.val < 31 → Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by decide
    exact this k hk2
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  have hinW0' := hinW0 d L fI (N0 L + 4 * (k.val + 1)) hI
  have hinF0' := hinF0 d L fI (N0 L + 4 * (k.val + 1)) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_off _ _ _ _ _ _ _ _ (by omega), outgo2_off _ _ _ _ _ _ _ _ (by omega), outgo3_off _ _ _ _ _ _ _ _ (by omega)]
  unfold gath0On stage1On outgo1Off outgo2Off outgo3Off DWord0 DFeat0 DIdx1
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, ⟨Hso1, ⟨%fa1i, Ha1⟩⟩⟩,
    ⟨Hi2, Hsi2, ⟨%fc2, Hc2⟩, Hww2, Hwf2, ⟨%fr2, Hr2⟩, Hsw2, Hsf2, ⟨Hso2, ⟨%fa2i, Ha2⟩⟩⟩,
    ⟨Hi3, Hsi3, ⟨%fc3, Hc3⟩, Hww3, Hwf3, ⟨%fr3, Hr3⟩, Hsw3, Hsf3, ⟨Hso3, ⟨%fa3i, Ha3⟩⟩⟩, ⟨Hout, Hdone⟩⟩
  -- round part 1: slot 0
  sl_exec
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  ihave Hsi0 := (Transfers.Flight_mono countersEmb (thr d L) (idx_deliver0' d L fI (shareTok qI 4 0) (N0 L + 4 * (k.val + 1)) (by omega) (k0_off21 L k) _ (by rw [k0_off21_eq L k]; congr 1 <;> omega) _ _ (by rfl))) $$ Hsi0
  unfold DIdx0
  ihave Hi0 := (idx_rest d L fI (N0 L + 4 * (k.val + 1)) (k0_off21 L k) _ (by rw [k0_off21_eq L k]; congr 1 <;> omega) (shareTok qI 4 0)) $$ Hi0
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  ihave Hsi1 := (Transfers.Flight_mono countersEmb (thr d L) (idx_deliver1' d L fI (shareTok qI 4 1) (N0 L + 4 * (k.val + 1) + 1) (by omega) (k0_off30 L k) _ (by rw [k0_off30_eq L k]; congr 1 <;> omega) _ _ (by rfl))) $$ Hsi1
  unfold DIdx1
  ihave Hi1 := (idx_rest d L fI (N0 L + 4 * (k.val + 1) + 1) (k0_off30 L k) _ (by rw [k0_off30_eq L k]; congr 1 <;> omega) (shareTok qI 4 1)) $$ Hi1
  irename Hsi0_dst => Hc0
  ihave Hsw0 := (Transfers.Flight_mono countersEmb (thr d L) (word_deliver0 d L fI fA fB (shareTok qA 4 0) (N0 L + 4 * (k.val + 1)) _ hinW0' _ (by rfl))) $$ Hsw0
  unfold DWord0
  ihave Hsf0 := (Transfers.Flight_mono countersEmb (thr d L) (feat_deliver0 d L fI fB (shareTok qB 4 0) (N0 L + 4 * (k.val + 1)) _ hinF0' _ (by rfl))) $$ Hsf0
  unfold DFeat0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_cast d L (Cert.Stack.Gk fI fA fB) (N0 L) (N0 L + 4 * (k.val + 1) - 3) (by omega) (by omega)) $$ Hso0_dst
  rw [gath0_on _ _ _ _ _ _ _ _ (show k.val + 1 < 32 by omega), stage1_on _ _ _ _ _ _ _ _ (show k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0On stage1On outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hww0 Hsf0 Hwf0 Hc0 Ha0]
  ·
    isplitl [Hi0]; · iexact Hi0
    isplitl [Hsi0]; · iexact Hsi0
    isplitl [Hso0]; · iexact Hso0
    isplitl [Hsw0]; · iexact Hsw0
    isplitl [Hww0]; · iexact Hww0
    isplitl [Hsf0]; · iexact Hsf0
    isplitl [Hwf0]; · iexact Hwf0
    isplitl [Hc0]; · iexact Hc0
    iexists _; iexact Ha0
  isplitl [Hww1 Hwf1 Hr1 Hsw1 Hsf1 Hsi1 Hi1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1]
    ·
      isplitl [Hsi1]; · iexact Hsi1
      iexact Hi1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.KI

end
-- ==== Proof.KI.TripMid.lean ====
/-
  A middle round of the ring (1 ≤ k ≤ 30): every branch of the round is taken — the wait for the row written three
  rounds of a slot ago, the staging of the index rows two ahead, the wait for the next index rows and their gathers.
-/
import proofs.«206843_g13322988552399_fold_wed_c4_279_34_alg».proof.Proof.KI.TripLemmas

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_mid (v1 : BitVec 32) (k : Fin k0_t1_loop.trips) (hk1 : 1 ≤ k.val) (hk2 : k.val < 31)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk32 : k.val < 32 := by omega
  have k0_h1 : Scalar.cmpi .ne (Scalar.extui (Scalar.cmpi .sge (Scalar.addi (Scalar.muli 4#32 (Scalar.addi 0#32 (Scalar.muli (Scf.iv 0#32 1#32 k) 1#32))) 0#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 0#32) 3#32)) 0#32 = 1#1 := by decide
    exact this k hk1
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : Scalar.cmpi .ne (Scalar.extui (Scalar.cmpi .sge (Scalar.addi (Scalar.muli 4#32 (Scalar.addi 0#32 (Scalar.muli (Scf.iv 0#32 1#32 k) 1#32))) 1#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 1#32) 3#32)) 0#32 = 1#1 := by decide
    exact this k hk1
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : Scalar.cmpi .ne (Scalar.extui (Scalar.cmpi .sge (Scalar.addi (Scalar.muli 4#32 (Scalar.addi 0#32 (Scalar.muli (Scf.iv 0#32 1#32 k) 1#32))) 2#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 2#32) 3#32)) 0#32 = 1#1 := by decide
    exact this k hk1
  have k0_h8 : k0_cond8 k = 1#1 := by
    have : ∀ k : Fin k0_t1_loop.trips, k.val < 31 → k0_cond8 k = 1#1 := by decide
    exact this k hk2
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : k0_cond11 k = 1#1 := by
    have : ∀ k : Fin k0_t1_loop.trips, k.val < 31 → k0_cond11 k = 1#1 := by decide
    exact this k hk2
  have k0_h12 : Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by
    have : ∀ k : Fin k0_t1_loop.trips, k.val < 31 → Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by decide
    exact this k hk2
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  have hinW0' := hinW0 d L fI (N0 L + 4 * (k.val + 1)) hI
  have hinF0' := hinF0 d L fI (N0 L + 4 * (k.val + 1)) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_on _ _ _ _ _ _ _ _ hk1, outgo2_on _ _ _ _ _ _ _ _ hk1, outgo3_on _ _ _ _ _ _ _ _ hk1]
  unfold gath0On stage1On outgo1On outgo2On outgo3On DWord0 DFeat0 DIdx1 DOut1 DOut2 DOut3
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, Hso1⟩,
    ⟨Hi2, Hsi2, ⟨%fc2, Hc2⟩, Hww2, Hwf2, ⟨%fr2, Hr2⟩, Hsw2, Hsf2, Hso2⟩,
    ⟨Hi3, Hsi3, ⟨%fc3, Hc3⟩, Hww3, Hwf3, ⟨%fr3, Hr3⟩, Hsw3, Hsf3, Hso3⟩, ⟨Hout, Hdone⟩⟩
  -- round part 1: slot 0
  sl_exec
  irename Hso1_src => Ha1
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  irename Hso2_src => Ha2
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  irename Hso3_src => Ha3
  ihave Hsi0 := (Transfers.Flight_mono countersEmb (thr d L) (idx_deliver0' d L fI (shareTok qI 4 0) (N0 L + 4 * (k.val + 1)) (by omega) (k0_off21 L k) _ (by rw [k0_off21_eq L k]; congr 1 <;> omega) _ _ (by rfl))) $$ Hsi0
  unfold DIdx0
  ihave Hi0 := (idx_rest d L fI (N0 L + 4 * (k.val + 1)) (k0_off21 L k) _ (by rw [k0_off21_eq L k]; congr 1 <;> omega) (shareTok qI 4 0)) $$ Hi0
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  ihave Hsi1 := (Transfers.Flight_mono countersEmb (thr d L) (idx_deliver1' d L fI (shareTok qI 4 1) (N0 L + 4 * (k.val + 1) + 1) (by omega) (k0_off30 L k) _ (by rw [k0_off30_eq L k]; congr 1 <;> omega) _ _ (by rfl))) $$ Hsi1
  unfold DIdx1
  ihave Hi1 := (idx_rest d L fI (N0 L + 4 * (k.val + 1) + 1) (k0_off30 L k) _ (by rw [k0_off30_eq L k]; congr 1 <;> omega) (shareTok qI 4 1)) $$ Hi1
  irename Hsi0_dst => Hc0
  ihave Hsw0 := (Transfers.Flight_mono countersEmb (thr d L) (word_deliver0 d L fI fA fB (shareTok qA 4 0) (N0 L + 4 * (k.val + 1)) _ hinW0' _ (by rfl))) $$ Hsw0
  unfold DWord0
  ihave Hsf0 := (Transfers.Flight_mono countersEmb (thr d L) (feat_deliver0 d L fI fB (shareTok qB 4 0) (N0 L + 4 * (k.val + 1)) _ hinF0' _ (by rfl))) $$ Hsf0
  unfold DFeat0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_join d L (Cert.Stack.Gk fI fA fB) (a := N0 L) (b := N0 L + 4 * k.val - 3) (b' := N0 L + 4 * k.val - 3) (c' := N0 L + 4 * k.val - 3 + 1) (c := N0 L + 4 * k.val - 2) (by omega) (by omega) (by omega) (by omega)) $$ [Hdone Hso1_dst]
  · isplitl [Hdone] <;> iassumption
  ihave Hdone := (out_join d L (Cert.Stack.Gk fI fA fB) (a := N0 L) (b := N0 L + 4 * k.val - 2) (b' := N0 L + 4 * k.val - 2) (c' := N0 L + 4 * k.val - 2 + 1) (c := N0 L + 4 * k.val - 1) (by omega) (by omega) (by omega) (by omega)) $$ [Hdone Hso2_dst]
  · isplitl [Hdone] <;> iassumption
  ihave Hdone := (out_join d L (Cert.Stack.Gk fI fA fB) (a := N0 L) (b := N0 L + 4 * k.val - 1) (b' := N0 L + 4 * k.val - 1) (c' := N0 L + 4 * k.val - 1 + 1) (c := N0 L + 4 * k.val) (by omega) (by omega) (by omega) (by omega)) $$ [Hdone Hso3_dst]
  · isplitl [Hdone] <;> iassumption
  ihave Hdone := (out_join d L (Cert.Stack.Gk fI fA fB) (a := N0 L) (b := N0 L + 4 * k.val) (b' := N0 L + 4 * k.val) (c' := N0 L + 4 * k.val + 1) (c := N0 L + 4 * (k.val + 1) - 3) (by omega) (by omega) (by omega) (by omega)) $$ [Hdone Hso0_dst]
  · isplitl [Hdone] <;> iassumption
  rw [gath0_on _ _ _ _ _ _ _ _ (show k.val + 1 < 32 by omega), stage1_on _ _ _ _ _ _ _ _ (show k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0On stage1On outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hww0 Hsf0 Hwf0 Hc0 Ha0]
  ·
    isplitl [Hi0]; · iexact Hi0
    isplitl [Hsi0]; · iexact Hsi0
    isplitl [Hso0]; · iexact Hso0
    isplitl [Hsw0]; · iexact Hsw0
    isplitl [Hww0]; · iexact Hww0
    isplitl [Hsf0]; · iexact Hsf0
    isplitl [Hwf0]; · iexact Hwf0
    isplitl [Hc0]; · iexact Hc0
    iexists _; iexact Ha0
  isplitl [Hww1 Hwf1 Hr1 Hsw1 Hsf1 Hsi1 Hi1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1]
    ·
      isplitl [Hsi1]; · iexact Hsi1
      iexact Hi1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.KI

end
-- ==== Proof.KI.TripLast.lean ====
/-
  The last round of the ring (k = 31): nothing is staged or gathered for a row beyond the task's block, so slot 0 and
  slot 1's index buffer end at rest.
-/
import proofs.«206843_g13322988552399_fold_wed_c4_279_34_alg».proof.Proof.KI.TripLemmas

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_last (v1 : BitVec 32) (k : Fin k0_t1_loop.trips) (hk31 : k.val = 31)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk1 : 1 ≤ k.val := by omega
  have hk32 : k.val < 32 := by omega
  have k0_h1 : Scalar.cmpi .ne (Scalar.extui (Scalar.cmpi .sge (Scalar.addi (Scalar.muli 4#32 (Scalar.addi 0#32 (Scalar.muli (Scf.iv 0#32 1#32 k) 1#32))) 0#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 0#32) 3#32)) 0#32 = 1#1 := by decide
    exact this k hk1
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : Scalar.cmpi .ne (Scalar.extui (Scalar.cmpi .sge (Scalar.addi (Scalar.muli 4#32 (Scalar.addi 0#32 (Scalar.muli (Scf.iv 0#32 1#32 k) 1#32))) 1#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 1#32) 3#32)) 0#32 = 1#1 := by decide
    exact this k hk1
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : Scalar.cmpi .ne (Scalar.extui (Scalar.cmpi .sge (Scalar.addi (Scalar.muli 4#32 (Scalar.addi 0#32 (Scalar.muli (Scf.iv 0#32 1#32 k) 1#32))) 2#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 2#32) 3#32)) 0#32 = 1#1 := by decide
    exact this k hk1
  have k0_h8 : ¬ (k0_cond8 k = 1#1) := by
    have : ∀ k : Fin k0_t1_loop.trips, k.val = 31 → ¬ (k0_cond8 k = 1#1) := by decide
    exact this k hk31
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : ¬ (k0_cond11 k = 1#1) := by
    have : ∀ k : Fin k0_t1_loop.trips, k.val = 31 → ¬ (k0_cond11 k = 1#1) := by decide
    exact this k hk31
  have k0_h12 : ¬ (Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1) := by
    have : ∀ k : Fin k0_t1_loop.trips, k.val = 31 → ¬ (Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1) := by decide
    exact this k hk31
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_on _ _ _ _ _ _ _ _ hk1, outgo2_on _ _ _ _ _ _ _ _ hk1, outgo3_on _ _ _ _ _ _ _ _ hk1]
  unfold gath0On stage1On outgo1On outgo2On outgo3On DWord0 DFeat0 DIdx1 DOut1 DOut2 DOut3
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, Hso1⟩,
    ⟨Hi2, Hsi2, ⟨%fc2, Hc2⟩, Hww2, Hwf2, ⟨%fr2, Hr2⟩, Hsw2, Hsf2, Hso2⟩,
    ⟨Hi3, Hsi3, ⟨%fc3, Hc3⟩, Hww3, Hwf3, ⟨%fr3, Hr3⟩, Hsw3, Hsf3, Hso3⟩, ⟨Hout, Hdone⟩⟩
  -- round part 1: slot 0
  sl_exec
  irename Hso1_src => Ha1
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  irename Hso2_src => Ha2
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  irename Hso3_src => Ha3
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_join d L (Cert.Stack.Gk fI fA fB) (a := N0 L) (b := N0 L + 4 * k.val - 3) (b' := N0 L + 4 * k.val - 3) (c' := N0 L + 4 * k.val - 3 + 1) (c := N0 L + 4 * k.val - 2) (by omega) (by omega) (by omega) (by omega)) $$ [Hdone Hso1_dst]
  · isplitl [Hdone] <;> iassumption
  ihave Hdone := (out_join d L (Cert.Stack.Gk fI fA fB) (a := N0 L) (b := N0 L + 4 * k.val - 2) (b' := N0 L + 4 * k.val - 2) (c' := N0 L + 4 * k.val - 2 + 1) (c := N0 L + 4 * k.val - 1) (by omega) (by omega) (by omega) (by omega)) $$ [Hdone Hso2_dst]
  · isplitl [Hdone] <;> iassumption
  ihave Hdone := (out_join d L (Cert.Stack.Gk fI fA fB) (a := N0 L) (b := N0 L + 4 * k.val - 1) (b' := N0 L + 4 * k.val - 1) (c' := N0 L + 4 * k.val - 1 + 1) (c := N0 L + 4 * k.val) (by omega) (by omega) (by omega) (by omega)) $$ [Hdone Hso3_dst]
  · isplitl [Hdone] <;> iassumption
  ihave Hdone := (out_join d L (Cert.Stack.Gk fI fA fB) (a := N0 L) (b := N0 L + 4 * k.val) (b' := N0 L + 4 * k.val) (c' := N0 L + 4 * k.val + 1) (c := N0 L + 4 * (k.val + 1) - 3) (by omega) (by omega) (by omega) (by omega)) $$ [Hdone Hso0_dst]
  · isplitl [Hdone] <;> iassumption
  rw [gath0_off _ _ _ _ _ _ _ _ (show ¬ k.val + 1 < 32 by omega), stage1_off _ _ _ _ _ _ _ _ (show ¬ k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0Off stage1Off outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hsf0 Hww0 Hwf0 Hc0 Hr0 Ha0]
  ·
    isplitl [Hi0]; · iexact Hi0
    isplitl [Hsi0]; · iexact Hsi0
    isplitl [Hso0]; · iexact Hso0
    isplitl [Hsw0]; · iexact Hsw0
    isplitl [Hsf0]; · iexact Hsf0
    isplitl [Hww0]; · iexact Hww0
    isplitl [Hwf0]; · iexact Hwf0
    isplitl [Hc0]; · iexists _; iexact Hc0
    isplitl [Hr0]; · iexists _; iexact Hr0
    iexists _; iexact Ha0
  isplitl [Hww1 Hwf1 Hr1 Hsw1 Hsf1 Hsi1 Hi1 Hc1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1 Hc1]
    ·
      isplitl [Hsi1]; · iexact Hsi1
      isplitl [Hi1]; · iexact Hi1
      iexists _; iexact Hc1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.KI

end
-- ==== Proof.PreDecode.lean ====
/-
  The input-domain predicate read back.

  The predicate is a conjunction of four "all" tests folded into one bit: every entry of each float table is finite,
  every word index lies in [0, 99999] and every feature index lies in [0, 999], the index compares read signed.
  From the predicate being one we extract the two index ranges, first in signed form and then as bounds on the
  unsigned reading of each index word (a signed value in [0, n − 1] with n ≤ 2^31 is its unsigned value).
-/
import proofs.«206843_g13322988552399_fold_wed_c4_279_34_alg».proof.Pre_input_domain
import Idealize.ShloMosaic.Lib.ReduceAll
import Idealize.ShloMosaic.Lib.ValueIdx

noncomputable section

open Idealize.ShloMosaic Idealize.ShloMosaic.ValueIdx

namespace Cert.Stack.Pre

variable {F : FTy → Type} [FloatOps F] [Cert.Pre_input_domain.Facts]

/-- The rank-zero shape has exactly one index. -/
instance subsingleton_S_ : Subsingleton Cert.Pre_input_domain.S_.Idx := ⟨fun a b => funext fun d => d.elim0⟩

/-- A word whose signed reading lies in [0, n − 1] reads unsigned below n. -/
theorem toNat_lt_of_toInt (w : BitVec 32) (n : ℕ) (h0 : 0 ≤ w.toInt) (h1 : w.toInt ≤ (n : ℤ) - 1) : w.toNat < n := by
  have h2 : w.toInt = (w.toNat : ℤ) := by
    rw [BitVec.toInt_eq_toNat_cond] at h0 ⊢
    split
    · rfl
    · rename_i hh
      rw [if_neg hh] at h0
      have := w.isLt
      omega
  rw [h2] at h1
  omega

/-- Both index ranges, in signed form, from the predicate being one. -/
theorem ranges (a0 a1 : IVec Cert.Pre_input_domain.S4096x50 32) (a2 : FVec F Cert.Pre_input_domain.S100000x128 .f32)
    (a3 : FVec F Cert.Pre_input_domain.S1000x64 .f32)
    (h : Cert.Pre_input_domain.fn (F := F) a0 a1 a2 a3 = fun _ => 1#1) :
    (∀ i, 0 ≤ (a0 i).toInt ∧ (a0 i).toInt ≤ 99999) ∧ (∀ i, 0 ≤ (a1 i).toInt ∧ (a1 i).toInt ≤ 999) := by
  have h0 := congrFun h ValueIdx.ix0
  dsimp only [Cert.Pre_input_domain.fn, Cert.Pre_input_domain.fn_part1] at h0
  obtain ⟨h15, h21⟩ := IntOp.andi_eq_one.1 h0
  obtain ⟨h8, h14⟩ := IntOp.andi_eq_one.1 h15
  refine ⟨fun i => ?_, fun i => ?_⟩
  · have e := Host.reduce_andi_all _ _ _ _ _ h14 i
    obtain ⟨e1, e2⟩ := IntOp.andi_eq_one.1 e
    have f1 : (0#32 : BitVec 32).toInt ≤ (a0 i).toInt := IntOp.cmpi_sge.1 e1
    have f2 : (a0 i).toInt ≤ (99999#32 : BitVec 32).toInt := IntOp.cmpi_sle.1 e2
    rw [show (0#32 : BitVec 32).toInt = 0 from by decide] at f1
    rw [show (99999#32 : BitVec 32).toInt = 99999 from by decide] at f2
    exact ⟨f1, f2⟩
  · have e := Host.reduce_andi_all _ _ _ _ _ h21 i
    obtain ⟨e1, e2⟩ := IntOp.andi_eq_one.1 e
    have f1 : (0#32 : BitVec 32).toInt ≤ (a1 i).toInt := IntOp.cmpi_sge.1 e1
    have f2 : (a1 i).toInt ≤ (999#32 : BitVec 32).toInt := IntOp.cmpi_sle.1 e2
    rw [show (0#32 : BitVec 32).toInt = 0 from by decide] at f1
    rw [show (999#32 : BitVec 32).toInt = 999 from by decide] at f2
    exact ⟨f1, f2⟩

theorem word_range (a0 a1 : IVec Cert.Pre_input_domain.S4096x50 32) (a2 : FVec F Cert.Pre_input_domain.S100000x128 .f32)
    (a3 : FVec F Cert.Pre_input_domain.S1000x64 .f32)
    (h : Cert.Pre_input_domain.fn (F := F) a0 a1 a2 a3 = fun _ => 1#1) :
    ∀ i, 0 ≤ (a0 i).toInt ∧ (a0 i).toInt ≤ 99999 := (ranges a0 a1 a2 a3 h).1

theorem feat_range (a0 a1 : IVec Cert.Pre_input_domain.S4096x50 32) (a2 : FVec F Cert.Pre_input_domain.S100000x128 .f32)
    (a3 : FVec F Cert.Pre_input_domain.S1000x64 .f32)
    (h : Cert.Pre_input_domain.fn (F := F) a0 a1 a2 a3 = fun _ => 1#1) :
    ∀ i, 0 ≤ (a1 i).toInt ∧ (a1 i).toInt ≤ 999 := (ranges a0 a1 a2 a3 h).2

/-- Every word index names a row of the word table. -/
theorem word_lt (a0 a1 : IVec Cert.Pre_input_domain.S4096x50 32) (a2 : FVec F Cert.Pre_input_domain.S100000x128 .f32)
    (a3 : FVec F Cert.Pre_input_domain.S1000x64 .f32)
    (h : Cert.Pre_input_domain.fn (F := F) a0 a1 a2 a3 = fun _ => 1#1) : ∀ i, (a0 i).toNat < 100000 := fun i =>
  toNat_lt_of_toInt _ 100000 (word_range a0 a1 a2 a3 h i).1 (by have := (word_range a0 a1 a2 a3 h i).2; omega)

/-- Every feature index names a row of the feature table. -/
theorem feat_lt (a0 a1 : IVec Cert.Pre_input_domain.S4096x50 32) (a2 : FVec F Cert.Pre_input_domain.S100000x128 .f32)
    (a3 : FVec F Cert.Pre_input_domain.S1000x64 .f32)
    (h : Cert.Pre_input_domain.fn (F := F) a0 a1 a2 a3 = fun _ => 1#1) : ∀ i, (a1 i).toNat < 1000 := fun i =>
  toNat_lt_of_toInt _ 1000 (feat_range a0 a1 a2 a3 h i).1 (by have := (feat_range a0 a1 a2 a3 h i).2; omega)

end Cert.Stack.Pre

end
-- ==== Proof.KI.LaunchSplit.lean ====
/-
  The launch side of the kernel, first part: the contents the call finds its four arrays with, as functions
  of the launch memory; how one core's operands are dealt to its sixteen subcores; the launch element of the ghost state.
-/
import proofs.«206843_g13322988552399_fold_wed_c4_279_34_alg».proof.Proof.KI.Setup
import proofs.«206843_g13322988552399_fold_wed_c4_279_34_alg».proof.Proof.PreDecode
import Idealize.ShloMosaic.Lib.Pipeline.Value
import Idealize.ShloMosaic.Lib.KernelVsHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call finds in its four arrays -/

/-- The stacked indices: each index array given a unit axis (a reshape keeps the row-major order), the two laid along it. -/
def cIof (d : Dev nD) : Buf (Elt F) (idxLoc d) :=
  concatenate S4096x2x50 1
    [⟨S4096x1x50, shapeCast S4096x1x50 (m ((SparseCore.T d).loc main_arg0)) shapeCasts_S4096x50_S4096x1x50⟩,
     ⟨S4096x1x50, shapeCast S4096x1x50 (m ((SparseCore.T d).loc main_arg1)) shapeCasts_S4096x50_S4096x1x50⟩]
    concatenates_S4096x1x50_S4096x1x50_S4096x2x50_d1

/-- The word table, untouched. -/
def cAof (d : Dev nD) : Buf (Elt F) (wwLoc d) := m (wwLoc d)

/-- The padding value: the integer constant 0 converted to a float. -/
def padVal : (⟨S_, .f32⟩ : BufTy).Contents (Elt F) := sitofp .f32 (constantI S_ 32 0#32)

/-- The feature table widened from 64 to 128 columns, the new columns at the padding value. -/
def cBof (d : Dev nD) : Buf (Elt F) (wfLoc d) :=
  pad S1000x128 ![0, 0] ![0, 64] ![0, 0] (m ((SparseCore.T d).loc main_arg3)) (padVal (F := F)) pads_S1000x64_S1000x128_000_0640 h_S_

/-- The result array as the launch left it. -/
def cOof (d : Dev nD) : Buf (Elt F) (outLoc d) := m (outLoc d)

/-! ## Tasks and (core, subcore) pairs -/

/-- Task numbers are the pairs (core, subcore): w = 2·s + c. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    obtain ⟨c, s⟩ := p
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

omit [FloatOps F] in
/-- A product over the 32 tasks is the product over the cores of the products over a core's subcores. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## One core's operands dealt to its subcores -/

section Split

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

theorem P_st (d : Dev nD) (c : Fin ((K (F := F)).nCore 0)) :
    (P cI cA cB cO).st 0 d c = bigSep Finset.univ fun s : Fin 16 => tileGo cI cA cB cO d (wid (Fin.cast nCore_zero c) s) := by
  unfold P; rfl
theorem P_dn (d : Dev nD) (c : Fin ((K (F := F)).nCore 0)) :
    (P cI cA cB cO).dn 0 d c = bigSep Finset.univ fun s : Fin 16 => tileTd cI cA cB d (wid (Fin.cast nCore_zero c) s) := by
  unfold P; rfl
theorem P_go (d : Dev nD) (c : Fin ((K (F := F)).nCore 0)) (s : Fin ((K (F := F)).nSub 0)) :
    (P cI cA cB cO).go 0 d c s = tileGo cI cA cB cO d (wid (Fin.cast nCore_zero c) (Fin.cast nSub_zero s)) := by
  unfold P; rfl
theorem P_td (d : Dev nD) (c : Fin ((K (F := F)).nCore 0)) (s : Fin ((K (F := F)).nSub 0)) :
    (P cI cA cB cO).td 0 d c s = tileTd cI cA cB d (wid (Fin.cast nCore_zero c) (Fin.cast nSub_zero s)) := by
  unfold P; rfl

/-- What a core is handed IS the family of what its subcores are handed, and likewise on the way back. -/
theorem vecSplit : (K (F := F)).VecSplit' (P cI cA cB cO) 0 := by
  intro d c
  simp only [P_st, P_dn, P_go, P_td]
  rw [bigSep_tasks (F := F) (fun s => tileGo cI cA cB cO d (wid (Fin.cast nCore_zero c) s)),
    bigSep_tasks (F := F) (fun s => tileTd cI cA cB d (wid (Fin.cast nCore_zero c) s))]
  iintro H; imodintro
  isplitl [H]; · iexact H
  iintro H; iexact H

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P cI cA cB cO).x q thr) := by
  unfold u₀
  iintro Hu
  ihave H := (ownU_pair _ _) $$ Hu
  icases H with ⟨HH, -⟩
  imodintro
  isplitl [HH]; · iexact HH
  isplitr; · rw [bigSep_emp']; iempintro
  rw [show (fun thr : Thread nD τ => bigSep Finset.univ fun q : Fin 1 => (P cI cA cB cO).x q thr) = fun _ => (iprop(emp) : sProp 𝕄) from
    funext fun thr => by unfold P; exact bigSep_emp' _]
  rw [bigSep_emp']
  iempintro

end Split

end Cert.Proof.KI

end
-- ==== Proof.KI.LaunchMain.lean ====
/-
  The launch side of the kernel, second part: @main on the TensorCore. Its host operations before the call build the
  call's operands (the two index arrays reshaped and stacked, the feature table widened); the call hands each of the 32
  tasks a read share of the three arrays read and its own block of result rows and takes them back with every block at
  the lookup's function; the last reshape drops the result's unit axis.
-/
import proofs.«206843_g13322988552399_fold_wed_c4_279_34_alg».proof.Proof.KI.LaunchSplit
import proofs.«206843_g13322988552399_fold_wed_c4_279_34_alg».proof.Proof.PreDecode
import Idealize.ShloMosaic.Lib.Pipeline.Value
import Idealize.ShloMosaic.Lib.KernelVsHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- @main's result, as the TensorCore names it. -/
abbrev resLoc (d : Dev nD) : Loc nD τ sig := (SparseCore.T d).loc main_v5

/-! ## @main's host operations -/

abbrev op0 : HloOp τ sig (Elt F) := StableHlo.reshape main_arg0 main_v0 rfl shapeCasts_S4096x50_S4096x1x50
abbrev op1 : HloOp τ sig (Elt F) := StableHlo.reshape main_arg1 main_v1 rfl shapeCasts_S4096x50_S4096x1x50
abbrev op2 : HloOp τ sig (Elt F) :=
  StableHlo.binary main_v0 main_v1 main_v2 ((fun a b => concatenate S4096x2x50 1 [⟨S4096x1x50, a⟩, ⟨S4096x1x50, b⟩] concatenates_S4096x1x50_S4096x1x50_S4096x2x50_d1) : (⟨S4096x1x50, .i32⟩ : BufTy).Contents (Elt F) → (⟨S4096x1x50, .i32⟩ : BufTy).Contents (Elt F) → (⟨S4096x2x50, .i32⟩ : BufTy).Contents (Elt F))
abbrev op3 : HloOp τ sig (Elt F) := StableHlo.nullary main_c (constantI S_ 32 0#32)
abbrev op4 : HloOp τ sig (Elt F) := StableHlo.TRef.unary (.of main_c : StableHlo.TRef sig ⟨S_, .i32⟩) main_call0.v0 (sitofp .f32)
abbrev op5 : HloOp τ sig (Elt F) :=
  StableHlo.TRef.binary (.of main_arg3 : StableHlo.TRef sig ⟨S1000x64, .f32⟩) main_call0.v0 main_call0.v1 (fun x v => pad S1000x128 ![0, 0] ![0, 64] ![0, 0] x v pads_S1000x64_S1000x128_000_0640 h_S_)
abbrev op6 : HloOp τ sig (Elt F) := StableHlo.reshape main_v4 main_v5 rfl shapeCasts_S4096x1x50x192_S4096x50x192

/-- The operations before the call, in order. -/
def opsPre : List (HloOp τ sig (Elt F)) := [op0, op1, op2, op3, op4, op5]

theorem main_eq (d : Dev nD) :
    main (F := F) d = (StableHlo.seq (opsPre (F := F)) >>= fun _ => (sc.run d 0 >>= fun _ => StableHlo.seq [op6 (F := F)])) := rfl

/-! ## @main's unscoped arrays, held as one set -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev k0' : DevRef τ sig := Proc.devRef .tc (main_call0_v0 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- Every array of @main: none is scoped. -/
abbrev SS : Finset (DevRef τ sig) := {a0', a1', a2', a3', v0', v1', v2', c', k0', v3', v4', v5'}
/-- The last reshape's two arrays. -/
abbrev S2 : Finset (DevRef τ sig) := {v4', v5'}

omit [FloatOps F] in
theorem held_SS (d : Dev nD) (W : Valuation τ sig (Elt F)) :
    (held (T d) SS W : sProp 𝕄) = iprop(((SparseCore.T d).loc main_arg0 ↦{fullShare} W a0') ∗ ((SparseCore.T d).loc main_arg1 ↦{fullShare} W a1')
      ∗ (wwLoc d ↦{fullShare} W a2') ∗ ((SparseCore.T d).loc main_arg3 ↦{fullShare} W a3') ∗ ((SparseCore.T d).loc main_v0 ↦{fullShare} W v0')
      ∗ ((SparseCore.T d).loc main_v1 ↦{fullShare} W v1') ∗ (idxLoc d ↦{fullShare} W v2') ∗ ((SparseCore.T d).loc main_c ↦{fullShare} W c')
      ∗ ((SparseCore.T d).loc main_call0_v0 ↦{fullShare} W k0') ∗ (wfLoc d ↦{fullShare} W v3') ∗ (outLoc d ↦{fullShare} W v4')
      ∗ ((SparseCore.T d).loc main_v5 ↦{fullShare} W v5')) := by
  unfold held SS
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((outLoc d ↦{fullShare} W v4') ∗ ((SparseCore.T d).loc main_v5 ↦{fullShare} W v5')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (wwLoc d ↦{fullShare} W main_arg2) ∗ ((SparseCore.T d).loc main_arg3 ↦{fullShare} W main_arg3) ∗ ((SparseCore.T d).loc main_v0 ↦{fullShare} W main_v0)
      ∗ ((SparseCore.T d).loc main_v1 ↦{fullShare} W main_v1) ∗ (idxLoc d ↦{fullShare} W main_v2) ∗ ((SparseCore.T d).loc main_c ↦{fullShare} W main_c)
      ∗ ((SparseCore.T d).loc main_call0_v0 ↦{fullShare} W main_call0_v0) ∗ (wfLoc d ↦{fullShare} W main_v3) ∗ (outLoc d ↦{fullShare} W main_v4)
      ∗ ((SparseCore.T d).loc main_v5 ↦{fullShare} W main_v5)) := by
  unfold unscopedBufs
  rw [show (Finset.univ.filter fun b : Ref sig .tc => ¬ b.isScoped) = {main_arg0, main_arg1, main_arg2, main_arg3, main_v0, main_v1, main_v2, main_c, main_call0_v0, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents of device d's arrays. -/
def V0 (d : Dev nD) : Valuation τ sig (Elt F) := fun b => m (d, b)
/-- The contents when the call starts. -/
def V5 (d : Dev nD) : Valuation τ sig (Elt F) := StableHlo.after (opsPre (F := F)) (V0 m d)

theorem unscoped_held (d : Dev nD) : (unscopedBufs d (fun b => m ((SparseCore.T d).loc b)) : sProp 𝕄) = held (T d) SS (V0 m d) := by
  rw [unscopedBufs_eq, held_SS]; rfl

theorem V5_a0 (d : Dev nD) : V5 m d a0' = m ((SparseCore.T d).loc main_arg0) := by
  unfold V5 opsPre; after_results; rfl
theorem V5_a1 (d : Dev nD) : V5 m d a1' = m ((SparseCore.T d).loc main_arg1) := by
  unfold V5 opsPre; after_results; rfl
theorem V5_a2 (d : Dev nD) : V5 m d a2' = cAof m d := by
  unfold V5 opsPre; after_results; rfl
theorem V5_a3 (d : Dev nD) : V5 m d a3' = m ((SparseCore.T d).loc main_arg3) := by
  unfold V5 opsPre; after_results; rfl
theorem V5_v2 (d : Dev nD) : V5 m d v2' = cIof m d := by
  unfold V5 opsPre; after_results; rfl
theorem V5_v3 (d : Dev nD) : V5 m d v3' = cBof m d := by
  unfold V5 opsPre; after_results; rfl
theorem V5_v4 (d : Dev nD) : V5 m d v4' = cOof m d := by
  unfold V5 opsPre; after_results; rfl

theorem hS_pre : ∀ op ∈ opsPre (F := F), op.bufs ⊆ SS := by
  intro op h
  simp only [opsPre, List.mem_cons, List.not_mem_nil, or_false] at h
  rcases h with rfl | rfl | rfl | rfl | rfl | rfl
  · show ({a0', v0'} : Finset (DevRef τ sig)) ⊆ SS; decide
  · show ({a1', v1'} : Finset (DevRef τ sig)) ⊆ SS; decide
  · show ({v0', v1', v2'} : Finset (DevRef τ sig)) ⊆ SS; decide
  · show ({c'} : Finset (DevRef τ sig)) ⊆ SS; decide
  · show ({c', k0'} : Finset (DevRef τ sig)) ⊆ SS; decide
  · show ({a3', k0', v3'} : Finset (DevRef τ sig)) ⊆ SS; decide
theorem hf_pre : ∀ op ∈ opsPre (F := F), op.fresh = ∅ := by
  intro op h
  unfold opsPre at h
  repeat (cases h with | head => rfl | tail _ h => ?_)
  exact nomatch h

/-! ## The result array in its 32 blocks of rows -/

omit [FloatOps F] in
theorem outBlk_eq (w : Fin 32) : outBlk w = (outRect w).set := by
  show ((View.whole (main_v4_scv : Ref sig .scVector)).slice (outRect w)).set = _
  rw [View.set_slice]; exact Finset.map_refl
omit [FloatOps F] in
theorem blks_disjoint : ∀ i ∈ (Finset.univ : Finset (Fin 32)), ∀ j ∈ (Finset.univ : Finset (Fin 32)), i ≠ j → Disjoint (outBlk i) (outBlk j) :=
  fun i _ j _ h => by rw [outBlk_eq, outBlk_eq]; exact Rect.part_disjoint hdivO h
omit [FloatOps F] in
theorem blks_cover : (Finset.univ : Finset (Fin 32)).biUnion outBlk = Finset.univ :=
  (Finset.biUnion_congr rfl fun i _ => outBlk_eq i).trans (Rect.biUnion_part hdivO)

omit [FloatOps F] in
/-- The whole result array is its 32 blocks, all at one function. -/
theorem out_blocks (d : Dev nD) (f : Buf (Elt F) (outLoc d)) :
    (outLoc d ↦{fullShare} f : sProp 𝕄) = bigSep Finset.univ fun w : Fin 32 => outLoc d ↦[outBlk w]{fullShare} f := by
  rw [← pointsTo_biUnion Finset.univ (ℓ := outLoc d) outBlk blks_disjoint, blks_cover]; try rfl

section Deal

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- What all 32 tasks are handed together: 32 read shares of each of the three arrays read, and the result array whole. -/
theorem go_all (d : Dev nD) :
    (bigSep Finset.univ fun w : Fin 32 => tileGo cI cA cB cO d w) = iprop((bigSep Finset.univ fun w : Fin 32 => idxLoc d ↦{shareTok fullShare 32 w} cI d)
      ∗ (bigSep Finset.univ fun w : Fin 32 => wwLoc d ↦{shareTok fullShare 32 w} cA d) ∗ (bigSep Finset.univ fun w : Fin 32 => wfLoc d ↦{shareTok fullShare 32 w} cB d)
      ∗ (outLoc d ↦{fullShare} cO d)) := by
  unfold tileGo
  rw [bigSep_sep', bigSep_sep', bigSep_sep', ← out_blocks]
/-- What they hand back together: the same shares, and the result array whole at the lookup's function. -/
theorem td_all (d : Dev nD) :
    (bigSep Finset.univ fun w : Fin 32 => tileTd cI cA cB d w) = iprop((bigSep Finset.univ fun w : Fin 32 => idxLoc d ↦{shareTok fullShare 32 w} cI d)
      ∗ (bigSep Finset.univ fun w : Fin 32 => wwLoc d ↦{shareTok fullShare 32 w} cA d) ∗ (bigSep Finset.univ fun w : Fin 32 => wfLoc d ↦{shareTok fullShare 32 w} cB d)
      ∗ (outLoc d ↦{fullShare} gk cI cA cB d)) := by
  unfold tileTd
  rw [bigSep_sep', bigSep_sep', bigSep_sep', ← out_blocks]

/-- The two cores' operands together are the 32 tasks'. -/
theorem st0_eq (d : Dev nD) :
    (bigSep Finset.univ fun c : Fin ((K (F := F)).nCore 0) => (P cI cA cB cO).st 0 d c) = bigSep Finset.univ fun w : Fin 32 => tileGo cI cA cB cO d w := by
  simp only [P_st]
  rw [bigSep_cores (F := F) (fun c => bigSep Finset.univ fun s : Fin 16 => tileGo cI cA cB cO d (wid c s)), ← bigSep_wid]
theorem dn0_eq (d : Dev nD) :
    (bigSep Finset.univ fun c : Fin ((K (F := F)).nCore 0) => (P cI cA cB cO).dn 0 d c) = bigSep Finset.univ fun w : Fin 32 => tileTd cI cA cB d w := by
  simp only [P_dn]
  rw [bigSep_cores (F := F) (fun c => bigSep Finset.univ fun s : Fin 16 => tileTd cI cA cB d (wid c s)), ← bigSep_wid]

end Deal

/-! ## @main on the TensorCore -/

/-- What the call carries, at the contents @main's operations before it leave. -/
abbrev PP : (K (F := F)).Pay (nD := nD) (Val := Elt F) (Name := ℕ) (U := UU) := P (cIof m) (cAof m) (cBof m) (cOof m)

/-- The contents of @main's arrays when the call starts, the ones the proof reads named. -/
theorem held_V5 (d : Dev nD) :
    (held (T d) SS (StableHlo.after (opsPre (F := F)) (V0 m d)) : sProp 𝕄) = iprop(((SparseCore.T d).loc main_arg0 ↦{fullShare} m ((SparseCore.T d).loc main_arg0))
      ∗ ((SparseCore.T d).loc main_arg1 ↦{fullShare} m ((SparseCore.T d).loc main_arg1))
      ∗ (wwLoc d ↦{fullShare} cAof m d) ∗ ((SparseCore.T d).loc main_arg3 ↦{fullShare} m ((SparseCore.T d).loc main_arg3)) ∗ ((SparseCore.T d).loc main_v0 ↦{fullShare} V5 m d v0')
      ∗ ((SparseCore.T d).loc main_v1 ↦{fullShare} V5 m d v1') ∗ (idxLoc d ↦{fullShare} cIof m d) ∗ ((SparseCore.T d).loc main_c ↦{fullShare} V5 m d c')
      ∗ ((SparseCore.T d).loc main_call0_v0 ↦{fullShare} V5 m d k0') ∗ (wfLoc d ↦{fullShare} cBof m d) ∗ (outLoc d ↦{fullShare} cOof m d)
      ∗ ((SparseCore.T d).loc main_v5 ↦{fullShare} V5 m d v5')) := by
  show (held (T d) SS (V5 m d) : sProp 𝕄) = _
  rw [held_SS, V5_a0, V5_a1, V5_a2, V5_a3, V5_v2, V5_v3, V5_v4]

/-- The contents after the call: the result array at the lookup's function. -/
def V6 (d : Dev nD) : Valuation τ sig (Elt F) := Function.update (V5 m d) v4' (gk (cIof m) (cAof m) (cBof m) d)
theorem V6_v4 (d : Dev nD) : V6 m d v4' = gk (cIof m) (cAof m) (cBof m) d := Function.update_self _ _ _
theorem V6_v5 (d : Dev nD) : V6 m d v5' = V5 m d v5' := Function.update_of_ne (show v5' ≠ v4' by decide) _ _

/-- @main's result: the call's result with its unit axis dropped. -/
def resOf (d : Dev nD) : Buf (Elt F) (resLoc d) :=
  shapeCast S4096x50x192 (gk (cIof m) (cAof m) (cBof m) d) shapeCasts_S4096x1x50x192_S4096x50x192

theorem res_v5 (d : Dev nD) : StableHlo.after [op6 (F := F)] (V6 m d) v5' = resOf m d := by
  after_results; rw [V6_v4]; rfl

theorem hS_post : ∀ op ∈ [op6 (F := F)], op.bufs ⊆ S2 := by
  intro op h
  simp only [List.mem_cons, List.not_mem_nil, or_false] at h
  subst h
  show ({v4', v5'} : Finset (DevRef τ sig)) ⊆ S2; decide
theorem hf_post : ∀ op ∈ [op6 (F := F)], op.fresh = ∅ := by
  intro op h
  simp only [List.mem_cons, List.not_mem_nil, or_false] at h
  subst h; rfl

/-- What @main leaves the claim: its four arguments at their launch contents, its result at the reshaped lookup. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (wwLoc d ↦{fullShare} m (wwLoc d)) ∗ ((SparseCore.T d).loc main_arg3 ↦{fullShare} m ((SparseCore.T d).loc main_arg3))
    ∗ ((SparseCore.T d).loc main_v5 ↦{fullShare} resOf m d))

set_option backward.isDefEq.respectTransparency.types false in
/-- @main on device d's TensorCore: the five host operations, the call (the three arrays read dealt as 32 read shares
    each, the result array in its 32 blocks, all back joined), the last reshape. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d SS _ (opsPre (F := F)) hS_pre hf_pre (V0 m d)) $$ [Hb Hheld]
  · isplitl [Hb]; · iexact Hb
    iexact Hheld
  iintro ⟨Hb, Hheld⟩
  ihave Hh := (Entails.of_eq (held_V5 m d)) $$ Hheld
  icases Hh with ⟨Ha0, Ha1, Ha2, Ha3, -, -, Hv2, -, -, Hv3, Hv4, Hv5⟩
  ihave Hi := (Transfers.pointsTo_toks_split fullShare 32) $$ Hv2
  icases Hi with ⟨Hi0, Hit⟩
  ihave Ha := (Transfers.pointsTo_toks_split fullShare 32) $$ Ha2
  icases Ha with ⟨Ha20, Hat⟩
  ihave Hf := (Transfers.pointsTo_toks_split fullShare 32) $$ Hv3
  icases Hf with ⟨Hf0, Hft⟩
  rw [wp_bind]
  iapply ((K (F := F)).wp_run (D (F := F)) 𝒱 (EH := EH) (P := PP m) κ d 0) $$ [Hst Hit Hat Hft Hv4 Hb Ha0 Ha1 Ha3 Hv5 Ha20]
  isplitr; · iexact Hctx
  isplitl [Hst]; · iexact Hst
  isplitl [Hit Hat Hft Hv4]
  · rw [st0_eq, go_all]
    isplitl [Hit]; · iexact Hit
    isplitl [Hat]; · iexact Hat
    isplitl [Hft]; · iexact Hft
    iexact Hv4
  iintro ⟨Hst, Hdn⟩
  ihave Hdn' := (Entails.of_eq ((dn0_eq (cIof m) (cAof m) (cBof m) (cOof m) d).trans (td_all (cIof m) (cAof m) (cBof m) d))) $$ Hdn
  icases Hdn' with ⟨-, Hat, -, Hv4⟩
  ihave Ha2 := (Transfers.pointsTo_toks_join fullShare 32) $$ [Ha20 Hat]
  · isplitl [Ha20]; · iexact Ha20
    iexact Hat
  rw [show StableHlo.seq [op6 (F := F)] = (StableHlo.seq [op6 (F := F)] >>= fun u => Pure.pure u) from (bind_pure _).symm]
  iapply (StableHlo.wp_seq 𝒱 none Set.univ d S2 _ [op6 (F := F)] hS_post hf_post (V6 m d)) $$ [Hb Hv4 Hv5]
  · isplitl [Hb]; · iexact Hb
    rw [held_S2, V6_v4, V6_v5]
    isplitl [Hv4]; · iexact Hv4
    iexact Hv5
  iintro ⟨-, Hheld⟩
  ihave Hh := (Entails.of_eq (held_S2 d _)) $$ Hheld
  icases Hh with ⟨-, Hv5⟩
  rw [wp_pure, res_v5]; imodintro
  isplitl [Hst]; · iexact Hst
  isplitl [Ha0]; · iexact Ha0
  isplitl [Ha1]; · iexact Ha1
  isplitl [Ha2]; · iexact Ha2
  isplitl [Ha3]; · iexact Ha3
  iexact Hv5

/-! ## The final memory read off -/

/-- What the final memory of device d holds: the arguments unchanged, the result at the reshaped lookup. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (wwLoc d) = m (wwLoc d) ∧ s'.mem.mem ((SparseCore.T d).loc main_arg3) = m ((SparseCore.T d).loc main_arg3)
    ∧ s'.mem.mem (resLoc d) = resOf m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := wwLoc d) (I := Finset.univ) (q := fullShare) (f := m (wwLoc d)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := resLoc d) (I := Finset.univ) (q := fullShare) (f := resOf m d)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), funext fun i => h5 i (Finset.mem_univ i)⟩

end Cert.Proof.KI
end
-- ==== Proof.KI.Launch.lean ====
/-
  The launch side of the kernel, last part: the value the run leaves, and the run itself.

  @main's result is the call's result with its unit axis dropped. Read at (n, l, q) it is, for q < 128, the word table's
  row named by plane 0 of the stacked indices — the word index (n, l) — and otherwise column q − 128 < 64 of the widened
  feature table's row named by plane 1 — the feature index (n, l) —, a column the widening does not touch: the function
  both programs compute. The precondition bounds every index word, which is what the tasks need of the stacked indices.
-/
import proofs.«206843_g13322988552399_fold_wed_c4_279_34_alg».proof.Proof.KI.LaunchMain
import proofs.«206843_g13322988552399_fold_wed_c4_279_34_alg».proof.Proof.PreDecode
import Idealize.ShloMosaic.Lib.Pipeline.Value
import Idealize.ShloMosaic.Lib.KernelVsHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The stacked indices and the widened table read at an index -/

/-- Plane 0 of the stacked indices is the word indices. -/
theorem cI_word (d : Dev nD) (n : Fin 4096) (l : Fin 50) :
    cIof m d (ValueIdx.ix3 n (0 : Fin 2) l) = m ((SparseCore.T d).loc main_arg0) (ValueIdx.ix2 n l) := by
  unfold cIof
  rw [concatenate_pair_apply_left (t := S4096x2x50) (s₁ := S4096x1x50) (s₂ := S4096x1x50) (1 : Fin 3) _ _ concatenates_S4096x1x50_S4096x1x50_S4096x2x50_d1 (ValueIdx.ix3 n (0 : Fin 2) l) rfl
    (ValueIdx.ix3 n (0 : Fin 1) l) (fun b => by match b with | ⟨0, _⟩ => rfl | ⟨1, _⟩ => rfl | ⟨2, _⟩ => rfl)]
  refine shapeCast_apply _ _ _ _ ?_
  show ((⟨2, ![4096, 50]⟩ : Shape).rowMajor (ValueIdx.ix2 n l)).val = ((⟨3, ![4096, 1, 50]⟩ : Shape).rowMajor (ValueIdx.ix3 n (0 : Fin 1) l)).val
  rw [Shape.rowMajor_val_two, Shape.rowMajor_val_three]
  show n.val * 50 + l.val = (n.val * 1 + 0) * 50 + l.val
  omega

/-- Plane 1 is the feature indices. -/
theorem cI_feat (d : Dev nD) (n : Fin 4096) (l : Fin 50) :
    cIof m d (ValueIdx.ix3 n (1 : Fin 2) l) = m ((SparseCore.T d).loc main_arg1) (ValueIdx.ix2 n l) := by
  unfold cIof
  rw [concatenate_pair_apply_right (t := S4096x2x50) (s₁ := S4096x1x50) (s₂ := S4096x1x50) (1 : Fin 3) _ _ concatenates_S4096x1x50_S4096x1x50_S4096x2x50_d1 (ValueIdx.ix3 n (1 : Fin 2) l) rfl rfl
    (ValueIdx.ix3 n (0 : Fin 1) l) (fun b hb => by match b, hb with | ⟨0, _⟩, _ => rfl | ⟨1, _⟩, hb => exact absurd rfl hb | ⟨2, _⟩, _ => rfl) rfl]
  refine shapeCast_apply _ _ _ _ ?_
  show ((⟨2, ![4096, 50]⟩ : Shape).rowMajor (ValueIdx.ix2 n l)).val = ((⟨3, ![4096, 1, 50]⟩ : Shape).rowMajor (ValueIdx.ix3 n (0 : Fin 1) l)).val
  rw [Shape.rowMajor_val_two, Shape.rowMajor_val_three]
  show n.val * 50 + l.val = (n.val * 1 + 0) * 50 + l.val
  omega

/-- Columns 0 … 63 of the widened feature table are the feature table's. -/
theorem cB_inside (d : Dev nD) (r : Fin 1000) (q : Fin 128) (hq : q.val < 64) :
    cBof m d (ValueIdx.ix2 r q) = m ((SparseCore.T d).loc main_arg3) (ValueIdx.ix2 r (⟨q.val, hq⟩ : Fin 64)) := by
  unfold cBof
  refine pad_apply_of_inside _ _ _ _ _ _ _ _ _ (fun a => ?_)
  match a with
  | ⟨0, _⟩ => show r.val = 0 + r.val * (0 + 1); omega
  | ⟨1, _⟩ => show q.val = 0 + q.val * (0 + 1); omega

/-! ## The value: the call's result with its unit axis dropped is the function both programs compute -/

theorem value_at (d : Dev nD) (n : Fin 4096) (l : Fin 50) (q : Fin 192) :
    resOf m d (ValueIdx.ix3 n l q)
      = Cert.Stack.G (m ((SparseCore.T d).loc main_arg0)) (m ((SparseCore.T d).loc main_arg1)) (m (wwLoc d)) (m ((SparseCore.T d).loc main_arg3)) (ValueIdx.ix3 n l q) := by
  unfold resOf
  rw [shapeCast_apply _ _ (ValueIdx.ix3 n l q) (ValueIdx.ix4 n (0 : Fin 1) l q) (by
    show ((⟨4, ![4096, 1, 50, 192]⟩ : Shape).rowMajor (ValueIdx.ix4 n (0 : Fin 1) l q)).val = ((⟨3, ![4096, 50, 192]⟩ : Shape).rowMajor (ValueIdx.ix3 n l q)).val
    rw [Shape.rowMajor_val_four, Shape.rowMajor_val_three]
    show ((n.val * 1 + 0) * 50 + l.val) * 192 + q.val = (n.val * 50 + l.val) * 192 + q.val
    omega)]
  show Cert.Stack.Gk (cIof m d) (cAof m d) (cBof m d) (ValueIdx.ix4 n (0 : Fin 1) l q) = _
  by_cases h : q.val < 128
  · rw [Cert.Stack.Gk_word _ _ _ n 0 l q h, Cert.Stack.G_word _ _ _ _ n l q h, cI_word]
    rfl
  · have h' : 128 ≤ q.val := Nat.le_of_not_lt h
    rw [Cert.Stack.Gk_feat _ _ _ n 0 l q h', Cert.Stack.G_feat _ _ _ _ n l q h', cI_feat]
    exact cB_inside m d _ _ (show q.val - 128 < 64 by have := q.isLt; omega)

theorem value_bridge (d : Dev nD) :
    resOf m d = Cert.Stack.G (m ((SparseCore.T d).loc main_arg0)) (m ((SparseCore.T d).loc main_arg1)) (m (wwLoc d)) (m ((SparseCore.T d).loc main_arg3)) := by
  refine funext fun (j : (⟨3, ![4096, 50, 192]⟩ : Shape).Idx) => ?_
  rw [ValueIdx.eq_ix3 j]
  exact value_at m d (j 0) (j 1) (j 2)

/-! ## The index words are in range -/

/-- The program's precondition on every device: the input-domain predicate of the four arguments is one. -/
def PreAll [Cert.Pre_input_domain.Facts] : Prop :=
  ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) = fun _ => 1#1

theorem hin_of_pre [Cert.Pre_input_domain.Facts] (hpre : PreAll m) : ∀ d, InRange (cIof m) d := by
  intro d n l
  rw [cI_word, cI_feat]
  exact ⟨Cert.Stack.Pre.word_lt _ _ _ _ (hpre d) _, Cert.Stack.Pre.feat_lt _ _ _ _ (hpre d) _⟩

/-! ## The program's run -/

/-- From any launch memory, granted the tile obligation: every weakly fair execution of the whole family of threads
    terminates; every final memory holds, on every device, the function of the four arguments in @main's result and the
    four arguments unchanged. -/
theorem run_main [∀ e, Nonempty (Elt F e)] (m : (ℓ : Loc nD τ sig) → Buf (Elt F) ℓ) (ρ : Dev nD → PrngReg)
    (htile : (K (F := F)).TileObl (D (F := F)) 𝒱 (P (cIof m) (cAof m) (cBof m) (cOof m)) v₀ 0) :
    θ_run (Cert.KernelIdeal.defs (F := F)) (Cert.KernelIdeal.threads (F := F)) ⟨m, fun _ => 0, ρ⟩ (fun r => ∀ c : Dev nD,
      r.2.mem ((c.tc : Thread nD τ).loc main_v5)
          = Cert.Stack.G (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (cIof m) (cAof m) (cBof m) (cOof m)))
    m ρ main (fun _ => iprop(emp)) (FIN m) (u₀ (F := F)) (sep_elim_left.trans (hu₀ (cIof m) (cAof m) (cBof m) (cOof m))) (hmain m ρ) (fq m) (hfin m) _
    (fun s' h c => by
      obtain ⟨h0, h1, h2, h3, h5⟩ := h c
      exact ⟨h5.trans (value_bridge m c), h0, h1, h2, h3⟩)

end Cert.Proof.KI
end
-- ==== Proof.KI.Obl.lean ====
/-
  The tile obligation of the launch theorem from the statement of the task's body.

  A vector subcore is handed a read share of each of the three arrays read, its block of result rows, and what it owns
  itself: its scoped buffers and semaphores. Of these the kernel touches twelve scratch buffers and sixteen DMA
  semaphores; the rest waits aside. Each read share is cut once more, into a remainder that waits aside as well and a
  token per slot of the ring. What remains is the body's own starting state — four slots at rest and the block — and,
  after it, the same with the block at the lookup's function; everything set aside is put back.
-/
import proofs.«206843_g13322988552399_fold_wed_c4_279_34_alg».proof.Proof.KI.Inv
import proofs.«206843_g13322988552399_fold_wed_c4_279_34_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic
open Idealize.ShloMosaic.ValueIdx

variable {F : FTy → Type} [FloatOps F]

local notation "𝕄" => MT nD τ sig (HIx 1) (Elt F) ℕ UU ℕ

/-! ## The task's program and the statement of its proof -/

/-- The kernel function at the coordinates L, on the four arrays whole and the task's scratch. -/
abbrev kernelAt (L : grid0.Coords) : Prog (TpuEff nD τ sig (Elt F) Λ₀ (.scVector ((L 0).castLE hcore0) ((L 1).castLE hsub0))) PUnit :=
  cc0__stack_kernel L idxV (Memref.isWhole_whole _) wwV (Memref.isWhole_whole _) wfV (Memref.isWhole_whole _) outV (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    cc0_scratch12 cc0_scratch13 cc0_scratch14 cc0_scratch15 cc0_scratch16 cc0_scratch17 cc0_scratch18 cc0_scratch19 cc0_scratch20 cc0_scratch21 cc0_scratch22
    cc0_scratch23 cc0_scratch24 cc0_scratch25 cc0_scratch26 cc0_scratch27

/-- What is asked of the task's body: from its four slots at rest and its block of result rows, with every index word in
    range, it ends with the slots at rest again and the block at the lookup's function. -/
def CoreStmt : Prop :=
  ∀ (d : Dev nD) (L : grid0.Coords) (fI : Buf (Elt F) ((idxV).view.loc (thr d L))) (fA : Buf (Elt F) ((wwV).view.loc (thr d L)))
    (fB : Buf (Elt F) ((wfV).view.loc (thr d L))) (fO : Buf (Elt F) ((outV).view.loc (thr d L))) (qI qA qB : PosShare TreeShare)
    (O : CellTallies nD τ sig (HIx 1)) (W : Waits sig (HIx 1)) (_ : ∀ g, O g none = 0)
    (_ : ∀ (r : Fin 4096) (l : Fin 50), (fI (ix3 r (0 : Fin 2) l)).toNat < 100000 ∧ (fI (ix3 r (1 : Fin 2) l)).toNat < 1000),
    iprop(Transfers.MayWaits (thr d L) (none : HIx 1) O ∗ owes (thr d L) O W ∗ tileRes d L fI fA fB qI qA qB fO)
      ⊢ wp frame (wpE (defs₀ (F := F)) 𝒱₀ (thr d L) none) Set.univ (kernelAt (F := F) L)
          (fun _ => iprop(tileRes d L fI fA fB qI qA qB (Cert.Stack.Gk fI fA fB) ∗ ∃ W', ⌜∀ p ∈ W', p ∈ W ∨ p.2 = none⌝ ∗ owes (thr d L) O W'))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

theorem bound_zero : grid0.bound 0 = 2 := rfl
theorem bound_one : grid0.bound 1 = 16 := rfl

/-! ## The task's own buffers and semaphores: the kernel's scratch and the rest -/

/-- The kernel's twelve scratch buffers. -/
abbrev scrRefs : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11}
/-- Its sixteen DMA semaphores. -/
abbrev scrSemLocs : Finset (SemLoc sig) :=
  {SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scratch23.sem, SemLoc.dma cc0_scratch24.sem, SemLoc.dma cc0_scratch25.sem, SemLoc.dma cc0_scratch26.sem, SemLoc.dma cc0_scratch27.sem}

def refEmb (c : Fin τ.nSC) (i : Fin τ.nSub) : Ref sig .scVector ↪ DevRef τ sig := ⟨Proc.devRef (.scVector c i), Proc.devRef_injective _⟩
def cellEmb (t : Thread nD τ) : SemLoc sig ↪ GSem nD τ sig := ⟨fun sm => (t, sm), fun _ _ e => (Prod.mk.inj e).2⟩

omit [FloatOps F] in
theorem scr_sub (c : Fin τ.nSC) (i : Fin τ.nSub) : scrRefs.map (refEmb c i) ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl | rfl | rfl | rfl <;> exact SparseCore.Cfg.mem_ownRefs_of_owner rfl

omit [FloatOps F] in
theorem sem_sub (d : Dev nD) (L : grid0.Coords) : scrSemLocs.map (cellEmb (thr d L)) ⊆ ownCells (thr d L) := by
  intro g hg
  obtain ⟨sm, hsm, rfl⟩ := Finset.mem_map.mp hg
  refine mem_ownCells.mpr ⟨rfl, ?_⟩
  exact (show ∀ sm ∈ scrSemLocs, SemLoc.isScoped (sig := sig) Kind.scVector sm = true by decide) sm hsm

/-- The scratch buffers, each whole at some contents. -/
def scrBufs (d : Dev nD) (L : grid0.Coords) : sProp 𝕄 :=
  iprop((∃ f, ((cix0).view.loc (thr d L) ↦{fullShare} f))
    ∗ (∃ f, ((cix1).view.loc (thr d L) ↦{fullShare} f))
    ∗ (∃ f, ((cix2).view.loc (thr d L) ↦{fullShare} f))
    ∗ (∃ f, ((cix3).view.loc (thr d L) ↦{fullShare} f))
    ∗ (∃ f, ((rf0).view.loc (thr d L) ↦{fullShare} f))
    ∗ (∃ f, ((rf1).view.loc (thr d L) ↦{fullShare} f))
    ∗ (∃ f, ((rf2).view.loc (thr d L) ↦{fullShare} f))
    ∗ (∃ f, ((rf3).view.loc (thr d L) ↦{fullShare} f))
    ∗ (∃ f, ((asm0).view.loc (thr d L) ↦{fullShare} f))
    ∗ (∃ f, ((asm1).view.loc (thr d L) ↦{fullShare} f))
    ∗ (∃ f, ((asm2).view.loc (thr d L) ↦{fullShare} f))
    ∗ (∃ f, ((asm3).view.loc (thr d L) ↦{fullShare} f)))
/-- The DMA semaphores, each at zero. -/
def scrSems (d : Dev nD) (L : grid0.Coords) : sProp 𝕄 :=
  iprop(semVal ((thr d L), SemLoc.dma cc0_scratch12.sem) 0
    ∗ semVal ((thr d L), SemLoc.dma cc0_scratch13.sem) 0
    ∗ semVal ((thr d L), SemLoc.dma cc0_scratch14.sem) 0
    ∗ semVal ((thr d L), SemLoc.dma cc0_scratch15.sem) 0
    ∗ semVal ((thr d L), SemLoc.dma cc0_scratch16.sem) 0
    ∗ semVal ((thr d L), SemLoc.dma cc0_scratch17.sem) 0
    ∗ semVal ((thr d L), SemLoc.dma cc0_scratch18.sem) 0
    ∗ semVal ((thr d L), SemLoc.dma cc0_scratch19.sem) 0
    ∗ semVal ((thr d L), SemLoc.dma cc0_scratch20.sem) 0
    ∗ semVal ((thr d L), SemLoc.dma cc0_scratch21.sem) 0
    ∗ semVal ((thr d L), SemLoc.dma cc0_scratch22.sem) 0
    ∗ semVal ((thr d L), SemLoc.dma cc0_scratch23.sem) 0
    ∗ semVal ((thr d L), SemLoc.dma cc0_scratch24.sem) 0
    ∗ semVal ((thr d L), SemLoc.dma cc0_scratch25.sem) 0
    ∗ semVal ((thr d L), SemLoc.dma cc0_scratch26.sem) 0
    ∗ semVal ((thr d L), SemLoc.dma cc0_scratch27.sem) 0)

/-- What else the subcore owns, which the kernel does not touch. -/
def bufRest (d : Dev nD) (L : grid0.Coords) : sProp 𝕄 :=
  bigSep (ownRefs (τ := τ) (.scVector (cV L) (jV L)) \ scrRefs.map (refEmb (cV L) (jV L))) fun b => iprop(∃ f, ((d, b) : Loc nD τ sig) ↦{fullShare} f)
def semRest (d : Dev nD) (L : grid0.Coords) : sProp 𝕄 :=
  bigSep (ownCells (thr d L) \ scrSemLocs.map (cellEmb (thr d L))) fun g => semVal g 0

omit [FloatOps F] in
theorem ownBufs_split (d : Dev nD) (L : grid0.Coords) : (ownBufs (thr d L) : sProp 𝕄) = iprop(scrBufs d L ∗ bufRest d L) := by
  unfold SparseCore.Cfg.ownBufs bufRest
  rw [SparseCore.bigSep_sdiff_split' (scr_sub (cV L) (jV L)), bigSep_map]
  congr 1
  unfold scrBufs scrRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] in
theorem ownSems0_split (d : Dev nD) (L : grid0.Coords) : (ownSems0 (thr d L) : sProp 𝕄) = iprop(scrSems d L ∗ semRest d L) := by
  unfold SparseCore.Cfg.ownSems0 semRest
  rw [SparseCore.bigSep_sdiff_split' (sem_sub d L), bigSep_map]
  congr 1
  unfold scrSems scrSemLocs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The task at coordinates L -/

/-- Its number: 2 · subcore + core. -/
def widL (L : grid0.Coords) : Fin 32 := ⟨2 * (L 1).val + (L 0).val, by
  have h0 : (L 0).val < 2 := (L 0).isLt
  have h1 : (L 1).val < 16 := (L 1).isLt
  omega⟩

omit [FloatOps F] in
/-- Its block of the result is rows N0 L … N0 L + 127. -/
theorem outBlk_rows (L : grid0.Coords) : outBlk (widL L) = outRows (N0 L) (N0 L + 128) := by
  rw [outBlk_eq]
  ext j
  simp only [outRows, Finset.mem_filter, Finset.mem_univ, true_and]
  rw [Rect.mem_set_unit]
  have e1 : S4096x1x50x192.partIx 0 (widL L).val 0 * S4096x1x50x192.partSize 0 32 0 = N0 L := by
    show (2 * (L 1).val + (L 0).val) * (4096 / 32) = 256 * (L 1).val + 128 * (L 0).val
    omega
  have e2 : S4096x1x50x192.partSize 0 32 0 = 128 := rfl
  constructor
  · intro h
    have h0 := h 0
    rw [e1, e2] at h0
    exact h0
  · intro h a
    by_cases ha : a = 0
    · subst ha
      rw [e1, e2]
      exact h
    · have e3 : S4096x1x50x192.partIx 0 (widL L).val a = 0 := if_neg ha
      have e4 : S4096x1x50x192.partSize 0 32 a = S4096x1x50x192.size a := if_neg ha
      rw [e3, e4]
      exact ⟨by omega, by have := (j a).isLt; omega⟩

/-! ## The arrays as the subcore names them are the TensorCore's -/

omit [FloatOps F] in
theorem pts_idx (d : Dev nD) (L : grid0.Coords) (q : PosShare TreeShare) (f : Buf (Elt F) (idxLoc d)) :
    ((idxV).view.loc (thr d L) ↦{q} f : sProp 𝕄) = idxLoc d ↦{q} f := rfl
omit [FloatOps F] in
theorem pts_ww (d : Dev nD) (L : grid0.Coords) (q : PosShare TreeShare) (f : Buf (Elt F) (wwLoc d)) :
    ((wwV).view.loc (thr d L) ↦{q} f : sProp 𝕄) = wwLoc d ↦{q} f := rfl
omit [FloatOps F] in
theorem pts_wf (d : Dev nD) (L : grid0.Coords) (q : PosShare TreeShare) (f : Buf (Elt F) (wfLoc d)) :
    ((wfV).view.loc (thr d L) ↦{q} f : sProp 𝕄) = wfLoc d ↦{q} f := rfl
omit [FloatOps F] in
theorem pts_out (d : Dev nD) (L : grid0.Coords) (I : Finset S4096x1x50x192.Idx) (f : Buf (Elt F) (outLoc d)) :
    ((outV).view.loc (thr d L) ↦[I]{fullShare} f : sProp 𝕄) = outLoc d ↦[I]{fullShare} f := rfl

/-! ## A read share in five: the remainder and a token per slot -/

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem toks4 {ℓ : Loc nD τ sig} (q : PosShare TreeShare) (f : Buf (Elt F) ℓ) :
    (ℓ ↦{q} f : sProp 𝕄) ⊢ iprop((ℓ ↦{shareDrop q 4} f) ∗ (ℓ ↦{shareTok q 4 0} f) ∗ (ℓ ↦{shareTok q 4 1} f) ∗ (ℓ ↦{shareTok q 4 2} f) ∗ (ℓ ↦{shareTok q 4 3} f)) := by
  refine (Transfers.pointsTo_toks_split q 4).trans ?_
  rw [bigSep_fin_four]
omit [FloatOps F] in
theorem toks4_join {ℓ : Loc nD τ sig} (q : PosShare TreeShare) (f : Buf (Elt F) ℓ) :
    iprop((ℓ ↦{shareDrop q 4} f) ∗ (ℓ ↦{shareTok q 4 0} f) ∗ (ℓ ↦{shareTok q 4 1} f) ∗ (ℓ ↦{shareTok q 4 2} f) ∗ (ℓ ↦{shareTok q 4 3} f)) ⊢ (ℓ ↦{q} f : sProp 𝕄) := by
  refine BI.Entails.trans ?_ (Transfers.pointsTo_toks_join q 4)
  rw [bigSep_fin_four]
  exact BI.Entails.refl _

/-! ## The tile obligation from the body's statement -/

section Body

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The task's read share of each array. -/
abbrev qT (L : grid0.Coords) : PosShare TreeShare := shareTok fullShare 32 (widL L)

/-- The remainders of the three read shares, kept aside while the body runs. -/
def aside (d : Dev nD) (L : grid0.Coords) : sProp 𝕄 :=
  iprop(((idxV).view.loc (thr d L) ↦{shareDrop (qT L) 4} cI d) ∗ ((wwV).view.loc (thr d L) ↦{shareDrop (qT L) 4} cA d) ∗ ((wfV).view.loc (thr d L) ↦{shareDrop (qT L) 4} cB d))

/-- What the task is handed, in the subcore's names. -/
theorem tileGo_V (d : Dev nD) (L : grid0.Coords) :
    tileGo cI cA cB cO d (widL L) = iprop(((idxV).view.loc (thr d L) ↦{qT L} cI d) ∗ ((wwV).view.loc (thr d L) ↦{qT L} cA d) ∗ ((wfV).view.loc (thr d L) ↦{qT L} cB d)
      ∗ ((outV).view.loc (thr d L) ↦[outRows (N0 L) (N0 L + 128)]{fullShare} cO d)) := by
  unfold tileGo; rw [outBlk_rows]
theorem tileTd_V (d : Dev nD) (L : grid0.Coords) :
    tileTd cI cA cB d (widL L) = iprop(((idxV).view.loc (thr d L) ↦{qT L} cI d) ∗ ((wwV).view.loc (thr d L) ↦{qT L} cA d) ∗ ((wfV).view.loc (thr d L) ↦{qT L} cB d)
      ∗ ((outV).view.loc (thr d L) ↦[outRows (N0 L) (N0 L + 128)]{fullShare} Cert.Stack.Gk (cI d) (cA d) (cB d))) := by
  unfold tileTd; rw [outBlk_rows]

/-- What the task is handed, its scratch and its semaphores are its four slots at rest, its block, and the remainders. -/
theorem body_pre (d : Dev nD) (L : grid0.Coords) :
    iprop(tileGo cI cA cB cO d (widL L) ∗ scrBufs d L ∗ scrSems d L)
      ⊢ iprop(tileRes d L (cI d) (cA d) (cB d) (qT L) (qT L) (qT L) (cO d) ∗ aside cI cA cB d L) := by
  rw [tileGo_V]
  unfold scrBufs scrSems tileRes slotRest0 slotRest1 slotRest2 slotRest3 aside
  iintro ⟨⟨Hi, Ha, Hb, Ho⟩, ⟨Hc0, Hc1, Hc2, Hc3, Hr0, Hr1, Hr2, Hr3, Hm0, Hm1, Hm2, Hm3⟩, ⟨Hs12, Hs13, Hs14, Hs15, Hs16, Hs17, Hs18, Hs19, Hs20, Hs21, Hs22, Hs23, Hs24, Hs25, Hs26, Hs27⟩⟩
  ihave Hi' := (toks4 (qT L) (cI d)) $$ Hi
  icases Hi' with ⟨Hi, Hi0, Hi1, Hi2, Hi3⟩
  ihave Ha' := (toks4 (qT L) (cA d)) $$ Ha
  icases Ha' with ⟨Ha, Ha0, Ha1, Ha2, Ha3⟩
  ihave Hb' := (toks4 (qT L) (cB d)) $$ Hb
  icases Hb' with ⟨Hb, Hb0, Hb1, Hb2, Hb3⟩
  iframe

/-- And back. -/
theorem body_post (d : Dev nD) (L : grid0.Coords) :
    iprop(tileRes d L (cI d) (cA d) (cB d) (qT L) (qT L) (qT L) (Cert.Stack.Gk (cI d) (cA d) (cB d)) ∗ aside cI cA cB d L)
      ⊢ iprop(tileTd cI cA cB d (widL L) ∗ scrBufs d L ∗ scrSems d L) := by
  rw [tileTd_V]
  unfold scrBufs scrSems tileRes slotRest0 slotRest1 slotRest2 slotRest3 aside
  iintro ⟨⟨⟨Hi0, Ha0, Hb0, Hc0, Hr0, Hm0, Hs12, Hs16, Hs20, Hs24⟩, ⟨Hi1, Ha1, Hb1, Hc1, Hr1, Hm1, Hs13, Hs17, Hs21, Hs25⟩,
    ⟨Hi2, Ha2, Hb2, Hc2, Hr2, Hm2, Hs14, Hs18, Hs22, Hs26⟩, ⟨Hi3, Ha3, Hb3, Hc3, Hr3, Hm3, Hs15, Hs19, Hs23, Hs27⟩, Ho⟩, ⟨Hi, Ha, Hb⟩⟩
  ihave Hi' := (toks4_join (qT L) (cI d)) $$ [Hi Hi0 Hi1 Hi2 Hi3]
  · iframe
  ihave Ha' := (toks4_join (qT L) (cA d)) $$ [Ha Ha0 Ha1 Ha2 Ha3]
  · iframe
  ihave Hb' := (toks4_join (qT L) (cB d)) $$ [Hb Hb0 Hb1 Hb2 Hb3]
  · iframe
  iframe

end Body

section Obl

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The task at coordinates L, from what the launch theorem hands it: the body runs from the four slots at rest and
    the block; the remainders of the read shares and what else the subcore owns wait aside and come back with them. -/
theorem tile_body (hcore : CoreStmt (F := F)) (hin : ∀ d, InRange cI d) (d : Dev nD) (L : grid0.Coords)
    (O : CellTallies nD τ sig (HIx 1)) (W : Waits sig (HIx 1)) (hO : ∀ g, O g none = 0) :
    iprop(levAts (K (F := F)).L (K (F := F)).lev ∗ iprop(emp) ∗ tileGo cI cA cB cO d (widL L) ∗ scopedBufs (thr d L) ∗ scopedSems0 (thr d L) ∗ owes (thr d L) O W)
      ⊢ wp frame (wpE (defs₀ (F := F)) 𝒱₀ (thr d L) none) Set.univ (kernelAt (F := F) L)
          fun _ => iprop(tileTd cI cA cB d (widL L) ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_split, ownSems0_split]
  iintro ⟨#Hlv, -, Hgo, ⟨Hscr, Hbrest⟩, ⟨Hsems, Hsrest⟩, HO⟩
  ihave Hmw := ((K (F := F)).mayWaits_none (thr := thr d L) hO) $$ Hlv
  ihave Hres := (body_pre cI cA cB cO d L) $$ [Hgo Hscr Hsems]
  · isplitl [Hgo]; · iexact Hgo
    isplitl [Hscr]; · iexact Hscr
    iexact Hsems
  icases Hres with ⟨Hres, Hkeep⟩
  iapply (wp_wand_r frame _ Set.univ)
  isplitl [Hmw HO Hres]
  · iapply (hcore d L (cI d) (cA d) (cB d) (cO d) (qT L) (qT L) (qT L) O W hO (hin d))
    isplitl [Hmw]; · iexact Hmw
    isplitl [HO]; · iexact HO
    iexact Hres
  iintro %u ⟨Hres, HW⟩
  ihave Hback := (body_post cI cA cB d L) $$ [Hres Hkeep]
  · isplitl [Hres]; · iexact Hres
    iexact Hkeep
  icases Hback with ⟨Htd, Hscr, Hsems⟩
  isplitl [Htd]; · iexact Htd
  isplitl [Hscr Hbrest]
  · isplitl [Hscr]; · iexact Hscr
    iexact Hbrest
  isplitl [Hsems Hsrest]
  · isplitl [Hsems]; · iexact Hsems
    iexact Hsrest
  iexact HW

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the launch theorem, from the body's statement and the index words in range. -/
theorem tileObl (hcore : CoreStmt (F := F)) (hin : ∀ d, InRange cI d) : (K (F := F)).TileObl (D (F := F)) 𝒱 (P cI cA cB cO) v₀ 0 := by
  intro d c i O W hO _ _
  simp only [show (P cI cA cB cO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body cI cA cB cO hcore hin d (coordsV ⟨_, hc.1⟩ ⟨_, hc.2⟩) O W hO).trans (wp_mono frame _ _ fun _ => obl_post)

end Obl

end Cert.Proof.KI
end
-- ==== Proof.KI.Core.lean ====
/-
  One task of the lookup, whole: the first index rows are staged and the first row's gathers started, the ring runs
  its 32 rounds, the last three rows are waited for; the task's block of the result then holds the lookup's function.
-/
import proofs.«206843_g13322988552399_fold_wed_c4_279_34_alg».proof.Proof.KI.TripFirst
import proofs.«206843_g13322988552399_fold_wed_c4_279_34_alg».proof.Proof.KI.TripMid
import proofs.«206843_g13322988552399_fold_wed_c4_279_34_alg».proof.Proof.KI.TripLast
import proofs.«206843_g13322988552399_fold_wed_c4_279_34_alg».proof.Proof.KI.Obl

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-- A row range that ends no later than it starts has no rows. -/
theorem outRows_eq_empty {a b : ℕ} (h : b ≤ a) : outRows a b = ∅ := by
  ext j
  simp only [outRows, Finset.mem_filter, Finset.mem_univ, true_and, Finset.notMem_empty, iff_false]
  omega

/-- Slot 0's index buffer once the index rows of n have landed in it. -/
theorem idx_landed0 (d : Dev nD) (L : grid0.Coords) (fI : Buf (Elt F) ((idxV).view.loc (thr d L))) (n : ℕ) (hn : n < 4096)
    (o : Fin 3 → ℕ) (h : ∀ a, o a + S1x2x50.size a ≤ S4096x2x50.size a) (ho : o = ![n, 0, 0])
    (f : Buf (Elt F) ((cix0).view.loc (thr d L))) (g : S2x50.Idx → Elt F .i32) (hg : g = ReadAs.same.apply (View.read (Elt F) (idxRowM o h).view fI)) :
    (((cix0).view.loc (thr d L) ↦{fullShare} View.write (Elt F) (cix0).view f g Finset.univ) : sProp 𝕄)
      ⊢ ((cix0).view.loc (thr d L) ↦{fullShare} cixOf fI n) := by
  subst hg
  rw [read_idxRowM n hn o h ho, ReadAs.apply_same, View.write_whole_univ]

set_option maxHeartbeats 4000000 in
/-- The task's body, from its four slots at rest and its block of the result at any contents to the same with the block
    at the lookup's function. -/
theorem tile_core : CoreStmt (F := F) := by
  intro d L fI fA fB fO qI qA qB O W hO hI
  have hL0 : (L 0).val < 2 := (L 0).isLt
  have hL1 : (L 1).val < 16 := (L 1).isLt
  have hN : N0 L + 128 ≤ 4096 := by show 256 * (L 1).val + 128 * (L 0).val + 128 ≤ 4096; omega
  have ht : (Scf.trips k0_t1_loop.lb k0_t1_loop.ub k0_t1_loop.st) = 32 := by decide
  have hinW0' := hinW0 d L fI (N0 L + 4 * 0) hI
  have hinF0' := hinF0 d L fI (N0 L + 4 * 0) hI
  unfold kernelAt
  rw [cc0__stack_kernel_eq_skeleton]; unfold cc0__stack_kernel_skel
  rw [k0_part5_eq_skeleton]; unfold k0_part5_skel
  unfold tileRes slotRest0 slotRest1 slotRest2 slotRest3
  iintro ⟨Hmw, HO, ⟨Hi0, Hww0, Hwf0, ⟨%fc0, Hc0⟩, ⟨%fr0, Hr0⟩, ⟨%fa0, Ha0⟩, Hsi0, Hsw0, Hsf0, Hso0⟩, ⟨Hi1, Hww1, Hwf1, ⟨%fc1, Hc1⟩, ⟨%fr1, Hr1⟩, ⟨%fa1, Ha1⟩, Hsi1, Hsw1, Hsf1, Hso1⟩,
    ⟨Hi2, Hww2, Hwf2, ⟨%fc2, Hc2⟩, ⟨%fr2, Hr2⟩, ⟨%fa2, Ha2⟩, Hsi2, Hsw2, Hsf2, Hso2⟩, ⟨Hi3, Hww3, Hwf3, ⟨%fc3, Hc3⟩, ⟨%fr3, Hr3⟩, ⟨%fa3, Ha3⟩, Hsi3, Hsw3, Hsf3, Hso3⟩, Hout⟩
  -- the first two rows' index rows are staged, the first waited for
  sl_exec
  ihave Hc0 := (idx_landed0 d L fI (N0 L + 4 * 0) (by omega) (k0_off1 L 0#32) (k0_off1_inb L ⟨0, by decide⟩) (by rw [k0_off1_eq L ⟨0, by decide⟩]; try (congr 1 <;> omega)) _ _ (by rfl)) $$ Hc0
  ihave Hsi1 := (Transfers.Flight_mono countersEmb (thr d L) (idx_deliver1' d L fI (shareTok qI 4 1) (N0 L + 4 * 0 + 1) (by omega) (k0_off1 L 1#32) _ (by rw [k0_off1_eq L ⟨1, by decide⟩]; try (congr 1 <;> omega)) _ _ (by rfl))) $$ Hsi1
  unfold DIdx1
  ihave Hi1 := (idx_rest d L fI (N0 L + 4 * 0 + 1) (k0_off1 L 1#32) _ (by rw [k0_off1_eq L ⟨1, by decide⟩]; try (congr 1 <;> omega)) (shareTok qI 4 1)) $$ Hi1
  -- the first row's gathers
  sl_exec
  ihave Hsw0 := (Transfers.Flight_mono countersEmb (thr d L) (word_deliver0 d L fI fA fB (shareTok qA 4 0) (N0 L + 4 * 0) _ hinW0' _ (by rfl))) $$ Hsw0
  unfold DWord0
  ihave Hsf0 := (Transfers.Flight_mono countersEmb (thr d L) (feat_deliver0 d L fI fB (shareTok qB 4 0) (N0 L + 4 * 0) _ hinF0' _ (by rfl))) $$ Hsf0
  unfold DFeat0
  -- the ring
  sl_for (ringInv d L fI fA fB fO qI qA qB O W) $$ [Hmw HO Hi0 Hww0 Hwf0 Hc0 Hr0 Ha0 Hsi0 Hsw0 Hsf0 Hso0 Hi1 Hww1 Hwf1 Hr1 Ha1 Hsi1 Hsw1 Hsf1 Hso1 Hi2 Hww2 Hwf2 Hc2 Hr2 Ha2 Hsi2 Hsw2 Hsf2 Hso2 Hi3 Hww3 Hwf3 Hc3 Hr3 Ha3 Hsi3 Hsw3 Hsf3 Hso3 Hout]
  case region =>
    intro k _
    rcases Nat.eq_zero_or_pos k.val with h0 | h1
    · exact trip_first d L fI fA fB fO qI qA qB O W _ k h0 hI
    · rcases Nat.lt_or_ge k.val 31 with h2 | h2
      · exact trip_mid d L fI fA fB fO qI qA qB O W _ k h1 h2 hI
      · exact trip_last d L fI fA fB fO qI qA qB O W _ k (by have := k.isLt; omega) hI
  · -- before the first round
    unfold ringInv slot0 slot1 slot2 slot3 outState
    rw [gath0_on _ _ _ _ _ _ _ _ (show 0 < 32 by decide), stage1_on _ _ _ _ _ _ _ _ (show 0 < 32 by decide), outgo1_off _ _ _ _ _ _ _ _ (show ¬ 1 ≤ 0 by decide), outgo2_off _ _ _ _ _ _ _ _ (show ¬ 1 ≤ 0 by decide), outgo3_off _ _ _ _ _ _ _ _ (show ¬ 1 ≤ 0 by decide)]
    unfold gath0On stage1On outgo1Off outgo2Off outgo3Off
    isplitl [Hmw]; · iexact Hmw
    isplitl [HO]
    · iexists _; isplitr
      rotate_left
      · iexact HO
      · ipureintro; repeat (first | exact (fun p hp => Or.inl hp) | refine waits_insert ?_ _)
    isplitl [Hi0 Hsi0 Hso0 Hsw0 Hww0 Hsf0 Hwf0 Hc0 Ha0]
    ·
      isplitl [Hi0]; · iexact Hi0
      isplitl [Hsi0]; · iexact Hsi0
      isplitl [Hso0]; · iexact Hso0
      isplitl [Hsw0]; · iexact Hsw0
      isplitl [Hww0]; · iexact Hww0
      isplitl [Hsf0]; · iexact Hsf0
      isplitl [Hwf0]; · iexact Hwf0
      isplitl [Hc0]; · iexact Hc0
      iexists _; iexact Ha0
    isplitl [Hww1 Hwf1 Hr1 Hsw1 Hsf1 Hsi1 Hi1 Hso1 Ha1]
    ·
      isplitl [Hww1]; · iexact Hww1
      isplitl [Hwf1]; · iexact Hwf1
      isplitl [Hr1]; · iexists _; iexact Hr1
      isplitl [Hsw1]; · iexact Hsw1
      isplitl [Hsf1]; · iexact Hsf1
      isplitl [Hsi1 Hi1]
      ·
        isplitl [Hsi1]; · iexact Hsi1
        iexact Hi1
      isplitl [Hso1]; · iexact Hso1
      iexists _; iexact Ha1
    isplitl [Hi2 Hsi2 Hc2 Hww2 Hwf2 Hr2 Hsw2 Hsf2 Hso2 Ha2]
    ·
      isplitl [Hi2]; · iexact Hi2
      isplitl [Hsi2]; · iexact Hsi2
      isplitl [Hc2]; · iexists _; iexact Hc2
      isplitl [Hww2]; · iexact Hww2
      isplitl [Hwf2]; · iexact Hwf2
      isplitl [Hr2]; · iexists _; iexact Hr2
      isplitl [Hsw2]; · iexact Hsw2
      isplitl [Hsf2]; · iexact Hsf2
      isplitl [Hso2]; · iexact Hso2
      iexists _; iexact Ha2
    isplitl [Hi3 Hsi3 Hc3 Hww3 Hwf3 Hr3 Hsw3 Hsf3 Hso3 Ha3]
    ·
      isplitl [Hi3]; · iexact Hi3
      isplitl [Hsi3]; · iexact Hsi3
      isplitl [Hc3]; · iexists _; iexact Hc3
      isplitl [Hww3]; · iexact Hww3
      isplitl [Hwf3]; · iexact Hwf3
      isplitl [Hr3]; · iexists _; iexact Hr3
      isplitl [Hsw3]; · iexact Hsw3
      isplitl [Hsf3]; · iexact Hsf3
      isplitl [Hso3]; · iexact Hso3
      iexists _; iexact Ha3
    isplitl [Hout]
    · iapply (out_cast d L fO (a := N0 L) (b := N0 L + 128) (N0 L + 4 * 0) (N0 L + 128) (by omega) (by omega)); iexact Hout
    · rw [outRows_eq_empty (show N0 L + 4 * 0 - 3 ≤ N0 L by omega), pointsTo_empty]; iempintro
  -- after the last round: the last three rows come home
  iintro %_ HI
  unfold ringInv slot0 slot1 slot2 slot3 outState
  rw [gath0_off _ _ _ _ _ _ _ _ (show ¬ (Scf.trips k0_t1_loop.lb k0_t1_loop.ub k0_t1_loop.st) < 32 by rw [ht]; decide), stage1_off _ _ _ _ _ _ _ _ (show ¬ (Scf.trips k0_t1_loop.lb k0_t1_loop.ub k0_t1_loop.st) < 32 by rw [ht]; decide), outgo1_on _ _ _ _ _ _ _ _ (show 1 ≤ (Scf.trips k0_t1_loop.lb k0_t1_loop.ub k0_t1_loop.st) by rw [ht]; decide), outgo2_on _ _ _ _ _ _ _ _ (show 1 ≤ (Scf.trips k0_t1_loop.lb k0_t1_loop.ub k0_t1_loop.st) by rw [ht]; decide), outgo3_on _ _ _ _ _ _ _ _ (show 1 ≤ (Scf.trips k0_t1_loop.lb k0_t1_loop.ub k0_t1_loop.st) by rw [ht]; decide)]
  unfold gath0Off stage1Off outgo1On outgo2On outgo3On DOut1 DOut2 DOut3
  icases HI with ⟨Hmw, ⟨%W', %hW', HO⟩, ⟨Hi0, Hsi0, Hso0, Hsw0, Hsf0, Hww0, Hwf0, ⟨%fc0', Hc0⟩, ⟨%fr0', Hr0⟩, ⟨%fa0', Ha0⟩⟩,
    ⟨Hww1, Hwf1, ⟨%fr1', Hr1⟩, Hsw1, Hsf1, ⟨Hsi1, Hi1, ⟨%fc1', Hc1⟩⟩, Hso1⟩,
    ⟨Hi2, Hsi2, ⟨%fc2', Hc2⟩, Hww2, Hwf2, ⟨%fr2', Hr2⟩, Hsw2, Hsf2, Hso2⟩,
    ⟨Hi3, Hsi3, ⟨%fc3', Hc3⟩, Hww3, Hwf3, ⟨%fr3', Hr3⟩, Hsw3, Hsf3, Hso3⟩, ⟨Hout, Hdone⟩⟩
  sl_exec
  sl_step
  ihave Hdone := (out_join d L (Cert.Stack.Gk fI fA fB) (a := N0 L) (b := N0 L + 4 * (Scf.trips k0_t1_loop.lb k0_t1_loop.ub k0_t1_loop.st) - 3) (N0 L + 4 * (Scf.trips k0_t1_loop.lb k0_t1_loop.ub k0_t1_loop.st) - 3) (N0 L + 4 * (Scf.trips k0_t1_loop.lb k0_t1_loop.ub k0_t1_loop.st) - 3 + 1) (c := N0 L + 4 * (Scf.trips k0_t1_loop.lb k0_t1_loop.ub k0_t1_loop.st) - 2) (by omega) (by omega) (by omega) (by omega)) $$ [Hdone Hso1_dst]
  · isplitl [Hdone] <;> iassumption
  ihave Hdone := (out_join d L (Cert.Stack.Gk fI fA fB) (a := N0 L) (b := N0 L + 4 * (Scf.trips k0_t1_loop.lb k0_t1_loop.ub k0_t1_loop.st) - 2) (N0 L + 4 * (Scf.trips k0_t1_loop.lb k0_t1_loop.ub k0_t1_loop.st) - 2) (N0 L + 4 * (Scf.trips k0_t1_loop.lb k0_t1_loop.ub k0_t1_loop.st) - 2 + 1) (c := N0 L + 4 * (Scf.trips k0_t1_loop.lb k0_t1_loop.ub k0_t1_loop.st) - 1) (by omega) (by omega) (by omega) (by omega)) $$ [Hdone Hso2_dst]
  · isplitl [Hdone] <;> iassumption
  ihave Hdone := (out_join d L (Cert.Stack.Gk fI fA fB) (a := N0 L) (b := N0 L + 4 * (Scf.trips k0_t1_loop.lb k0_t1_loop.ub k0_t1_loop.st) - 1) (N0 L + 4 * (Scf.trips k0_t1_loop.lb k0_t1_loop.ub k0_t1_loop.st) - 1) (N0 L + 4 * (Scf.trips k0_t1_loop.lb k0_t1_loop.ub k0_t1_loop.st) - 1 + 1) (c := N0 L + 128) (by omega) (by omega) (by omega) (by omega)) $$ [Hdone Hso3_dst]
  · isplitl [Hdone] <;> iassumption
  irename Hso1_src => Ha1
  irename Hso2_src => Ha2
  irename Hso3_src => Ha3
  isplitr [HO]
  · isplitl [Hi0 Hww0 Hwf0 Hc0 Hr0 Ha0 Hsi0 Hsw0 Hsf0 Hso0]
    ·
      isplitl [Hi0]; · iexact Hi0
      isplitl [Hww0]; · iexact Hww0
      isplitl [Hwf0]; · iexact Hwf0
      isplitl [Hc0]; · iexists _; iexact Hc0
      isplitl [Hr0]; · iexists _; iexact Hr0
      isplitl [Ha0]; · iexists _; iexact Ha0
      isplitl [Hsi0]; · iexact Hsi0
      isplitl [Hsw0]; · iexact Hsw0
      isplitl [Hsf0]; · iexact Hsf0
      iexact Hso0
    isplitl [Hi1 Hww1 Hwf1 Hc1 Hr1 Ha1 Hsi1 Hsw1 Hsf1 Hso1]
    ·
      isplitl [Hi1]; · iexact Hi1
      isplitl [Hww1]; · iexact Hww1
      isplitl [Hwf1]; · iexact Hwf1
      isplitl [Hc1]; · iexists _; iexact Hc1
      isplitl [Hr1]; · iexists _; iexact Hr1
      isplitl [Ha1]; · iexists _; iexact Ha1
      isplitl [Hsi1]; · iexact Hsi1
      isplitl [Hsw1]; · iexact Hsw1
      isplitl [Hsf1]; · iexact Hsf1
      iexact Hso1
    isplitl [Hi2 Hww2 Hwf2 Hc2 Hr2 Ha2 Hsi2 Hsw2 Hsf2 Hso2]
    ·
      isplitl [Hi2]; · iexact Hi2
      isplitl [Hww2]; · iexact Hww2
      isplitl [Hwf2]; · iexact Hwf2
      isplitl [Hc2]; · iexists _; iexact Hc2
      isplitl [Hr2]; · iexists _; iexact Hr2
      isplitl [Ha2]; · iexists _; iexact Ha2
      isplitl [Hsi2]; · iexact Hsi2
      isplitl [Hsw2]; · iexact Hsw2
      isplitl [Hsf2]; · iexact Hsf2
      iexact Hso2
    isplitl [Hi3 Hww3 Hwf3 Hc3 Hr3 Ha3 Hsi3 Hsw3 Hsf3 Hso3]
    ·
      isplitl [Hi3]; · iexact Hi3
      isplitl [Hww3]; · iexact Hww3
      isplitl [Hwf3]; · iexact Hwf3
      isplitl [Hc3]; · iexists _; iexact Hc3
      isplitl [Hr3]; · iexists _; iexact Hr3
      isplitl [Ha3]; · iexists _; iexact Ha3
      isplitl [Hsi3]; · iexact Hsi3
      isplitl [Hsw3]; · iexact Hsw3
      isplitl [Hsf3]; · iexact Hsf3
      iexact Hso3
    iexact Hdone
  · iexists _; isplitr
    rotate_left
    · iexact HO
    · ipureintro; repeat (first | exact hW' | refine waits_insert ?_ _)

end Cert.Proof.KI

end
-- ==== Proof.KI.Claims.lean ====
/-
  The kernel's claims from the statement of the task's body: the run with its strongest post, and the frame.
-/
import proofs.«206843_g13322988552399_fold_wed_c4_279_34_alg».proof.Proof.KI.Obl
import proofs.«206843_g13322988552399_fold_wed_c4_279_34_alg».proof.Proof.Gen.Pre_input_domain

noncomputable section

namespace Cert.Proof.KI

open Cert.KernelIdeal Cert.KernelIdeal.Gen

open Idealize.ShloMosaic Idealize.SL.Sem

variable {F : FTy → Type} [FloatOps F]

/-- Under the precondition, granted the body's statement: every weakly fair execution terminates, and every final memory
    holds the function of the four arguments in @main's result and the four arguments unchanged, on every device. -/
theorem run_strong [∀ e, Nonempty (Elt F e)] [Cert.Pre_input_domain.Facts] (hcore : CoreStmt (F := F))
    (m : (ℓ : Loc nD τ sig) → Buf (Elt F) ℓ) (ρ : Dev nD → PrngReg) (hpre : PreAll m) :
    θ_run (Cert.KernelIdeal.defs (F := F)) (Cert.KernelIdeal.threads (F := F)) ⟨m, fun _ => 0, ρ⟩ (fun r => ∀ c : Dev nD,
      r.2.mem ((c.tc : Thread nD τ).loc main_v5)
          = Cert.Stack.G (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  run_main m ρ (tileObl (cIof m) (cAof m) (cBof m) (cOof m) hcore (hin_of_pre m hpre))

/-- The frame: the program runs and its argument arrays end unchanged. -/
theorem frame_ki (hcore : CoreStmt (F := Ideal)) : Cert.frame_KernelIdeal := fun m ρ hpre =>
  (θ_run Cert.KernelIdeal.defs _ _).mono (fun _ h c => (h c).2) (run_strong (F := Ideal) hcore m ρ hpre)

end Cert.Proof.KI

end
-- ==== Proof.K.Setup.lean ====
/-
  The idealized kernel's program as the launch theorem sees it, and what its one call carries.

  The call runs one task on each of the 32 vector subcores (2 cores × 16 subcores). Task w = 2·s + c owns result rows
  128·w … 128·w + 127 and only READS the stacked index array and the two tables, so each task is handed a read share of
  those three arrays whole and its own block of result rows outright, and hands the block back holding the lookup's
  function there.
-/
import proofs.«206843_g13322988552399_fold_wed_c4_279_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206843_g13322988552399_fold_wed_c4_279_34_alg».proof.Proof.Gen.Kernel
import proofs.«206843_g13322988552399_fold_wed_c4_279_34_alg».proof.Proof.Gen.Kernel.Skeleton
import proofs.«206843_g13322988552399_fold_wed_c4_279_34_alg».proof.Proof.Spec

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The four arrays of the call, as the TensorCore names them -/

/-- The stacked indices (4096 × 2 × 50), the word table, the widened feature table (1000 × 128), the call's result. -/
abbrev idxLoc (d : Dev nD) : Loc nD τ sig := (SparseCore.T d).loc main_v2
abbrev wwLoc (d : Dev nD) : Loc nD τ sig := (SparseCore.T d).loc main_arg2
abbrev wfLoc (d : Dev nD) : Loc nD τ sig := (SparseCore.T d).loc main_v3
abbrev outLoc (d : Dev nD) : Loc nD τ sig := (SparseCore.T d).loc main_v4

/-- The same arrays as a vector subcore's kernel addresses them. -/
abbrev idxV : Memref sig .scVector .hbm S4096x2x50 .i32 := Memref.whole main_v2_scv
abbrev wwV : Memref sig .scVector .hbm S100000x128 .f32 := Memref.whole main_arg2_scv
abbrev wfV : Memref sig .scVector .hbm S1000x128 .f32 := Memref.whole main_v3_scv
abbrev outV : Memref sig .scVector .hbm S4096x1x50x192 .f32 := Memref.whole main_v4_scv

/-- Task number of subcore s of core c. -/
def wid (c : Fin 2) (s : Fin 16) : Fin 32 := ⟨2 * s.val + c.val, by omega⟩

theorem hdivO : 32 ∣ S4096x1x50x192.size 0 := ⟨128, rfl⟩
/-- Result rows 128·w … 128·w + 127. -/
abbrev outRect (w : Fin 32) : Rect S4096x1x50x192 := Rect.part (s := S4096x1x50x192) (a₀ := 0) hdivO w
abbrev outBlk (w : Fin 32) : Finset S4096x1x50x192.Idx := ((outV : Memref sig .scVector .hbm S4096x1x50x192 .f32).view.slice (outRect w)).set

/-! ## What the call carries -/

section Pay

variable [FloatOps F]
-- the three arrays the tasks read, at the contents the call finds them with, and the result array's contents before the call
variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The function the call leaves in the result array. -/
abbrev gk (d : Dev nD) : Buf (Elt F) (outLoc d) := Cert.Stack.Gk (cI d) (cA d) (cB d)

/-- What task w is handed: a read share of each array it reads, its block of result rows. -/
def tileGo (d : Dev nD) (w : Fin 32) : sProp 𝕄 :=
  iprop((idxLoc d ↦{shareTok fullShare 32 w} cI d) ∗ (wwLoc d ↦{shareTok fullShare 32 w} cA d) ∗ (wfLoc d ↦{shareTok fullShare 32 w} cB d)
    ∗ (outLoc d ↦[outBlk w]{fullShare} cO d))
/-- What it hands back: the shares, and the block at the lookup's function. -/
def tileTd (d : Dev nD) (w : Fin 32) : sProp 𝕄 :=
  iprop((idxLoc d ↦{shareTok fullShare 32 w} cI d) ∗ (wwLoc d ↦{shareTok fullShare 32 w} cA d) ∗ (wfLoc d ↦{shareTok fullShare 32 w} cB d)
    ∗ (outLoc d ↦[outBlk w]{fullShare} gk cI cA cB d))

def P : (K (F := F)).Pay (nD := nD) (Val := Elt F) (Name := ℕ) (U := UU) where
  st := fun q d c => match q with | 0 => bigSep Finset.univ fun s : Fin 16 => tileGo cI cA cB cO d (wid (Fin.cast nCore_zero c) s)
  dn := fun q d c => match q with | 0 => bigSep Finset.univ fun s : Fin 16 => tileTd cI cA cB d (wid (Fin.cast nCore_zero c) s)
  go := fun q d c s => match q with | 0 => tileGo cI cA cB cO d (wid (Fin.cast nCore_zero c) (Fin.cast nSub_zero s))
  td := fun q d c s => match q with | 0 => tileTd cI cA cB d (wid (Fin.cast nCore_zero c) (Fin.cast nSub_zero s))
  x := fun _ _ => iprop(emp)

instance tileGo_storable (d : Dev nD) (w : Fin 32) : BI.Storable (upEmb : UEmb _ 𝕄) (tileGo cI cA cB cO d w) := by
  unfold tileGo; infer_instance
instance tileTd_storable (d : Dev nD) (w : Fin 32) : BI.Storable (upEmb : UEmb _ 𝕄) (tileTd cI cA cB d w) := by
  unfold tileTd; infer_instance

instance P_storable : (P (F := F) cI cA cB cO).IsStorable where
  st q d c := match q with | 0 => by unfold P; dsimp only; infer_instance
  dn q d c := match q with | 0 => by unfold P; dsimp only; infer_instance
  go q d c s := match q with | 0 => by unfold P; dsimp only; infer_instance
  td q d c s := match q with | 0 => by unfold P; dsimp only; infer_instance

/-- What the tasks need of the index words: each names a row of its table. -/
def InRange (d : Dev nD) : Prop :=
  ∀ (n : Fin 4096) (l : Fin 50), (cI d (ValueIdx.ix3 n (0 : Fin 2) l)).toNat < 100000 ∧ (cI d (ValueIdx.ix3 n (1 : Fin 2) l)).toNat < 1000

end Pay

end Cert.Proof.K

end
-- ==== Proof.K.Tile.lean ====
/-
  One task's view of the lookup: its buffers, what each holds when a copy into it has landed, and the copies in flight.

  A task works through its 128 rows in a ring of four slots. For the row numbered n of the result, slot b's index
  buffer holds the two index rows of n; its feature buffer holds, per position l, the widened feature table's row
  named by the second index row at l; and its assembly buffer holds the finished row: columns 0 … 127 the word table's
  row named by the first index row at l, columns 128 … 191 the first 64 columns of the feature buffer. Each of these is
  ONE function of the arrays the task reads, stated for the whole buffer, so that pieces written by different copies
  are pieces of the same function.
-/
import proofs.«206843_g13322988552399_fold_wed_c4_279_34_alg».proof.Proof.K.Setup

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-! ## The task's thread and buffers -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cix0 : Memref sig .scVector .vmem S2x50 .i32 := Memref.whole cc0_scratch0
abbrev cix1 : Memref sig .scVector .vmem S2x50 .i32 := Memref.whole cc0_scratch1
abbrev cix2 : Memref sig .scVector .vmem S2x50 .i32 := Memref.whole cc0_scratch2
abbrev cix3 : Memref sig .scVector .vmem S2x50 .i32 := Memref.whole cc0_scratch3
abbrev rf0 : Memref sig .scVector .vmem S50x128 .f32 := Memref.whole cc0_scratch4
abbrev rf1 : Memref sig .scVector .vmem S50x128 .f32 := Memref.whole cc0_scratch5
abbrev rf2 : Memref sig .scVector .vmem S50x128 .f32 := Memref.whole cc0_scratch6
abbrev rf3 : Memref sig .scVector .vmem S50x128 .f32 := Memref.whole cc0_scratch7
abbrev asm0 : Memref sig .scVector .vmem S1x50x192 .f32 := Memref.whole cc0_scratch8
abbrev asm1 : Memref sig .scVector .vmem S1x50x192 .f32 := Memref.whole cc0_scratch9
abbrev asm2 : Memref sig .scVector .vmem S1x50x192 .f32 := Memref.whole cc0_scratch10
abbrev asm3 : Memref sig .scVector .vmem S1x50x192 .f32 := Memref.whole cc0_scratch11

/-- Columns 0 … 127 of an assembly buffer, as the word gather addresses them. -/
abbrev asmCols (m : Memref sig .scVector .vmem S1x50x192 .f32) : Memref sig .scVector .vmem S50x128 .f32 :=
  (m.slice (Rect.unit (s := S1x50x192) ![0, 0, 0] S1x50x128.size inb_S1x50x192_S1x50x128_0_0_0) (fun _ => rfl)).squeeze S50x128 squeezes_S1x50x128_S50x128
/-- The two rows of an index buffer, as the gathers read their offsets. -/
abbrev cixRow0 (m : Memref sig .scVector .vmem S2x50 .i32) : Memref sig .scVector .vmem S50 .i32 :=
  (m.slice (Rect.unit (s := S2x50) ![0, 0] S1x50.size inb_S2x50_S1x50_0_0) (fun _ => rfl)).squeeze S50 squeezes_S1x50_S50
abbrev cixRow1 (m : Memref sig .scVector .vmem S2x50 .i32) : Memref sig .scVector .vmem S50 .i32 :=
  (m.slice (Rect.unit (s := S2x50) ![1, 0] S1x50.size inb_S2x50_S1x50_1_0) (fun _ => rfl)).squeeze S50 squeezes_S1x50_S50
/-- The two tables, as the gathers address them. -/
abbrev wwS : Memref sig .scVector .hbm S100000x128 .f32 := wwV.slice (Rect.unit (s := S100000x128) ![0, 0] S100000x128.size inb_S100000x128_S100000x128_0_0) (fun _ => rfl)
abbrev wfS : Memref sig .scVector .hbm S1000x128 .f32 := wfV.slice (Rect.unit (s := S1000x128) ![0, 0] S1000x128.size inb_S1000x128_S1000x128_0_0) (fun _ => rfl)

/-- One row of the stacked indices / of the result, at explicit offsets. -/
abbrev idxRowM (o : Fin 3 → ℕ) (h : ∀ a, o a + S1x2x50.size a ≤ S4096x2x50.size a) : Memref sig .scVector .hbm S2x50 .i32 :=
  (idxV.slice (Rect.unit (s := S4096x2x50) o S1x2x50.size h) (fun _ => rfl)).squeeze S2x50 squeezes_S1x2x50_S2x50
abbrev outRowM (o : Fin 4 → ℕ) (h : ∀ a, o a + S1x1x50x192.size a ≤ S4096x1x50x192.size a) : Memref sig .scVector .hbm S1x50x192 .f32 :=
  (outV.slice (Rect.unit (s := S4096x1x50x192) o S1x1x50x192.size h) (fun _ => rfl)).squeeze S1x50x192 squeezes_S1x1x50x192_S1x50x192

/-- The entries of row n of the stacked indices / of the result. -/
def idxRowSet (n : ℕ) : Finset S4096x2x50.Idx := Finset.univ.filter fun j => (j 0).val = n
/-- Rows a ≤ r < b of the result; one row. -/
def outRows (a b : ℕ) : Finset S4096x1x50x192.Idx := Finset.univ.filter fun j => a ≤ (j 0).val ∧ (j 0).val < b
abbrev outRowSet (n : ℕ) : Finset S4096x1x50x192.Idx := outRows n (n + 1)

theorem outRows_sdiff {a b c : ℕ} (hab : a ≤ b) : outRows a c \ outRows a b = outRows b c := by
  ext j
  simp only [outRows, Finset.mem_sdiff, Finset.mem_filter, Finset.mem_univ, true_and]
  omega
theorem outRows_subset {a b c : ℕ} (hbc : b ≤ c) : outRows a b ⊆ outRows a c := by
  intro j
  simp only [outRows, Finset.mem_filter, Finset.mem_univ, true_and]
  omega
theorem outRows_empty (a : ℕ) : outRows a a = ∅ := by
  ext j
  simp only [outRows, Finset.mem_filter, Finset.mem_univ, true_and, Finset.notMem_empty, iff_false]
  omega

/-! ## What the buffers hold for result row n -/

section Contents

variable (fI : S4096x2x50.Idx → BitVec 32) (fA : S100000x128.Idx → Elt F .f32) (fB : S1000x128.Idx → Elt F .f32)

/-- Row n as an index (rows beyond the array never arise; the remainder keeps the function total). -/
def rowFin (n : ℕ) : Fin 4096 := ⟨n % 4096, Nat.mod_lt _ (by norm_num)⟩
theorem rowFin_val {n : ℕ} (h : n < 4096) : (rowFin n).val = n := Nat.mod_eq_of_lt h

/-- An index buffer holding the two index rows of n. -/
def cixOf (n : ℕ) : S2x50.Idx → BitVec 32 := fun j => fI (ix3 (rowFin n) (j 0) (j 1))
/-- A feature buffer holding, at position l, the widened feature table's row named by the second index row at l. -/
def rfOf (n : ℕ) : S50x128.Idx → Elt F .f32 := fun j => fB (ix2 (Cert.Lib.takeRow 1000 (by norm_num) (fI (ix3 (rowFin n) (1 : Fin 2) (j 0)))) (j 1))
/-- An assembly buffer holding the finished row n of the result. -/
def asmOf (n : ℕ) : S1x50x192.Idx → Elt F .f32 := fun j => Cert.Stack.Gk fI fA fB (ix4 (rowFin n) (0 : Fin 1) (j 1) (j 2))

end Contents

/-! ## Copies in flight: what each delivers when it lands -/

section Flights

variable (d : Dev nD) (L : grid0.Coords)
variable (fI : Buf (Elt F) ((idxV).view.loc (thr d L))) (fA : Buf (Elt F) ((wwV).view.loc (thr d L))) (fB : Buf (Elt F) ((wfV).view.loc (thr d L)))

/-- Slot 0: the index rows of n into its index buffer; -/
abbrev DIdx0 (q : PosShare TreeShare) (n : ℕ) : sProp 𝕄 :=
  iprop(((cix0).view.loc (thr d L) ↦{fullShare} cixOf fI n) ∗ ((idxV).view.loc (thr d L) ↦[idxRowSet n]{q} fI))
/-- the word table's rows into columns 0 … 127 of its assembly buffer; -/
abbrev DWord0 (q : PosShare TreeShare) (n : ℕ) : sProp 𝕄 :=
  iprop((((asm0).view.loc (thr d L) ↦[(asmCols asm0).view.set]{fullShare} asmOf fI fA fB n)
      ∗ ((cix0).view.loc (thr d L) ↦[(cixRow0 cix0).view.set]{fullShare} cixOf fI n))
    ∗ ((wwV).view.loc (thr d L) ↦[(wwS).view.set]{q} fA))
/-- the widened feature table's rows into its feature buffer; -/
abbrev DFeat0 (q : PosShare TreeShare) (n : ℕ) : sProp 𝕄 :=
  iprop((((rf0).view.loc (thr d L) ↦{fullShare} rfOf fI fB n)
      ∗ ((cix0).view.loc (thr d L) ↦[(cixRow1 cix0).view.set]{fullShare} cixOf fI n))
    ∗ ((wfV).view.loc (thr d L) ↦[(wfS).view.set]{q} fB))
/-- its finished row out into row n of the result. -/
abbrev DOut0 (n : ℕ) : sProp 𝕄 :=
  iprop(((outV).view.loc (thr d L) ↦[outRowSet n]{fullShare} Cert.Stack.Gk fI fA fB) ∗ ((asm0).view.loc (thr d L) ↦{fullShare} asmOf fI fA fB n))

/-- Slot 1: the index rows of n into its index buffer; -/
abbrev DIdx1 (q : PosShare TreeShare) (n : ℕ) : sProp 𝕄 :=
  iprop(((cix1).view.loc (thr d L) ↦{fullShare} cixOf fI n) ∗ ((idxV).view.loc (thr d L) ↦[idxRowSet n]{q} fI))
/-- the word table's rows into columns 0 … 127 of its assembly buffer; -/
abbrev DWord1 (q : PosShare TreeShare) (n : ℕ) : sProp 𝕄 :=
  iprop((((asm1).view.loc (thr d L) ↦[(asmCols asm1).view.set]{fullShare} asmOf fI fA fB n)
      ∗ ((cix1).view.loc (thr d L) ↦[(cixRow0 cix1).view.set]{fullShare} cixOf fI n))
    ∗ ((wwV).view.loc (thr d L) ↦[(wwS).view.set]{q} fA))
/-- the widened feature table's rows into its feature buffer; -/
abbrev DFeat1 (q : PosShare TreeShare) (n : ℕ) : sProp 𝕄 :=
  iprop((((rf1).view.loc (thr d L) ↦{fullShare} rfOf fI fB n)
      ∗ ((cix1).view.loc (thr d L) ↦[(cixRow1 cix1).view.set]{fullShare} cixOf fI n))
    ∗ ((wfV).view.loc (thr d L) ↦[(wfS).view.set]{q} fB))
/-- its finished row out into row n of the result. -/
abbrev DOut1 (n : ℕ) : sProp 𝕄 :=
  iprop(((outV).view.loc (thr d L) ↦[outRowSet n]{fullShare} Cert.Stack.Gk fI fA fB) ∗ ((asm1).view.loc (thr d L) ↦{fullShare} asmOf fI fA fB n))

/-- Slot 2: the index rows of n into its index buffer; -/
abbrev DIdx2 (q : PosShare TreeShare) (n : ℕ) : sProp 𝕄 :=
  iprop(((cix2).view.loc (thr d L) ↦{fullShare} cixOf fI n) ∗ ((idxV).view.loc (thr d L) ↦[idxRowSet n]{q} fI))
/-- the word table's rows into columns 0 … 127 of its assembly buffer; -/
abbrev DWord2 (q : PosShare TreeShare) (n : ℕ) : sProp 𝕄 :=
  iprop((((asm2).view.loc (thr d L) ↦[(asmCols asm2).view.set]{fullShare} asmOf fI fA fB n)
      ∗ ((cix2).view.loc (thr d L) ↦[(cixRow0 cix2).view.set]{fullShare} cixOf fI n))
    ∗ ((wwV).view.loc (thr d L) ↦[(wwS).view.set]{q} fA))
/-- the widened feature table's rows into its feature buffer; -/
abbrev DFeat2 (q : PosShare TreeShare) (n : ℕ) : sProp 𝕄 :=
  iprop((((rf2).view.loc (thr d L) ↦{fullShare} rfOf fI fB n)
      ∗ ((cix2).view.loc (thr d L) ↦[(cixRow1 cix2).view.set]{fullShare} cixOf fI n))
    ∗ ((wfV).view.loc (thr d L) ↦[(wfS).view.set]{q} fB))
/-- its finished row out into row n of the result. -/
abbrev DOut2 (n : ℕ) : sProp 𝕄 :=
  iprop(((outV).view.loc (thr d L) ↦[outRowSet n]{fullShare} Cert.Stack.Gk fI fA fB) ∗ ((asm2).view.loc (thr d L) ↦{fullShare} asmOf fI fA fB n))

/-- Slot 3: the index rows of n into its index buffer; -/
abbrev DIdx3 (q : PosShare TreeShare) (n : ℕ) : sProp 𝕄 :=
  iprop(((cix3).view.loc (thr d L) ↦{fullShare} cixOf fI n) ∗ ((idxV).view.loc (thr d L) ↦[idxRowSet n]{q} fI))
/-- the word table's rows into columns 0 … 127 of its assembly buffer; -/
abbrev DWord3 (q : PosShare TreeShare) (n : ℕ) : sProp 𝕄 :=
  iprop((((asm3).view.loc (thr d L) ↦[(asmCols asm3).view.set]{fullShare} asmOf fI fA fB n)
      ∗ ((cix3).view.loc (thr d L) ↦[(cixRow0 cix3).view.set]{fullShare} cixOf fI n))
    ∗ ((wwV).view.loc (thr d L) ↦[(wwS).view.set]{q} fA))
/-- the widened feature table's rows into its feature buffer; -/
abbrev DFeat3 (q : PosShare TreeShare) (n : ℕ) : sProp 𝕄 :=
  iprop((((rf3).view.loc (thr d L) ↦{fullShare} rfOf fI fB n)
      ∗ ((cix3).view.loc (thr d L) ↦[(cixRow1 cix3).view.set]{fullShare} cixOf fI n))
    ∗ ((wfV).view.loc (thr d L) ↦[(wfS).view.set]{q} fB))
/-- its finished row out into row n of the result. -/
abbrev DOut3 (n : ℕ) : sProp 𝕄 :=
  iprop(((outV).view.loc (thr d L) ↦[outRowSet n]{fullShare} Cert.Stack.Gk fI fA fB) ∗ ((asm3).view.loc (thr d L) ↦{fullShare} asmOf fI fA fB n))

end Flights

end Cert.Proof.K

end
-- ==== Proof.K.Inv.lean ====
/-
  What a task holds between two rounds of its ring.

  Before round k (rows N0 L + 4k … N0 L + 4k + 3 of the task's block, N its first row) the gathers for row N0 L + 4k are in
  flight into slot 0, the index rows of N0 L + 4k + 1 are in flight into slot 1, and — from the second round on — the
  finished rows N0 L + 4k − 3, N0 L + 4k − 2, N0 L + 4k − 1 are on their way out of slots 1, 2, 3. Rows below N0 L + 4k − 3 of the
  block hold the lookup; rows from N0 L + 4k on are untouched. After the last round (k = 32) nothing is in flight into a
  slot and the last three rows are still on their way out.
-/
import proofs.«206843_g13322988552399_fold_wed_c4_279_34_alg».proof.Proof.K.Tile

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Inv

/-- The task's first row. -/
abbrev N0 (L : grid0.Coords) : ℕ := 256 * (L 1).val + 128 * (L 0).val

/-- Slot 0's gathers: for row N0 L + 4k in flight, or (after the last round) everything at rest. -/
def gath0On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(Flight countersEmb (thr d L) (SemLoc.dma cc0_scratch16.sem) (default : HIx 1) 204800 (DWord0 d L fI fA fB (shareTok qA 4 0) (N0 L + 4 * k)) ∗ ((wwV).view.loc (thr d L) ↦[Finset.univ \ (wwS).view.set]{shareTok qA 4 0} fA)
    ∗ Flight countersEmb (thr d L) (SemLoc.dma cc0_scratch20.sem) (default : HIx 1) 204800 (DFeat0 d L fI fB (shareTok qB 4 0) (N0 L + 4 * k)) ∗ ((wfV).view.loc (thr d L) ↦[Finset.univ \ (wfS).view.set]{shareTok qB 4 0} fB)
    ∗ ((cix0).view.loc (thr d L) ↦[(Finset.univ \ (cixRow0 cix0).view.set) \ (cixRow1 cix0).view.set]{fullShare} cixOf fI (N0 L + 4 * k))
    ∗ ∃ fa, ((asm0).view.loc (thr d L) ↦[Finset.univ \ (asmCols asm0).view.set]{fullShare} fa))
def gath0Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch16.sem) 0 ∗ semVal ((thr d L), SemLoc.dma cc0_scratch20.sem) 0 ∗ ((wwV).view.loc (thr d L) ↦{shareTok qA 4 0} fA) ∗ ((wfV).view.loc (thr d L) ↦{shareTok qB 4 0} fB)
    ∗ (∃ f, ((cix0).view.loc (thr d L) ↦{fullShare} f)) ∗ (∃ f, ((rf0).view.loc (thr d L) ↦{fullShare} f)) ∗ ∃ f, ((asm0).view.loc (thr d L) ↦{fullShare} f))
def gath0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if k < 32 then gath0On d L fI fA fB qI qA qB k else gath0Off d L fI fA fB qI qA qB
theorem gath0_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : k < 32) : gath0 d L fI fA fB qI qA qB k = gath0On d L fI fA fB qI qA qB k := if_pos h
theorem gath0_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ k < 32) : gath0 d L fI fA fB qI qA qB k = gath0Off d L fI fA fB qI qA qB := if_neg h

/-- Slot 1's index rows: of N0 L + 4k + 1 in flight, or at rest. -/
def stage1On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(Flight countersEmb (thr d L) (SemLoc.dma cc0_scratch13.sem) (default : HIx 1) 3200 (DIdx1 d L fI (shareTok qI 4 1) (N0 L + 4 * k + 1)) ∗ ((idxV).view.loc (thr d L) ↦[Finset.univ \ idxRowSet (N0 L + 4 * k + 1)]{shareTok qI 4 1} fI))
def stage1Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch13.sem) 0 ∗ ((idxV).view.loc (thr d L) ↦{shareTok qI 4 1} fI) ∗ ∃ f, ((cix1).view.loc (thr d L) ↦{fullShare} f))
def stage1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if k < 32 then stage1On d L fI fA fB qI qA qB k else stage1Off d L fI fA fB qI qA qB
theorem stage1_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : k < 32) : stage1 d L fI fA fB qI qA qB k = stage1On d L fI fA fB qI qA qB k := if_pos h
theorem stage1_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ k < 32) : stage1 d L fI fA fB qI qA qB k = stage1Off d L fI fA fB qI qA qB := if_neg h

/-- Slot 1's way out: row N0 L + 4k − 3 in flight from the second round on; before that its assembly buffer at rest. -/
def outgo1On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch25.sem) (default : HIx 1) 307200 (DOut1 d L fI fA fB (N0 L + 4 * k - 3))
def outgo1Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch25.sem) 0 ∗ ∃ f, ((asm1).view.loc (thr d L) ↦{fullShare} f))
def outgo1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo1On d L fI fA fB qI qA qB k else outgo1Off d L fI fA fB qI qA qB
theorem outgo1_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo1 d L fI fA fB qI qA qB k = outgo1On d L fI fA fB qI qA qB k := if_pos h
theorem outgo1_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo1 d L fI fA fB qI qA qB k = outgo1Off d L fI fA fB qI qA qB := if_neg h

/-- Slot 2's way out: row N0 L + 4k − 2 in flight from the second round on; before that its assembly buffer at rest. -/
def outgo2On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch26.sem) (default : HIx 1) 307200 (DOut2 d L fI fA fB (N0 L + 4 * k - 2))
def outgo2Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch26.sem) 0 ∗ ∃ f, ((asm2).view.loc (thr d L) ↦{fullShare} f))
def outgo2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo2On d L fI fA fB qI qA qB k else outgo2Off d L fI fA fB qI qA qB
theorem outgo2_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo2 d L fI fA fB qI qA qB k = outgo2On d L fI fA fB qI qA qB k := if_pos h
theorem outgo2_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo2 d L fI fA fB qI qA qB k = outgo2Off d L fI fA fB qI qA qB := if_neg h

/-- Slot 3's way out: row N0 L + 4k − 1 in flight from the second round on; before that its assembly buffer at rest. -/
def outgo3On (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  Flight countersEmb (thr d L) (SemLoc.dma cc0_scratch27.sem) (default : HIx 1) 307200 (DOut3 d L fI fA fB (N0 L + 4 * k - 1))
def outgo3Off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(semVal ((thr d L), SemLoc.dma cc0_scratch27.sem) 0 ∗ ∃ f, ((asm3).view.loc (thr d L) ↦{fullShare} f))
def outgo3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 := if 1 ≤ k then outgo3On d L fI fA fB qI qA qB k else outgo3Off d L fI fA fB qI qA qB
theorem outgo3_on (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : 1 ≤ k) : outgo3 d L fI fA fB qI qA qB k = outgo3On d L fI fA fB qI qA qB k := if_pos h
theorem outgo3_off (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) {k : ℕ} (h : ¬ 1 ≤ k) : outgo3 d L fI fA fB qI qA qB k = outgo3Off d L fI fA fB qI qA qB := if_neg h

/-- Slot 0. -/
def slot0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 0} fI) ∗ semVal ((thr d L), SemLoc.dma cc0_scratch12.sem) 0 ∗ semVal ((thr d L), SemLoc.dma cc0_scratch24.sem) 0 ∗ gath0 d L fI fA fB qI qA qB k)
/-- Slot 1: its gathers at rest. -/
def slot1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((wwV).view.loc (thr d L) ↦{shareTok qA 4 1} fA) ∗ ((wfV).view.loc (thr d L) ↦{shareTok qB 4 1} fB) ∗ (∃ f, ((rf1).view.loc (thr d L) ↦{fullShare} f)) ∗ semVal ((thr d L), SemLoc.dma cc0_scratch17.sem) 0 ∗ semVal ((thr d L), SemLoc.dma cc0_scratch21.sem) 0
    ∗ stage1 d L fI fA fB qI qA qB k ∗ outgo1 d L fI fA fB qI qA qB k)
/-- Slots 2 and 3: at rest but for the rows on their way out. -/
def slot2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 2} fI) ∗ semVal ((thr d L), SemLoc.dma cc0_scratch14.sem) 0 ∗ (∃ f, ((cix2).view.loc (thr d L) ↦{fullShare} f))
    ∗ ((wwV).view.loc (thr d L) ↦{shareTok qA 4 2} fA) ∗ ((wfV).view.loc (thr d L) ↦{shareTok qB 4 2} fB) ∗ (∃ f, ((rf2).view.loc (thr d L) ↦{fullShare} f)) ∗ semVal ((thr d L), SemLoc.dma cc0_scratch18.sem) 0 ∗ semVal ((thr d L), SemLoc.dma cc0_scratch22.sem) 0
    ∗ outgo2 d L fI fA fB qI qA qB k)
def slot3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (k : ℕ) : sProp 𝕄 :=
  iprop(((idxV).view.loc (thr d L) ↦{shareTok qI 4 3} fI) ∗ semVal ((thr d L), SemLoc.dma cc0_scratch15.sem) 0 ∗ (∃ f, ((cix3).view.loc (thr d L) ↦{fullShare} f))
    ∗ ((wwV).view.loc (thr d L) ↦{shareTok qA 4 3} fA) ∗ ((wfV).view.loc (thr d L) ↦{shareTok qB 4 3} fB) ∗ (∃ f, ((rf3).view.loc (thr d L) ↦{fullShare} f)) ∗ semVal ((thr d L), SemLoc.dma cc0_scratch19.sem) 0 ∗ semVal ((thr d L), SemLoc.dma cc0_scratch23.sem) 0
    ∗ outgo3 d L fI fA fB qI qA qB k)

/-- The task's block of the result: untouched from row N0 L + 4k on, the lookup below row N0 L + 4k − 3. -/
def outState (d : Dev nD) (L : grid0.Coords) (fI : Buf (Elt F) ((idxV).view.loc (thr d L))) (fA : Buf (Elt F) ((wwV).view.loc (thr d L))) (fB : Buf (Elt F) ((wfV).view.loc (thr d L))) (fO : Buf (Elt F) ((outV).view.loc (thr d L))) (k : ℕ) : sProp 𝕄 :=
  iprop(((outV).view.loc (thr d L) ↦[outRows (N0 L + 4 * k) (N0 L + 128)]{fullShare} fO) ∗ ((outV).view.loc (thr d L) ↦[outRows (N0 L) (N0 L + 4 * k - 3)]{fullShare} Cert.Stack.Gk fI fA fB))

/-- A slot at rest: its read token of each array, its three buffers at some contents, its four semaphores at zero. -/
def slotRest0 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 0} fI) ∗ ((wwV).view.loc (thr d L) ↦{shareTok qA 4 0} fA) ∗ ((wfV).view.loc (thr d L) ↦{shareTok qB 4 0} fB)
      ∗ (∃ f, ((cix0).view.loc (thr d L) ↦{fullShare} f)) ∗ (∃ f, ((rf0).view.loc (thr d L) ↦{fullShare} f)) ∗ (∃ f, ((asm0).view.loc (thr d L) ↦{fullShare} f))
      ∗ semVal ((thr d L), SemLoc.dma cc0_scratch12.sem) 0 ∗ semVal ((thr d L), SemLoc.dma cc0_scratch16.sem) 0 ∗ semVal ((thr d L), SemLoc.dma cc0_scratch20.sem) 0 ∗ semVal ((thr d L), SemLoc.dma cc0_scratch24.sem) 0)
def slotRest1 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 1} fI) ∗ ((wwV).view.loc (thr d L) ↦{shareTok qA 4 1} fA) ∗ ((wfV).view.loc (thr d L) ↦{shareTok qB 4 1} fB)
      ∗ (∃ f, ((cix1).view.loc (thr d L) ↦{fullShare} f)) ∗ (∃ f, ((rf1).view.loc (thr d L) ↦{fullShare} f)) ∗ (∃ f, ((asm1).view.loc (thr d L) ↦{fullShare} f))
      ∗ semVal ((thr d L), SemLoc.dma cc0_scratch13.sem) 0 ∗ semVal ((thr d L), SemLoc.dma cc0_scratch17.sem) 0 ∗ semVal ((thr d L), SemLoc.dma cc0_scratch21.sem) 0 ∗ semVal ((thr d L), SemLoc.dma cc0_scratch25.sem) 0)
def slotRest2 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 2} fI) ∗ ((wwV).view.loc (thr d L) ↦{shareTok qA 4 2} fA) ∗ ((wfV).view.loc (thr d L) ↦{shareTok qB 4 2} fB)
      ∗ (∃ f, ((cix2).view.loc (thr d L) ↦{fullShare} f)) ∗ (∃ f, ((rf2).view.loc (thr d L) ↦{fullShare} f)) ∗ (∃ f, ((asm2).view.loc (thr d L) ↦{fullShare} f))
      ∗ semVal ((thr d L), SemLoc.dma cc0_scratch14.sem) 0 ∗ semVal ((thr d L), SemLoc.dma cc0_scratch18.sem) 0 ∗ semVal ((thr d L), SemLoc.dma cc0_scratch22.sem) 0 ∗ semVal ((thr d L), SemLoc.dma cc0_scratch26.sem) 0)
def slotRest3 (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) : sProp 𝕄 :=
  iprop(((idxV).view.loc (thr d L) ↦{shareTok qI 4 3} fI) ∗ ((wwV).view.loc (thr d L) ↦{shareTok qA 4 3} fA) ∗ ((wfV).view.loc (thr d L) ↦{shareTok qB 4 3} fB)
      ∗ (∃ f, ((cix3).view.loc (thr d L) ↦{fullShare} f)) ∗ (∃ f, ((rf3).view.loc (thr d L) ↦{fullShare} f)) ∗ (∃ f, ((asm3).view.loc (thr d L) ↦{fullShare} f))
      ∗ semVal ((thr d L), SemLoc.dma cc0_scratch15.sem) 0 ∗ semVal ((thr d L), SemLoc.dma cc0_scratch19.sem) 0 ∗ semVal ((thr d L), SemLoc.dma cc0_scratch23.sem) 0 ∗ semVal ((thr d L), SemLoc.dma cc0_scratch27.sem) 0)

/-- What a task works from and ends with: its four slots at rest and its block of the result at given contents. -/
def tileRes (d : Dev nD) (L : grid0.Coords) (fI : Buf (Elt F) ((idxV).view.loc (thr d L))) (fA : Buf (Elt F) ((wwV).view.loc (thr d L))) (fB : Buf (Elt F) ((wfV).view.loc (thr d L))) (qI qA qB : PosShare TreeShare) (g : Buf (Elt F) ((outV).view.loc (thr d L))) : sProp 𝕄 :=
  iprop(slotRest0 d L fI fA fB qI qA qB ∗ slotRest1 d L fI fA fB qI qA qB ∗ slotRest2 d L fI fA fB qI qA qB ∗ slotRest3 d L fI fA fB qI qA qB
    ∗ ((outV).view.loc (thr d L) ↦[outRows (N0 L) (N0 L + 128)]{fullShare} g))

/-- The invariant of the ring's loop. -/
def ringInv (d : Dev nD) (L : grid0.Coords) (fI : Buf (Elt F) ((idxV).view.loc (thr d L))) (fA : Buf (Elt F) ((wwV).view.loc (thr d L))) (fB : Buf (Elt F) ((wfV).view.loc (thr d L))) (fO : Buf (Elt F) ((outV).view.loc (thr d L))) (qI qA qB : PosShare TreeShare) (O : CellTallies nD τ sig (HIx 1)) (W : Waits sig (HIx 1)) (k : ℕ) (_ : PUnit) : sProp 𝕄 :=
  iprop(Transfers.MayWaits (thr d L) (none : HIx 1) O
    ∗ (∃ W', ⌜∀ p ∈ W', p ∈ W ∨ p.2 = none⌝ ∗ owes (thr d L) O W')
    ∗ slot0 d L fI fA fB qI qA qB k ∗ slot1 d L fI fA fB qI qA qB k ∗ slot2 d L fI fA fB qI qA qB k ∗ slot3 d L fI fA fB qI qA qB k
    ∗ outState d L fI fA fB fO k)

end Inv

end Cert.Proof.K

end
-- ==== Proof.K.Values.lean ====
/-
  Value lemmas for one task's copies: each pending copy's destination, left by the symbolic run at a raw "payload
  written through a view" term, restated at the one clean function of the arrays the task reads.

  A points-to on an element set only speaks of the function's values on that set, so each restatement is an equation
  of two functions on the set: the index rows read through a row slice are the stacked indices at that row; a
  gathered table row, for an index word below the table's extent, is the table's row the word names; the assembled
  row's last 64 columns are the feature buffer's first 64 columns.
-/
import proofs.«206843_g13322988552399_fold_wed_c4_279_34_alg».proof.Proof.K.Tile
import Idealize.ShloMosaic.Lib.ValueLayout
import Idealize.ShloMosaic.Lib.Writes

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-! ## The element sets of a row slice -/

/-- The row slice of the stacked indices at row n covers exactly the entries of row n. -/
theorem set_idxRowM (n : ℕ) (o : Fin 3 → ℕ) (h : ∀ a, o a + S1x2x50.size a ≤ S4096x2x50.size a) (ho : o = ![n, 0, 0]) :
    (idxRowM o h).view.set = idxRowSet n := by
  subst ho
  show (((View.whole main_v2_scv : View sig .scVector _ _ _).slice (Rect.unit (s := S4096x2x50) ![n, 0, 0] S1x2x50.size h)).reshape S2x50
    squeezes_S1x2x50_S2x50.numel_eq).set = idxRowSet n
  rw [View.set_reshape, View.set_slice_whole]
  ext j
  rw [Rect.mem_set_unit]
  simp only [idxRowSet, Finset.mem_filter, Finset.mem_univ, true_and]
  constructor
  · intro hj
    have := hj 0
    simp at this
    omega
  · intro hj a
    match a with
    | ⟨0, _⟩ => simp; omega
    | ⟨1, _⟩ => have h1 : (j 1).val < 2 := (j 1).isLt; simp; omega
    | ⟨2, hlt⟩ => have h2 : (j ⟨2, hlt⟩).val < 50 := (j ⟨2, hlt⟩).isLt; simp; omega

/-- The row slice of the result at row n covers exactly the entries of row n. -/
theorem set_outRowM (n : ℕ) (o : Fin 4 → ℕ) (h : ∀ a, o a + S1x1x50x192.size a ≤ S4096x1x50x192.size a) (ho : o = ![n, 0, 0, 0]) :
    (outRowM o h).view.set = outRowSet n := by
  subst ho
  show (((View.whole main_v4_scv : View sig .scVector _ _ _).slice (Rect.unit (s := S4096x1x50x192) ![n, 0, 0, 0] S1x1x50x192.size h)).reshape S1x50x192
    squeezes_S1x1x50x192_S1x50x192.numel_eq).set = outRowSet n
  rw [View.set_reshape, View.set_slice_whole]
  ext j
  rw [Rect.mem_set_unit]
  simp only [outRows, Finset.mem_filter, Finset.mem_univ, true_and]
  constructor
  · intro hj
    have := hj 0
    simp at this
    omega
  · intro hj a
    match a with
    | ⟨0, _⟩ => simp; omega
    | ⟨1, _⟩ => have h1 : (j 1).val < 1 := (j 1).isLt; simp; omega
    | ⟨2, hlt⟩ => have h2 : (j ⟨2, hlt⟩).val < 50 := (j ⟨2, hlt⟩).isLt; simp; omega
    | ⟨3, hlt⟩ => have h3 : (j ⟨3, hlt⟩).val < 192 := (j ⟨3, hlt⟩).isLt; simp; omega

/-! ## The index rows delivered -/

/-- Where the row slice at row n puts its entry (r, l): entry (n, r, l) of the stacked indices. -/
theorem emb_idxRowM (n : ℕ) (hn : n < 4096) (h : ∀ a, (![n, 0, 0] : Fin 3 → ℕ) a + S1x2x50.size a ≤ S4096x2x50.size a) (r : Fin 2) (l : Fin 50) :
    (idxRowM ![n, 0, 0] h).view.emb (ix2 r l) = (ix3 (rowFin n) r l : S4096x2x50.Idx) := by
  show (Rect.unit (s := S4096x2x50) ![n, 0, 0] S1x2x50.size h).emb (Shape.reshapeEquiv squeezes_S1x2x50_S2x50.numel_eq (ix2 r l)) = _
  rw [reshapeEquiv_ix2_1ab]
  funext a
  refine Fin.ext ?_
  rw [Rect.emb_apply]
  match a with
  | ⟨0, _⟩ => have hr := rowFin_val hn; show n + 1 * 0 = (rowFin n).val; omega
  | ⟨1, _⟩ => show 0 + 1 * r.val = r.val; omega
  | ⟨2, _⟩ => show 0 + 1 * l.val = l.val; omega

/-- The index rows read through the row slice at row n are the stacked indices at row n. -/
theorem read_idxRowM (n : ℕ) (hn : n < 4096) (o : Fin 3 → ℕ) (h : ∀ a, o a + S1x2x50.size a ≤ S4096x2x50.size a) (ho : o = ![n, 0, 0])
    (fI : S4096x2x50.Idx → BitVec 32) : View.read (Elt F) (idxRowM o h).view fI = cixOf fI n := by
  subst ho
  funext x
  obtain ⟨r, l, rfl⟩ : ∃ (r : Fin 2) (l : Fin 50), x = ix2 r l := ⟨x 0, x 1, eq_ix2 x⟩
  rw [View.read_apply, emb_idxRowM n hn h r l]
  rfl

section Deliver

variable (d : Dev nD) (L : grid0.Coords)
variable (fI : Buf (Elt F) ((idxV).view.loc (thr d L))) (fA : Buf (Elt F) ((wwV).view.loc (thr d L))) (fB : Buf (Elt F) ((wfV).view.loc (thr d L)))
variable (q : PosShare TreeShare) (n : ℕ) (hn : n < 4096)

include hn in
theorem idx_deliver0 (o : Fin 3 → ℕ) (h : ∀ a, o a + S1x2x50.size a ≤ S4096x2x50.size a) (ho : o = ![n, 0, 0])
    (f : Buf (Elt F) ((cix0).view.loc (thr d L))) :
    (iprop(((cix0).view.loc (thr d L) ↦{fullShare} View.write (Elt F) (cix0).view f (ReadAs.same.apply (View.read (Elt F) (idxRowM o h).view fI)) Finset.univ)
      ∗ ((idxV).view.loc (thr d L) ↦[(idxRowM o h).view.set]{q} fI)) : sProp 𝕄) ⊢ DIdx0 d L fI q n := by
  rw [set_idxRowM n o h ho, read_idxRowM n hn o h ho, ReadAs.apply_same, View.write_whole_univ]

include hn in
theorem idx_deliver1 (o : Fin 3 → ℕ) (h : ∀ a, o a + S1x2x50.size a ≤ S4096x2x50.size a) (ho : o = ![n, 0, 0])
    (f : Buf (Elt F) ((cix1).view.loc (thr d L))) :
    (iprop(((cix1).view.loc (thr d L) ↦{fullShare} View.write (Elt F) (cix1).view f (ReadAs.same.apply (View.read (Elt F) (idxRowM o h).view fI)) Finset.univ)
      ∗ ((idxV).view.loc (thr d L) ↦[(idxRowM o h).view.set]{q} fI)) : sProp 𝕄) ⊢ DIdx1 d L fI q n := by
  rw [set_idxRowM n o h ho, read_idxRowM n hn o h ho, ReadAs.apply_same, View.write_whole_univ]

include hn in
theorem idx_deliver2 (o : Fin 3 → ℕ) (h : ∀ a, o a + S1x2x50.size a ≤ S4096x2x50.size a) (ho : o = ![n, 0, 0])
    (f : Buf (Elt F) ((cix2).view.loc (thr d L))) :
    (iprop(((cix2).view.loc (thr d L) ↦{fullShare} View.write (Elt F) (cix2).view f (ReadAs.same.apply (View.read (Elt F) (idxRowM o h).view fI)) Finset.univ)
      ∗ ((idxV).view.loc (thr d L) ↦[(idxRowM o h).view.set]{q} fI)) : sProp 𝕄) ⊢ DIdx2 d L fI q n := by
  rw [set_idxRowM n o h ho, read_idxRowM n hn o h ho, ReadAs.apply_same, View.write_whole_univ]

include hn in
theorem idx_deliver3 (o : Fin 3 → ℕ) (h : ∀ a, o a + S1x2x50.size a ≤ S4096x2x50.size a) (ho : o = ![n, 0, 0])
    (f : Buf (Elt F) ((cix3).view.loc (thr d L))) :
    (iprop(((cix3).view.loc (thr d L) ↦{fullShare} View.write (Elt F) (cix3).view f (ReadAs.same.apply (View.read (Elt F) (idxRowM o h).view fI)) Finset.univ)
      ∗ ((idxV).view.loc (thr d L) ↦[(idxRowM o h).view.set]{q} fI)) : sProp 𝕄) ⊢ DIdx3 d L fI q n := by
  rw [set_idxRowM n o h ho, read_idxRowM n hn o h ho, ReadAs.apply_same, View.write_whole_univ]

end Deliver

/-! ## The offsets the gathers read are in range -/

/-- A rank-one index sits, in the shape with a unit axis in front, at (0, l). -/
theorem reshapeEquiv_ix1_1a {a : ℕ} (h : (⟨1, ![a]⟩ : Shape).numel = (⟨2, ![1, a]⟩ : Shape).numel) (l : Fin a) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * a + l.val = l.val
    omega)

/-- The first row of an index buffer, read as an offset list, is the buffer's row 0. -/
theorem read_cixRow0 (m : Memref sig .scVector .vmem S2x50 .i32) (g : m.view.ty.Contents (Elt F)) (l : Fin 50) :
    (cixRow0 m).view.read (Elt F) g (ix1 l) = m.view.read (Elt F) g (ix2 (0 : Fin 2) l) := by
  rw [View.read_apply, View.read_apply]
  show _root_.cast _ (g (m.view.emb ((Rect.unit (s := S2x50) ![0, 0] S1x50.size inb_S2x50_S1x50_0_0).emb
    (Shape.reshapeEquiv squeezes_S1x50_S50.numel_eq (ix1 l))))) = _
  rw [reshapeEquiv_ix1_1a]
  have he : (Rect.unit (s := S2x50) ![0, 0] S1x50.size inb_S2x50_S1x50_0_0).emb (ix2 (⟨0, Nat.one_pos⟩ : Fin 1) l) = (ix2 (0 : Fin 2) l : S2x50.Idx) := by
    funext a
    refine Fin.ext ?_
    rw [Rect.emb_apply]
    match a with
    | ⟨0, _⟩ => show 0 + 1 * 0 = 0; omega
    | ⟨1, _⟩ => show 0 + 1 * l.val = l.val; omega
  rw [he]

/-- The second row of an index buffer, read as an offset list, is the buffer's row 1. -/
theorem read_cixRow1 (m : Memref sig .scVector .vmem S2x50 .i32) (g : m.view.ty.Contents (Elt F)) (l : Fin 50) :
    (cixRow1 m).view.read (Elt F) g (ix1 l) = m.view.read (Elt F) g (ix2 (1 : Fin 2) l) := by
  rw [View.read_apply, View.read_apply]
  show _root_.cast _ (g (m.view.emb ((Rect.unit (s := S2x50) ![1, 0] S1x50.size inb_S2x50_S1x50_1_0).emb
    (Shape.reshapeEquiv squeezes_S1x50_S50.numel_eq (ix1 l))))) = _
  rw [reshapeEquiv_ix1_1a]
  have he : (Rect.unit (s := S2x50) ![1, 0] S1x50.size inb_S2x50_S1x50_1_0).emb (ix2 (⟨0, Nat.one_pos⟩ : Fin 1) l) = (ix2 (1 : Fin 2) l : S2x50.Idx) := by
    funext a
    refine Fin.ext ?_
    rw [Rect.emb_apply]
    match a with
    | ⟨0, _⟩ => show 1 + 1 * 0 = 1; omega
    | ⟨1, _⟩ => show 0 + 1 * l.val = l.val; omega
  rw [he]

section InRange

variable (d : Dev nD) (L : grid0.Coords)
variable (fI : Buf (Elt F) ((idxV).view.loc (thr d L))) (n : ℕ)

theorem hinW0 (hI : ∀ (r : Fin 4096) (l : Fin 50), (fI (ix3 r (0 : Fin 2) l)).toNat < 100000 ∧ (fI (ix3 r (1 : Fin 2) l)).toNat < 1000) :
    ∀ x, ((cixRow0 cix0).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF0 (hI : ∀ (r : Fin 4096) (l : Fin 50), (fI (ix3 r (0 : Fin 2) l)).toNat < 100000 ∧ (fI (ix3 r (1 : Fin 2) l)).toNat < 1000) :
    ∀ x, ((cixRow1 cix0).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW1 (hI : ∀ (r : Fin 4096) (l : Fin 50), (fI (ix3 r (0 : Fin 2) l)).toNat < 100000 ∧ (fI (ix3 r (1 : Fin 2) l)).toNat < 1000) :
    ∀ x, ((cixRow0 cix1).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF1 (hI : ∀ (r : Fin 4096) (l : Fin 50), (fI (ix3 r (0 : Fin 2) l)).toNat < 100000 ∧ (fI (ix3 r (1 : Fin 2) l)).toNat < 1000) :
    ∀ x, ((cixRow1 cix1).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW2 (hI : ∀ (r : Fin 4096) (l : Fin 50), (fI (ix3 r (0 : Fin 2) l)).toNat < 100000 ∧ (fI (ix3 r (1 : Fin 2) l)).toNat < 1000) :
    ∀ x, ((cixRow0 cix2).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF2 (hI : ∀ (r : Fin 4096) (l : Fin 50), (fI (ix3 r (0 : Fin 2) l)).toNat < 100000 ∧ (fI (ix3 r (1 : Fin 2) l)).toNat < 1000) :
    ∀ x, ((cixRow1 cix2).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

theorem hinW3 (hI : ∀ (r : Fin 4096) (l : Fin 50), (fI (ix3 r (0 : Fin 2) l)).toNat < 100000 ∧ (fI (ix3 r (1 : Fin 2) l)).toNat < 1000) :
    ∀ x, ((cixRow0 cix3).view.read (Elt F) (cixOf fI n) x).toNat < S100000x128.size (gathers_S100000x128_S50x128).axis := by
  intro x
  obtain ⟨l, rfl⟩ : ∃ l : Fin 50, x = ix1 l := ⟨x 0, eq_ix1 x⟩
  rw [read_cixRow0]
  exact (hI (rowFin n) l).1

theorem hinF3 (hI : ∀ (r : Fin 4096) (l : Fin 50), (fI (ix3 r (0 : Fin 2) l)).toNat < 100000 ∧ (fI (ix3 r (1 : Fin 2) l)).toNat < 1000) :
    ∀ x, ((cixRow1 cix3).view.read (Elt F) (cixOf fI n) x).toNat < S1000x128.size (gathers_S1000x128_S50x128).axis := by
  intro x
  obtain ⟨l, rfl⟩ : ∃ l : Fin 50, x = ix1 l := ⟨x 0, eq_ix1 x⟩
  rw [read_cixRow1]
  exact (hI (rowFin n) l).2

end InRange

/-! ## The gathered rows delivered -/

/-- The row an offset list names for position l is the list's word at l, read unsigned (position k of a rank-one shape,
    in row-major order, is the index k). -/
theorem rows_val {o z : ℕ} (idx : S50.Idx → BitVec 32) (hn : S50.numel = o) (h : ∀ x, (idx x).toNat < z) (k : Fin o) (l : Fin 50)
    (hl : k.val = l.val) : (SparseCore.rows (F := F) idx hn h k).val = (idx (ix1 l)).toNat := by
  unfold SparseCore.rows
  show (idx (S50.rowMajor.symm (k.cast hn.symm))).toNat = _
  have e : S50.rowMajor.symm (k.cast hn.symm) = ix1 l :=
    (Equiv.symm_apply_eq _).2 (Fin.ext (by rw [Shape.rowMajor_val_one]; exact hl))
  rw [e]

/-- A rank-two gather along axis 0 reads, for the destination's entry (l, c), the source's entry (row named for l, c). -/
theorem gathers_idx_ix2 {z o w : ℕ} (hg : (⟨2, ![z, w]⟩ : Shape).Gathers 0 ⟨2, ![o, w]⟩) (rows : Fin o → Fin z) (l : Fin o) (c : Fin w) :
    hg.idx rows (ix2 l c) = ix2 (rows l) c := by
  funext b
  match b with
  | ⟨0, h0⟩ => exact Shape.Gathers.idx_axis hg rows (ix2 l c)
  | ⟨1, h1⟩ => exact Fin.ext (Shape.Gathers.idx_of_ne hg rows (ix2 l c) ⟨1, h1⟩ Nat.one_ne_zero)

/-- A table read through the slice that is the whole table is the table. -/
theorem read_wwS (fA : S100000x128.Idx → Elt F .f32) (y : S100000x128.Idx) : View.read (Elt F) (wwS).view fA y = fA y := by
  rw [View.read_apply]
  show fA ((Rect.unit (s := S100000x128) ![0, 0] S100000x128.size inb_S100000x128_S100000x128_0_0).emb y) = fA y
  refine congrArg fA (funext fun a => Fin.ext ?_)
  rw [Rect.emb_apply]
  match a with
  | ⟨0, _⟩ => show 0 + 1 * (y 0).val = (y 0).val; omega
  | ⟨1, _⟩ => show 0 + 1 * (y 1).val = (y 1).val; omega

theorem read_wfS (fB : S1000x128.Idx → Elt F .f32) (y : S1000x128.Idx) : View.read (Elt F) (wfS).view fB y = fB y := by
  rw [View.read_apply]
  show fB ((Rect.unit (s := S1000x128) ![0, 0] S1000x128.size inb_S1000x128_S1000x128_0_0).emb y) = fB y
  refine congrArg fB (funext fun a => Fin.ext ?_)
  rw [Rect.emb_apply]
  match a with
  | ⟨0, _⟩ => show 0 + 1 * (y 0).val = (y 0).val; omega
  | ⟨1, _⟩ => show 0 + 1 * (y 1).val = (y 1).val; omega

/-- The word gather's payload at (l, c): the word table's row named by the first index row at l, column c — the
    assembled row's entry (l, c). -/
theorem word_payload_apply (fI : S4096x2x50.Idx → BitVec 32) (fA : S100000x128.Idx → Elt F .f32) (fB : S1000x128.Idx → Elt F .f32) (n : ℕ)
    (idx : S50.Idx → BitVec 32) (hidx : ∀ l, idx (ix1 l) = fI (ix3 (rowFin n) (0 : Fin 2) l))
    (hin : ∀ x, (idx x).toNat < S100000x128.size (gathers_S100000x128_S50x128).axis) (u : Fin 1) (l : Fin 50) (c : Fin 128) :
    SparseCore.gatherPayload gathers_S100000x128_S50x128 (View.read (Elt F) (wwS).view fA) (SparseCore.rows (F := F) idx rfl hin) (ix2 l c)
      = asmOf fI fA fB n (ix3 u l (⟨c.val, by omega⟩ : Fin 192)) := by
  unfold SparseCore.gatherPayload asmOf
  rw [read_wwS, Cert.Stack.Gk_word _ _ _ _ _ _ _ (by exact c.isLt)]
  refine congrArg fA (Eq.trans (gathers_idx_ix2 gathers_S100000x128_S50x128 _ l c) (funext fun b => Fin.ext ?_))
  match b with
  | ⟨0, _⟩ =>
    have hlt : (fI (ix3 (rowFin n) (0 : Fin 2) l)).toNat < 100000 := by have := hin (ix1 l); rw [hidx] at this; exact this
    have h1 : (SparseCore.rows (F := F) idx rfl hin l).val = (idx (ix1 l)).toNat := rows_val (F := F) idx rfl hin l l rfl
    exact (h1.trans (by rw [hidx])).trans (Cert.Lib.takeRow_of_lt 100000 _ (by norm_num) _ hlt).symm
  | ⟨1, _⟩ => rfl

/-- The feature gather's payload at (l, c): the widened feature table's row named by the second index row at l, column c. -/
theorem feat_payload_apply (fI : S4096x2x50.Idx → BitVec 32) (fB : S1000x128.Idx → Elt F .f32) (n : ℕ)
    (idx : S50.Idx → BitVec 32) (hidx : ∀ l, idx (ix1 l) = fI (ix3 (rowFin n) (1 : Fin 2) l))
    (hin : ∀ x, (idx x).toNat < S1000x128.size (gathers_S1000x128_S50x128).axis) (l : Fin 50) (c : Fin 128) :
    SparseCore.gatherPayload gathers_S1000x128_S50x128 (View.read (Elt F) (wfS).view fB) (SparseCore.rows (F := F) idx rfl hin) (ix2 l c)
      = rfOf fI fB n (ix2 l c) := by
  unfold SparseCore.gatherPayload rfOf
  rw [read_wfS]
  refine congrArg fB (Eq.trans (gathers_idx_ix2 gathers_S1000x128_S50x128 _ l c) (funext fun b => Fin.ext ?_))
  match b with
  | ⟨0, _⟩ =>
    have hlt : (fI (ix3 (rowFin n) (1 : Fin 2) l)).toNat < 1000 := by have := hin (ix1 l); rw [hidx] at this; exact this
    have h1 : (SparseCore.rows (F := F) idx rfl hin l).val = (idx (ix1 l)).toNat := rows_val (F := F) idx rfl hin l l rfl
    exact (h1.trans (by rw [hidx])).trans (Cert.Lib.takeRow_of_lt 1000 _ (by norm_num) _ hlt).symm
  | ⟨1, _⟩ => rfl

/-- Where the columns' view of an assembly buffer puts its entry (l, c): the buffer's entry (0, l, c). -/
theorem emb_asmCols (m : Memref sig .scVector .vmem S1x50x192 .f32) (l : Fin 50) (c : Fin 128) :
    (asmCols m).view.emb (ix2 l c) = m.view.emb (ix3 (0 : Fin 1) l (⟨c.val, by omega⟩ : Fin 192)) := by
  show m.view.emb ((Rect.unit (s := S1x50x192) ![0, 0, 0] S1x50x128.size inb_S1x50x192_S1x50x128_0_0_0).emb
    (Shape.reshapeEquiv squeezes_S1x50x128_S50x128.numel_eq (ix2 l c))) = _
  rw [reshapeEquiv_ix2_1ab]
  refine congrArg m.view.emb (funext fun a => Fin.ext ?_)
  rw [Rect.emb_apply]
  match a with
  | ⟨0, _⟩ => show 0 + 1 * 0 = 0; omega
  | ⟨1, _⟩ => show 0 + 1 * l.val = l.val; omega
  | ⟨2, _⟩ => show 0 + 1 * c.val = c.val; omega

section Deliver2

variable (d : Dev nD) (L : grid0.Coords)
variable (fI : Buf (Elt F) ((idxV).view.loc (thr d L))) (fA : Buf (Elt F) ((wwV).view.loc (thr d L))) (fB : Buf (Elt F) ((wfV).view.loc (thr d L)))
variable (q : PosShare TreeShare) (n : ℕ) (hn : n < 4096)

theorem word_deliver0 (fa : Buf (Elt F) ((asm0).view.loc (thr d L)))
    (hin : ∀ x, ((cixRow0 cix0).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix0).view (cixOf fI n)) rfl hin)) :
    (iprop((((asm0).view.loc (thr d L) ↦[(asmCols asm0).view.set]{fullShare} View.write (Elt F) (asmCols asm0).view fa g Finset.univ)
        ∗ ((cix0).view.loc (thr d L) ↦[(cixRow0 cix0).view.set]{fullShare} cixOf fI n))
      ∗ ((wwV).view.loc (thr d L) ↦[(wwS).view.set]{q} fA)) : sProp 𝕄) ⊢ DWord0 d L fI fA fB q n := by
  subst hg
  have e : ∀ i ∈ (asmCols asm0).view.set,
      View.write (Elt F) (asmCols asm0).view fa (SparseCore.gatherPayload gathers_S100000x128_S50x128 (View.read (Elt F) (wwS).view fA)
        (SparseCore.rows (View.read (Elt F) (cixRow0 cix0).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix0 _ l) hin 0 l c
  rw [pointsTo_congr e]

theorem feat_deliver0 (fr : Buf (Elt F) ((rf0).view.loc (thr d L)))
    (hin : ∀ x, ((cixRow1 cix0).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix0).view (cixOf fI n)) rfl hin)) :
    (iprop((((rf0).view.loc (thr d L) ↦[(rf0).view.set]{fullShare} (rf0).view.writes (Elt F) fr [⟨Rect.whole S50x128, g⟩])
        ∗ ((cix0).view.loc (thr d L) ↦[(cixRow1 cix0).view.set]{fullShare} cixOf fI n))
      ∗ ((wfV).view.loc (thr d L) ↦[(wfS).view.set]{q} fB)) : sProp 𝕄) ⊢ DFeat0 d L fI fB q n := by
  subst hg
  have e : (rf0).view.writes (Elt F) fr [⟨Rect.whole S50x128, SparseCore.gatherPayload gathers_S1000x128_S50x128 (View.read (Elt F) (wfS).view fB)
      (SparseCore.rows (View.read (Elt F) (cixRow1 cix0).view (cixOf fI n)) rfl hin)⟩] = rfOf fI fB n := by
    funext i
    obtain ⟨l, c, rfl⟩ : ∃ (l : Fin 50) (c : Fin 128), i = ix2 l c := ⟨i 0, i 1, eq_ix2 i⟩
    have hi : ((rf0).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix0 _ l) hin l c
  rw [e, show (rf0).view.set = Finset.univ from View.set_whole _]

theorem word_deliver1 (fa : Buf (Elt F) ((asm1).view.loc (thr d L)))
    (hin : ∀ x, ((cixRow0 cix1).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix1).view (cixOf fI n)) rfl hin)) :
    (iprop((((asm1).view.loc (thr d L) ↦[(asmCols asm1).view.set]{fullShare} View.write (Elt F) (asmCols asm1).view fa g Finset.univ)
        ∗ ((cix1).view.loc (thr d L) ↦[(cixRow0 cix1).view.set]{fullShare} cixOf fI n))
      ∗ ((wwV).view.loc (thr d L) ↦[(wwS).view.set]{q} fA)) : sProp 𝕄) ⊢ DWord1 d L fI fA fB q n := by
  subst hg
  have e : ∀ i ∈ (asmCols asm1).view.set,
      View.write (Elt F) (asmCols asm1).view fa (SparseCore.gatherPayload gathers_S100000x128_S50x128 (View.read (Elt F) (wwS).view fA)
        (SparseCore.rows (View.read (Elt F) (cixRow0 cix1).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix1 _ l) hin 0 l c
  rw [pointsTo_congr e]

theorem feat_deliver1 (fr : Buf (Elt F) ((rf1).view.loc (thr d L)))
    (hin : ∀ x, ((cixRow1 cix1).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix1).view (cixOf fI n)) rfl hin)) :
    (iprop((((rf1).view.loc (thr d L) ↦[(rf1).view.set]{fullShare} (rf1).view.writes (Elt F) fr [⟨Rect.whole S50x128, g⟩])
        ∗ ((cix1).view.loc (thr d L) ↦[(cixRow1 cix1).view.set]{fullShare} cixOf fI n))
      ∗ ((wfV).view.loc (thr d L) ↦[(wfS).view.set]{q} fB)) : sProp 𝕄) ⊢ DFeat1 d L fI fB q n := by
  subst hg
  have e : (rf1).view.writes (Elt F) fr [⟨Rect.whole S50x128, SparseCore.gatherPayload gathers_S1000x128_S50x128 (View.read (Elt F) (wfS).view fB)
      (SparseCore.rows (View.read (Elt F) (cixRow1 cix1).view (cixOf fI n)) rfl hin)⟩] = rfOf fI fB n := by
    funext i
    obtain ⟨l, c, rfl⟩ : ∃ (l : Fin 50) (c : Fin 128), i = ix2 l c := ⟨i 0, i 1, eq_ix2 i⟩
    have hi : ((rf1).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix1 _ l) hin l c
  rw [e, show (rf1).view.set = Finset.univ from View.set_whole _]

theorem word_deliver2 (fa : Buf (Elt F) ((asm2).view.loc (thr d L)))
    (hin : ∀ x, ((cixRow0 cix2).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix2).view (cixOf fI n)) rfl hin)) :
    (iprop((((asm2).view.loc (thr d L) ↦[(asmCols asm2).view.set]{fullShare} View.write (Elt F) (asmCols asm2).view fa g Finset.univ)
        ∗ ((cix2).view.loc (thr d L) ↦[(cixRow0 cix2).view.set]{fullShare} cixOf fI n))
      ∗ ((wwV).view.loc (thr d L) ↦[(wwS).view.set]{q} fA)) : sProp 𝕄) ⊢ DWord2 d L fI fA fB q n := by
  subst hg
  have e : ∀ i ∈ (asmCols asm2).view.set,
      View.write (Elt F) (asmCols asm2).view fa (SparseCore.gatherPayload gathers_S100000x128_S50x128 (View.read (Elt F) (wwS).view fA)
        (SparseCore.rows (View.read (Elt F) (cixRow0 cix2).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix2 _ l) hin 0 l c
  rw [pointsTo_congr e]

theorem feat_deliver2 (fr : Buf (Elt F) ((rf2).view.loc (thr d L)))
    (hin : ∀ x, ((cixRow1 cix2).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix2).view (cixOf fI n)) rfl hin)) :
    (iprop((((rf2).view.loc (thr d L) ↦[(rf2).view.set]{fullShare} (rf2).view.writes (Elt F) fr [⟨Rect.whole S50x128, g⟩])
        ∗ ((cix2).view.loc (thr d L) ↦[(cixRow1 cix2).view.set]{fullShare} cixOf fI n))
      ∗ ((wfV).view.loc (thr d L) ↦[(wfS).view.set]{q} fB)) : sProp 𝕄) ⊢ DFeat2 d L fI fB q n := by
  subst hg
  have e : (rf2).view.writes (Elt F) fr [⟨Rect.whole S50x128, SparseCore.gatherPayload gathers_S1000x128_S50x128 (View.read (Elt F) (wfS).view fB)
      (SparseCore.rows (View.read (Elt F) (cixRow1 cix2).view (cixOf fI n)) rfl hin)⟩] = rfOf fI fB n := by
    funext i
    obtain ⟨l, c, rfl⟩ : ∃ (l : Fin 50) (c : Fin 128), i = ix2 l c := ⟨i 0, i 1, eq_ix2 i⟩
    have hi : ((rf2).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix2 _ l) hin l c
  rw [e, show (rf2).view.set = Finset.univ from View.set_whole _]

theorem word_deliver3 (fa : Buf (Elt F) ((asm3).view.loc (thr d L)))
    (hin : ∀ x, ((cixRow0 cix3).view.read (Elt F) (cixOf fI n) x).toNat < S100000x128.size (gathers_S100000x128_S50x128).axis)
    (g : S50x128.Idx → Elt F .f32)
    (hg : g = SparseCore.gatherPayload gathers_S100000x128_S50x128 (View.read (Elt F) (wwS).view fA)
      (SparseCore.rows (View.read (Elt F) (cixRow0 cix3).view (cixOf fI n)) rfl hin)) :
    (iprop((((asm3).view.loc (thr d L) ↦[(asmCols asm3).view.set]{fullShare} View.write (Elt F) (asmCols asm3).view fa g Finset.univ)
        ∗ ((cix3).view.loc (thr d L) ↦[(cixRow0 cix3).view.set]{fullShare} cixOf fI n))
      ∗ ((wwV).view.loc (thr d L) ↦[(wwS).view.set]{q} fA)) : sProp 𝕄) ⊢ DWord3 d L fI fA fB q n := by
  subst hg
  have e : ∀ i ∈ (asmCols asm3).view.set,
      View.write (Elt F) (asmCols asm3).view fa (SparseCore.gatherPayload gathers_S100000x128_S50x128 (View.read (Elt F) (wwS).view fA)
        (SparseCore.rows (View.read (Elt F) (cixRow0 cix3).view (cixOf fI n)) rfl hin)) Finset.univ i = asmOf fI fA fB n i := by
    intro i hi
    obtain ⟨x, -, rfl⟩ := Finset.mem_map.mp hi
    obtain ⟨l, c, rfl⟩ : ∃ (l : Fin 50) (c : Fin 128), x = ix2 l c := ⟨x 0, x 1, eq_ix2 x⟩
    rw [View.write_emb_of_mem _ _ (Finset.mem_univ _), emb_asmCols]
    exact word_payload_apply fI fA fB n _ (fun l => read_cixRow0 cix3 _ l) hin 0 l c
  rw [pointsTo_congr e]

theorem feat_deliver3 (fr : Buf (Elt F) ((rf3).view.loc (thr d L)))
    (hin : ∀ x, ((cixRow1 cix3).view.read (Elt F) (cixOf fI n) x).toNat < S1000x128.size (gathers_S1000x128_S50x128).axis)
    (g : S50x128.Idx → Elt F .f32)
    (hg : g = SparseCore.gatherPayload gathers_S1000x128_S50x128 (View.read (Elt F) (wfS).view fB)
      (SparseCore.rows (View.read (Elt F) (cixRow1 cix3).view (cixOf fI n)) rfl hin)) :
    (iprop((((rf3).view.loc (thr d L) ↦[(rf3).view.set]{fullShare} (rf3).view.writes (Elt F) fr [⟨Rect.whole S50x128, g⟩])
        ∗ ((cix3).view.loc (thr d L) ↦[(cixRow1 cix3).view.set]{fullShare} cixOf fI n))
      ∗ ((wfV).view.loc (thr d L) ↦[(wfS).view.set]{q} fB)) : sProp 𝕄) ⊢ DFeat3 d L fI fB q n := by
  subst hg
  have e : (rf3).view.writes (Elt F) fr [⟨Rect.whole S50x128, SparseCore.gatherPayload gathers_S1000x128_S50x128 (View.read (Elt F) (wfS).view fB)
      (SparseCore.rows (View.read (Elt F) (cixRow1 cix3).view (cixOf fI n)) rfl hin)⟩] = rfOf fI fB n := by
    funext i
    obtain ⟨l, c, rfl⟩ : ∃ (l : Fin 50) (c : Fin 128), i = ix2 l c := ⟨i 0, i 1, eq_ix2 i⟩
    have hi : ((rf3).view.slice (Rect.whole S50x128)).emb (ix2 l c) = (ix2 l c : S50x128.Idx) := by
      funext a
      refine Fin.ext ?_
      show 0 + 1 * ((ix2 l c : S50x128.Idx) a).val = ((ix2 l c : S50x128.Idx) a).val
      omega
    rw [View.writes_singleton]
    conv_lhs => rw [← hi, View.write_emb_of_mem _ _ (Finset.mem_univ _)]
    exact feat_payload_apply fI fB n _ (fun l => read_cixRow1 cix3 _ l) hin l c
  rw [e, show (rf3).view.set = Finset.univ from View.set_whole _]

end Deliver2

/-! ## The finished row delivered -/

/-- Where the row slice of the result at row n puts its entry (u, l, c): entry (n, 0, l, c) of the result. -/
theorem emb_outRowM (n : ℕ) (hn : n < 4096) (h : ∀ a, (![n, 0, 0, 0] : Fin 4 → ℕ) a + S1x1x50x192.size a ≤ S4096x1x50x192.size a)
    (u : Fin 1) (l : Fin 50) (c : Fin 192) :
    (outRowM ![n, 0, 0, 0] h).view.emb (ix3 u l c) = (ix4 (rowFin n) (0 : Fin 1) l c : S4096x1x50x192.Idx) := by
  show (Rect.unit (s := S4096x1x50x192) ![n, 0, 0, 0] S1x1x50x192.size h).emb
    (Shape.reshapeEquiv squeezes_S1x1x50x192_S1x50x192.numel_eq (ix3 u l c)) = _
  rw [reshapeEquiv_ix3_1abc]
  funext a
  refine Fin.ext ?_
  rw [Rect.emb_apply]
  match a with
  | ⟨0, _⟩ => have hr := rowFin_val hn; show n + 1 * 0 = (rowFin n).val; omega
  | ⟨1, _⟩ => show 0 + 1 * u.val = 0; omega
  | ⟨2, _⟩ => show 0 + 1 * l.val = l.val; omega
  | ⟨3, _⟩ => show 0 + 1 * c.val = c.val; omega

section Deliver3

variable (d : Dev nD) (L : grid0.Coords)
variable (fI : Buf (Elt F) ((idxV).view.loc (thr d L))) (fA : Buf (Elt F) ((wwV).view.loc (thr d L))) (fB : Buf (Elt F) ((wfV).view.loc (thr d L)))
variable (n : ℕ) (hn : n < 4096)

include hn in
theorem out_deliver0 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm0).view (asmOf fI fA fB n))) :
    (iprop(((outV).view.loc (thr d L) ↦[(outRowM o h).view.set]{fullShare} View.write (Elt F) (outRowM o h).view fO g Finset.univ)
        ∗ ((asm0).view.loc (thr d L) ↦{fullShare} asmOf fI fA fB n)) : sProp 𝕄) ⊢ DOut0 d L fI fA fB n := by
  subst ho hg
  have e : ∀ i ∈ (outRowM ![n, 0, 0, 0] h).view.set,
      View.write (Elt F) (outRowM ![n, 0, 0, 0] h).view fO (ReadAs.same.apply (View.read (Elt F) (asm0).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver1 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm1).view (asmOf fI fA fB n))) :
    (iprop(((outV).view.loc (thr d L) ↦[(outRowM o h).view.set]{fullShare} View.write (Elt F) (outRowM o h).view fO g Finset.univ)
        ∗ ((asm1).view.loc (thr d L) ↦{fullShare} asmOf fI fA fB n)) : sProp 𝕄) ⊢ DOut1 d L fI fA fB n := by
  subst ho hg
  have e : ∀ i ∈ (outRowM ![n, 0, 0, 0] h).view.set,
      View.write (Elt F) (outRowM ![n, 0, 0, 0] h).view fO (ReadAs.same.apply (View.read (Elt F) (asm1).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver2 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm2).view (asmOf fI fA fB n))) :
    (iprop(((outV).view.loc (thr d L) ↦[(outRowM o h).view.set]{fullShare} View.write (Elt F) (outRowM o h).view fO g Finset.univ)
        ∗ ((asm2).view.loc (thr d L) ↦{fullShare} asmOf fI fA fB n)) : sProp 𝕄) ⊢ DOut2 d L fI fA fB n := by
  subst ho hg
  have e : ∀ i ∈ (outRowM ![n, 0, 0, 0] h).view.set,
      View.write (Elt F) (outRowM ![n, 0, 0, 0] h).view fO (ReadAs.same.apply (View.read (Elt F) (asm2).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

include hn in
theorem out_deliver3 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm3).view (asmOf fI fA fB n))) :
    (iprop(((outV).view.loc (thr d L) ↦[(outRowM o h).view.set]{fullShare} View.write (Elt F) (outRowM o h).view fO g Finset.univ)
        ∗ ((asm3).view.loc (thr d L) ↦{fullShare} asmOf fI fA fB n)) : sProp 𝕄) ⊢ DOut3 d L fI fA fB n := by
  subst ho hg
  have e : ∀ i ∈ (outRowM ![n, 0, 0, 0] h).view.set,
      View.write (Elt F) (outRowM ![n, 0, 0, 0] h).view fO (ReadAs.same.apply (View.read (Elt F) (asm3).view (asmOf fI fA fB n))) Finset.univ i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    rw [View.write_emb_of_mem _ _ (Finset.mem_univ _), emb_outRowM n hn h u l c]
    rfl
  rw [pointsTo_congr e, set_outRowM n _ h rfl]

end Deliver3

/-! ## The row loop: the feature buffer's first 64 columns copied into the assembly buffer's last 64 -/

/-- An entry of row t whose column lies in a strip of sixteen from c is in the strip's rectangle. -/
theorem mem_strip (t c : ℕ) (h : ∀ a, (![0, t, c] : Fin 3 → ℕ) a + S1x1x16.size a ≤ S1x50x192.size a) (j : S1x50x192.Idx)
    (hj1 : (j 1).val = t) (hlo : c ≤ (j 2).val) (hhi : (j 2).val < c + 16) :
    j ∈ (Rect.unit (s := S1x50x192) ![0, t, c] S1x1x16.size h).set := by
  rw [Rect.mem_set_unit]
  intro a
  match a with
  | ⟨0, _⟩ => have h0 : (j 0).val < 1 := (j 0).isLt; simp; omega
  | ⟨1, _⟩ => simp; omega
  | ⟨2, hlt⟩ => have e2 : (j ⟨2, hlt⟩).val = (j 2).val := rfl; simp; omega

/-- Two shape casts, to a flat vector of sixteen and back to 1 × 1 × 16, read at (a, b, k): the 1 × 16 vector at (0, k). -/
theorem pay_apply (v : FVec F S1x16 .f32) (a b : Fin 1) (k : Fin 16) :
    shapeCast S1x1x16 (shapeCast S16 v shapeCasts_S1x16_S16) shapeCasts_S16_S1x1x16 (ix3 a b k) = v (ix2 (0 : Fin 1) k) := by
  have h0 : a.val < 1 := a.isLt
  have h1 : b.val < 1 := b.isLt
  refine (shapeCast_apply _ _ (ix3 a b k) (ix1 k) (by
    rw [Shape.rowMajor_val_three, Shape.rowMajor_val_one]
    show k.val = (a.val * 1 + b.val) * 16 + k.val
    omega)).trans ?_
  exact shapeCast_apply _ _ (ix1 k) (ix2 (0 : Fin 1) k) (by
    rw [Shape.rowMajor_val_two, Shape.rowMajor_val_one]
    show 0 * 16 + k.val = k.val
    omega)

/-- One strip of the copy: sixteen entries of the feature buffer's row t from column c, through the two shape casts,
    are the assembled row's entries (0, t, 128 + c …). -/
theorem pay_strip (fI : S4096x2x50.Idx → BitVec 32) (fA : S100000x128.Idx → Elt F .f32) (fB : S1000x128.Idx → Elt F .f32) (n t c ca : ℕ)
    (hc : c + 16 ≤ 64) (hca : ca = 128 + c)
    (orf : Fin 2 → ℕ) (hr : ∀ a, orf a + S1x16.size a ≤ S50x128.size a) (er : orf = ![t, c])
    (oa : Fin 3 → ℕ) (ha : ∀ a, oa a + S1x1x16.size a ≤ S1x50x192.size a) (ea : oa = ![0, t, ca])
    (vr : FVec F S1x16 .f32) (hvr : ∀ y, vr y = rfOf fI fB n ((Rect.unit (s := S50x128) orf S1x16.size hr).toLoadRect.idx y))
    (x : S1x1x16.Idx) :
    shapeCast S1x1x16 (shapeCast S16 vr shapeCasts_S1x16_S16) shapeCasts_S16_S1x1x16 x
      = asmOf fI fA fB n ((Rect.unit (s := S1x50x192) oa S1x1x16.size ha).emb x) := by
  subst er ea hca
  obtain ⟨a0, a1, k, rfl⟩ : ∃ (a0 a1 : Fin 1) (k : Fin 16), x = ix3 a0 a1 k := ⟨x 0, x 1, x 2, eq_ix3 x⟩
  have h0 : a0.val < 1 := a0.isLt
  have h1 : a1.val < 1 := a1.isLt
  have h2 : k.val < 16 := k.isLt
  have ht : t + 1 ≤ 50 := ha 1
  refine (pay_apply vr a0 a1 k).trans ((hvr _).trans ?_)
  -- both sides at explicit coordinates
  have eL : (Rect.unit (s := S50x128) ![t, c] S1x16.size hr).toLoadRect.idx (ix2 (0 : Fin 1) k)
      = (ix2 (⟨t, by omega⟩ : Fin 50) (⟨c + k.val, by omega⟩ : Fin 128) : S50x128.Idx) := by
    funext a
    refine Fin.ext ?_
    match a with
    | ⟨0, _⟩ => show t + 1 * 0 = t; omega
    | ⟨1, _⟩ => show c + 1 * k.val = c + k.val; omega
  have eR : (Rect.unit (s := S1x50x192) ![0, t, 128 + c] S1x1x16.size ha).emb (ix3 a0 a1 k)
      = (ix3 (0 : Fin 1) (⟨t, by omega⟩ : Fin 50) (⟨128 + c + k.val, by omega⟩ : Fin 192) : S1x50x192.Idx) := by
    funext a
    refine Fin.ext ?_
    rw [Rect.emb_apply]
    match a with
    | ⟨0, _⟩ => show 0 + 1 * a0.val = 0; omega
    | ⟨1, _⟩ => show t + 1 * a1.val = t; omega
    | ⟨2, _⟩ => show 128 + c + 1 * k.val = 128 + c + k.val; omega
  rw [eL, eR]
  unfold rfOf asmOf
  rw [Cert.Stack.Gk_feat _ _ _ _ _ _ _ (by show 128 ≤ 128 + c + k.val; omega)]
  refine congrArg fB (funext fun b => Fin.ext ?_)
  match b with
  | ⟨0, _⟩ => rfl
  | ⟨1, _⟩ => show c + k.val = 128 + c + k.val - 128; omega

/-- One trip of the copy, for any four strips at columns 128, 144, 160, 176 of row t whose payloads are the target
    function there: rows below t + 1 are done if rows below t were. -/
theorem rows_core {κ : Kind} {sp : Space} (v : View sig κ sp S1x50x192 .f32) (f : v.ty.Contents (Elt F))
    (G : S1x50x192.Idx → Elt F .f32) (t : ℕ)
    (o1 o2 o3 o4 : Fin 3 → ℕ)
    (h1 : ∀ a, o1 a + S1x1x16.size a ≤ S1x50x192.size a) (h2 : ∀ a, o2 a + S1x1x16.size a ≤ S1x50x192.size a)
    (h3 : ∀ a, o3 a + S1x1x16.size a ≤ S1x50x192.size a) (h4 : ∀ a, o4 a + S1x1x16.size a ≤ S1x50x192.size a)
    (e1 : o1 = ![0, t, 128]) (e2 : o2 = ![0, t, 144]) (e3 : o3 = ![0, t, 160]) (e4 : o4 = ![0, t, 176])
    (w1 w2 w3 w4 : S1x1x16.Idx → Elt F .f32)
    (hw1 : ∀ x, w1 x = G ((Rect.unit (s := S1x50x192) o1 S1x1x16.size h1).emb x))
    (hw2 : ∀ x, w2 x = G ((Rect.unit (s := S1x50x192) o2 S1x1x16.size h2).emb x))
    (hw3 : ∀ x, w3 x = G ((Rect.unit (s := S1x50x192) o3 S1x1x16.size h3).emb x))
    (hw4 : ∀ x, w4 x = G ((Rect.unit (s := S1x50x192) o4 S1x1x16.size h4).emb x))
    (hf : ∀ j : S1x50x192.Idx, (j 1).val < t → 128 ≤ (j 2).val → v.read (Elt F) f j = G j) :
    ∀ j : S1x50x192.Idx, (j 1).val < t + 1 → 128 ≤ (j 2).val →
      v.read (Elt F) (v.writes (Elt F) f [⟨Rect.unit (s := S1x50x192) o4 S1x1x16.size h4, w4⟩, ⟨Rect.unit (s := S1x50x192) o3 S1x1x16.size h3, w3⟩,
        ⟨Rect.unit (s := S1x50x192) o2 S1x1x16.size h2, w2⟩, ⟨Rect.unit (s := S1x50x192) o1 S1x1x16.size h1, w1⟩]) j = G j := by
  subst e1 e2 e3 e4
  intro j hj1 hj2
  by_cases hc : ∃ p ∈ ([⟨Rect.unit (s := S1x50x192) ![0, t, 176] S1x1x16.size h4, w4⟩, ⟨Rect.unit (s := S1x50x192) ![0, t, 160] S1x1x16.size h3, w3⟩,
      ⟨Rect.unit (s := S1x50x192) ![0, t, 144] S1x1x16.size h2, w2⟩, ⟨Rect.unit (s := S1x50x192) ![0, t, 128] S1x1x16.size h1, w1⟩] : List (View.Piece (Elt F) S1x50x192 .f32)),
      j ∈ p.1.set
  · refine View.read_writes_apply_of_pieces v f G _ ?_ j hc
    intro p hp x
    simp only [List.mem_cons, List.mem_nil_iff, or_false] at hp
    rcases hp with rfl | rfl | rfl | rfl
    · exact hw4 x
    · exact hw3 x
    · exact hw2 x
    · exact hw1 x
  · have hn : ∀ p ∈ ([⟨Rect.unit (s := S1x50x192) ![0, t, 176] S1x1x16.size h4, w4⟩, ⟨Rect.unit (s := S1x50x192) ![0, t, 160] S1x1x16.size h3, w3⟩,
        ⟨Rect.unit (s := S1x50x192) ![0, t, 144] S1x1x16.size h2, w2⟩, ⟨Rect.unit (s := S1x50x192) ![0, t, 128] S1x1x16.size h1, w1⟩] : List (View.Piece (Elt F) S1x50x192 .f32)),
        j ∉ p.1.set := fun p hp hj => hc ⟨p, hp, hj⟩
    rw [View.read_writes_apply_of_forall_not_mem v f j _ hn]
    refine hf j ?_ hj2
    by_contra hlt
    have hjt : (j 1).val = t := by omega
    have hj192 : (j 2).val < 192 := (j 2).isLt
    refine hc ?_
    by_cases c1 : (j 2).val < 144
    · exact ⟨_, List.mem_cons_of_mem _ (List.mem_cons_of_mem _ (List.mem_cons_of_mem _ List.mem_cons_self)), mem_strip t 128 h1 j hjt hj2 (by omega)⟩
    · by_cases c2 : (j 2).val < 160
      · exact ⟨_, List.mem_cons_of_mem _ (List.mem_cons_of_mem _ List.mem_cons_self), mem_strip t 144 h2 j hjt (by omega) (by omega)⟩
      · by_cases c3 : (j 2).val < 176
        · exact ⟨_, List.mem_cons_of_mem _ List.mem_cons_self, mem_strip t 160 h3 j hjt (by omega) (by omega)⟩
        · exact ⟨_, List.mem_cons_self, mem_strip t 176 h4 j hjt (by omega) (by omega)⟩

/-- Slot 0: rows below t of the assembly buffer's last 64 columns hold the finished row's entries. -/
def RowsDone0 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm0).view.loc (thr d L))) : Prop :=
  ∀ j : S1x50x192.Idx, (j 1).val < t → 128 ≤ (j 2).val → fa j = asmOf fI fA fB n j

theorem rows_zero0 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm0).view.loc (thr d L))) : RowsDone0 d L fI fA fB n 0 fa :=
  fun _ h _ => absurd h (Nat.not_lt_zero _)

theorem rows_step0 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t2_loop.trips) (fa : Buf (Elt F) ((asm0).view.loc (thr d L)))
    (h : RowsDone0 d L fI fA fB n t.val fa) :
    RowsDone0 d L fI fA fB n (t.val + 1) ((asm0).view.writes (Elt F) fa
      [⟨Rect.unit (s := S1x50x192) (k0_off10 t) S1x1x16.size (k0_off10_inb t),
          k0_pay4 (View.readAt (Elt F) (rf0).view (Rect.unit (s := S50x128) (k0_off9 t) S1x16.size (k0_off9_inb t)).toLoadRect (rfOf fI fB n))⟩,
        ⟨Rect.unit (s := S1x50x192) (k0_off8 t) S1x1x16.size (k0_off8_inb t),
          k0_pay3 (View.readAt (Elt F) (rf0).view (Rect.unit (s := S50x128) (k0_off7 t) S1x16.size (k0_off7_inb t)).toLoadRect (rfOf fI fB n))⟩,
        ⟨Rect.unit (s := S1x50x192) (k0_off6 t) S1x1x16.size (k0_off6_inb t),
          k0_pay2 (View.readAt (Elt F) (rf0).view (Rect.unit (s := S50x128) (k0_off5 t) S1x16.size (k0_off5_inb t)).toLoadRect (rfOf fI fB n))⟩,
        ⟨Rect.unit (s := S1x50x192) (k0_off4 t) S1x1x16.size (k0_off4_inb t),
          k0_pay1 (View.readAt (Elt F) (rf0).view (Rect.unit (s := S50x128) (k0_off3 t) S1x16.size (k0_off3_inb t)).toLoadRect (rfOf fI fB n))⟩]) :=
  rows_core (asm0).view fa (asmOf fI fA fB n) t.val (k0_off4 t) (k0_off6 t) (k0_off8 t) (k0_off10 t)
    (k0_off4_inb t) (k0_off6_inb t) (k0_off8_inb t) (k0_off10_inb t)
    (k0_off4_eq t) (k0_off6_eq t) (k0_off8_eq t) (k0_off10_eq t) _ _ _ _
    (fun x => pay_strip fI fA fB n t.val 0 128 (by norm_num) rfl (k0_off3 t) (k0_off3_inb t) (k0_off3_eq t)
      (k0_off4 t) (k0_off4_inb t) (k0_off4_eq t) _ (fun _ => rfl) x)
    (fun x => pay_strip fI fA fB n t.val 16 144 (by norm_num) rfl (k0_off5 t) (k0_off5_inb t) (k0_off5_eq t)
      (k0_off6 t) (k0_off6_inb t) (k0_off6_eq t) _ (fun _ => rfl) x)
    (fun x => pay_strip fI fA fB n t.val 32 160 (by norm_num) rfl (k0_off7 t) (k0_off7_inb t) (k0_off7_eq t)
      (k0_off8 t) (k0_off8_inb t) (k0_off8_eq t) _ (fun _ => rfl) x)
    (fun x => pay_strip fI fA fB n t.val 48 176 (by norm_num) rfl (k0_off9 t) (k0_off9_inb t) (k0_off9_eq t)
      (k0_off10 t) (k0_off10_inb t) (k0_off10_eq t) _ (fun _ => rfl) x)
    h

theorem rows_done0 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm0).view.loc (thr d L))) (h : RowsDone0 d L fI fA fB n 50 fa) :
    ((asm0).view.loc (thr d L) ↦[Finset.univ \ (asmCols asm0).view.set]{fullShare} fa : sProp 𝕄)
      ⊢ (asm0).view.loc (thr d L) ↦[Finset.univ \ (asmCols asm0).view.set]{fullShare} asmOf fI fA fB n := by
  have e : ∀ i ∈ Finset.univ \ (asmCols asm0).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 1: rows below t of the assembly buffer's last 64 columns hold the finished row's entries. -/
def RowsDone1 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm1).view.loc (thr d L))) : Prop :=
  ∀ j : S1x50x192.Idx, (j 1).val < t → 128 ≤ (j 2).val → fa j = asmOf fI fA fB n j

theorem rows_zero1 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm1).view.loc (thr d L))) : RowsDone1 d L fI fA fB n 0 fa :=
  fun _ h _ => absurd h (Nat.not_lt_zero _)

theorem rows_step1 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t3_loop.trips) (fa : Buf (Elt F) ((asm1).view.loc (thr d L)))
    (h : RowsDone1 d L fI fA fB n t.val fa) :
    RowsDone1 d L fI fA fB n (t.val + 1) ((asm1).view.writes (Elt F) fa
      [⟨Rect.unit (s := S1x50x192) (k0_off20 t) S1x1x16.size (k0_off20_inb t),
          k0_pay8 (View.readAt (Elt F) (rf1).view (Rect.unit (s := S50x128) (k0_off19 t) S1x16.size (k0_off19_inb t)).toLoadRect (rfOf fI fB n))⟩,
        ⟨Rect.unit (s := S1x50x192) (k0_off18 t) S1x1x16.size (k0_off18_inb t),
          k0_pay7 (View.readAt (Elt F) (rf1).view (Rect.unit (s := S50x128) (k0_off17 t) S1x16.size (k0_off17_inb t)).toLoadRect (rfOf fI fB n))⟩,
        ⟨Rect.unit (s := S1x50x192) (k0_off16 t) S1x1x16.size (k0_off16_inb t),
          k0_pay6 (View.readAt (Elt F) (rf1).view (Rect.unit (s := S50x128) (k0_off15 t) S1x16.size (k0_off15_inb t)).toLoadRect (rfOf fI fB n))⟩,
        ⟨Rect.unit (s := S1x50x192) (k0_off14 t) S1x1x16.size (k0_off14_inb t),
          k0_pay5 (View.readAt (Elt F) (rf1).view (Rect.unit (s := S50x128) (k0_off13 t) S1x16.size (k0_off13_inb t)).toLoadRect (rfOf fI fB n))⟩]) :=
  rows_core (asm1).view fa (asmOf fI fA fB n) t.val (k0_off14 t) (k0_off16 t) (k0_off18 t) (k0_off20 t)
    (k0_off14_inb t) (k0_off16_inb t) (k0_off18_inb t) (k0_off20_inb t)
    (k0_off14_eq t) (k0_off16_eq t) (k0_off18_eq t) (k0_off20_eq t) _ _ _ _
    (fun x => pay_strip fI fA fB n t.val 0 128 (by norm_num) rfl (k0_off13 t) (k0_off13_inb t) (k0_off13_eq t)
      (k0_off14 t) (k0_off14_inb t) (k0_off14_eq t) _ (fun _ => rfl) x)
    (fun x => pay_strip fI fA fB n t.val 16 144 (by norm_num) rfl (k0_off15 t) (k0_off15_inb t) (k0_off15_eq t)
      (k0_off16 t) (k0_off16_inb t) (k0_off16_eq t) _ (fun _ => rfl) x)
    (fun x => pay_strip fI fA fB n t.val 32 160 (by norm_num) rfl (k0_off17 t) (k0_off17_inb t) (k0_off17_eq t)
      (k0_off18 t) (k0_off18_inb t) (k0_off18_eq t) _ (fun _ => rfl) x)
    (fun x => pay_strip fI fA fB n t.val 48 176 (by norm_num) rfl (k0_off19 t) (k0_off19_inb t) (k0_off19_eq t)
      (k0_off20 t) (k0_off20_inb t) (k0_off20_eq t) _ (fun _ => rfl) x)
    h

theorem rows_done1 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm1).view.loc (thr d L))) (h : RowsDone1 d L fI fA fB n 50 fa) :
    ((asm1).view.loc (thr d L) ↦[Finset.univ \ (asmCols asm1).view.set]{fullShare} fa : sProp 𝕄)
      ⊢ (asm1).view.loc (thr d L) ↦[Finset.univ \ (asmCols asm1).view.set]{fullShare} asmOf fI fA fB n := by
  have e : ∀ i ∈ Finset.univ \ (asmCols asm1).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 2: rows below t of the assembly buffer's last 64 columns hold the finished row's entries. -/
def RowsDone2 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm2).view.loc (thr d L))) : Prop :=
  ∀ j : S1x50x192.Idx, (j 1).val < t → 128 ≤ (j 2).val → fa j = asmOf fI fA fB n j

theorem rows_zero2 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm2).view.loc (thr d L))) : RowsDone2 d L fI fA fB n 0 fa :=
  fun _ h _ => absurd h (Nat.not_lt_zero _)

theorem rows_step2 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t4_loop.trips) (fa : Buf (Elt F) ((asm2).view.loc (thr d L)))
    (h : RowsDone2 d L fI fA fB n t.val fa) :
    RowsDone2 d L fI fA fB n (t.val + 1) ((asm2).view.writes (Elt F) fa
      [⟨Rect.unit (s := S1x50x192) (k0_off29 t) S1x1x16.size (k0_off29_inb t),
          k0_pay12 (View.readAt (Elt F) (rf2).view (Rect.unit (s := S50x128) (k0_off28 t) S1x16.size (k0_off28_inb t)).toLoadRect (rfOf fI fB n))⟩,
        ⟨Rect.unit (s := S1x50x192) (k0_off27 t) S1x1x16.size (k0_off27_inb t),
          k0_pay11 (View.readAt (Elt F) (rf2).view (Rect.unit (s := S50x128) (k0_off26 t) S1x16.size (k0_off26_inb t)).toLoadRect (rfOf fI fB n))⟩,
        ⟨Rect.unit (s := S1x50x192) (k0_off25 t) S1x1x16.size (k0_off25_inb t),
          k0_pay10 (View.readAt (Elt F) (rf2).view (Rect.unit (s := S50x128) (k0_off24 t) S1x16.size (k0_off24_inb t)).toLoadRect (rfOf fI fB n))⟩,
        ⟨Rect.unit (s := S1x50x192) (k0_off23 t) S1x1x16.size (k0_off23_inb t),
          k0_pay9 (View.readAt (Elt F) (rf2).view (Rect.unit (s := S50x128) (k0_off22 t) S1x16.size (k0_off22_inb t)).toLoadRect (rfOf fI fB n))⟩]) :=
  rows_core (asm2).view fa (asmOf fI fA fB n) t.val (k0_off23 t) (k0_off25 t) (k0_off27 t) (k0_off29 t)
    (k0_off23_inb t) (k0_off25_inb t) (k0_off27_inb t) (k0_off29_inb t)
    (k0_off23_eq t) (k0_off25_eq t) (k0_off27_eq t) (k0_off29_eq t) _ _ _ _
    (fun x => pay_strip fI fA fB n t.val 0 128 (by norm_num) rfl (k0_off22 t) (k0_off22_inb t) (k0_off22_eq t)
      (k0_off23 t) (k0_off23_inb t) (k0_off23_eq t) _ (fun _ => rfl) x)
    (fun x => pay_strip fI fA fB n t.val 16 144 (by norm_num) rfl (k0_off24 t) (k0_off24_inb t) (k0_off24_eq t)
      (k0_off25 t) (k0_off25_inb t) (k0_off25_eq t) _ (fun _ => rfl) x)
    (fun x => pay_strip fI fA fB n t.val 32 160 (by norm_num) rfl (k0_off26 t) (k0_off26_inb t) (k0_off26_eq t)
      (k0_off27 t) (k0_off27_inb t) (k0_off27_eq t) _ (fun _ => rfl) x)
    (fun x => pay_strip fI fA fB n t.val 48 176 (by norm_num) rfl (k0_off28 t) (k0_off28_inb t) (k0_off28_eq t)
      (k0_off29 t) (k0_off29_inb t) (k0_off29_eq t) _ (fun _ => rfl) x)
    h

theorem rows_done2 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm2).view.loc (thr d L))) (h : RowsDone2 d L fI fA fB n 50 fa) :
    ((asm2).view.loc (thr d L) ↦[Finset.univ \ (asmCols asm2).view.set]{fullShare} fa : sProp 𝕄)
      ⊢ (asm2).view.loc (thr d L) ↦[Finset.univ \ (asmCols asm2).view.set]{fullShare} asmOf fI fA fB n := by
  have e : ∀ i ∈ Finset.univ \ (asmCols asm2).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

/-- Slot 3: rows below t of the assembly buffer's last 64 columns hold the finished row's entries. -/
def RowsDone3 (d : Dev nD) (L : grid0.Coords) (fI : Buf (Elt F) ((idxV).view.loc (thr d L))) (fA : Buf (Elt F) ((wwV).view.loc (thr d L)))
    (fB : Buf (Elt F) ((wfV).view.loc (thr d L))) (n t : ℕ) (fa : Buf (Elt F) ((asm3).view.loc (thr d L))) : Prop :=
  ∀ j : S1x50x192.Idx, (j 1).val < t → 128 ≤ (j 2).val → fa j = asmOf fI fA fB n j

theorem rows_zero3 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm3).view.loc (thr d L))) : RowsDone3 d L fI fA fB n 0 fa :=
  fun _ h _ => absurd h (Nat.not_lt_zero _)

theorem rows_step3 (d : Dev nD) (L : grid0.Coords) (fI : Buf (Elt F) ((idxV).view.loc (thr d L))) (fA : Buf (Elt F) ((wwV).view.loc (thr d L)))
    (fB : Buf (Elt F) ((wfV).view.loc (thr d L))) (n : ℕ) (t : Fin k0_t5_loop.trips) (fa : Buf (Elt F) ((asm3).view.loc (thr d L)))
    (h : RowsDone3 d L fI fA fB n t.val fa) :
    RowsDone3 d L fI fA fB n (t.val + 1) ((asm3).view.writes (Elt F) fa
      [⟨Rect.unit (s := S1x50x192) (k0_off38 t) S1x1x16.size (k0_off38_inb t),
          k0_pay16 (View.readAt (Elt F) (rf3).view (Rect.unit (s := S50x128) (k0_off37 t) S1x16.size (k0_off37_inb t)).toLoadRect (rfOf fI fB n))⟩,
        ⟨Rect.unit (s := S1x50x192) (k0_off36 t) S1x1x16.size (k0_off36_inb t),
          k0_pay15 (View.readAt (Elt F) (rf3).view (Rect.unit (s := S50x128) (k0_off35 t) S1x16.size (k0_off35_inb t)).toLoadRect (rfOf fI fB n))⟩,
        ⟨Rect.unit (s := S1x50x192) (k0_off34 t) S1x1x16.size (k0_off34_inb t),
          k0_pay14 (View.readAt (Elt F) (rf3).view (Rect.unit (s := S50x128) (k0_off33 t) S1x16.size (k0_off33_inb t)).toLoadRect (rfOf fI fB n))⟩,
        ⟨Rect.unit (s := S1x50x192) (k0_off32 t) S1x1x16.size (k0_off32_inb t),
          k0_pay13 (View.readAt (Elt F) (rf3).view (Rect.unit (s := S50x128) (k0_off31 t) S1x16.size (k0_off31_inb t)).toLoadRect (rfOf fI fB n))⟩]) :=
  rows_core (asm3).view fa (asmOf fI fA fB n) t.val (k0_off32 t) (k0_off34 t) (k0_off36 t) (k0_off38 t)
    (k0_off32_inb t) (k0_off34_inb t) (k0_off36_inb t) (k0_off38_inb t)
    (k0_off32_eq t) (k0_off34_eq t) (k0_off36_eq t) (k0_off38_eq t) _ _ _ _
    (fun x => pay_strip fI fA fB n t.val 0 128 (by norm_num) rfl (k0_off31 t) (k0_off31_inb t) (k0_off31_eq t)
      (k0_off32 t) (k0_off32_inb t) (k0_off32_eq t) _ (fun _ => rfl) x)
    (fun x => pay_strip fI fA fB n t.val 16 144 (by norm_num) rfl (k0_off33 t) (k0_off33_inb t) (k0_off33_eq t)
      (k0_off34 t) (k0_off34_inb t) (k0_off34_eq t) _ (fun _ => rfl) x)
    (fun x => pay_strip fI fA fB n t.val 32 160 (by norm_num) rfl (k0_off35 t) (k0_off35_inb t) (k0_off35_eq t)
      (k0_off36 t) (k0_off36_inb t) (k0_off36_eq t) _ (fun _ => rfl) x)
    (fun x => pay_strip fI fA fB n t.val 48 176 (by norm_num) rfl (k0_off37 t) (k0_off37_inb t) (k0_off37_eq t)
      (k0_off38 t) (k0_off38_inb t) (k0_off38_eq t) _ (fun _ => rfl) x)
    h

theorem rows_done3 (d : Dev nD) (L : grid0.Coords) (fI : Buf (Elt F) ((idxV).view.loc (thr d L))) (fA : Buf (Elt F) ((wwV).view.loc (thr d L)))
    (fB : Buf (Elt F) ((wfV).view.loc (thr d L))) (n : ℕ) (fa : Buf (Elt F) ((asm3).view.loc (thr d L))) (h : RowsDone3 d L fI fA fB n 50 fa) :
    ((asm3).view.loc (thr d L) ↦[Finset.univ \ (asmCols asm3).view.set]{fullShare} fa : sProp 𝕄)
      ⊢ (asm3).view.loc (thr d L) ↦[Finset.univ \ (asmCols asm3).view.set]{fullShare} asmOf fI fA fB n := by
  have e : ∀ i ∈ Finset.univ \ (asmCols asm3).view.set, fa i = asmOf fI fA fB n i := by
    intro i hi
    obtain ⟨u, l, c, rfl⟩ : ∃ (u : Fin 1) (l : Fin 50) (c : Fin 192), i = ix3 u l c := ⟨i 0, i 1, i 2, eq_ix3 i⟩
    refine h _ l.isLt (not_lt.mp fun hlt => (Finset.mem_sdiff.mp hi).2 ?_)
    have hlt' : c.val < 128 := hlt
    refine Finset.mem_map.mpr ⟨ix2 l (⟨c.val, hlt'⟩ : Fin 128), Finset.mem_univ _, ?_⟩
    rw [emb_asmCols]
    show (ix3 (0 : Fin 1) l (⟨c.val, _⟩ : Fin 192) : S1x50x192.Idx) = ix3 u l c
    have hu : u = 0 := Fin.ext (by have := u.isLt; omega)
    subst hu
    rfl
  rw [pointsTo_congr e]

section Land

variable (d : Dev nD) (L : grid0.Coords)
variable (fI : Buf (Elt F) ((idxV).view.loc (thr d L))) (fA : Buf (Elt F) ((wwV).view.loc (thr d L))) (fB : Buf (Elt F) ((wfV).view.loc (thr d L)))
variable (n : ℕ) (hn : n < 4096)

include hn in
/-- The same delivery as the copy's landing spells it: the destination named through the row slice, the contents a
    one-piece list over the whole row, the source's element set written out. -/
theorem out_land0 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm0).view (asmOf fI fA fB n))) :
    (iprop(((outRowM o h).view.loc (thr d L) ↦[(outRowM o h).view.set]{fullShare} (outRowM o h).view.writes (Elt F) fO [⟨Rect.whole S1x50x192, g⟩])
        ∗ ((asm0).view.loc (thr d L) ↦[(asm0).view.set]{fullShare} asmOf fI fA fB n)) : sProp 𝕄) ⊢ DOut0 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm0).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm0).view (asmOf fI fA fB n))⟩])
      ∗ ((asm0).view.loc (thr d L) ↦[(asm0).view.set]{fullShare} asmOf fI fA fB n)) : sProp 𝕄) ⊢ _
  rw [pointsTo_congr e, set_outRowM n _ h rfl, show (asm0).view.set = Finset.univ from View.set_whole _]

include hn in
/-- The same delivery as the copy's landing spells it: the destination named through the row slice, the contents a
    one-piece list over the whole row, the source's element set written out. -/
theorem out_land1 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm1).view (asmOf fI fA fB n))) :
    (iprop(((outRowM o h).view.loc (thr d L) ↦[(outRowM o h).view.set]{fullShare} (outRowM o h).view.writes (Elt F) fO [⟨Rect.whole S1x50x192, g⟩])
        ∗ ((asm1).view.loc (thr d L) ↦[(asm1).view.set]{fullShare} asmOf fI fA fB n)) : sProp 𝕄) ⊢ DOut1 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm1).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm1).view (asmOf fI fA fB n))⟩])
      ∗ ((asm1).view.loc (thr d L) ↦[(asm1).view.set]{fullShare} asmOf fI fA fB n)) : sProp 𝕄) ⊢ _
  rw [pointsTo_congr e, set_outRowM n _ h rfl, show (asm1).view.set = Finset.univ from View.set_whole _]

include hn in
/-- The same delivery as the copy's landing spells it: the destination named through the row slice, the contents a
    one-piece list over the whole row, the source's element set written out. -/
theorem out_land2 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm2).view (asmOf fI fA fB n))) :
    (iprop(((outRowM o h).view.loc (thr d L) ↦[(outRowM o h).view.set]{fullShare} (outRowM o h).view.writes (Elt F) fO [⟨Rect.whole S1x50x192, g⟩])
        ∗ ((asm2).view.loc (thr d L) ↦[(asm2).view.set]{fullShare} asmOf fI fA fB n)) : sProp 𝕄) ⊢ DOut2 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm2).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm2).view (asmOf fI fA fB n))⟩])
      ∗ ((asm2).view.loc (thr d L) ↦[(asm2).view.set]{fullShare} asmOf fI fA fB n)) : sProp 𝕄) ⊢ _
  rw [pointsTo_congr e, set_outRowM n _ h rfl, show (asm2).view.set = Finset.univ from View.set_whole _]

include hn in
/-- The same delivery as the copy's landing spells it: the destination named through the row slice, the contents a
    one-piece list over the whole row, the source's element set written out. -/
theorem out_land3 (o : Fin 4 → ℕ) (h : ∀ a, o a + S1x1x50x192.size a ≤ S4096x1x50x192.size a) (ho : o = ![n, 0, 0, 0])
    (fO : Buf (Elt F) ((outV).view.loc (thr d L))) (g : S1x50x192.Idx → Elt F .f32)
    (hg : g = ReadAs.same.apply (View.read (Elt F) (asm3).view (asmOf fI fA fB n))) :
    (iprop(((outRowM o h).view.loc (thr d L) ↦[(outRowM o h).view.set]{fullShare} (outRowM o h).view.writes (Elt F) fO [⟨Rect.whole S1x50x192, g⟩])
        ∗ ((asm3).view.loc (thr d L) ↦[(asm3).view.set]{fullShare} asmOf fI fA fB n)) : sProp 𝕄) ⊢ DOut3 d L fI fA fB n := by
  subst ho hg
  have e : ∀ i ∈ (outRowM ![n, 0, 0, 0] h).view.set,
      (outRowM ![n, 0, 0, 0] h).view.writes (Elt F) fO [⟨Rect.whole S1x50x192, ReadAs.same.apply (View.read (Elt F) (asm3).view (asmOf fI fA fB n))⟩] i
        = Cert.Stack.Gk fI fA fB i := by
    intro i hi
    obtain ⟨x, -, rfl⟩ := Finset.mem_map.mp hi
    obtain ⟨u, l, c, rfl⟩ : ∃ (u : Fin 1) (l : Fin 50) (c : Fin 192), x = ix3 u l c := ⟨x 0, x 1, x 2, eq_ix3 x⟩
    have hx : ((outRowM ![n, 0, 0, 0] h).view.slice (Rect.whole S1x50x192)).emb (ix3 u l c) = (outRowM ![n, 0, 0, 0] h).view.emb (ix3 u l c) := by
      show (outRowM ![n, 0, 0, 0] h).view.emb ((Rect.whole S1x50x192).emb (ix3 u l c)) = _
      refine congrArg _ (funext fun a => Fin.ext ?_)
      show 0 + 1 * ((ix3 u l c : S1x50x192.Idx) a).val = ((ix3 u l c : S1x50x192.Idx) a).val
      omega
    rw [View.writes_singleton]
    conv_lhs => rw [← hx, View.write_emb_of_mem _ _ (Finset.mem_univ _)]
    rw [emb_outRowM n hn h u l c]
    rfl
  show (iprop(((outV).view.loc (thr d L) ↦[(outRowM ![n, 0, 0, 0] h).view.set]{fullShare}
        (outRowM ![n, 0, 0, 0] h).view.writes (Elt F) fO [⟨Rect.whole S1x50x192, ReadAs.same.apply (View.read (Elt F) (asm3).view (asmOf fI fA fB n))⟩])
      ∗ ((asm3).view.loc (thr d L) ↦[(asm3).view.set]{fullShare} asmOf fI fA fB n)) : sProp 𝕄) ⊢ _
  rw [pointsTo_congr e, set_outRowM n _ h rfl, show (asm3).view.set = Finset.univ from View.set_whole _]

end Land

end Cert.Proof.K

end
-- ==== Proof.K.TripLemmas.lean ====
/-
  Facts one round of a task's ring uses: a copy in flight restated at what it delivers, the row loop's invariant per
  slot, and how row ranges of the result split and join.
-/
import proofs.«206843_g13322988552399_fold_wed_c4_279_34_alg».proof.Proof.K.Inv
import proofs.«206843_g13322988552399_fold_wed_c4_279_34_alg».proof.Proof.K.Values

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section TripLemmas

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

omit [FloatOps F] in
theorem out_split (f : Buf (Elt F) ((outV).view.loc (thr d L))) {a b c : ℕ} (hab : a ≤ b) (hbc : b ≤ c) :
    (((outV).view.loc (thr d L) ↦[outRows a c]{fullShare} f) : sProp 𝕄)
      ⊣⊢ iprop(((outV).view.loc (thr d L) ↦[outRows a b]{fullShare} f) ∗ ((outV).view.loc (thr d L) ↦[outRows b c]{fullShare} f)) := by
  have h : (((outV).view.loc (thr d L) ↦[outRows a c]{fullShare} f) : sProp 𝕄)
      ⊣⊢ iprop(((outV).view.loc (thr d L) ↦[outRows a b]{fullShare} f) ∗ ((outV).view.loc (thr d L) ↦[outRows a c \ outRows a b]{fullShare} f)) :=
    pointsTo_split_subset (outRows_subset (a := a) hbc)
  rw [outRows_sdiff hab] at h
  exact h

theorem idx_deliver0' (q : PosShare TreeShare) (n : ℕ) (hn : n < 4096) (o : Fin 3 → ℕ) (h : ∀ a, o a + S1x2x50.size a ≤ S4096x2x50.size a) (ho : o = ![n, 0, 0])
    (f : Buf (Elt F) ((cix0).view.loc (thr d L))) (g : S2x50.Idx → Elt F .i32) (hg : g = ReadAs.same.apply (View.read (Elt F) (idxRowM o h).view fI)) :
    iprop(((cix0).view.loc (thr d L) ↦{fullShare} View.write (Elt F) (cix0).view f g Finset.univ) ∗ ((idxV).view.loc (thr d L) ↦[(idxRowM o h).view.set]{q} fI))
      ⊢ (DIdx0 d L fI q n : sProp 𝕄) := by
  subst hg; exact idx_deliver0 d L fI q n hn o h ho f

theorem idx_deliver1' (q : PosShare TreeShare) (n : ℕ) (hn : n < 4096) (o : Fin 3 → ℕ) (h : ∀ a, o a + S1x2x50.size a ≤ S4096x2x50.size a) (ho : o = ![n, 0, 0])
    (f : Buf (Elt F) ((cix1).view.loc (thr d L))) (g : S2x50.Idx → Elt F .i32) (hg : g = ReadAs.same.apply (View.read (Elt F) (idxRowM o h).view fI)) :
    iprop(((cix1).view.loc (thr d L) ↦{fullShare} View.write (Elt F) (cix1).view f g Finset.univ) ∗ ((idxV).view.loc (thr d L) ↦[(idxRowM o h).view.set]{q} fI))
      ⊢ (DIdx1 d L fI q n : sProp 𝕄) := by
  subst hg; exact idx_deliver1 d L fI q n hn o h ho f

theorem idx_deliver2' (q : PosShare TreeShare) (n : ℕ) (hn : n < 4096) (o : Fin 3 → ℕ) (h : ∀ a, o a + S1x2x50.size a ≤ S4096x2x50.size a) (ho : o = ![n, 0, 0])
    (f : Buf (Elt F) ((cix2).view.loc (thr d L))) (g : S2x50.Idx → Elt F .i32) (hg : g = ReadAs.same.apply (View.read (Elt F) (idxRowM o h).view fI)) :
    iprop(((cix2).view.loc (thr d L) ↦{fullShare} View.write (Elt F) (cix2).view f g Finset.univ) ∗ ((idxV).view.loc (thr d L) ↦[(idxRowM o h).view.set]{q} fI))
      ⊢ (DIdx2 d L fI q n : sProp 𝕄) := by
  subst hg; exact idx_deliver2 d L fI q n hn o h ho f

theorem idx_deliver3' (q : PosShare TreeShare) (n : ℕ) (hn : n < 4096) (o : Fin 3 → ℕ) (h : ∀ a, o a + S1x2x50.size a ≤ S4096x2x50.size a) (ho : o = ![n, 0, 0])
    (f : Buf (Elt F) ((cix3).view.loc (thr d L))) (g : S2x50.Idx → Elt F .i32) (hg : g = ReadAs.same.apply (View.read (Elt F) (idxRowM o h).view fI)) :
    iprop(((cix3).view.loc (thr d L) ↦{fullShare} View.write (Elt F) (cix3).view f g Finset.univ) ∗ ((idxV).view.loc (thr d L) ↦[(idxRowM o h).view.set]{q} fI))
      ⊢ (DIdx3 d L fI q n : sProp 𝕄) := by
  subst hg; exact idx_deliver3 d L fI q n hn o h ho f

omit [FloatOps F] in
/-- What is left of a read token once a row of the stacked indices is lent, by the row's number. -/
theorem idx_rest (n : ℕ) (o : Fin 3 → ℕ) (h : ∀ a, o a + S1x2x50.size a ≤ S4096x2x50.size a) (ho : o = ![n, 0, 0]) (q : PosShare TreeShare) :
    (((idxV).view.loc (thr d L) ↦[Finset.univ \ (idxRowM o h).view.set]{q} fI) : sProp 𝕄)
      ⊢ ((idxV).view.loc (thr d L) ↦[Finset.univ \ idxRowSet n]{q} fI) := by
  rw [set_idxRowM n o h ho]

/-- Slot 0's row loop: the feature buffer at the looked-up rows; of the assembly buffer, outside columns 0 … 127, the
    rows before t hold the finished row's feature columns. -/
def rowInv0 (n : ℕ) (t : ℕ) (_ : Unit) : sProp 𝕄 :=
  iprop(((rf0).view.loc (thr d L) ↦{fullShare} rfOf fI fB n)
    ∗ ∃ fa, ⌜RowsDone0 d L fI fA fB n t fa⌝ ∗ ((asm0).view.loc (thr d L) ↦[Finset.univ \ (asmCols asm0).view.set]{fullShare} fa))

/-- The two column ranges of slot 0's assembly buffer, at one function, are the buffer whole. -/
theorem asm_join0 (f : Buf (Elt F) ((asm0).view.loc (thr d L))) :
    iprop(((asm0).view.loc (thr d L) ↦[(asmCols asm0).view.set]{fullShare} f) ∗ ((asm0).view.loc (thr d L) ↦[Finset.univ \ (asmCols asm0).view.set]{fullShare} f))
      ⊢ (((asm0).view.loc (thr d L) ↦{fullShare} f) : sProp 𝕄) :=
  (pointsTo_split_subset (Finset.subset_univ _)).2

/-- Slot 1's row loop: the feature buffer at the looked-up rows; of the assembly buffer, outside columns 0 … 127, the
    rows before t hold the finished row's feature columns. -/
def rowInv1 (n : ℕ) (t : ℕ) (_ : Unit) : sProp 𝕄 :=
  iprop(((rf1).view.loc (thr d L) ↦{fullShare} rfOf fI fB n)
    ∗ ∃ fa, ⌜RowsDone1 d L fI fA fB n t fa⌝ ∗ ((asm1).view.loc (thr d L) ↦[Finset.univ \ (asmCols asm1).view.set]{fullShare} fa))

/-- The two column ranges of slot 1's assembly buffer, at one function, are the buffer whole. -/
theorem asm_join1 (f : Buf (Elt F) ((asm1).view.loc (thr d L))) :
    iprop(((asm1).view.loc (thr d L) ↦[(asmCols asm1).view.set]{fullShare} f) ∗ ((asm1).view.loc (thr d L) ↦[Finset.univ \ (asmCols asm1).view.set]{fullShare} f))
      ⊢ (((asm1).view.loc (thr d L) ↦{fullShare} f) : sProp 𝕄) :=
  (pointsTo_split_subset (Finset.subset_univ _)).2

/-- Slot 2's row loop: the feature buffer at the looked-up rows; of the assembly buffer, outside columns 0 … 127, the
    rows before t hold the finished row's feature columns. -/
def rowInv2 (n : ℕ) (t : ℕ) (_ : Unit) : sProp 𝕄 :=
  iprop(((rf2).view.loc (thr d L) ↦{fullShare} rfOf fI fB n)
    ∗ ∃ fa, ⌜RowsDone2 d L fI fA fB n t fa⌝ ∗ ((asm2).view.loc (thr d L) ↦[Finset.univ \ (asmCols asm2).view.set]{fullShare} fa))

/-- The two column ranges of slot 2's assembly buffer, at one function, are the buffer whole. -/
theorem asm_join2 (f : Buf (Elt F) ((asm2).view.loc (thr d L))) :
    iprop(((asm2).view.loc (thr d L) ↦[(asmCols asm2).view.set]{fullShare} f) ∗ ((asm2).view.loc (thr d L) ↦[Finset.univ \ (asmCols asm2).view.set]{fullShare} f))
      ⊢ (((asm2).view.loc (thr d L) ↦{fullShare} f) : sProp 𝕄) :=
  (pointsTo_split_subset (Finset.subset_univ _)).2

/-- Slot 3's row loop: the feature buffer at the looked-up rows; of the assembly buffer, outside columns 0 … 127, the
    rows before t hold the finished row's feature columns. -/
def rowInv3 (n : ℕ) (t : ℕ) (_ : Unit) : sProp 𝕄 :=
  iprop(((rf3).view.loc (thr d L) ↦{fullShare} rfOf fI fB n)
    ∗ ∃ fa, ⌜RowsDone3 d L fI fA fB n t fa⌝ ∗ ((asm3).view.loc (thr d L) ↦[Finset.univ \ (asmCols asm3).view.set]{fullShare} fa))

/-- The two column ranges of slot 3's assembly buffer, at one function, are the buffer whole. -/
theorem asm_join3 (f : Buf (Elt F) ((asm3).view.loc (thr d L))) :
    iprop(((asm3).view.loc (thr d L) ↦[(asmCols asm3).view.set]{fullShare} f) ∗ ((asm3).view.loc (thr d L) ↦[Finset.univ \ (asmCols asm3).view.set]{fullShare} f))
      ⊢ (((asm3).view.loc (thr d L) ↦{fullShare} f) : sProp 𝕄) :=
  (pointsTo_split_subset (Finset.subset_univ _)).2

/-- A row of the result, as the copy out addresses it. -/
theorem out_row (n : ℕ) {a b : ℕ} (ha : a = n) (hb : b = n + 1) (o : Fin 4 → ℕ) (h : ∀ a, o a + S1x1x50x192.size a ≤ S4096x1x50x192.size a) (ho : o = ![n, 0, 0, 0])
    (f : Buf (Elt F) ((outV).view.loc (thr d L))) :
    (((outV).view.loc (thr d L) ↦[outRows a b]{fullShare} f) : sProp 𝕄) ⊢ ((outRowM o h).view.loc (thr d L) ↦[(outRowM o h).view.set]{fullShare} f) := by
  obtain rfl := ha
  obtain rfl := hb
  rw [show outRows a (a + 1) = (outRowM o h).view.set from (set_outRowM a o h ho).symm]

/-- Adjacent row ranges at one function join. -/
theorem out_join (f : Buf (Elt F) ((outV).view.loc (thr d L))) {a b c : ℕ} (b' c' : ℕ) (hb : b' = b) (hc : c' = c) (hab : a ≤ b) (hbc : b ≤ c) :
    iprop(((outV).view.loc (thr d L) ↦[outRows a b]{fullShare} f) ∗ ((outV).view.loc (thr d L) ↦[outRows b' c']{fullShare} f))
      ⊢ (((outV).view.loc (thr d L) ↦[outRows a c]{fullShare} f) : sProp 𝕄) := by
  subst hb hc; exact (out_split d L f hab hbc).2

/-- A row range under another spelling of its bounds. -/
theorem out_cast (f : Buf (Elt F) ((outV).view.loc (thr d L))) {a b : ℕ} (a' b' : ℕ) (ha : a' = a) (hb : b' = b) :
    (((outV).view.loc (thr d L) ↦[outRows a b]{fullShare} f) : sProp 𝕄) ⊢ ((outV).view.loc (thr d L) ↦[outRows a' b']{fullShare} f) := by
  subst ha hb; exact BI.Entails.refl _

/-- A wait at no index recorded keeps the record within bounds. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

end TripLemmas

end Cert.Proof.K

end
-- ==== Proof.K.TripFirst.lean ====
/-
  The first round of the ring (k = 0): no row is yet on its way out of slots 1, 2, 3, so the round's first three waits
  for a written row are skipped and those slots' assembly buffers are simply at rest; only row N, sent out in this round
  from slot 0, comes home in it.
-/
import proofs.«206843_g13322988552399_fold_wed_c4_279_34_alg».proof.Proof.K.TripLemmas

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_first (v1 : BitVec 32) (k : Fin k0_t1_loop.trips) (hk0 : k.val = 0)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk2 : k.val < 31 := by omega
  have hk32 : k.val < 32 := by omega
  have k0_h1 : ¬ (Scalar.cmpi .ne (Scalar.extui (Scalar.cmpi .sge (Scalar.addi (Scalar.muli 4#32 (Scalar.addi 0#32 (Scalar.muli (Scf.iv 0#32 1#32 k) 1#32))) 0#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 0#32) 3#32)) 0#32 = 1#1) := by decide
    exact this k hk0
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : ¬ (Scalar.cmpi .ne (Scalar.extui (Scalar.cmpi .sge (Scalar.addi (Scalar.muli 4#32 (Scalar.addi 0#32 (Scalar.muli (Scf.iv 0#32 1#32 k) 1#32))) 1#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 1#32) 3#32)) 0#32 = 1#1) := by decide
    exact this k hk0
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : ¬ (Scalar.cmpi .ne (Scalar.extui (Scalar.cmpi .sge (Scalar.addi (Scalar.muli 4#32 (Scalar.addi 0#32 (Scalar.muli (Scf.iv 0#32 1#32 k) 1#32))) 2#32) 3#32)) 0#32 = 1#1) := by
    have : ∀ k : Fin k0_t1_loop.trips, k.val = 0 → ¬ (Scalar.cmpi .ne (Scalar.extui (Scalar.cmpi .sge (Scalar.addi (Scalar.muli 4#32 (Scalar.addi 0#32 (Scalar.muli (Scf.iv 0#32 1#32 k) 1#32))) 2#32) 3#32)) 0#32 = 1#1) := by decide
    exact this k hk0
  have k0_h8 : k0_cond8 k = 1#1 := by
    have : ∀ k : Fin k0_t1_loop.trips, k.val < 31 → k0_cond8 k = 1#1 := by decide
    exact this k hk2
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : k0_cond11 k = 1#1 := by
    have : ∀ k : Fin k0_t1_loop.trips, k.val < 31 → k0_cond11 k = 1#1 := by decide
    exact this k hk2
  have k0_h12 : Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by
    have : ∀ k : Fin k0_t1_loop.trips, k.val < 31 → Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by decide
    exact this k hk2
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  have hinW0' := hinW0 d L fI (N0 L + 4 * (k.val + 1)) hI
  have hinF0' := hinF0 d L fI (N0 L + 4 * (k.val + 1)) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_off _ _ _ _ _ _ _ _ (by omega), outgo2_off _ _ _ _ _ _ _ _ (by omega), outgo3_off _ _ _ _ _ _ _ _ (by omega)]
  unfold gath0On stage1On outgo1Off outgo2Off outgo3Off DWord0 DFeat0 DIdx1
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, ⟨Hso1, ⟨%fa1i, Ha1⟩⟩⟩,
    ⟨Hi2, Hsi2, ⟨%fc2, Hc2⟩, Hww2, Hwf2, ⟨%fr2, Hr2⟩, Hsw2, Hsf2, ⟨Hso2, ⟨%fa2i, Ha2⟩⟩⟩,
    ⟨Hi3, Hsi3, ⟨%fc3, Hc3⟩, Hww3, Hwf3, ⟨%fr3, Hr3⟩, Hsw3, Hsf3, ⟨Hso3, ⟨%fa3i, Ha3⟩⟩⟩, ⟨Hout, Hdone⟩⟩
  -- round part 1: slot 0
  sl_exec
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  ihave Hsi0 := (Transfers.Flight_mono countersEmb (thr d L) (idx_deliver0' d L fI (shareTok qI 4 0) (N0 L + 4 * (k.val + 1)) (by omega) (k0_off21 L k) _ (by rw [k0_off21_eq L k]; congr 1 <;> omega) _ _ (by rfl))) $$ Hsi0
  unfold DIdx0
  ihave Hi0 := (idx_rest d L fI (N0 L + 4 * (k.val + 1)) (k0_off21 L k) _ (by rw [k0_off21_eq L k]; congr 1 <;> omega) (shareTok qI 4 0)) $$ Hi0
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  ihave Hsi1 := (Transfers.Flight_mono countersEmb (thr d L) (idx_deliver1' d L fI (shareTok qI 4 1) (N0 L + 4 * (k.val + 1) + 1) (by omega) (k0_off30 L k) _ (by rw [k0_off30_eq L k]; congr 1 <;> omega) _ _ (by rfl))) $$ Hsi1
  unfold DIdx1
  ihave Hi1 := (idx_rest d L fI (N0 L + 4 * (k.val + 1) + 1) (k0_off30 L k) _ (by rw [k0_off30_eq L k]; congr 1 <;> omega) (shareTok qI 4 1)) $$ Hi1
  irename Hsi0_dst => Hc0
  ihave Hsw0 := (Transfers.Flight_mono countersEmb (thr d L) (word_deliver0 d L fI fA fB (shareTok qA 4 0) (N0 L + 4 * (k.val + 1)) _ hinW0' _ (by rfl))) $$ Hsw0
  unfold DWord0
  ihave Hsf0 := (Transfers.Flight_mono countersEmb (thr d L) (feat_deliver0 d L fI fB (shareTok qB 4 0) (N0 L + 4 * (k.val + 1)) _ hinF0' _ (by rfl))) $$ Hsf0
  unfold DFeat0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_cast d L (Cert.Stack.Gk fI fA fB) (N0 L) (N0 L + 4 * (k.val + 1) - 3) (by omega) (by omega)) $$ Hso0_dst
  rw [gath0_on _ _ _ _ _ _ _ _ (show k.val + 1 < 32 by omega), stage1_on _ _ _ _ _ _ _ _ (show k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0On stage1On outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hww0 Hsf0 Hwf0 Hc0 Ha0]
  ·
    isplitl [Hi0]; · iexact Hi0
    isplitl [Hsi0]; · iexact Hsi0
    isplitl [Hso0]; · iexact Hso0
    isplitl [Hsw0]; · iexact Hsw0
    isplitl [Hww0]; · iexact Hww0
    isplitl [Hsf0]; · iexact Hsf0
    isplitl [Hwf0]; · iexact Hwf0
    isplitl [Hc0]; · iexact Hc0
    iexists _; iexact Ha0
  isplitl [Hww1 Hwf1 Hr1 Hsw1 Hsf1 Hsi1 Hi1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1]
    ·
      isplitl [Hsi1]; · iexact Hsi1
      iexact Hi1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.K

end
-- ==== Proof.K.TripMid.lean ====
/-
  A middle round of the ring (1 ≤ k ≤ 30): every branch of the round is taken — the wait for the row written three
  rounds of a slot ago, the staging of the index rows two ahead, the wait for the next index rows and their gathers.
-/
import proofs.«206843_g13322988552399_fold_wed_c4_279_34_alg».proof.Proof.K.TripLemmas

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_mid (v1 : BitVec 32) (k : Fin k0_t1_loop.trips) (hk1 : 1 ≤ k.val) (hk2 : k.val < 31)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk32 : k.val < 32 := by omega
  have k0_h1 : Scalar.cmpi .ne (Scalar.extui (Scalar.cmpi .sge (Scalar.addi (Scalar.muli 4#32 (Scalar.addi 0#32 (Scalar.muli (Scf.iv 0#32 1#32 k) 1#32))) 0#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 0#32) 3#32)) 0#32 = 1#1 := by decide
    exact this k hk1
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : Scalar.cmpi .ne (Scalar.extui (Scalar.cmpi .sge (Scalar.addi (Scalar.muli 4#32 (Scalar.addi 0#32 (Scalar.muli (Scf.iv 0#32 1#32 k) 1#32))) 1#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 1#32) 3#32)) 0#32 = 1#1 := by decide
    exact this k hk1
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : Scalar.cmpi .ne (Scalar.extui (Scalar.cmpi .sge (Scalar.addi (Scalar.muli 4#32 (Scalar.addi 0#32 (Scalar.muli (Scf.iv 0#32 1#32 k) 1#32))) 2#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 2#32) 3#32)) 0#32 = 1#1 := by decide
    exact this k hk1
  have k0_h8 : k0_cond8 k = 1#1 := by
    have : ∀ k : Fin k0_t1_loop.trips, k.val < 31 → k0_cond8 k = 1#1 := by decide
    exact this k hk2
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : k0_cond11 k = 1#1 := by
    have : ∀ k : Fin k0_t1_loop.trips, k.val < 31 → k0_cond11 k = 1#1 := by decide
    exact this k hk2
  have k0_h12 : Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by
    have : ∀ k : Fin k0_t1_loop.trips, k.val < 31 → Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1 := by decide
    exact this k hk2
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  have hinW0' := hinW0 d L fI (N0 L + 4 * (k.val + 1)) hI
  have hinF0' := hinF0 d L fI (N0 L + 4 * (k.val + 1)) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_on _ _ _ _ _ _ _ _ hk1, outgo2_on _ _ _ _ _ _ _ _ hk1, outgo3_on _ _ _ _ _ _ _ _ hk1]
  unfold gath0On stage1On outgo1On outgo2On outgo3On DWord0 DFeat0 DIdx1 DOut1 DOut2 DOut3
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, Hso1⟩,
    ⟨Hi2, Hsi2, ⟨%fc2, Hc2⟩, Hww2, Hwf2, ⟨%fr2, Hr2⟩, Hsw2, Hsf2, Hso2⟩,
    ⟨Hi3, Hsi3, ⟨%fc3, Hc3⟩, Hww3, Hwf3, ⟨%fr3, Hr3⟩, Hsw3, Hsf3, Hso3⟩, ⟨Hout, Hdone⟩⟩
  -- round part 1: slot 0
  sl_exec
  irename Hso1_src => Ha1
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  irename Hso2_src => Ha2
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  irename Hso3_src => Ha3
  ihave Hsi0 := (Transfers.Flight_mono countersEmb (thr d L) (idx_deliver0' d L fI (shareTok qI 4 0) (N0 L + 4 * (k.val + 1)) (by omega) (k0_off21 L k) _ (by rw [k0_off21_eq L k]; congr 1 <;> omega) _ _ (by rfl))) $$ Hsi0
  unfold DIdx0
  ihave Hi0 := (idx_rest d L fI (N0 L + 4 * (k.val + 1)) (k0_off21 L k) _ (by rw [k0_off21_eq L k]; congr 1 <;> omega) (shareTok qI 4 0)) $$ Hi0
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  ihave Hsi1 := (Transfers.Flight_mono countersEmb (thr d L) (idx_deliver1' d L fI (shareTok qI 4 1) (N0 L + 4 * (k.val + 1) + 1) (by omega) (k0_off30 L k) _ (by rw [k0_off30_eq L k]; congr 1 <;> omega) _ _ (by rfl))) $$ Hsi1
  unfold DIdx1
  ihave Hi1 := (idx_rest d L fI (N0 L + 4 * (k.val + 1) + 1) (k0_off30 L k) _ (by rw [k0_off30_eq L k]; congr 1 <;> omega) (shareTok qI 4 1)) $$ Hi1
  irename Hsi0_dst => Hc0
  ihave Hsw0 := (Transfers.Flight_mono countersEmb (thr d L) (word_deliver0 d L fI fA fB (shareTok qA 4 0) (N0 L + 4 * (k.val + 1)) _ hinW0' _ (by rfl))) $$ Hsw0
  unfold DWord0
  ihave Hsf0 := (Transfers.Flight_mono countersEmb (thr d L) (feat_deliver0 d L fI fB (shareTok qB 4 0) (N0 L + 4 * (k.val + 1)) _ hinF0' _ (by rfl))) $$ Hsf0
  unfold DFeat0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_join d L (Cert.Stack.Gk fI fA fB) (a := N0 L) (b := N0 L + 4 * k.val - 3) (b' := N0 L + 4 * k.val - 3) (c' := N0 L + 4 * k.val - 3 + 1) (c := N0 L + 4 * k.val - 2) (by omega) (by omega) (by omega) (by omega)) $$ [Hdone Hso1_dst]
  · isplitl [Hdone] <;> iassumption
  ihave Hdone := (out_join d L (Cert.Stack.Gk fI fA fB) (a := N0 L) (b := N0 L + 4 * k.val - 2) (b' := N0 L + 4 * k.val - 2) (c' := N0 L + 4 * k.val - 2 + 1) (c := N0 L + 4 * k.val - 1) (by omega) (by omega) (by omega) (by omega)) $$ [Hdone Hso2_dst]
  · isplitl [Hdone] <;> iassumption
  ihave Hdone := (out_join d L (Cert.Stack.Gk fI fA fB) (a := N0 L) (b := N0 L + 4 * k.val - 1) (b' := N0 L + 4 * k.val - 1) (c' := N0 L + 4 * k.val - 1 + 1) (c := N0 L + 4 * k.val) (by omega) (by omega) (by omega) (by omega)) $$ [Hdone Hso3_dst]
  · isplitl [Hdone] <;> iassumption
  ihave Hdone := (out_join d L (Cert.Stack.Gk fI fA fB) (a := N0 L) (b := N0 L + 4 * k.val) (b' := N0 L + 4 * k.val) (c' := N0 L + 4 * k.val + 1) (c := N0 L + 4 * (k.val + 1) - 3) (by omega) (by omega) (by omega) (by omega)) $$ [Hdone Hso0_dst]
  · isplitl [Hdone] <;> iassumption
  rw [gath0_on _ _ _ _ _ _ _ _ (show k.val + 1 < 32 by omega), stage1_on _ _ _ _ _ _ _ _ (show k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0On stage1On outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hww0 Hsf0 Hwf0 Hc0 Ha0]
  ·
    isplitl [Hi0]; · iexact Hi0
    isplitl [Hsi0]; · iexact Hsi0
    isplitl [Hso0]; · iexact Hso0
    isplitl [Hsw0]; · iexact Hsw0
    isplitl [Hww0]; · iexact Hww0
    isplitl [Hsf0]; · iexact Hsf0
    isplitl [Hwf0]; · iexact Hwf0
    isplitl [Hc0]; · iexact Hc0
    iexists _; iexact Ha0
  isplitl [Hww1 Hwf1 Hr1 Hsw1 Hsf1 Hsi1 Hi1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1]
    ·
      isplitl [Hsi1]; · iexact Hsi1
      iexact Hi1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.K

end
-- ==== Proof.K.TripLast.lean ====
/-
  The last round of the ring (k = 31): nothing is staged or gathered for a row beyond the task's block, so slot 0 and
  slot 1's index buffer end at rest.
-/
import proofs.«206843_g13322988552399_fold_wed_c4_279_34_alg».proof.Proof.K.TripLemmas

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

section Trip

variable (d : Dev nD) (L : grid0.Coords)
variable (fI : Buf (Elt F) ((idxV).view.loc (thr d L))) (fA : Buf (Elt F) ((wwV).view.loc (thr d L))) (fB : Buf (Elt F) ((wfV).view.loc (thr d L)))
  (fO : Buf (Elt F) ((outV).view.loc (thr d L)))
variable (qI qA qB : PosShare TreeShare)
variable (O : CellTallies nD τ sig (HIx 1)) (W : Waits sig (HIx 1))

set_option maxHeartbeats 4000000 in
/-- One round of the ring carries the invariant from k to k + 1. -/
theorem trip_last (v1 : BitVec 32) (k : Fin k0_t1_loop.trips) (hk31 : k.val = 31)
    (hI : ∀ (r : Fin 4096) (l : Fin 50), (fI (ix3 r (0 : Fin 2) l)).toNat < 100000 ∧ (fI (ix3 r (1 : Fin 2) l)).toNat < 1000) :
    ringInv d L fI fA fB fO qI qA qB O W k.val ⟨⟩
      ⊢ wp frame (wpE (defs₀ (F := F)) 𝒱₀ (thr d L) none) Set.univ
          (k0_t1_body L idxV (Memref.isWhole_whole _) wwV (Memref.isWhole_whole _) wfV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19
          cc0_scratch20 cc0_scratch21 cc0_scratch22 cc0_scratch23 cc0_scratch24 cc0_scratch25 cc0_scratch26 cc0_scratch27 v1 k ⟨⟩)
          (fun _ => ringInv d L fI fA fB fO qI qA qB O W (k.val + 1) ⟨⟩) := by
  have hk1 : 1 ≤ k.val := by omega
  have hk32 : k.val < 32 := by omega
  have k0_h1 : Scalar.cmpi .ne (Scalar.extui (Scalar.cmpi .sge (Scalar.addi (Scalar.muli 4#32 (Scalar.addi 0#32 (Scalar.muli (Scf.iv 0#32 1#32 k) 1#32))) 0#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 0#32) 3#32)) 0#32 = 1#1 := by decide
    exact this k hk1
  have k0_h2 : k0_cond2 k = 1#1 := by
    have : ∀ k : Fin k0_t1_loop.trips, k0_cond2 k = 1#1 := by decide
    exact this k
  have k0_h3 : Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 0#32) 1#32) 128#32)) 0#32 = 1#1 := by decide
    exact this k
  have k0_h4 : Scalar.cmpi .ne (Scalar.extui (Scalar.cmpi .sge (Scalar.addi (Scalar.muli 4#32 (Scalar.addi 0#32 (Scalar.muli (Scf.iv 0#32 1#32 k) 1#32))) 1#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 1#32) 3#32)) 0#32 = 1#1 := by decide
    exact this k hk1
  have k0_h5 : k0_cond5 k = 1#1 := by
    have : ∀ k : Fin k0_t1_loop.trips, k0_cond5 k = 1#1 := by decide
    exact this k
  have k0_h6 : Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 1#32) 1#32) 128#32)) 0#32 = 1#1 := by decide
    exact this k
  have k0_h7 : Scalar.cmpi .ne (Scalar.extui (Scalar.cmpi .sge (Scalar.addi (Scalar.muli 4#32 (Scalar.addi 0#32 (Scalar.muli (Scf.iv 0#32 1#32 k) 1#32))) 2#32) 3#32)) 0#32 = 1#1 := by
    have : ∀ k : Fin k0_t1_loop.trips, 1 ≤ k.val → Scalar.cmpi .ne (Scalar.extui (Scalar.cmpi .sge (Scalar.addi (Scalar.muli 4#32 (Scalar.addi 0#32 (Scalar.muli (Scf.iv 0#32 1#32 k) 1#32))) 2#32) 3#32)) 0#32 = 1#1 := by decide
    exact this k hk1
  have k0_h8 : ¬ (k0_cond8 k = 1#1) := by
    have : ∀ k : Fin k0_t1_loop.trips, k.val = 31 → ¬ (k0_cond8 k = 1#1) := by decide
    exact this k hk31
  have k0_h9 : Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by
    have : ∀ k : Fin k0_t1_loop.trips, Scalar.cmpi .ne (Scalar.extui (Scalar.cmpi .slt (Scalar.addi (Scalar.addi (Scalar.muli 4#32 (Scalar.addi 0#32 (Scalar.muli (Scf.iv 0#32 1#32 k) 1#32))) 2#32) 1#32) 128#32)) 0#32 = 1#1 := by decide
    exact this k
  have k0_h10 : Scalar.cmpi .ne (Scalar.extui (Scalar.cmpi .sge (Scalar.addi (Scalar.muli 4#32 (Scalar.addi 0#32 (Scalar.muli (Scf.iv 0#32 1#32 k) 1#32))) 3#32) 3#32)) 0#32 = 1#1 := by
    have : ∀ k : Fin k0_t1_loop.trips, Scalar.cmpi .ne (Scalar.extui (Scalar.cmpi .sge (Scalar.addi (Scalar.muli 4#32 (Scalar.addi 0#32 (Scalar.muli (Scf.iv 0#32 1#32 k) 1#32))) 3#32) 3#32)) 0#32 = 1#1 := by decide
    exact this k
  have k0_h11 : ¬ (k0_cond11 k = 1#1) := by
    have : ∀ k : Fin k0_t1_loop.trips, k.val = 31 → ¬ (k0_cond11 k = 1#1) := by decide
    exact this k hk31
  have k0_h12 : ¬ (Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1) := by
    have : ∀ k : Fin k0_t1_loop.trips, k.val = 31 → ¬ (Scalar.cmpi .ne (Scalar.extui (Scalar.cmpi .slt (Scalar.addi (Scalar.addi (Scalar.muli 4#32 (Scalar.addi 0#32 (Scalar.muli (Scf.iv 0#32 1#32 k) 1#32))) 3#32) 1#32) 128#32)) 0#32 = 1#1) := by decide
    exact this k hk31
  have hL0 : (L 0).val < 2 := (L 0).isLt
  have hL1 : (L 1).val < 16 := (L 1).isLt
  have hN : N0 L + 128 ≤ 4096 := by show 256 * (L 1).val + 128 * (L 0).val + 128 ≤ 4096; omega
  have hinW1' := hinW1 d L fI (N0 L + 4 * (k.val + 1) - 3) hI
  have hinF1' := hinF1 d L fI (N0 L + 4 * (k.val + 1) - 3) hI
  have hinW2' := hinW2 d L fI (N0 L + 4 * (k.val + 1) - 2) hI
  have hinF2' := hinF2 d L fI (N0 L + 4 * (k.val + 1) - 2) hI
  have hinW3' := hinW3 d L fI (N0 L + 4 * (k.val + 1) - 1) hI
  have hinF3' := hinF3 d L fI (N0 L + 4 * (k.val + 1) - 1) hI
  unfold k0_t1_body
  rw [k0_part1_eq_skeleton, k0_part2_eq_skeleton, k0_part3_eq_skeleton, k0_part4_eq_skeleton]
  unfold k0_part1_skel k0_part2_skel k0_part3_skel k0_part4_skel
  unfold ringInv slot0 slot1 slot2 slot3 outState
  rw [gath0_on _ _ _ _ _ _ _ _ hk32, stage1_on _ _ _ _ _ _ _ _ hk32, outgo1_on _ _ _ _ _ _ _ _ hk1, outgo2_on _ _ _ _ _ _ _ _ hk1, outgo3_on _ _ _ _ _ _ _ _ hk1]
  unfold gath0On stage1On outgo1On outgo2On outgo3On DWord0 DFeat0 DIdx1 DOut1 DOut2 DOut3
  rw [show N0 L + 4 * k.val + 1 = N0 L + 4 * (k.val + 1) - 3 from by omega]
  iintro ⟨Hmw, ⟨%W', %hW', HO⟩, ⟨Hi0, Hsi0, Hso0, Hsw0, Hww0, Hsf0, Hwf0, Hc0, ⟨%fa0, Ha0⟩⟩,
    ⟨Hww1, Hwf1, ⟨%fr1, Hr1⟩, Hsw1, Hsf1, ⟨Hsi1, Hi1⟩, Hso1⟩,
    ⟨Hi2, Hsi2, ⟨%fc2, Hc2⟩, Hww2, Hwf2, ⟨%fr2, Hr2⟩, Hsw2, Hsf2, Hso2⟩,
    ⟨Hi3, Hsi3, ⟨%fc3, Hc3⟩, Hww3, Hwf3, ⟨%fr3, Hr3⟩, Hsw3, Hsf3, Hso3⟩, ⟨Hout, Hdone⟩⟩
  -- round part 1: slot 0
  sl_exec
  irename Hso1_src => Ha1
  ihave Hsi2 := (Transfers.Flight_mono countersEmb (thr d L) (idx_deliver2' d L fI (shareTok qI 4 2) (N0 L + 4 * (k.val + 1) - 2) (by omega) (k0_off2 L k) _ (by rw [k0_off2_eq L k]; congr 1 <;> omega) fc2 _ (by rfl))) $$ Hsi2
  unfold DIdx2
  ihave Hi2 := (idx_rest d L fI (N0 L + 4 * (k.val + 1) - 2) (k0_off2 L k) _ (by rw [k0_off2_eq L k]; congr 1 <;> omega) (shareTok qI 4 2)) $$ Hi2
  irename Hsi1_dst => Hc1
  ihave Hsw1 := (Transfers.Flight_mono countersEmb (thr d L) (word_deliver1 d L fI fA fB (shareTok qA 4 1) (N0 L + 4 * (k.val + 1) - 3) _ hinW1' _ (by rfl))) $$ Hsw1
  unfold DWord1
  ihave Hsf1 := (Transfers.Flight_mono countersEmb (thr d L) (feat_deliver1 d L fI fB (shareTok qB 4 1) (N0 L + 4 * (k.val + 1) - 3) _ hinF1' _ (by rfl))) $$ Hsf1
  unfold DFeat1
  irename Hsf0_dst => Hr0
  rw [bind_assoc]
  sl_for (rowInv0 d L fI fA fB (N0 L + 4 * k.val)) $$ [Hr0 Ha0]
  case region =>
    intro t _
    unfold rowInv0
    iintro ⟨Hr, %fa', %hfa, Ha⟩
    sl_exec
    sl_step
    isplitl [Hr]; · iexact Hr
    iexists _; isplitr
    rotate_left
    · iexact Ha
    · ipureintro; exact rows_step0 d L fI fA fB (N0 L + 4 * k.val) t fa' hfa
  · unfold rowInv0
    isplitl [Hr0]; · iexact Hr0
    iexists _; isplitr
    rotate_left
    · iexact Ha0
    · ipureintro; intro j hj; exact absurd hj (Nat.not_lt_zero _)
  iintro %_ HI
  unfold rowInv0
  icases HI with ⟨Hr0, %fa0', %hfa0, Ha0⟩
  sl_exec
  -- slot 0's finished row, and where it goes
  ihave Ha0 := (rows_done0 d L fI fA fB (N0 L + 4 * k.val) fa0' hfa0) $$ Ha0
  ihave Hasm0 := (asm_join0 d L (asmOf fI fA fB (N0 L + 4 * k.val))) $$ [Hsw0_dst Ha0]
  · isplitl [Hsw0_dst] <;> iassumption
  ihave Hsp := (out_split d L fO (a := N0 L + 4 * k.val + 0) (b := N0 L + 4 * k.val + 1) (c := N0 L + 128) (by omega) (by omega)).1 $$ Hout
  icases Hsp with ⟨Hrow0, Hout⟩
  ihave Hrow0 := (out_row d L (N0 L + 4 * k.val) (by omega) (by omega) (k0_off11 L k 0#32) (k0_off11_inb L k ⟨0, by decide⟩) (by rw [k0_off11_eq L k ⟨0, by decide⟩]; congr 1 <;> omega) fO) $$ Hrow0
  -- round part 2: slot 1
  sl_exec
  ihave Hso0 := (Transfers.Flight_mono countersEmb (thr d L) (out_land0 d L fI fA fB (N0 L + 4 * k.val) (by omega) (k0_off11 L k 0#32) _ (by rw [k0_off11_eq L k ⟨0, by decide⟩]; congr 1 <;> omega) fO _ (by rfl))) $$ Hso0
  unfold DOut0
  irename Hso2_src => Ha2
  ihave Hsi3 := (Transfers.Flight_mono countersEmb (thr d L) (idx_deliver3' d L fI (shareTok qI 4 3) (N0 L + 4 * (k.val + 1) - 1) (by omega) (k0_off12 L k) _ (by rw [k0_off12_eq L k]; congr 1 <;> omega) fc3 _ (by rfl))) $$ Hsi3
  unfold DIdx3
  ihave Hi3 := (idx_rest d L fI (N0 L + 4 * (k.val + 1) - 1) (k0_off12 L k) _ (by rw [k0_off12_eq L k]; congr 1 <;> omega) (shareTok qI 4 3)) $$ Hi3
  irename Hsi2_dst => Hc2
  ihave Hsw2 := (Transfers.Flight_mono countersEmb (thr d L) (word_deliver2 d L fI fA fB (shareTok qA 4 2) (N0 L + 4 * (k.val + 1) - 2) _ hinW2' _ (by rfl))) $$ Hsw2
  unfold DWord2
  ihave Hsf2 := (Transfers.Flight_mono countersEmb (thr d L) (feat_deliver2 d L fI fB (shareTok qB 4 2) (N0 L + 4 * (k.val + 1) - 2) _ hinF2' _ (by rfl))) $$ Hsf2
  unfold DFeat2
  irename Hsf1_dst => Hr1
  rw [bind_assoc]
  sl_for (rowInv1 d L fI fA fB (N0 L + 4 * (k.val + 1) - 3)) $$ [Hr1 Ha1]
  case region =>
    intro t _
    unfold rowInv1
    iintro ⟨Hr, %fa', %hfa, Ha⟩
    sl_exec
    sl_step
    isplitl [Hr]; · iexact Hr
    iexists _; isplitr
    rotate_left
    · iexact Ha
    · ipureintro; exact rows_step1 d L fI fA fB (N0 L + 4 * (k.val + 1) - 3) t fa' hfa
  · unfold rowInv1
    isplitl [Hr1]; · iexact Hr1
    iexists _; isplitr
    rotate_left
    · iexact Ha1
    · ipureintro; intro j hj; exact absurd hj (Nat.not_lt_zero _)
  iintro %_ HI
  unfold rowInv1
  icases HI with ⟨Hr1, %fa1', %hfa1, Ha1⟩
  sl_exec
  -- slot 1's finished row, and where it goes
  ihave Ha1 := (rows_done1 d L fI fA fB (N0 L + 4 * (k.val + 1) - 3) fa1' hfa1) $$ Ha1
  ihave Hasm1 := (asm_join1 d L (asmOf fI fA fB (N0 L + 4 * (k.val + 1) - 3))) $$ [Hsw1_dst Ha1]
  · isplitl [Hsw1_dst] <;> iassumption
  ihave Hsp := (out_split d L fO (a := N0 L + 4 * k.val + 1) (b := N0 L + 4 * k.val + 2) (c := N0 L + 128) (by omega) (by omega)).1 $$ Hout
  icases Hsp with ⟨Hrow1, Hout⟩
  ihave Hrow1 := (out_row d L (N0 L + 4 * (k.val + 1) - 3) (by omega) (by omega) (k0_off11 L k 1#32) (k0_off11_inb L k ⟨1, by decide⟩) (by rw [k0_off11_eq L k ⟨1, by decide⟩]; congr 1 <;> omega) fO) $$ Hrow1
  -- round part 3: slot 2
  sl_exec
  ihave Hso1 := (Transfers.Flight_mono countersEmb (thr d L) (out_land1 d L fI fA fB (N0 L + 4 * (k.val + 1) - 3) (by omega) (k0_off11 L k 1#32) _ (by rw [k0_off11_eq L k ⟨1, by decide⟩]; congr 1 <;> omega) fO _ (by rfl))) $$ Hso1
  unfold DOut1
  irename Hso3_src => Ha3
  irename Hsi3_dst => Hc3
  ihave Hsw3 := (Transfers.Flight_mono countersEmb (thr d L) (word_deliver3 d L fI fA fB (shareTok qA 4 3) (N0 L + 4 * (k.val + 1) - 1) _ hinW3' _ (by rfl))) $$ Hsw3
  unfold DWord3
  ihave Hsf3 := (Transfers.Flight_mono countersEmb (thr d L) (feat_deliver3 d L fI fB (shareTok qB 4 3) (N0 L + 4 * (k.val + 1) - 1) _ hinF3' _ (by rfl))) $$ Hsf3
  unfold DFeat3
  irename Hsf2_dst => Hr2
  rw [bind_assoc]
  sl_for (rowInv2 d L fI fA fB (N0 L + 4 * (k.val + 1) - 2)) $$ [Hr2 Ha2]
  case region =>
    intro t _
    unfold rowInv2
    iintro ⟨Hr, %fa', %hfa, Ha⟩
    sl_exec
    sl_step
    isplitl [Hr]; · iexact Hr
    iexists _; isplitr
    rotate_left
    · iexact Ha
    · ipureintro; exact rows_step2 d L fI fA fB (N0 L + 4 * (k.val + 1) - 2) t fa' hfa
  · unfold rowInv2
    isplitl [Hr2]; · iexact Hr2
    iexists _; isplitr
    rotate_left
    · iexact Ha2
    · ipureintro; intro j hj; exact absurd hj (Nat.not_lt_zero _)
  iintro %_ HI
  unfold rowInv2
  icases HI with ⟨Hr2, %fa2', %hfa2, Ha2⟩
  sl_exec
  -- slot 2's finished row, and where it goes
  ihave Ha2 := (rows_done2 d L fI fA fB (N0 L + 4 * (k.val + 1) - 2) fa2' hfa2) $$ Ha2
  ihave Hasm2 := (asm_join2 d L (asmOf fI fA fB (N0 L + 4 * (k.val + 1) - 2))) $$ [Hsw2_dst Ha2]
  · isplitl [Hsw2_dst] <;> iassumption
  ihave Hsp := (out_split d L fO (a := N0 L + 4 * k.val + 2) (b := N0 L + 4 * k.val + 3) (c := N0 L + 128) (by omega) (by omega)).1 $$ Hout
  icases Hsp with ⟨Hrow2, Hout⟩
  ihave Hrow2 := (out_row d L (N0 L + 4 * (k.val + 1) - 2) (by omega) (by omega) (k0_off11 L k 2#32) (k0_off11_inb L k ⟨2, by decide⟩) (by rw [k0_off11_eq L k ⟨2, by decide⟩]; congr 1 <;> omega) fO) $$ Hrow2
  -- round part 4: slot 3
  sl_exec
  ihave Hso2 := (Transfers.Flight_mono countersEmb (thr d L) (out_land2 d L fI fA fB (N0 L + 4 * (k.val + 1) - 2) (by omega) (k0_off11 L k 2#32) _ (by rw [k0_off11_eq L k ⟨2, by decide⟩]; congr 1 <;> omega) fO _ (by rfl))) $$ Hso2
  unfold DOut2
  irename Hso0_src => Ha0
  irename Hsf3_dst => Hr3
  rw [bind_assoc]
  sl_for (rowInv3 d L fI fA fB (N0 L + 4 * (k.val + 1) - 1)) $$ [Hr3 Ha3]
  case region =>
    intro t _
    unfold rowInv3
    iintro ⟨Hr, %fa', %hfa, Ha⟩
    sl_exec
    sl_step
    isplitl [Hr]; · iexact Hr
    iexists _; isplitr
    rotate_left
    · iexact Ha
    · ipureintro; exact rows_step3 d L fI fA fB (N0 L + 4 * (k.val + 1) - 1) t fa' hfa
  · unfold rowInv3
    isplitl [Hr3]; · iexact Hr3
    iexists _; isplitr
    rotate_left
    · iexact Ha3
    · ipureintro; intro j hj; exact absurd hj (Nat.not_lt_zero _)
  iintro %_ HI
  unfold rowInv3
  icases HI with ⟨Hr3, %fa3', %hfa3, Ha3⟩
  sl_exec
  -- slot 3's finished row, and where it goes
  ihave Ha3 := (rows_done3 d L fI fA fB (N0 L + 4 * (k.val + 1) - 1) fa3' hfa3) $$ Ha3
  ihave Hasm3 := (asm_join3 d L (asmOf fI fA fB (N0 L + 4 * (k.val + 1) - 1))) $$ [Hsw3_dst Ha3]
  · isplitl [Hsw3_dst] <;> iassumption
  ihave Hsp := (out_split d L fO (a := N0 L + 4 * k.val + 3) (b := N0 L + 4 * (k.val + 1)) (c := N0 L + 128) (by omega) (by omega)).1 $$ Hout
  icases Hsp with ⟨Hrow3, Hout⟩
  ihave Hrow3 := (out_row d L (N0 L + 4 * (k.val + 1) - 1) (by omega) (by omega) (k0_off11 L k 3#32) (k0_off11_inb L k ⟨3, by decide⟩) (by rw [k0_off11_eq L k ⟨3, by decide⟩]; congr 1 <;> omega) fO) $$ Hrow3
  sl_exec
  ihave Hso3 := (Transfers.Flight_mono countersEmb (thr d L) (out_land3 d L fI fA fB (N0 L + 4 * (k.val + 1) - 1) (by omega) (k0_off11 L k 3#32) _ (by rw [k0_off11_eq L k ⟨3, by decide⟩]; congr 1 <;> omega) fO _ (by rfl))) $$ Hso3
  unfold DOut3
  sl_step
  ihave Hdone := (out_join d L (Cert.Stack.Gk fI fA fB) (a := N0 L) (b := N0 L + 4 * k.val - 3) (b' := N0 L + 4 * k.val - 3) (c' := N0 L + 4 * k.val - 3 + 1) (c := N0 L + 4 * k.val - 2) (by omega) (by omega) (by omega) (by omega)) $$ [Hdone Hso1_dst]
  · isplitl [Hdone] <;> iassumption
  ihave Hdone := (out_join d L (Cert.Stack.Gk fI fA fB) (a := N0 L) (b := N0 L + 4 * k.val - 2) (b' := N0 L + 4 * k.val - 2) (c' := N0 L + 4 * k.val - 2 + 1) (c := N0 L + 4 * k.val - 1) (by omega) (by omega) (by omega) (by omega)) $$ [Hdone Hso2_dst]
  · isplitl [Hdone] <;> iassumption
  ihave Hdone := (out_join d L (Cert.Stack.Gk fI fA fB) (a := N0 L) (b := N0 L + 4 * k.val - 1) (b' := N0 L + 4 * k.val - 1) (c' := N0 L + 4 * k.val - 1 + 1) (c := N0 L + 4 * k.val) (by omega) (by omega) (by omega) (by omega)) $$ [Hdone Hso3_dst]
  · isplitl [Hdone] <;> iassumption
  ihave Hdone := (out_join d L (Cert.Stack.Gk fI fA fB) (a := N0 L) (b := N0 L + 4 * k.val) (b' := N0 L + 4 * k.val) (c' := N0 L + 4 * k.val + 1) (c := N0 L + 4 * (k.val + 1) - 3) (by omega) (by omega) (by omega) (by omega)) $$ [Hdone Hso0_dst]
  · isplitl [Hdone] <;> iassumption
  rw [gath0_off _ _ _ _ _ _ _ _ (show ¬ k.val + 1 < 32 by omega), stage1_off _ _ _ _ _ _ _ _ (show ¬ k.val + 1 < 32 by omega), outgo1_on _ _ _ _ _ _ _ _ (show 1 ≤ k.val + 1 by omega), outgo2_on _ _ _ _ _ _ _ _ (show 1 ≤ k.val + 1 by omega), outgo3_on _ _ _ _ _ _ _ _ (show 1 ≤ k.val + 1 by omega)]
  unfold gath0Off stage1Off outgo1On outgo2On outgo3On
  isplitl [Hmw]; · iexact Hmw
  isplitl [HO]
  · iexists _; isplitr
    rotate_left
    · iexact HO
    · ipureintro; repeat (first | exact hW' | refine waits_insert ?_ _)
  isplitl [Hi0 Hsi0 Hso0 Hsw0 Hsf0 Hww0 Hwf0 Hc0 Hr0 Ha0]
  ·
    isplitl [Hi0]; · iexact Hi0
    isplitl [Hsi0]; · iexact Hsi0
    isplitl [Hso0]; · iexact Hso0
    isplitl [Hsw0]; · iexact Hsw0
    isplitl [Hsf0]; · iexact Hsf0
    isplitl [Hww0]; · iexact Hww0
    isplitl [Hwf0]; · iexact Hwf0
    isplitl [Hc0]; · iexists _; iexact Hc0
    isplitl [Hr0]; · iexists _; iexact Hr0
    iexists _; iexact Ha0
  isplitl [Hww1 Hwf1 Hr1 Hsw1 Hsf1 Hsi1 Hi1 Hc1 Hso1]
  ·
    isplitl [Hww1]; · iexact Hww1
    isplitl [Hwf1]; · iexact Hwf1
    isplitl [Hr1]; · iexists _; iexact Hr1
    isplitl [Hsw1]; · iexact Hsw1
    isplitl [Hsf1]; · iexact Hsf1
    isplitl [Hsi1 Hi1 Hc1]
    ·
      isplitl [Hsi1]; · iexact Hsi1
      isplitl [Hi1]; · iexact Hi1
      iexists _; iexact Hc1
    iexact Hso1
  isplitl [Hi2 Hsi2 Hc2 Hww2 Hwf2 Hr2 Hsw2 Hsf2 Hso2]
  ·
    isplitl [Hi2]; · iexact Hi2
    isplitl [Hsi2]; · iexact Hsi2
    isplitl [Hc2]; · iexists _; iexact Hc2
    isplitl [Hww2]; · iexact Hww2
    isplitl [Hwf2]; · iexact Hwf2
    isplitl [Hr2]; · iexists _; iexact Hr2
    isplitl [Hsw2]; · iexact Hsw2
    isplitl [Hsf2]; · iexact Hsf2
    iexact Hso2
  isplitl [Hi3 Hsi3 Hc3 Hww3 Hwf3 Hr3 Hsw3 Hsf3 Hso3]
  ·
    isplitl [Hi3]; · iexact Hi3
    isplitl [Hsi3]; · iexact Hsi3
    isplitl [Hc3]; · iexists _; iexact Hc3
    isplitl [Hww3]; · iexact Hww3
    isplitl [Hwf3]; · iexact Hwf3
    isplitl [Hr3]; · iexists _; iexact Hr3
    isplitl [Hsw3]; · iexact Hsw3
    isplitl [Hsf3]; · iexact Hsf3
    iexact Hso3
  isplitl [Hout]; · iexact Hout
  iexact Hdone

end Trip

end Cert.Proof.K

end
-- ==== Proof.K.LaunchSplit.lean ====
/-
  The launch side of the kernel, first part: the contents the call finds its four arrays with, as functions
  of the launch memory; how one core's operands are dealt to its sixteen subcores; the launch element of the ghost state.
-/
import proofs.«206843_g13322988552399_fold_wed_c4_279_34_alg».proof.Proof.K.Setup
import proofs.«206843_g13322988552399_fold_wed_c4_279_34_alg».proof.Proof.PreDecode
import Idealize.ShloMosaic.Lib.Pipeline.Value
import Idealize.ShloMosaic.Lib.KernelVsHost

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call finds in its four arrays -/

/-- The stacked indices: each index array given a unit axis (a reshape keeps the row-major order), the two laid along it. -/
def cIof (d : Dev nD) : Buf (Elt F) (idxLoc d) :=
  concatenate S4096x2x50 1
    [⟨S4096x1x50, shapeCast S4096x1x50 (m ((SparseCore.T d).loc main_arg0)) shapeCasts_S4096x50_S4096x1x50⟩,
     ⟨S4096x1x50, shapeCast S4096x1x50 (m ((SparseCore.T d).loc main_arg1)) shapeCasts_S4096x50_S4096x1x50⟩]
    concatenates_S4096x1x50_S4096x1x50_S4096x2x50_d1

/-- The word table, untouched. -/
def cAof (d : Dev nD) : Buf (Elt F) (wwLoc d) := m (wwLoc d)

/-- The padding value: the integer constant 0 converted to a float. -/
def padVal : (⟨S_, .f32⟩ : BufTy).Contents (Elt F) := sitofp .f32 (constantI S_ 32 0#32)

/-- The feature table widened from 64 to 128 columns, the new columns at the padding value. -/
def cBof (d : Dev nD) : Buf (Elt F) (wfLoc d) :=
  pad S1000x128 ![0, 0] ![0, 64] ![0, 0] (m ((SparseCore.T d).loc main_arg3)) (padVal (F := F)) pads_S1000x64_S1000x128_000_0640 h_S_

/-- The result array as the launch left it. -/
def cOof (d : Dev nD) : Buf (Elt F) (outLoc d) := m (outLoc d)

/-! ## Tasks and (core, subcore) pairs -/

/-- Task numbers are the pairs (core, subcore): w = 2·s + c. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    obtain ⟨c, s⟩ := p
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

omit [FloatOps F] in
/-- A product over the 32 tasks is the product over the cores of the products over a core's subcores. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## One core's operands dealt to its subcores -/

section Split

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

theorem P_st (d : Dev nD) (c : Fin ((K (F := F)).nCore 0)) :
    (P cI cA cB cO).st 0 d c = bigSep Finset.univ fun s : Fin 16 => tileGo cI cA cB cO d (wid (Fin.cast nCore_zero c) s) := by
  unfold P; rfl
theorem P_dn (d : Dev nD) (c : Fin ((K (F := F)).nCore 0)) :
    (P cI cA cB cO).dn 0 d c = bigSep Finset.univ fun s : Fin 16 => tileTd cI cA cB d (wid (Fin.cast nCore_zero c) s) := by
  unfold P; rfl
theorem P_go (d : Dev nD) (c : Fin ((K (F := F)).nCore 0)) (s : Fin ((K (F := F)).nSub 0)) :
    (P cI cA cB cO).go 0 d c s = tileGo cI cA cB cO d (wid (Fin.cast nCore_zero c) (Fin.cast nSub_zero s)) := by
  unfold P; rfl
theorem P_td (d : Dev nD) (c : Fin ((K (F := F)).nCore 0)) (s : Fin ((K (F := F)).nSub 0)) :
    (P cI cA cB cO).td 0 d c s = tileTd cI cA cB d (wid (Fin.cast nCore_zero c) (Fin.cast nSub_zero s)) := by
  unfold P; rfl

/-- What a core is handed IS the family of what its subcores are handed, and likewise on the way back. -/
theorem vecSplit : (K (F := F)).VecSplit' (P cI cA cB cO) 0 := by
  intro d c
  simp only [P_st, P_dn, P_go, P_td]
  rw [bigSep_tasks (F := F) (fun s => tileGo cI cA cB cO d (wid (Fin.cast nCore_zero c) s)),
    bigSep_tasks (F := F) (fun s => tileTd cI cA cB d (wid (Fin.cast nCore_zero c) s))]
  iintro H; imodintro
  isplitl [H]; · iexact H
  iintro H; iexact H

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P cI cA cB cO).x q thr) := by
  unfold u₀
  iintro Hu
  ihave H := (ownU_pair _ _) $$ Hu
  icases H with ⟨HH, -⟩
  imodintro
  isplitl [HH]; · iexact HH
  isplitr; · rw [bigSep_emp']; iempintro
  rw [show (fun thr : Thread nD τ => bigSep Finset.univ fun q : Fin 1 => (P cI cA cB cO).x q thr) = fun _ => (iprop(emp) : sProp 𝕄) from
    funext fun thr => by unfold P; exact bigSep_emp' _]
  rw [bigSep_emp']
  iempintro

end Split

end Cert.Proof.K

end
-- ==== Proof.K.LaunchMain.lean ====
/-
  The launch side of the kernel, second part: @main on the TensorCore. Its host operations before the call build the
  call's operands (the two index arrays reshaped and stacked, the feature table widened); the call hands each of the 32
  tasks a read share of the three arrays read and its own block of result rows and takes them back with every block at
  the lookup's function; the last reshape drops the result's unit axis.
-/
import proofs.«206843_g13322988552399_fold_wed_c4_279_34_alg».proof.Proof.K.LaunchSplit
import proofs.«206843_g13322988552399_fold_wed_c4_279_34_alg».proof.Proof.PreDecode
import Idealize.ShloMosaic.Lib.Pipeline.Value
import Idealize.ShloMosaic.Lib.KernelVsHost

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- @main's result, as the TensorCore names it. -/
abbrev resLoc (d : Dev nD) : Loc nD τ sig := (SparseCore.T d).loc main_v5

/-! ## @main's host operations -/

abbrev op0 : HloOp τ sig (Elt F) := StableHlo.reshape main_arg0 main_v0 rfl shapeCasts_S4096x50_S4096x1x50
abbrev op1 : HloOp τ sig (Elt F) := StableHlo.reshape main_arg1 main_v1 rfl shapeCasts_S4096x50_S4096x1x50
abbrev op2 : HloOp τ sig (Elt F) :=
  StableHlo.binary main_v0 main_v1 main_v2 ((fun a b => concatenate S4096x2x50 1 [⟨S4096x1x50, a⟩, ⟨S4096x1x50, b⟩] concatenates_S4096x1x50_S4096x1x50_S4096x2x50_d1) : (⟨S4096x1x50, .i32⟩ : BufTy).Contents (Elt F) → (⟨S4096x1x50, .i32⟩ : BufTy).Contents (Elt F) → (⟨S4096x2x50, .i32⟩ : BufTy).Contents (Elt F))
abbrev op3 : HloOp τ sig (Elt F) := StableHlo.nullary main_c (constantI S_ 32 0#32)
abbrev op4 : HloOp τ sig (Elt F) := StableHlo.TRef.unary (.of main_c : StableHlo.TRef sig ⟨S_, .i32⟩) main_call0.v0 (sitofp .f32)
abbrev op5 : HloOp τ sig (Elt F) :=
  StableHlo.TRef.binary (.of main_arg3 : StableHlo.TRef sig ⟨S1000x64, .f32⟩) main_call0.v0 main_call0.v1 (fun x v => pad S1000x128 ![0, 0] ![0, 64] ![0, 0] x v pads_S1000x64_S1000x128_000_0640 h_S_)
abbrev op6 : HloOp τ sig (Elt F) := StableHlo.reshape main_v4 main_v5 rfl shapeCasts_S4096x1x50x192_S4096x50x192

/-- The operations before the call, in order. -/
def opsPre : List (HloOp τ sig (Elt F)) := [op0, op1, op2, op3, op4, op5]

theorem main_eq (d : Dev nD) :
    main (F := F) d = (StableHlo.seq (opsPre (F := F)) >>= fun _ => (sc.run d 0 >>= fun _ => StableHlo.seq [op6 (F := F)])) := rfl

/-! ## @main's unscoped arrays, held as one set -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev k0' : DevRef τ sig := Proc.devRef .tc (main_call0_v0 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- Every array of @main: none is scoped. -/
abbrev SS : Finset (DevRef τ sig) := {a0', a1', a2', a3', v0', v1', v2', c', k0', v3', v4', v5'}
/-- The last reshape's two arrays. -/
abbrev S2 : Finset (DevRef τ sig) := {v4', v5'}

omit [FloatOps F] in
theorem held_SS (d : Dev nD) (W : Valuation τ sig (Elt F)) :
    (held (T d) SS W : sProp 𝕄) = iprop(((SparseCore.T d).loc main_arg0 ↦{fullShare} W a0') ∗ ((SparseCore.T d).loc main_arg1 ↦{fullShare} W a1')
      ∗ (wwLoc d ↦{fullShare} W a2') ∗ ((SparseCore.T d).loc main_arg3 ↦{fullShare} W a3') ∗ ((SparseCore.T d).loc main_v0 ↦{fullShare} W v0')
      ∗ ((SparseCore.T d).loc main_v1 ↦{fullShare} W v1') ∗ (idxLoc d ↦{fullShare} W v2') ∗ ((SparseCore.T d).loc main_c ↦{fullShare} W c')
      ∗ ((SparseCore.T d).loc main_call0_v0 ↦{fullShare} W k0') ∗ (wfLoc d ↦{fullShare} W v3') ∗ (outLoc d ↦{fullShare} W v4')
      ∗ ((SparseCore.T d).loc main_v5 ↦{fullShare} W v5')) := by
  unfold held SS
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S2 (d : Dev nD) (W : Valuation τ sig (Elt F)) :
    (held (T d) S2 W : sProp 𝕄) = iprop((outLoc d ↦{fullShare} W v4') ∗ ((SparseCore.T d).loc main_v5 ↦{fullShare} W v5')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (wwLoc d ↦{fullShare} W main_arg2) ∗ ((SparseCore.T d).loc main_arg3 ↦{fullShare} W main_arg3) ∗ ((SparseCore.T d).loc main_v0 ↦{fullShare} W main_v0)
      ∗ ((SparseCore.T d).loc main_v1 ↦{fullShare} W main_v1) ∗ (idxLoc d ↦{fullShare} W main_v2) ∗ ((SparseCore.T d).loc main_c ↦{fullShare} W main_c)
      ∗ ((SparseCore.T d).loc main_call0_v0 ↦{fullShare} W main_call0_v0) ∗ (wfLoc d ↦{fullShare} W main_v3) ∗ (outLoc d ↦{fullShare} W main_v4)
      ∗ ((SparseCore.T d).loc main_v5 ↦{fullShare} W main_v5)) := by
  unfold unscopedBufs
  rw [show (Finset.univ.filter fun b : Ref sig .tc => ¬ b.isScoped) = {main_arg0, main_arg1, main_arg2, main_arg3, main_v0, main_v1, main_v2, main_c, main_call0_v0, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch contents of device d's arrays. -/
def V0 (d : Dev nD) : Valuation τ sig (Elt F) := fun b => m (d, b)
/-- The contents when the call starts. -/
def V5 (d : Dev nD) : Valuation τ sig (Elt F) := StableHlo.after (opsPre (F := F)) (V0 m d)

theorem unscoped_held (d : Dev nD) : (unscopedBufs d (fun b => m ((SparseCore.T d).loc b)) : sProp 𝕄) = held (T d) SS (V0 m d) := by
  rw [unscopedBufs_eq, held_SS]; rfl

theorem V5_a0 (d : Dev nD) : V5 m d a0' = m ((SparseCore.T d).loc main_arg0) := by
  unfold V5 opsPre; after_results; rfl
theorem V5_a1 (d : Dev nD) : V5 m d a1' = m ((SparseCore.T d).loc main_arg1) := by
  unfold V5 opsPre; after_results; rfl
theorem V5_a2 (d : Dev nD) : V5 m d a2' = cAof m d := by
  unfold V5 opsPre; after_results; rfl
theorem V5_a3 (d : Dev nD) : V5 m d a3' = m ((SparseCore.T d).loc main_arg3) := by
  unfold V5 opsPre; after_results; rfl
theorem V5_v2 (d : Dev nD) : V5 m d v2' = cIof m d := by
  unfold V5 opsPre; after_results; rfl
theorem V5_v3 (d : Dev nD) : V5 m d v3' = cBof m d := by
  unfold V5 opsPre; after_results; rfl
theorem V5_v4 (d : Dev nD) : V5 m d v4' = cOof m d := by
  unfold V5 opsPre; after_results; rfl

theorem hS_pre : ∀ op ∈ opsPre (F := F), op.bufs ⊆ SS := by
  intro op h
  simp only [opsPre, List.mem_cons, List.not_mem_nil, or_false] at h
  rcases h with rfl | rfl | rfl | rfl | rfl | rfl
  · show ({a0', v0'} : Finset (DevRef τ sig)) ⊆ SS; decide
  · show ({a1', v1'} : Finset (DevRef τ sig)) ⊆ SS; decide
  · show ({v0', v1', v2'} : Finset (DevRef τ sig)) ⊆ SS; decide
  · show ({c'} : Finset (DevRef τ sig)) ⊆ SS; decide
  · show ({c', k0'} : Finset (DevRef τ sig)) ⊆ SS; decide
  · show ({a3', k0', v3'} : Finset (DevRef τ sig)) ⊆ SS; decide
theorem hf_pre : ∀ op ∈ opsPre (F := F), op.fresh = ∅ := by
  intro op h
  unfold opsPre at h
  repeat (cases h with | head => rfl | tail _ h => ?_)
  exact nomatch h

/-! ## The result array in its 32 blocks of rows -/

omit [FloatOps F] in
theorem outBlk_eq (w : Fin 32) : outBlk w = (outRect w).set := by
  show ((View.whole (main_v4_scv : Ref sig .scVector)).slice (outRect w)).set = _
  rw [View.set_slice]; exact Finset.map_refl
omit [FloatOps F] in
theorem blks_disjoint : ∀ i ∈ (Finset.univ : Finset (Fin 32)), ∀ j ∈ (Finset.univ : Finset (Fin 32)), i ≠ j → Disjoint (outBlk i) (outBlk j) :=
  fun i _ j _ h => by rw [outBlk_eq, outBlk_eq]; exact Rect.part_disjoint hdivO h
omit [FloatOps F] in
theorem blks_cover : (Finset.univ : Finset (Fin 32)).biUnion outBlk = Finset.univ :=
  (Finset.biUnion_congr rfl fun i _ => outBlk_eq i).trans (Rect.biUnion_part hdivO)

omit [FloatOps F] in
/-- The whole result array is its 32 blocks, all at one function. -/
theorem out_blocks (d : Dev nD) (f : Buf (Elt F) (outLoc d)) :
    (outLoc d ↦{fullShare} f : sProp 𝕄) = bigSep Finset.univ fun w : Fin 32 => outLoc d ↦[outBlk w]{fullShare} f := by
  rw [← pointsTo_biUnion Finset.univ (ℓ := outLoc d) outBlk blks_disjoint, blks_cover]; try rfl

section Deal

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- What all 32 tasks are handed together: 32 read shares of each of the three arrays read, and the result array whole. -/
theorem go_all (d : Dev nD) :
    (bigSep Finset.univ fun w : Fin 32 => tileGo cI cA cB cO d w) = iprop((bigSep Finset.univ fun w : Fin 32 => idxLoc d ↦{shareTok fullShare 32 w} cI d)
      ∗ (bigSep Finset.univ fun w : Fin 32 => wwLoc d ↦{shareTok fullShare 32 w} cA d) ∗ (bigSep Finset.univ fun w : Fin 32 => wfLoc d ↦{shareTok fullShare 32 w} cB d)
      ∗ (outLoc d ↦{fullShare} cO d)) := by
  unfold tileGo
  rw [bigSep_sep', bigSep_sep', bigSep_sep', ← out_blocks]
/-- What they hand back together: the same shares, and the result array whole at the lookup's function. -/
theorem td_all (d : Dev nD) :
    (bigSep Finset.univ fun w : Fin 32 => tileTd cI cA cB d w) = iprop((bigSep Finset.univ fun w : Fin 32 => idxLoc d ↦{shareTok fullShare 32 w} cI d)
      ∗ (bigSep Finset.univ fun w : Fin 32 => wwLoc d ↦{shareTok fullShare 32 w} cA d) ∗ (bigSep Finset.univ fun w : Fin 32 => wfLoc d ↦{shareTok fullShare 32 w} cB d)
      ∗ (outLoc d ↦{fullShare} gk cI cA cB d)) := by
  unfold tileTd
  rw [bigSep_sep', bigSep_sep', bigSep_sep', ← out_blocks]

/-- The two cores' operands together are the 32 tasks'. -/
theorem st0_eq (d : Dev nD) :
    (bigSep Finset.univ fun c : Fin ((K (F := F)).nCore 0) => (P cI cA cB cO).st 0 d c) = bigSep Finset.univ fun w : Fin 32 => tileGo cI cA cB cO d w := by
  simp only [P_st]
  rw [bigSep_cores (F := F) (fun c => bigSep Finset.univ fun s : Fin 16 => tileGo cI cA cB cO d (wid c s)), ← bigSep_wid]
theorem dn0_eq (d : Dev nD) :
    (bigSep Finset.univ fun c : Fin ((K (F := F)).nCore 0) => (P cI cA cB cO).dn 0 d c) = bigSep Finset.univ fun w : Fin 32 => tileTd cI cA cB d w := by
  simp only [P_dn]
  rw [bigSep_cores (F := F) (fun c => bigSep Finset.univ fun s : Fin 16 => tileTd cI cA cB d (wid c s)), ← bigSep_wid]

end Deal

/-! ## @main on the TensorCore -/

/-- What the call carries, at the contents @main's operations before it leave. -/
abbrev PP : (K (F := F)).Pay (nD := nD) (Val := Elt F) (Name := ℕ) (U := UU) := P (cIof m) (cAof m) (cBof m) (cOof m)

/-- The contents of @main's arrays when the call starts, the ones the proof reads named. -/
theorem held_V5 (d : Dev nD) :
    (held (T d) SS (StableHlo.after (opsPre (F := F)) (V0 m d)) : sProp 𝕄) = iprop(((SparseCore.T d).loc main_arg0 ↦{fullShare} m ((SparseCore.T d).loc main_arg0))
      ∗ ((SparseCore.T d).loc main_arg1 ↦{fullShare} m ((SparseCore.T d).loc main_arg1))
      ∗ (wwLoc d ↦{fullShare} cAof m d) ∗ ((SparseCore.T d).loc main_arg3 ↦{fullShare} m ((SparseCore.T d).loc main_arg3)) ∗ ((SparseCore.T d).loc main_v0 ↦{fullShare} V5 m d v0')
      ∗ ((SparseCore.T d).loc main_v1 ↦{fullShare} V5 m d v1') ∗ (idxLoc d ↦{fullShare} cIof m d) ∗ ((SparseCore.T d).loc main_c ↦{fullShare} V5 m d c')
      ∗ ((SparseCore.T d).loc main_call0_v0 ↦{fullShare} V5 m d k0') ∗ (wfLoc d ↦{fullShare} cBof m d) ∗ (outLoc d ↦{fullShare} cOof m d)
      ∗ ((SparseCore.T d).loc main_v5 ↦{fullShare} V5 m d v5')) := by
  show (held (T d) SS (V5 m d) : sProp 𝕄) = _
  rw [held_SS, V5_a0, V5_a1, V5_a2, V5_a3, V5_v2, V5_v3, V5_v4]

/-- The contents after the call: the result array at the lookup's function. -/
def V6 (d : Dev nD) : Valuation τ sig (Elt F) := Function.update (V5 m d) v4' (gk (cIof m) (cAof m) (cBof m) d)
theorem V6_v4 (d : Dev nD) : V6 m d v4' = gk (cIof m) (cAof m) (cBof m) d := Function.update_self _ _ _
theorem V6_v5 (d : Dev nD) : V6 m d v5' = V5 m d v5' := Function.update_of_ne (show v5' ≠ v4' by decide) _ _

/-- @main's result: the call's result with its unit axis dropped. -/
def resOf (d : Dev nD) : Buf (Elt F) (resLoc d) :=
  shapeCast S4096x50x192 (gk (cIof m) (cAof m) (cBof m) d) shapeCasts_S4096x1x50x192_S4096x50x192

theorem res_v5 (d : Dev nD) : StableHlo.after [op6 (F := F)] (V6 m d) v5' = resOf m d := by
  after_results; rw [V6_v4]; rfl

theorem hS_post : ∀ op ∈ [op6 (F := F)], op.bufs ⊆ S2 := by
  intro op h
  simp only [List.mem_cons, List.not_mem_nil, or_false] at h
  subst h
  show ({v4', v5'} : Finset (DevRef τ sig)) ⊆ S2; decide
theorem hf_post : ∀ op ∈ [op6 (F := F)], op.fresh = ∅ := by
  intro op h
  simp only [List.mem_cons, List.not_mem_nil, or_false] at h
  subst h; rfl

/-- What @main leaves the claim: its four arguments at their launch contents, its result at the reshaped lookup. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (wwLoc d ↦{fullShare} m (wwLoc d)) ∗ ((SparseCore.T d).loc main_arg3 ↦{fullShare} m ((SparseCore.T d).loc main_arg3))
    ∗ ((SparseCore.T d).loc main_v5 ↦{fullShare} resOf m d))

set_option backward.isDefEq.respectTransparency.types false in
/-- @main on device d's TensorCore: the five host operations, the call (the three arrays read dealt as 32 read shares
    each, the result array in its 32 blocks, all back joined), the last reshape. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d SS _ (opsPre (F := F)) hS_pre hf_pre (V0 m d)) $$ [Hb Hheld]
  · isplitl [Hb]; · iexact Hb
    iexact Hheld
  iintro ⟨Hb, Hheld⟩
  ihave Hh := (Entails.of_eq (held_V5 m d)) $$ Hheld
  icases Hh with ⟨Ha0, Ha1, Ha2, Ha3, -, -, Hv2, -, -, Hv3, Hv4, Hv5⟩
  ihave Hi := (Transfers.pointsTo_toks_split fullShare 32) $$ Hv2
  icases Hi with ⟨Hi0, Hit⟩
  ihave Ha := (Transfers.pointsTo_toks_split fullShare 32) $$ Ha2
  icases Ha with ⟨Ha20, Hat⟩
  ihave Hf := (Transfers.pointsTo_toks_split fullShare 32) $$ Hv3
  icases Hf with ⟨Hf0, Hft⟩
  rw [wp_bind]
  iapply ((K (F := F)).wp_run (D (F := F)) 𝒱 (EH := EH) (P := PP m) κ d 0) $$ [Hst Hit Hat Hft Hv4 Hb Ha0 Ha1 Ha3 Hv5 Ha20]
  isplitr; · iexact Hctx
  isplitl [Hst]; · iexact Hst
  isplitl [Hit Hat Hft Hv4]
  · rw [st0_eq, go_all]
    isplitl [Hit]; · iexact Hit
    isplitl [Hat]; · iexact Hat
    isplitl [Hft]; · iexact Hft
    iexact Hv4
  iintro ⟨Hst, Hdn⟩
  ihave Hdn' := (Entails.of_eq ((dn0_eq (cIof m) (cAof m) (cBof m) (cOof m) d).trans (td_all (cIof m) (cAof m) (cBof m) d))) $$ Hdn
  icases Hdn' with ⟨-, Hat, -, Hv4⟩
  ihave Ha2 := (Transfers.pointsTo_toks_join fullShare 32) $$ [Ha20 Hat]
  · isplitl [Ha20]; · iexact Ha20
    iexact Hat
  rw [show StableHlo.seq [op6 (F := F)] = (StableHlo.seq [op6 (F := F)] >>= fun u => Pure.pure u) from (bind_pure _).symm]
  iapply (StableHlo.wp_seq 𝒱 none Set.univ d S2 _ [op6 (F := F)] hS_post hf_post (V6 m d)) $$ [Hb Hv4 Hv5]
  · isplitl [Hb]; · iexact Hb
    rw [held_S2, V6_v4, V6_v5]
    isplitl [Hv4]; · iexact Hv4
    iexact Hv5
  iintro ⟨-, Hheld⟩
  ihave Hh := (Entails.of_eq (held_S2 d _)) $$ Hheld
  icases Hh with ⟨-, Hv5⟩
  rw [wp_pure, res_v5]; imodintro
  isplitl [Hst]; · iexact Hst
  isplitl [Ha0]; · iexact Ha0
  isplitl [Ha1]; · iexact Ha1
  isplitl [Ha2]; · iexact Ha2
  isplitl [Ha3]; · iexact Ha3
  iexact Hv5

/-! ## The final memory read off -/

/-- What the final memory of device d holds: the arguments unchanged, the result at the reshaped lookup. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (wwLoc d) = m (wwLoc d) ∧ s'.mem.mem ((SparseCore.T d).loc main_arg3) = m ((SparseCore.T d).loc main_arg3)
    ∧ s'.mem.mem (resLoc d) = resOf m d

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := wwLoc d) (I := Finset.univ) (q := fullShare) (f := m (wwLoc d)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := resLoc d) (I := Finset.univ) (q := fullShare) (f := resOf m d)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), funext fun i => h5 i (Finset.mem_univ i)⟩

end Cert.Proof.K
end
-- ==== Proof.K.Launch.lean ====
/-
  The launch side of the kernel, last part: the value the run leaves, and the run itself.

  @main's result is the call's result with its unit axis dropped. Read at (n, l, q) it is, for q < 128, the word table's
  row named by plane 0 of the stacked indices — the word index (n, l) — and otherwise column q − 128 < 64 of the widened
  feature table's row named by plane 1 — the feature index (n, l) —, a column the widening does not touch: the function
  both programs compute. The precondition bounds every index word, which is what the tasks need of the stacked indices.
-/
import proofs.«206843_g13322988552399_fold_wed_c4_279_34_alg».proof.Proof.K.LaunchMain
import proofs.«206843_g13322988552399_fold_wed_c4_279_34_alg».proof.Proof.PreDecode
import Idealize.ShloMosaic.Lib.Pipeline.Value
import Idealize.ShloMosaic.Lib.KernelVsHost

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The stacked indices and the widened table read at an index -/

/-- Plane 0 of the stacked indices is the word indices. -/
theorem cI_word (d : Dev nD) (n : Fin 4096) (l : Fin 50) :
    cIof m d (ValueIdx.ix3 n (0 : Fin 2) l) = m ((SparseCore.T d).loc main_arg0) (ValueIdx.ix2 n l) := by
  unfold cIof
  rw [concatenate_pair_apply_left (t := S4096x2x50) (s₁ := S4096x1x50) (s₂ := S4096x1x50) (1 : Fin 3) _ _ concatenates_S4096x1x50_S4096x1x50_S4096x2x50_d1 (ValueIdx.ix3 n (0 : Fin 2) l) rfl
    (ValueIdx.ix3 n (0 : Fin 1) l) (fun b => by match b with | ⟨0, _⟩ => rfl | ⟨1, _⟩ => rfl | ⟨2, _⟩ => rfl)]
  refine shapeCast_apply _ _ _ _ ?_
  show ((⟨2, ![4096, 50]⟩ : Shape).rowMajor (ValueIdx.ix2 n l)).val = ((⟨3, ![4096, 1, 50]⟩ : Shape).rowMajor (ValueIdx.ix3 n (0 : Fin 1) l)).val
  rw [Shape.rowMajor_val_two, Shape.rowMajor_val_three]
  show n.val * 50 + l.val = (n.val * 1 + 0) * 50 + l.val
  omega

/-- Plane 1 is the feature indices. -/
theorem cI_feat (d : Dev nD) (n : Fin 4096) (l : Fin 50) :
    cIof m d (ValueIdx.ix3 n (1 : Fin 2) l) = m ((SparseCore.T d).loc main_arg1) (ValueIdx.ix2 n l) := by
  unfold cIof
  rw [concatenate_pair_apply_right (t := S4096x2x50) (s₁ := S4096x1x50) (s₂ := S4096x1x50) (1 : Fin 3) _ _ concatenates_S4096x1x50_S4096x1x50_S4096x2x50_d1 (ValueIdx.ix3 n (1 : Fin 2) l) rfl rfl
    (ValueIdx.ix3 n (0 : Fin 1) l) (fun b hb => by match b, hb with | ⟨0, _⟩, _ => rfl | ⟨1, _⟩, hb => exact absurd rfl hb | ⟨2, _⟩, _ => rfl) rfl]
  refine shapeCast_apply _ _ _ _ ?_
  show ((⟨2, ![4096, 50]⟩ : Shape).rowMajor (ValueIdx.ix2 n l)).val = ((⟨3, ![4096, 1, 50]⟩ : Shape).rowMajor (ValueIdx.ix3 n (0 : Fin 1) l)).val
  rw [Shape.rowMajor_val_two, Shape.rowMajor_val_three]
  show n.val * 50 + l.val = (n.val * 1 + 0) * 50 + l.val
  omega

/-- Columns 0 … 63 of the widened feature table are the feature table's. -/
theorem cB_inside (d : Dev nD) (r : Fin 1000) (q : Fin 128) (hq : q.val < 64) :
    cBof m d (ValueIdx.ix2 r q) = m ((SparseCore.T d).loc main_arg3) (ValueIdx.ix2 r (⟨q.val, hq⟩ : Fin 64)) := by
  unfold cBof
  refine pad_apply_of_inside _ _ _ _ _ _ _ _ _ (fun a => ?_)
  match a with
  | ⟨0, _⟩ => show r.val = 0 + r.val * (0 + 1); omega
  | ⟨1, _⟩ => show q.val = 0 + q.val * (0 + 1); omega

/-! ## The value: the call's result with its unit axis dropped is the function both programs compute -/

theorem value_at (d : Dev nD) (n : Fin 4096) (l : Fin 50) (q : Fin 192) :
    resOf m d (ValueIdx.ix3 n l q)
      = Cert.Stack.G (m ((SparseCore.T d).loc main_arg0)) (m ((SparseCore.T d).loc main_arg1)) (m (wwLoc d)) (m ((SparseCore.T d).loc main_arg3)) (ValueIdx.ix3 n l q) := by
  unfold resOf
  rw [shapeCast_apply _ _ (ValueIdx.ix3 n l q) (ValueIdx.ix4 n (0 : Fin 1) l q) (by
    show ((⟨4, ![4096, 1, 50, 192]⟩ : Shape).rowMajor (ValueIdx.ix4 n (0 : Fin 1) l q)).val = ((⟨3, ![4096, 50, 192]⟩ : Shape).rowMajor (ValueIdx.ix3 n l q)).val
    rw [Shape.rowMajor_val_four, Shape.rowMajor_val_three]
    show ((n.val * 1 + 0) * 50 + l.val) * 192 + q.val = (n.val * 50 + l.val) * 192 + q.val
    omega)]
  show Cert.Stack.Gk (cIof m d) (cAof m d) (cBof m d) (ValueIdx.ix4 n (0 : Fin 1) l q) = _
  by_cases h : q.val < 128
  · rw [Cert.Stack.Gk_word _ _ _ n 0 l q h, Cert.Stack.G_word _ _ _ _ n l q h, cI_word]
    rfl
  · have h' : 128 ≤ q.val := Nat.le_of_not_lt h
    rw [Cert.Stack.Gk_feat _ _ _ n 0 l q h', Cert.Stack.G_feat _ _ _ _ n l q h', cI_feat]
    exact cB_inside m d _ _ (show q.val - 128 < 64 by have := q.isLt; omega)

theorem value_bridge (d : Dev nD) :
    resOf m d = Cert.Stack.G (m ((SparseCore.T d).loc main_arg0)) (m ((SparseCore.T d).loc main_arg1)) (m (wwLoc d)) (m ((SparseCore.T d).loc main_arg3)) := by
  refine funext fun (j : (⟨3, ![4096, 50, 192]⟩ : Shape).Idx) => ?_
  rw [ValueIdx.eq_ix3 j]
  exact value_at m d (j 0) (j 1) (j 2)

/-! ## The index words are in range -/

/-- The program's precondition on every device: the input-domain predicate of the four arguments is one. -/
def PreAll [Cert.Pre_input_domain.Facts] : Prop :=
  ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) = fun _ => 1#1

theorem hin_of_pre [Cert.Pre_input_domain.Facts] (hpre : PreAll m) : ∀ d, InRange (cIof m) d := by
  intro d n l
  rw [cI_word, cI_feat]
  exact ⟨Cert.Stack.Pre.word_lt _ _ _ _ (hpre d) _, Cert.Stack.Pre.feat_lt _ _ _ _ (hpre d) _⟩

/-! ## The program's run -/

/-- From any launch memory, granted the tile obligation: every weakly fair execution of the whole family of threads
    terminates; every final memory holds, on every device, the function of the four arguments in @main's result and the
    four arguments unchanged. -/
theorem run_main [∀ e, Nonempty (Elt F e)] (m : (ℓ : Loc nD τ sig) → Buf (Elt F) ℓ) (ρ : Dev nD → PrngReg)
    (htile : (K (F := F)).TileObl (D (F := F)) 𝒱 (P (cIof m) (cAof m) (cBof m) (cOof m)) v₀ 0) :
    θ_run (Cert.Kernel.defs (F := F)) (Cert.Kernel.threads (F := F)) ⟨m, fun _ => 0, ρ⟩ (fun r => ∀ c : Dev nD,
      r.2.mem ((c.tc : Thread nD τ).loc main_v5)
          = Cert.Stack.G (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (cIof m) (cAof m) (cBof m) (cOof m)))
    m ρ main (fun _ => iprop(emp)) (FIN m) (u₀ (F := F)) (sep_elim_left.trans (hu₀ (cIof m) (cAof m) (cBof m) (cOof m))) (hmain m ρ) (fq m) (hfin m) _
    (fun s' h c => by
      obtain ⟨h0, h1, h2, h3, h5⟩ := h c
      exact ⟨h5.trans (value_bridge m c), h0, h1, h2, h3⟩)

end Cert.Proof.K
end
-- ==== Proof.K.Obl.lean ====
/-
  The tile obligation of the launch theorem from the statement of the task's body.

  A vector subcore is handed a read share of each of the three arrays read, its block of result rows, and what it owns
  itself: its scoped buffers and semaphores. Of these the kernel touches twelve scratch buffers and sixteen DMA
  semaphores; the rest waits aside. Each read share is cut once more, into a remainder that waits aside as well and a
  token per slot of the ring. What remains is the body's own starting state — four slots at rest and the block — and,
  after it, the same with the block at the lookup's function; everything set aside is put back.
-/
import proofs.«206843_g13322988552399_fold_wed_c4_279_34_alg».proof.Proof.K.Inv
import proofs.«206843_g13322988552399_fold_wed_c4_279_34_alg».proof.Proof.K.Launch

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic
open Idealize.ShloMosaic.ValueIdx

variable {F : FTy → Type} [FloatOps F]

local notation "𝕄" => MT nD τ sig (HIx 1) (Elt F) ℕ UU ℕ

/-! ## The task's program and the statement of its proof -/

/-- The kernel function at the coordinates L, on the four arrays whole and the task's scratch. -/
abbrev kernelAt (L : grid0.Coords) : Prog (TpuEff nD τ sig (Elt F) Λ₀ (.scVector ((L 0).castLE hcore0) ((L 1).castLE hsub0))) PUnit :=
  cc0__stack_kernel L idxV (Memref.isWhole_whole _) wwV (Memref.isWhole_whole _) wfV (Memref.isWhole_whole _) outV (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    cc0_scratch12 cc0_scratch13 cc0_scratch14 cc0_scratch15 cc0_scratch16 cc0_scratch17 cc0_scratch18 cc0_scratch19 cc0_scratch20 cc0_scratch21 cc0_scratch22
    cc0_scratch23 cc0_scratch24 cc0_scratch25 cc0_scratch26 cc0_scratch27

/-- What is asked of the task's body: from its four slots at rest and its block of result rows, with every index word in
    range, it ends with the slots at rest again and the block at the lookup's function. -/
def CoreStmt : Prop :=
  ∀ (d : Dev nD) (L : grid0.Coords) (fI : Buf (Elt F) ((idxV).view.loc (thr d L))) (fA : Buf (Elt F) ((wwV).view.loc (thr d L)))
    (fB : Buf (Elt F) ((wfV).view.loc (thr d L))) (fO : Buf (Elt F) ((outV).view.loc (thr d L))) (qI qA qB : PosShare TreeShare)
    (O : CellTallies nD τ sig (HIx 1)) (W : Waits sig (HIx 1)) (_ : ∀ g, O g none = 0)
    (_ : ∀ (r : Fin 4096) (l : Fin 50), (fI (ix3 r (0 : Fin 2) l)).toNat < 100000 ∧ (fI (ix3 r (1 : Fin 2) l)).toNat < 1000),
    iprop(Transfers.MayWaits (thr d L) (none : HIx 1) O ∗ owes (thr d L) O W ∗ tileRes d L fI fA fB qI qA qB fO)
      ⊢ wp frame (wpE (defs₀ (F := F)) 𝒱₀ (thr d L) none) Set.univ (kernelAt (F := F) L)
          (fun _ => iprop(tileRes d L fI fA fB qI qA qB (Cert.Stack.Gk fI fA fB) ∗ ∃ W', ⌜∀ p ∈ W', p ∈ W ∨ p.2 = none⌝ ∗ owes (thr d L) O W'))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

theorem bound_zero : grid0.bound 0 = 2 := rfl
theorem bound_one : grid0.bound 1 = 16 := rfl

/-! ## The task's own buffers and semaphores: the kernel's scratch and the rest -/

/-- The kernel's twelve scratch buffers. -/
abbrev scrRefs : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11}
/-- Its sixteen DMA semaphores. -/
abbrev scrSemLocs : Finset (SemLoc sig) :=
  {SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scratch23.sem, SemLoc.dma cc0_scratch24.sem, SemLoc.dma cc0_scratch25.sem, SemLoc.dma cc0_scratch26.sem, SemLoc.dma cc0_scratch27.sem}

def refEmb (c : Fin τ.nSC) (i : Fin τ.nSub) : Ref sig .scVector ↪ DevRef τ sig := ⟨Proc.devRef (.scVector c i), Proc.devRef_injective _⟩
def cellEmb (t : Thread nD τ) : SemLoc sig ↪ GSem nD τ sig := ⟨fun sm => (t, sm), fun _ _ e => (Prod.mk.inj e).2⟩

omit [FloatOps F] in
theorem scr_sub (c : Fin τ.nSC) (i : Fin τ.nSub) : scrRefs.map (refEmb c i) ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl | rfl | rfl | rfl <;> exact SparseCore.Cfg.mem_ownRefs_of_owner rfl

omit [FloatOps F] in
theorem sem_sub (d : Dev nD) (L : grid0.Coords) : scrSemLocs.map (cellEmb (thr d L)) ⊆ ownCells (thr d L) := by
  intro g hg
  obtain ⟨sm, hsm, rfl⟩ := Finset.mem_map.mp hg
  refine mem_ownCells.mpr ⟨rfl, ?_⟩
  exact (show ∀ sm ∈ scrSemLocs, SemLoc.isScoped (sig := sig) Kind.scVector sm = true by decide) sm hsm

/-- The scratch buffers, each whole at some contents. -/
def scrBufs (d : Dev nD) (L : grid0.Coords) : sProp 𝕄 :=
  iprop((∃ f, ((cix0).view.loc (thr d L) ↦{fullShare} f))
    ∗ (∃ f, ((cix1).view.loc (thr d L) ↦{fullShare} f))
    ∗ (∃ f, ((cix2).view.loc (thr d L) ↦{fullShare} f))
    ∗ (∃ f, ((cix3).view.loc (thr d L) ↦{fullShare} f))
    ∗ (∃ f, ((rf0).view.loc (thr d L) ↦{fullShare} f))
    ∗ (∃ f, ((rf1).view.loc (thr d L) ↦{fullShare} f))
    ∗ (∃ f, ((rf2).view.loc (thr d L) ↦{fullShare} f))
    ∗ (∃ f, ((rf3).view.loc (thr d L) ↦{fullShare} f))
    ∗ (∃ f, ((asm0).view.loc (thr d L) ↦{fullShare} f))
    ∗ (∃ f, ((asm1).view.loc (thr d L) ↦{fullShare} f))
    ∗ (∃ f, ((asm2).view.loc (thr d L) ↦{fullShare} f))
    ∗ (∃ f, ((asm3).view.loc (thr d L) ↦{fullShare} f)))
/-- The DMA semaphores, each at zero. -/
def scrSems (d : Dev nD) (L : grid0.Coords) : sProp 𝕄 :=
  iprop(semVal ((thr d L), SemLoc.dma cc0_scratch12.sem) 0
    ∗ semVal ((thr d L), SemLoc.dma cc0_scratch13.sem) 0
    ∗ semVal ((thr d L), SemLoc.dma cc0_scratch14.sem) 0
    ∗ semVal ((thr d L), SemLoc.dma cc0_scratch15.sem) 0
    ∗ semVal ((thr d L), SemLoc.dma cc0_scratch16.sem) 0
    ∗ semVal ((thr d L), SemLoc.dma cc0_scratch17.sem) 0
    ∗ semVal ((thr d L), SemLoc.dma cc0_scratch18.sem) 0
    ∗ semVal ((thr d L), SemLoc.dma cc0_scratch19.sem) 0
    ∗ semVal ((thr d L), SemLoc.dma cc0_scratch20.sem) 0
    ∗ semVal ((thr d L), SemLoc.dma cc0_scratch21.sem) 0
    ∗ semVal ((thr d L), SemLoc.dma cc0_scratch22.sem) 0
    ∗ semVal ((thr d L), SemLoc.dma cc0_scratch23.sem) 0
    ∗ semVal ((thr d L), SemLoc.dma cc0_scratch24.sem) 0
    ∗ semVal ((thr d L), SemLoc.dma cc0_scratch25.sem) 0
    ∗ semVal ((thr d L), SemLoc.dma cc0_scratch26.sem) 0
    ∗ semVal ((thr d L), SemLoc.dma cc0_scratch27.sem) 0)

/-- What else the subcore owns, which the kernel does not touch. -/
def bufRest (d : Dev nD) (L : grid0.Coords) : sProp 𝕄 :=
  bigSep (ownRefs (τ := τ) (.scVector (cV L) (jV L)) \ scrRefs.map (refEmb (cV L) (jV L))) fun b => iprop(∃ f, ((d, b) : Loc nD τ sig) ↦{fullShare} f)
def semRest (d : Dev nD) (L : grid0.Coords) : sProp 𝕄 :=
  bigSep (ownCells (thr d L) \ scrSemLocs.map (cellEmb (thr d L))) fun g => semVal g 0

omit [FloatOps F] in
theorem ownBufs_split (d : Dev nD) (L : grid0.Coords) : (ownBufs (thr d L) : sProp 𝕄) = iprop(scrBufs d L ∗ bufRest d L) := by
  unfold SparseCore.Cfg.ownBufs bufRest
  rw [SparseCore.bigSep_sdiff_split' (scr_sub (cV L) (jV L)), bigSep_map]
  congr 1
  unfold scrBufs scrRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] in
theorem ownSems0_split (d : Dev nD) (L : grid0.Coords) : (ownSems0 (thr d L) : sProp 𝕄) = iprop(scrSems d L ∗ semRest d L) := by
  unfold SparseCore.Cfg.ownSems0 semRest
  rw [SparseCore.bigSep_sdiff_split' (sem_sub d L), bigSep_map]
  congr 1
  unfold scrSems scrSemLocs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-! ## The task at coordinates L -/

/-- Its number: 2 · subcore + core. -/
def widL (L : grid0.Coords) : Fin 32 := ⟨2 * (L 1).val + (L 0).val, by
  have h0 : (L 0).val < 2 := (L 0).isLt
  have h1 : (L 1).val < 16 := (L 1).isLt
  omega⟩

omit [FloatOps F] in
/-- Its block of the result is rows N0 L … N0 L + 127. -/
theorem outBlk_rows (L : grid0.Coords) : outBlk (widL L) = outRows (N0 L) (N0 L + 128) := by
  rw [outBlk_eq]
  ext j
  simp only [outRows, Finset.mem_filter, Finset.mem_univ, true_and]
  rw [Rect.mem_set_unit]
  have e1 : S4096x1x50x192.partIx 0 (widL L).val 0 * S4096x1x50x192.partSize 0 32 0 = N0 L := by
    show (2 * (L 1).val + (L 0).val) * (4096 / 32) = 256 * (L 1).val + 128 * (L 0).val
    omega
  have e2 : S4096x1x50x192.partSize 0 32 0 = 128 := rfl
  constructor
  · intro h
    have h0 := h 0
    rw [e1, e2] at h0
    exact h0
  · intro h a
    by_cases ha : a = 0
    · subst ha
      rw [e1, e2]
      exact h
    · have e3 : S4096x1x50x192.partIx 0 (widL L).val a = 0 := if_neg ha
      have e4 : S4096x1x50x192.partSize 0 32 a = S4096x1x50x192.size a := if_neg ha
      rw [e3, e4]
      exact ⟨by omega, by have := (j a).isLt; omega⟩

/-! ## The arrays as the subcore names them are the TensorCore's -/

omit [FloatOps F] in
theorem pts_idx (d : Dev nD) (L : grid0.Coords) (q : PosShare TreeShare) (f : Buf (Elt F) (idxLoc d)) :
    ((idxV).view.loc (thr d L) ↦{q} f : sProp 𝕄) = idxLoc d ↦{q} f := rfl
omit [FloatOps F] in
theorem pts_ww (d : Dev nD) (L : grid0.Coords) (q : PosShare TreeShare) (f : Buf (Elt F) (wwLoc d)) :
    ((wwV).view.loc (thr d L) ↦{q} f : sProp 𝕄) = wwLoc d ↦{q} f := rfl
omit [FloatOps F] in
theorem pts_wf (d : Dev nD) (L : grid0.Coords) (q : PosShare TreeShare) (f : Buf (Elt F) (wfLoc d)) :
    ((wfV).view.loc (thr d L) ↦{q} f : sProp 𝕄) = wfLoc d ↦{q} f := rfl
omit [FloatOps F] in
theorem pts_out (d : Dev nD) (L : grid0.Coords) (I : Finset S4096x1x50x192.Idx) (f : Buf (Elt F) (outLoc d)) :
    ((outV).view.loc (thr d L) ↦[I]{fullShare} f : sProp 𝕄) = outLoc d ↦[I]{fullShare} f := rfl

/-! ## A read share in five: the remainder and a token per slot -/

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem toks4 {ℓ : Loc nD τ sig} (q : PosShare TreeShare) (f : Buf (Elt F) ℓ) :
    (ℓ ↦{q} f : sProp 𝕄) ⊢ iprop((ℓ ↦{shareDrop q 4} f) ∗ (ℓ ↦{shareTok q 4 0} f) ∗ (ℓ ↦{shareTok q 4 1} f) ∗ (ℓ ↦{shareTok q 4 2} f) ∗ (ℓ ↦{shareTok q 4 3} f)) := by
  refine (Transfers.pointsTo_toks_split q 4).trans ?_
  rw [bigSep_fin_four]
omit [FloatOps F] in
theorem toks4_join {ℓ : Loc nD τ sig} (q : PosShare TreeShare) (f : Buf (Elt F) ℓ) :
    iprop((ℓ ↦{shareDrop q 4} f) ∗ (ℓ ↦{shareTok q 4 0} f) ∗ (ℓ ↦{shareTok q 4 1} f) ∗ (ℓ ↦{shareTok q 4 2} f) ∗ (ℓ ↦{shareTok q 4 3} f)) ⊢ (ℓ ↦{q} f : sProp 𝕄) := by
  refine BI.Entails.trans ?_ (Transfers.pointsTo_toks_join q 4)
  rw [bigSep_fin_four]
  exact BI.Entails.refl _

/-! ## The tile obligation from the body's statement -/

section Body

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The task's read share of each array. -/
abbrev qT (L : grid0.Coords) : PosShare TreeShare := shareTok fullShare 32 (widL L)

/-- The remainders of the three read shares, kept aside while the body runs. -/
def aside (d : Dev nD) (L : grid0.Coords) : sProp 𝕄 :=
  iprop(((idxV).view.loc (thr d L) ↦{shareDrop (qT L) 4} cI d) ∗ ((wwV).view.loc (thr d L) ↦{shareDrop (qT L) 4} cA d) ∗ ((wfV).view.loc (thr d L) ↦{shareDrop (qT L) 4} cB d))

/-- What the task is handed, in the subcore's names. -/
theorem tileGo_V (d : Dev nD) (L : grid0.Coords) :
    tileGo cI cA cB cO d (widL L) = iprop(((idxV).view.loc (thr d L) ↦{qT L} cI d) ∗ ((wwV).view.loc (thr d L) ↦{qT L} cA d) ∗ ((wfV).view.loc (thr d L) ↦{qT L} cB d)
      ∗ ((outV).view.loc (thr d L) ↦[outRows (N0 L) (N0 L + 128)]{fullShare} cO d)) := by
  unfold tileGo; rw [outBlk_rows]
theorem tileTd_V (d : Dev nD) (L : grid0.Coords) :
    tileTd cI cA cB d (widL L) = iprop(((idxV).view.loc (thr d L) ↦{qT L} cI d) ∗ ((wwV).view.loc (thr d L) ↦{qT L} cA d) ∗ ((wfV).view.loc (thr d L) ↦{qT L} cB d)
      ∗ ((outV).view.loc (thr d L) ↦[outRows (N0 L) (N0 L + 128)]{fullShare} Cert.Stack.Gk (cI d) (cA d) (cB d))) := by
  unfold tileTd; rw [outBlk_rows]

/-- What the task is handed, its scratch and its semaphores are its four slots at rest, its block, and the remainders. -/
theorem body_pre (d : Dev nD) (L : grid0.Coords) :
    iprop(tileGo cI cA cB cO d (widL L) ∗ scrBufs d L ∗ scrSems d L)
      ⊢ iprop(tileRes d L (cI d) (cA d) (cB d) (qT L) (qT L) (qT L) (cO d) ∗ aside cI cA cB d L) := by
  rw [tileGo_V]
  unfold scrBufs scrSems tileRes slotRest0 slotRest1 slotRest2 slotRest3 aside
  iintro ⟨⟨Hi, Ha, Hb, Ho⟩, ⟨Hc0, Hc1, Hc2, Hc3, Hr0, Hr1, Hr2, Hr3, Hm0, Hm1, Hm2, Hm3⟩, ⟨Hs12, Hs13, Hs14, Hs15, Hs16, Hs17, Hs18, Hs19, Hs20, Hs21, Hs22, Hs23, Hs24, Hs25, Hs26, Hs27⟩⟩
  ihave Hi' := (toks4 (qT L) (cI d)) $$ Hi
  icases Hi' with ⟨Hi, Hi0, Hi1, Hi2, Hi3⟩
  ihave Ha' := (toks4 (qT L) (cA d)) $$ Ha
  icases Ha' with ⟨Ha, Ha0, Ha1, Ha2, Ha3⟩
  ihave Hb' := (toks4 (qT L) (cB d)) $$ Hb
  icases Hb' with ⟨Hb, Hb0, Hb1, Hb2, Hb3⟩
  iframe

/-- And back. -/
theorem body_post (d : Dev nD) (L : grid0.Coords) :
    iprop(tileRes d L (cI d) (cA d) (cB d) (qT L) (qT L) (qT L) (Cert.Stack.Gk (cI d) (cA d) (cB d)) ∗ aside cI cA cB d L)
      ⊢ iprop(tileTd cI cA cB d (widL L) ∗ scrBufs d L ∗ scrSems d L) := by
  rw [tileTd_V]
  unfold scrBufs scrSems tileRes slotRest0 slotRest1 slotRest2 slotRest3 aside
  iintro ⟨⟨⟨Hi0, Ha0, Hb0, Hc0, Hr0, Hm0, Hs12, Hs16, Hs20, Hs24⟩, ⟨Hi1, Ha1, Hb1, Hc1, Hr1, Hm1, Hs13, Hs17, Hs21, Hs25⟩,
    ⟨Hi2, Ha2, Hb2, Hc2, Hr2, Hm2, Hs14, Hs18, Hs22, Hs26⟩, ⟨Hi3, Ha3, Hb3, Hc3, Hr3, Hm3, Hs15, Hs19, Hs23, Hs27⟩, Ho⟩, ⟨Hi, Ha, Hb⟩⟩
  ihave Hi' := (toks4_join (qT L) (cI d)) $$ [Hi Hi0 Hi1 Hi2 Hi3]
  · iframe
  ihave Ha' := (toks4_join (qT L) (cA d)) $$ [Ha Ha0 Ha1 Ha2 Ha3]
  · iframe
  ihave Hb' := (toks4_join (qT L) (cB d)) $$ [Hb Hb0 Hb1 Hb2 Hb3]
  · iframe
  iframe

end Body

section Obl

variable (cI : (d : Dev nD) → Buf (Elt F) (idxLoc d)) (cA : (d : Dev nD) → Buf (Elt F) (wwLoc d)) (cB : (d : Dev nD) → Buf (Elt F) (wfLoc d))
  (cO : (d : Dev nD) → Buf (Elt F) (outLoc d))

/-- The task at coordinates L, from what the launch theorem hands it: the body runs from the four slots at rest and
    the block; the remainders of the read shares and what else the subcore owns wait aside and come back with them. -/
theorem tile_body (hcore : CoreStmt (F := F)) (hin : ∀ d, InRange cI d) (d : Dev nD) (L : grid0.Coords)
    (O : CellTallies nD τ sig (HIx 1)) (W : Waits sig (HIx 1)) (hO : ∀ g, O g none = 0) :
    iprop(levAts (K (F := F)).L (K (F := F)).lev ∗ iprop(emp) ∗ tileGo cI cA cB cO d (widL L) ∗ scopedBufs (thr d L) ∗ scopedSems0 (thr d L) ∗ owes (thr d L) O W)
      ⊢ wp frame (wpE (defs₀ (F := F)) 𝒱₀ (thr d L) none) Set.univ (kernelAt (F := F) L)
          fun _ => iprop(tileTd cI cA cB d (widL L) ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_split, ownSems0_split]
  iintro ⟨#Hlv, -, Hgo, ⟨Hscr, Hbrest⟩, ⟨Hsems, Hsrest⟩, HO⟩
  ihave Hmw := ((K (F := F)).mayWaits_none (thr := thr d L) hO) $$ Hlv
  ihave Hres := (body_pre cI cA cB cO d L) $$ [Hgo Hscr Hsems]
  · isplitl [Hgo]; · iexact Hgo
    isplitl [Hscr]; · iexact Hscr
    iexact Hsems
  icases Hres with ⟨Hres, Hkeep⟩
  iapply (wp_wand_r frame _ Set.univ)
  isplitl [Hmw HO Hres]
  · iapply (hcore d L (cI d) (cA d) (cB d) (cO d) (qT L) (qT L) (qT L) O W hO (hin d))
    isplitl [Hmw]; · iexact Hmw
    isplitl [HO]; · iexact HO
    iexact Hres
  iintro %u ⟨Hres, HW⟩
  ihave Hback := (body_post cI cA cB d L) $$ [Hres Hkeep]
  · isplitl [Hres]; · iexact Hres
    iexact Hkeep
  icases Hback with ⟨Htd, Hscr, Hsems⟩
  isplitl [Htd]; · iexact Htd
  isplitl [Hscr Hbrest]
  · isplitl [Hscr]; · iexact Hscr
    iexact Hbrest
  isplitl [Hsems Hsrest]
  · isplitl [Hsems]; · iexact Hsems
    iexact Hsrest
  iexact HW

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of the launch theorem, from the body's statement and the index words in range. -/
theorem tileObl (hcore : CoreStmt (F := F)) (hin : ∀ d, InRange cI d) : (K (F := F)).TileObl (D (F := F)) 𝒱 (P cI cA cB cO) v₀ 0 := by
  intro d c i O W hO _ _
  simp only [show (P cI cA cB cO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body cI cA cB cO hcore hin d (coordsV ⟨_, hc.1⟩ ⟨_, hc.2⟩) O W hO).trans (wp_mono frame _ _ fun _ => obl_post)

end Obl

end Cert.Proof.K
end
-- ==== Proof.K.Core.lean ====
/-
  One task of the lookup, whole: the first index rows are staged and the first row's gathers started, the ring runs
  its 32 rounds, the last three rows are waited for; the task's block of the result then holds the lookup's function.
-/
import proofs.«206843_g13322988552399_fold_wed_c4_279_34_alg».proof.Proof.K.TripFirst
import proofs.«206843_g13322988552399_fold_wed_c4_279_34_alg».proof.Proof.K.TripMid
import proofs.«206843_g13322988552399_fold_wed_c4_279_34_alg».proof.Proof.K.TripLast
import proofs.«206843_g13322988552399_fold_wed_c4_279_34_alg».proof.Proof.K.Obl

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Tactic
open Idealize.ShloMosaic.ValueIdx

variable {F : FTy → Type} [FloatOps F]

local notation "𝕄" => MT nD τ sig (HIx 1) (Elt F) ℕ UU ℕ

/-- A row range that ends no later than it starts has no rows. -/
theorem outRows_eq_empty {a b : ℕ} (h : b ≤ a) : outRows a b = ∅ := by
  ext j
  simp only [outRows, Finset.mem_filter, Finset.mem_univ, true_and, Finset.notMem_empty, iff_false]
  omega

/-- Slot 0's index buffer once the index rows of n have landed in it. -/
theorem idx_landed0 (d : Dev nD) (L : grid0.Coords) (fI : Buf (Elt F) ((idxV).view.loc (thr d L))) (n : ℕ) (hn : n < 4096)
    (o : Fin 3 → ℕ) (h : ∀ a, o a + S1x2x50.size a ≤ S4096x2x50.size a) (ho : o = ![n, 0, 0])
    (f : Buf (Elt F) ((cix0).view.loc (thr d L))) (g : S2x50.Idx → Elt F .i32) (hg : g = ReadAs.same.apply (View.read (Elt F) (idxRowM o h).view fI)) :
    (((cix0).view.loc (thr d L) ↦{fullShare} View.write (Elt F) (cix0).view f g Finset.univ) : sProp 𝕄)
      ⊢ ((cix0).view.loc (thr d L) ↦{fullShare} cixOf fI n) := by
  subst hg
  rw [read_idxRowM n hn o h ho, ReadAs.apply_same, View.write_whole_univ]

set_option maxHeartbeats 4000000 in
/-- The task's body, from its four slots at rest and its block of the result at any contents to the same with the block
    at the lookup's function. -/
theorem tile_core : CoreStmt (F := F) := by
  intro d L fI fA fB fO qI qA qB O W hO hI
  have hL0 : (L 0).val < 2 := (L 0).isLt
  have hL1 : (L 1).val < 16 := (L 1).isLt
  have hN : N0 L + 128 ≤ 4096 := by show 256 * (L 1).val + 128 * (L 0).val + 128 ≤ 4096; omega
  have ht : (Scf.trips k0_t1_loop.lb k0_t1_loop.ub k0_t1_loop.st) = 32 := by decide
  have hinW0' := hinW0 d L fI (N0 L + 4 * 0) hI
  have hinF0' := hinF0 d L fI (N0 L + 4 * 0) hI
  unfold kernelAt
  rw [cc0__stack_kernel_eq_skeleton]; unfold cc0__stack_kernel_skel
  rw [k0_part5_eq_skeleton]; unfold k0_part5_skel
  unfold tileRes slotRest0 slotRest1 slotRest2 slotRest3
  iintro ⟨Hmw, HO, ⟨Hi0, Hww0, Hwf0, ⟨%fc0, Hc0⟩, ⟨%fr0, Hr0⟩, ⟨%fa0, Ha0⟩, Hsi0, Hsw0, Hsf0, Hso0⟩, ⟨Hi1, Hww1, Hwf1, ⟨%fc1, Hc1⟩, ⟨%fr1, Hr1⟩, ⟨%fa1, Ha1⟩, Hsi1, Hsw1, Hsf1, Hso1⟩,
    ⟨Hi2, Hww2, Hwf2, ⟨%fc2, Hc2⟩, ⟨%fr2, Hr2⟩, ⟨%fa2, Ha2⟩, Hsi2, Hsw2, Hsf2, Hso2⟩, ⟨Hi3, Hww3, Hwf3, ⟨%fc3, Hc3⟩, ⟨%fr3, Hr3⟩, ⟨%fa3, Ha3⟩, Hsi3, Hsw3, Hsf3, Hso3⟩, Hout⟩
  -- the first two rows' index rows are staged, the first waited for
  sl_exec
  ihave Hc0 := (idx_landed0 d L fI (N0 L + 4 * 0) (by omega) (k0_off1 L 0#32) (k0_off1_inb L ⟨0, by decide⟩) (by rw [k0_off1_eq L ⟨0, by decide⟩]; try (congr 1 <;> omega)) _ _ (by rfl)) $$ Hc0
  ihave Hsi1 := (Transfers.Flight_mono countersEmb (thr d L) (idx_deliver1' d L fI (shareTok qI 4 1) (N0 L + 4 * 0 + 1) (by omega) (k0_off1 L 1#32) _ (by rw [k0_off1_eq L ⟨1, by decide⟩]; try (congr 1 <;> omega)) _ _ (by rfl))) $$ Hsi1
  unfold DIdx1
  ihave Hi1 := (idx_rest d L fI (N0 L + 4 * 0 + 1) (k0_off1 L 1#32) _ (by rw [k0_off1_eq L ⟨1, by decide⟩]; try (congr 1 <;> omega)) (shareTok qI 4 1)) $$ Hi1
  -- the first row's gathers
  sl_exec
  ihave Hsw0 := (Transfers.Flight_mono countersEmb (thr d L) (word_deliver0 d L fI fA fB (shareTok qA 4 0) (N0 L + 4 * 0) _ hinW0' _ (by rfl))) $$ Hsw0
  unfold DWord0
  ihave Hsf0 := (Transfers.Flight_mono countersEmb (thr d L) (feat_deliver0 d L fI fB (shareTok qB 4 0) (N0 L + 4 * 0) _ hinF0' _ (by rfl))) $$ Hsf0
  unfold DFeat0
  -- the ring
  sl_for (ringInv d L fI fA fB fO qI qA qB O W) $$ [Hmw HO Hi0 Hww0 Hwf0 Hc0 Hr0 Ha0 Hsi0 Hsw0 Hsf0 Hso0 Hi1 Hww1 Hwf1 Hr1 Ha1 Hsi1 Hsw1 Hsf1 Hso1 Hi2 Hww2 Hwf2 Hc2 Hr2 Ha2 Hsi2 Hsw2 Hsf2 Hso2 Hi3 Hww3 Hwf3 Hc3 Hr3 Ha3 Hsi3 Hsw3 Hsf3 Hso3 Hout]
  case region =>
    intro k _
    rcases Nat.eq_zero_or_pos k.val with h0 | h1
    · exact trip_first d L fI fA fB fO qI qA qB O W _ k h0 hI
    · rcases Nat.lt_or_ge k.val 31 with h2 | h2
      · exact trip_mid d L fI fA fB fO qI qA qB O W _ k h1 h2 hI
      · exact trip_last d L fI fA fB fO qI qA qB O W _ k (by have := k.isLt; omega) hI
  · -- before the first round
    unfold ringInv slot0 slot1 slot2 slot3 outState
    rw [gath0_on _ _ _ _ _ _ _ _ (show 0 < 32 by decide), stage1_on _ _ _ _ _ _ _ _ (show 0 < 32 by decide), outgo1_off _ _ _ _ _ _ _ _ (show ¬ 1 ≤ 0 by decide), outgo2_off _ _ _ _ _ _ _ _ (show ¬ 1 ≤ 0 by decide), outgo3_off _ _ _ _ _ _ _ _ (show ¬ 1 ≤ 0 by decide)]
    unfold gath0On stage1On outgo1Off outgo2Off outgo3Off
    isplitl [Hmw]; · iexact Hmw
    isplitl [HO]
    · iexists _; isplitr
      rotate_left
      · iexact HO
      · ipureintro; repeat (first | exact (fun p hp => Or.inl hp) | refine waits_insert ?_ _)
    isplitl [Hi0 Hsi0 Hso0 Hsw0 Hww0 Hsf0 Hwf0 Hc0 Ha0]
    ·
      isplitl [Hi0]; · iexact Hi0
      isplitl [Hsi0]; · iexact Hsi0
      isplitl [Hso0]; · iexact Hso0
      isplitl [Hsw0]; · iexact Hsw0
      isplitl [Hww0]; · iexact Hww0
      isplitl [Hsf0]; · iexact Hsf0
      isplitl [Hwf0]; · iexact Hwf0
      isplitl [Hc0]; · iexact Hc0
      iexists _; iexact Ha0
    isplitl [Hww1 Hwf1 Hr1 Hsw1 Hsf1 Hsi1 Hi1 Hso1 Ha1]
    ·
      isplitl [Hww1]; · iexact Hww1
      isplitl [Hwf1]; · iexact Hwf1
      isplitl [Hr1]; · iexists _; iexact Hr1
      isplitl [Hsw1]; · iexact Hsw1
      isplitl [Hsf1]; · iexact Hsf1
      isplitl [Hsi1 Hi1]
      ·
        isplitl [Hsi1]; · iexact Hsi1
        iexact Hi1
      isplitl [Hso1]; · iexact Hso1
      iexists _; iexact Ha1
    isplitl [Hi2 Hsi2 Hc2 Hww2 Hwf2 Hr2 Hsw2 Hsf2 Hso2 Ha2]
    ·
      isplitl [Hi2]; · iexact Hi2
      isplitl [Hsi2]; · iexact Hsi2
      isplitl [Hc2]; · iexists _; iexact Hc2
      isplitl [Hww2]; · iexact Hww2
      isplitl [Hwf2]; · iexact Hwf2
      isplitl [Hr2]; · iexists _; iexact Hr2
      isplitl [Hsw2]; · iexact Hsw2
      isplitl [Hsf2]; · iexact Hsf2
      isplitl [Hso2]; · iexact Hso2
      iexists _; iexact Ha2
    isplitl [Hi3 Hsi3 Hc3 Hww3 Hwf3 Hr3 Hsw3 Hsf3 Hso3 Ha3]
    ·
      isplitl [Hi3]; · iexact Hi3
      isplitl [Hsi3]; · iexact Hsi3
      isplitl [Hc3]; · iexists _; iexact Hc3
      isplitl [Hww3]; · iexact Hww3
      isplitl [Hwf3]; · iexact Hwf3
      isplitl [Hr3]; · iexists _; iexact Hr3
      isplitl [Hsw3]; · iexact Hsw3
      isplitl [Hsf3]; · iexact Hsf3
      isplitl [Hso3]; · iexact Hso3
      iexists _; iexact Ha3
    isplitl [Hout]
    · iapply (out_cast d L fO (a := N0 L) (b := N0 L + 128) (N0 L + 4 * 0) (N0 L + 128) (by omega) (by omega)); iexact Hout
    · rw [outRows_eq_empty (show N0 L + 4 * 0 - 3 ≤ N0 L by omega), pointsTo_empty]; iempintro
  -- after the last round: the last three rows come home
  iintro %_ HI
  unfold ringInv slot0 slot1 slot2 slot3 outState
  rw [gath0_off _ _ _ _ _ _ _ _ (show ¬ (Scf.trips k0_t1_loop.lb k0_t1_loop.ub k0_t1_loop.st) < 32 by rw [ht]; decide), stage1_off _ _ _ _ _ _ _ _ (show ¬ (Scf.trips k0_t1_loop.lb k0_t1_loop.ub k0_t1_loop.st) < 32 by rw [ht]; decide), outgo1_on _ _ _ _ _ _ _ _ (show 1 ≤ (Scf.trips k0_t1_loop.lb k0_t1_loop.ub k0_t1_loop.st) by rw [ht]; decide), outgo2_on _ _ _ _ _ _ _ _ (show 1 ≤ (Scf.trips k0_t1_loop.lb k0_t1_loop.ub k0_t1_loop.st) by rw [ht]; decide), outgo3_on _ _ _ _ _ _ _ _ (show 1 ≤ (Scf.trips k0_t1_loop.lb k0_t1_loop.ub k0_t1_loop.st) by rw [ht]; decide)]
  unfold gath0Off stage1Off outgo1On outgo2On outgo3On DOut1 DOut2 DOut3
  icases HI with ⟨Hmw, ⟨%W', %hW', HO⟩, ⟨Hi0, Hsi0, Hso0, Hsw0, Hsf0, Hww0, Hwf0, ⟨%fc0', Hc0⟩, ⟨%fr0', Hr0⟩, ⟨%fa0', Ha0⟩⟩,
    ⟨Hww1, Hwf1, ⟨%fr1', Hr1⟩, Hsw1, Hsf1, ⟨Hsi1, Hi1, ⟨%fc1', Hc1⟩⟩, Hso1⟩,
    ⟨Hi2, Hsi2, ⟨%fc2', Hc2⟩, Hww2, Hwf2, ⟨%fr2', Hr2⟩, Hsw2, Hsf2, Hso2⟩,
    ⟨Hi3, Hsi3, ⟨%fc3', Hc3⟩, Hww3, Hwf3, ⟨%fr3', Hr3⟩, Hsw3, Hsf3, Hso3⟩, ⟨Hout, Hdone⟩⟩
  sl_exec
  sl_step
  ihave Hdone := (out_join d L (Cert.Stack.Gk fI fA fB) (a := N0 L) (b := N0 L + 4 * (Scf.trips k0_t1_loop.lb k0_t1_loop.ub k0_t1_loop.st) - 3) (N0 L + 4 * (Scf.trips k0_t1_loop.lb k0_t1_loop.ub k0_t1_loop.st) - 3) (N0 L + 4 * (Scf.trips k0_t1_loop.lb k0_t1_loop.ub k0_t1_loop.st) - 3 + 1) (c := N0 L + 4 * (Scf.trips k0_t1_loop.lb k0_t1_loop.ub k0_t1_loop.st) - 2) (by omega) (by omega) (by omega) (by omega)) $$ [Hdone Hso1_dst]
  · isplitl [Hdone] <;> iassumption
  ihave Hdone := (out_join d L (Cert.Stack.Gk fI fA fB) (a := N0 L) (b := N0 L + 4 * (Scf.trips k0_t1_loop.lb k0_t1_loop.ub k0_t1_loop.st) - 2) (N0 L + 4 * (Scf.trips k0_t1_loop.lb k0_t1_loop.ub k0_t1_loop.st) - 2) (N0 L + 4 * (Scf.trips k0_t1_loop.lb k0_t1_loop.ub k0_t1_loop.st) - 2 + 1) (c := N0 L + 4 * (Scf.trips k0_t1_loop.lb k0_t1_loop.ub k0_t1_loop.st) - 1) (by omega) (by omega) (by omega) (by omega)) $$ [Hdone Hso2_dst]
  · isplitl [Hdone] <;> iassumption
  ihave Hdone := (out_join d L (Cert.Stack.Gk fI fA fB) (a := N0 L) (b := N0 L + 4 * (Scf.trips k0_t1_loop.lb k0_t1_loop.ub k0_t1_loop.st) - 1) (N0 L + 4 * (Scf.trips k0_t1_loop.lb k0_t1_loop.ub k0_t1_loop.st) - 1) (N0 L + 4 * (Scf.trips k0_t1_loop.lb k0_t1_loop.ub k0_t1_loop.st) - 1 + 1) (c := N0 L + 128) (by omega) (by omega) (by omega) (by omega)) $$ [Hdone Hso3_dst]
  · isplitl [Hdone] <;> iassumption
  irename Hso1_src => Ha1
  irename Hso2_src => Ha2
  irename Hso3_src => Ha3
  isplitr [HO]
  · isplitl [Hi0 Hww0 Hwf0 Hc0 Hr0 Ha0 Hsi0 Hsw0 Hsf0 Hso0]
    ·
      isplitl [Hi0]; · iexact Hi0
      isplitl [Hww0]; · iexact Hww0
      isplitl [Hwf0]; · iexact Hwf0
      isplitl [Hc0]; · iexists _; iexact Hc0
      isplitl [Hr0]; · iexists _; iexact Hr0
      isplitl [Ha0]; · iexists _; iexact Ha0
      isplitl [Hsi0]; · iexact Hsi0
      isplitl [Hsw0]; · iexact Hsw0
      isplitl [Hsf0]; · iexact Hsf0
      iexact Hso0
    isplitl [Hi1 Hww1 Hwf1 Hc1 Hr1 Ha1 Hsi1 Hsw1 Hsf1 Hso1]
    ·
      isplitl [Hi1]; · iexact Hi1
      isplitl [Hww1]; · iexact Hww1
      isplitl [Hwf1]; · iexact Hwf1
      isplitl [Hc1]; · iexists _; iexact Hc1
      isplitl [Hr1]; · iexists _; iexact Hr1
      isplitl [Ha1]; · iexists _; iexact Ha1
      isplitl [Hsi1]; · iexact Hsi1
      isplitl [Hsw1]; · iexact Hsw1
      isplitl [Hsf1]; · iexact Hsf1
      iexact Hso1
    isplitl [Hi2 Hww2 Hwf2 Hc2 Hr2 Ha2 Hsi2 Hsw2 Hsf2 Hso2]
    ·
      isplitl [Hi2]; · iexact Hi2
      isplitl [Hww2]; · iexact Hww2
      isplitl [Hwf2]; · iexact Hwf2
      isplitl [Hc2]; · iexists _; iexact Hc2
      isplitl [Hr2]; · iexists _; iexact Hr2
      isplitl [Ha2]; · iexists _; iexact Ha2
      isplitl [Hsi2]; · iexact Hsi2
      isplitl [Hsw2]; · iexact Hsw2
      isplitl [Hsf2]; · iexact Hsf2
      iexact Hso2
    isplitl [Hi3 Hww3 Hwf3 Hc3 Hr3 Ha3 Hsi3 Hsw3 Hsf3 Hso3]
    ·
      isplitl [Hi3]; · iexact Hi3
      isplitl [Hww3]; · iexact Hww3
      isplitl [Hwf3]; · iexact Hwf3
      isplitl [Hc3]; · iexists _; iexact Hc3
      isplitl [Hr3]; · iexists _; iexact Hr3
      isplitl [Ha3]; · iexists _; iexact Ha3
      isplitl [Hsi3]; · iexact Hsi3
      isplitl [Hsw3]; · iexact Hsw3
      isplitl [Hsf3]; · iexact Hsf3
      iexact Hso3
    iexact Hdone
  · iexists _; isplitr
    rotate_left
    · iexact HO
    · ipureintro; repeat (first | exact hW' | refine waits_insert ?_ _)

end Cert.Proof.K

end
-- ==== Proof.K.Claims.lean ====
/-
  The kernel's claims from the statement of the task's body: the run with its strongest post, and the frame.
-/
import proofs.«206843_g13322988552399_fold_wed_c4_279_34_alg».proof.Proof.K.Obl
import proofs.«206843_g13322988552399_fold_wed_c4_279_34_alg».proof.Proof.Gen.Pre_input_domain

noncomputable section

namespace Cert.Proof.K

open Cert.Kernel Cert.Kernel.Gen

open Idealize.ShloMosaic Idealize.SL.Sem

variable {F : FTy → Type} [FloatOps F]

/-- Under the precondition, granted the body's statement: every weakly fair execution terminates, and every final memory
    holds the function of the four arguments in @main's result and the four arguments unchanged, on every device. -/
theorem run_strong [∀ e, Nonempty (Elt F e)] [Cert.Pre_input_domain.Facts] (hcore : CoreStmt (F := F))
    (m : (ℓ : Loc nD τ sig) → Buf (Elt F) ℓ) (ρ : Dev nD → PrngReg) (hpre : PreAll m) :
    θ_run (Cert.Kernel.defs (F := F)) (Cert.Kernel.threads (F := F)) ⟨m, fun _ => 0, ρ⟩ (fun r => ∀ c : Dev nD,
      r.2.mem ((c.tc : Thread nD τ).loc main_v5)
          = Cert.Stack.G (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  run_main m ρ (tileObl (cIof m) (cAof m) (cBof m) (cOof m) hcore (hin_of_pre m hpre))

/-- The frame: the program runs and its argument arrays end unchanged. -/
theorem frame_k (hcore : CoreStmt (F := Bits)) : Cert.frame_Kernel := fun m ρ hpre =>
  (θ_run Cert.Kernel.defs _ _).mono (fun _ h c => (h c).2) (run_strong (F := Bits) hcore m ρ hpre)

end Cert.Proof.K

end
-- ==== Proof.RefRun.lean ====
/-
  The reference's run, and what it computes.

  The reference is a straight line of forty-seven host operations: for each of the two tables the twenty-three of a
  row lookup in fill mode (the index corrected for negative values, the in-range mask, the gather, the select between
  the gathered rows and a constant), then the concatenation of the two results along the last axis. Part one states
  the run: every execution ends with the result buffer at the operations' composed term of the arguments and the
  arguments unchanged. Part two reads that term at an index: for indices inside their tables the correction leaves
  the index as it is, the mask is one everywhere, the select returns the gathered row, and the concatenation puts
  the word table's row in columns 0–127 and the feature table's row in columns 128–191.
-/
import proofs.«206843_g13322988552399_fold_wed_c4_279_34_alg».proof.Defs
import proofs.«206843_g13322988552399_fold_wed_c4_279_34_alg».proof.Proof.Spec
import proofs.«206843_g13322988552399_fold_wed_c4_279_34_alg».proof.Proof.PreDecode
import Idealize.ShloMosaic.Lib.StableHlo.Run
import Idealize.ShloMosaic.Lib.Pipeline.Value
import Idealize.ShloMosaic.Lib.IdealHost
import Idealize.ShloMosaic.Lib.ReduceAll

noncomputable section

namespace Cert.Stack.Ref

open Cert.ReferenceIdeal Cert.ReferenceIdeal.Facts₀ Idealize.ShloMosaic Idealize.ShloMosaic.TcCoe Idealize.SL.Sem
  Idealize.ShloMosaic.StableHlo Idealize.ShloMosaic.ValueIdx

variable {F : FTy → Type} [FloatOps F] [Cert.ReferenceIdeal.Facts]

/-! ## Part one: the run -/

/-- The reference's forty-seven operations in order, the two lookups' bodies written out over their calls' buffers. -/
abbrev ops : List (HloOp τ sig (Elt F)) :=
  [
    TRef.nullary main_call0.c (constantI S_ 32 0#32),
    TRef.unary main_call0.c main_call0.v0 (broadcastInDim S4096x50 ![] bcast_S_S4096x50),
    TRef.binary (.of main_arg0 : TRef sig ⟨S4096x50, .i32⟩) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0 : TRef sig ⟨S4096x50, .i32⟩) main_call0.v2 main_call0.v3 addi,
    TRef.ternary main_call0.v1 main_call0.v3 (.of main_arg0 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg2 : TRef sig ⟨S100000x128, .f32⟩) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    TRef.nullary main_call1.c (constantI S_ 32 0#32),
    TRef.unary main_call1.c main_call1.v0 (broadcastInDim S4096x50 ![] bcast_S_S4096x50),
    TRef.binary (.of main_arg1 : TRef sig ⟨S4096x50, .i32⟩) main_call1.v0 main_call1.v1 (cmpi .slt),
    TRef.nullary main_call1.c_0 (constantI S_ 32 1000#32),
    TRef.unary main_call1.c_0 main_call1.v2 (broadcastInDim S4096x50 ![] bcast_S_S4096x50),
    TRef.binary (.of main_arg1 : TRef sig ⟨S4096x50, .i32⟩) main_call1.v2 main_call1.v3 addi,
    TRef.ternary main_call1.v1 main_call1.v3 (.of main_arg1 : TRef sig ⟨S4096x50, .i32⟩) main_call1.call0.v0 select,
    TRef.unary main_call1.call0.v0 main_call1.v5 (broadcastInDim S4096x50x1 ![0, 1] bcast_S4096x50_S4096x50x1_0_1),
    TRef.nullary main_call1.c_1 (constantI S1 32 999#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg3 : TRef sig ⟨S1000x64, .f32⟩) main_call1.v5 main_call1.v13 (fun x i => Host.gather gather_S1000x64_S4096x50x1_S4096x50x64_2_0_n_n_0_2_164 x i),
    TRef.unary main_call1.v12 main_call1.v14 (broadcastInDim S4096x50x64 ![0, 1] bcast_S4096x50_S4096x50x64_0_1),
    TRef.nullary main_call1.cst (constant S_ .f32 0x7FC00000#32),
    TRef.unary main_call1.cst main_call1.v15 (broadcastInDim S4096x50x64 ![] bcast_S_S4096x50x64),
    TRef.ternary main_call1.v14 main_call1.v13 main_call1.v15 main_call1.v16 select,
    binary main_v0 main_v1 main_v2 ((fun a b => concatenate S4096x50x192 2 [⟨S4096x50x128, a⟩, ⟨S4096x50x64, b⟩] concatenates_S4096x50x128_S4096x50x64_S4096x50x192_d2) : (⟨S4096x50x128, .f32⟩ : BufTy).Contents (Elt F) → (⟨S4096x50x64, .f32⟩ : BufTy).Contents (Elt F) → (⟨S4096x50x192, .f32⟩ : BufTy).Contents (Elt F)) ]

set_option maxRecDepth 2048 in
/-- The reference is that straight line: the lookups' definitions unfolded at their calls. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub ..⟩

/-- Every execution terminates with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The index corrected for negative values: `i + N` where `i` is negative, else `i`. -/
def fixIdx (N : BitVec 32) (i : IVec S4096x50 32) : IVec S4096x50 32 :=
  select (cmpi .slt i (broadcastInDim S4096x50 ![] bcast_S_S4096x50 (constantI S_ 32 0#32)))
    (addi i (broadcastInDim S4096x50 ![] bcast_S_S4096x50 (constantI S_ 32 N))) i

/-- The corrected index as the gather's start indices: a trailing axis of extent one. -/
def idxCol (N : BitVec 32) (i : IVec S4096x50 32) : IVec S4096x50x1 32 :=
  broadcastInDim S4096x50x1 ![0, 1] bcast_S4096x50_S4096x50x1_0_1 (fixIdx N i)

/-- The in-range mask: `0 ≤ v ≤ M` (signed), folded over the trailing axis of extent one. -/
def inRange (M : BitVec 32) (v : IVec S4096x50x1 32) : IVec S4096x50 1 :=
  Host.reduce IntOp.andi
    (andi (cmpi .sge v (broadcastInDim S4096x50x1 ![] bcast_S_S4096x50x1 (constantI S_ 32 0#32)))
      (cmpi .sle v (broadcastInDim S4096x50x1 ![0, 1, 2] bcast_S1x1x1_S4096x50x1_0_1_2
        (broadcastInDim S1x1x1 ![2] bcast_S1_S1x1x1_2 (constantI S1 32 M)))))
    (constantI S_ 1 1#1) reducesTo_S4096x50x1_S4096x50_d2 h_S_

/-- The word table's lookup in fill mode. -/
def takeWord (x : FVec F S100000x128 .f32) (i : IVec S4096x50 32) : FVec F S4096x50x128 .f32 :=
  select (broadcastInDim S4096x50x128 ![0, 1] bcast_S4096x50_S4096x50x128_0_1 (inRange 99999#32 (idxCol 100000#32 i)))
    (Host.gather gather_S100000x128_S4096x50x1_S4096x50x128_2_0_n_n_0_2_1128 x (idxCol 100000#32 i))
    (broadcastInDim S4096x50x128 ![] bcast_S_S4096x50x128 (constant S_ .f32 0x7FC00000#32))

/-- The feature table's lookup in fill mode. -/
def takeFeat (x : FVec F S1000x64 .f32) (i : IVec S4096x50 32) : FVec F S4096x50x64 .f32 :=
  select (broadcastInDim S4096x50x64 ![0, 1] bcast_S4096x50_S4096x50x64_0_1 (inRange 999#32 (idxCol 1000#32 i)))
    (Host.gather gather_S1000x64_S4096x50x1_S4096x50x64_2_0_n_n_0_2_164 x (idxCol 1000#32 i))
    (broadcastInDim S4096x50x64 ![] bcast_S_S4096x50x64 (constant S_ .f32 0x7FC00000#32))

/-- What the reference computes from its four arguments. -/
def out (a0 a1 : IVec S4096x50 32) (a2 : FVec F S100000x128 .f32) (a3 : FVec F S1000x64 .f32) : FVec F S4096x50x192 .f32 :=
  concatenate S4096x50x192 2 [⟨S4096x50x128, takeWord a2 a0⟩, ⟨S4096x50x64, takeFeat a3 a1⟩]
    concatenates_S4096x50x128_S4096x50x64_S4096x50x192_d2

attribute [local irreducible] Host.reduce Host.gather concatenate in
set_option maxRecDepth 8192 in
/-- The fold at the word lookup's result buffer. -/
theorem main_v0_eq (V : Valuation τ sig (Elt F)) :
    after ops V (main_v0 : DevRef τ sig) = takeWord (V (main_arg2 : DevRef τ sig)) (V (main_arg0 : DevRef τ sig)) := by
  after_results_simp
  rfl

attribute [local irreducible] Host.reduce Host.gather concatenate in
set_option maxRecDepth 8192 in
/-- The fold at the feature lookup's result buffer. -/
theorem main_v1_eq (V : Valuation τ sig (Elt F)) :
    after ops V (main_v1 : DevRef τ sig) = takeFeat (V (main_arg3 : DevRef τ sig)) (V (main_arg1 : DevRef τ sig)) := by
  after_results_simp
  rfl

attribute [local irreducible] Host.reduce Host.gather concatenate in
set_option maxRecDepth 8192 in
/-- The fold at the result buffer is that term: the last operation concatenates the two lookups' buffers. -/
theorem main_v2_eq (V : Valuation τ sig (Elt F)) :
    after ops V (main_v2 : DevRef τ sig)
      = out (V (main_arg0 : DevRef τ sig)) (V (main_arg1 : DevRef τ sig)) (V (main_arg2 : DevRef τ sig)) (V (main_arg3 : DevRef τ sig)) := by
  have h0 := main_v0_eq V
  have h1 := main_v1_eq V
  simp only [after_cons, after_nil] at h0 h1 ⊢
  rw [binary_result_ne (r := main_v0) _ _ _ _ _ _ _ _ (by decide)] at h0
  rw [binary_result_ne (r := main_v1) _ _ _ _ _ _ _ _ (by decide)] at h1
  rw [binary_result, h0, h1]
  rfl

set_option maxRecDepth 8192 in
theorem main_arg0_eq (V : Valuation τ sig (Elt F)) : after ops V (main_arg0 : DevRef τ sig) = V (main_arg0 : DevRef τ sig) := by
  after_results_simp
set_option maxRecDepth 8192 in
theorem main_arg1_eq (V : Valuation τ sig (Elt F)) : after ops V (main_arg1 : DevRef τ sig) = V (main_arg1 : DevRef τ sig) := by
  after_results_simp
set_option maxRecDepth 8192 in
theorem main_arg2_eq (V : Valuation τ sig (Elt F)) : after ops V (main_arg2 : DevRef τ sig) = V (main_arg2 : DevRef τ sig) := by
  after_results_simp
set_option maxRecDepth 8192 in
theorem main_arg3_eq (V : Valuation τ sig (Elt F)) : after ops V (main_arg3 : DevRef τ sig) = V (main_arg3 : DevRef τ sig) := by
  after_results_simp

/-! ## Part two: the term read at an index -/

/-- A fold by `and` from one over words that are all one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from one of an array that is one everywhere is one. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- A nonnegative index is left as it is. -/
theorem fixIdx_apply (N : BitVec 32) (i : IVec S4096x50 32) (k : S4096x50.Idx) (h0 : 0 ≤ (i k).toInt) :
    fixIdx N i k = i k := by
  unfold fixIdx
  rw [select_apply]
  have hc : ¬ (cmpi .slt i (broadcastInDim S4096x50 ![] bcast_S_S4096x50 (constantI S_ 32 0#32)) k = 1#1) := by
    intro hc
    have h1 : (i k).toInt < (0#32 : BitVec 32).toInt := IntOp.cmpi_slt.1 hc
    rw [show (0#32 : BitVec 32).toInt = 0 from by decide] at h1
    omega
  rw [eq_zero_of_ne_one hc, select_zero]

/-- The start indices at (n, l, 0): the corrected index at (n, l). -/
theorem idxCol_apply (N : BitVec 32) (i : IVec S4096x50 32) (n : Fin 4096) (l : Fin 50) (z : Fin 1) :
    idxCol N i (ix3 n l z) = fixIdx N i (ix2 n l) := by
  unfold idxCol
  refine broadcastInDim_apply _ _ _ _ _ (fun a => ?_)
  match a with
  | ⟨0, _⟩ => rfl
  | ⟨1, _⟩ => rfl

/-- For indices in [0, M] the mask is one everywhere. -/
theorem inRange_eq_one (M : BitVec 32) (v : IVec S4096x50x1 32)
    (hv : ∀ k, 0 ≤ (v k).toInt ∧ (v k).toInt ≤ M.toInt) (j : S4096x50.Idx) : inRange M v j = 1#1 := by
  unfold inRange
  refine reduce_andi_one _ _ _ _ (fun k => ?_) (fun _ => rfl) j
  refine IntOp.andi_eq_one.2 ⟨?_, ?_⟩
  · refine IntOp.cmpi_sge.2 ?_
    show (0#32 : BitVec 32).toInt ≤ (v k).toInt
    rw [show (0#32 : BitVec 32).toInt = 0 from by decide]
    exact (hv k).1
  · refine IntOp.cmpi_sle.2 ?_
    show (v k).toInt ≤ M.toInt
    exact (hv k).2

/-- The word lookup at (n, l, b), for indices inside the table: the table's row the index names, column b. -/
theorem takeWord_apply (x : FVec F S100000x128 .f32) (i : IVec S4096x50 32)
    (hi : ∀ k, 0 ≤ (i k).toInt ∧ (i k).toInt ≤ 99999) (n : Fin 4096) (l : Fin 50) (b : Fin 128) :
    takeWord x i (ix3 n l b) = x (ix2 (Cert.Lib.takeRow 100000 (by norm_num) (i (ix2 n l))) b) := by
  unfold takeWord
  rw [select_apply]
  have hm : broadcastInDim S4096x50x128 ![0, 1] bcast_S4096x50_S4096x50x128_0_1 (inRange 99999#32 (idxCol 100000#32 i)) (ix3 n l b) = 1#1 := by
    rw [broadcastInDim_apply _ _ _ (ix3 n l b) (ix2 n l) (fun a => by match a with | ⟨0, _⟩ => rfl | ⟨1, _⟩ => rfl)]
    refine inRange_eq_one _ _ (fun k => ?_) _
    obtain ⟨n', l', z, rfl⟩ : ∃ (n' : Fin 4096) (l' : Fin 50) (z : Fin 1), k = ix3 n' l' z := ⟨k 0, k 1, k 2, eq_ix3 k⟩
    rw [idxCol_apply, fixIdx_apply _ _ _ (hi _).1, show (99999#32 : BitVec 32).toInt = 99999 from by decide]
    exact hi _
  rw [hm, select_one]
  rw [Cert.Lib.take_rows_apply (by norm_num) gather_S100000x128_S4096x50x1_S4096x50x128_2_0_n_n_0_2_1128 rfl rfl rfl rfl rfl rfl rfl x _ n l b]
  rw [idxCol_apply, fixIdx_apply _ _ _ (hi _).1]

/-- The feature lookup at (n, l, b), for indices inside the table. -/
theorem takeFeat_apply (x : FVec F S1000x64 .f32) (i : IVec S4096x50 32)
    (hi : ∀ k, 0 ≤ (i k).toInt ∧ (i k).toInt ≤ 999) (n : Fin 4096) (l : Fin 50) (b : Fin 64) :
    takeFeat x i (ix3 n l b) = x (ix2 (Cert.Lib.takeRow 1000 (by norm_num) (i (ix2 n l))) b) := by
  unfold takeFeat
  rw [select_apply]
  have hm : broadcastInDim S4096x50x64 ![0, 1] bcast_S4096x50_S4096x50x64_0_1 (inRange 999#32 (idxCol 1000#32 i)) (ix3 n l b) = 1#1 := by
    rw [broadcastInDim_apply _ _ _ (ix3 n l b) (ix2 n l) (fun a => by match a with | ⟨0, _⟩ => rfl | ⟨1, _⟩ => rfl)]
    refine inRange_eq_one _ _ (fun k => ?_) _
    obtain ⟨n', l', z, rfl⟩ : ∃ (n' : Fin 4096) (l' : Fin 50) (z : Fin 1), k = ix3 n' l' z := ⟨k 0, k 1, k 2, eq_ix3 k⟩
    rw [idxCol_apply, fixIdx_apply _ _ _ (hi _).1, show (999#32 : BitVec 32).toInt = 999 from by decide]
    exact hi _
  rw [hm, select_one]
  rw [Cert.Lib.take_rows_apply (by norm_num) gather_S1000x64_S4096x50x1_S4096x50x64_2_0_n_n_0_2_164 rfl rfl rfl rfl rfl rfl rfl x _ n l b]
  rw [idxCol_apply, fixIdx_apply _ _ _ (hi _).1]

/-- For indices inside their tables the reference's term is the two looked-up rows side by side. -/
theorem out_eq (a0 a1 : IVec S4096x50 32) (a2 : FVec F S100000x128 .f32) (a3 : FVec F S1000x64 .f32)
    (h0 : ∀ k, 0 ≤ (a0 k).toInt ∧ (a0 k).toInt ≤ 99999) (h1 : ∀ k, 0 ≤ (a1 k).toInt ∧ (a1 k).toInt ≤ 999) :
    out a0 a1 a2 a3 = Cert.Stack.G a0 a1 a2 a3 := by
  funext j
  obtain ⟨n, l, q, rfl⟩ : ∃ (n : Fin 4096) (l : Fin 50) (q : Fin 192), j = ix3 n l q := ⟨j 0, j 1, j 2, eq_ix3 j⟩
  by_cases hq : q.val < 128
  · rw [Cert.Stack.G_word _ _ _ _ n l q hq]
    unfold out
    rw [concatenate_pair_apply_left (t := S4096x50x192) (s₁ := S4096x50x128) (s₂ := S4096x50x64) (2 : Fin 3) _ _ _ (ix3 n l q) rfl (ix3 n l (⟨q.val, hq⟩ : Fin 128))
      (fun b => by match b with | ⟨0, _⟩ => rfl | ⟨1, _⟩ => rfl | ⟨2, _⟩ => rfl)]
    exact takeWord_apply a2 a0 h0 _ _ _
  · have hq' : 128 ≤ q.val := Nat.le_of_not_lt hq
    rw [Cert.Stack.G_feat _ _ _ _ n l q hq']
    unfold out
    rw [concatenate_pair_apply_right (t := S4096x50x192) (s₁ := S4096x50x128) (s₂ := S4096x50x64) (2 : Fin 3) _ _ _ (ix3 n l q) rfl rfl
      (ix3 n l (⟨q.val - 128, by have := q.isLt; omega⟩ : Fin 64))
      (fun b hb => by
        match b, hb with
        | ⟨0, _⟩, _ => rfl
        | ⟨1, _⟩, _ => rfl
        | ⟨2, _⟩, hb => exact absurd rfl hb)
      (by show q.val - 128 + 128 = q.val; omega)]
    exact takeFeat_apply a3 a1 h1 _ _ _

/-! ## Part three: the run with its value -/

/-- Every execution of the reference terminates with the result at the composed term of the arguments' launch contents and
    the arguments unchanged: for any float values, no precondition. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (main_v2_eq _), (h c main_arg0).trans (main_arg0_eq _),
      (h c main_arg1).trans (main_arg1_eq _), (h c main_arg2).trans (main_arg2_eq _), (h c main_arg3).trans (main_arg3_eq _)⟩)
    (run_after m ρ)

/-- Under the input-domain predicate the reference ends with the result at the two looked-up rows side by side. -/
theorem run [Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Stack.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun _ h c => ⟨(h c).1.trans (out_eq _ _ _ _ (Cert.Stack.Pre.word_range _ _ _ _ (hpre c))
      (Cert.Stack.Pre.feat_range _ _ _ _ (hpre c))), (h c).2⟩) (run_value m ρ)

/-- The reference runs and leaves its arguments unchanged. -/
theorem frame [Cert.Pre_input_domain.Facts] : Cert.frame_ReferenceIdeal :=
  fun m g _ => (θ_run _ _ _).mono (fun _ h c => (h c).2) (run_value m g)

end Cert.Stack.Ref

end
-- ==== Proof.Algebraic.lean ====
/-
  The algebraic claim from the statement of the task's body: at the ideal instance, from memories that agree on the
  four arguments, the kernel and the reference both run, both end with the same result — the two looked-up rows side by
  side, as a function of the arguments — and with their arguments unchanged.
-/
import proofs.«206843_g13322988552399_fold_wed_c4_279_34_alg».proof.Proof.KI.Claims
import proofs.«206843_g13322988552399_fold_wed_c4_279_34_alg».proof.Proof.RefRun
import proofs.«206843_g13322988552399_fold_wed_c4_279_34_alg».proof.Proof.Gen.ReferenceIdeal

noncomputable section

namespace Cert.Proof

open Idealize.ShloMosaic Idealize.SL.Sem

theorem algebraic (hcore : Cert.Proof.KI.CoreStmt (F := Ideal)) : Cert.algebraic_KernelIdeal_ReferenceIdeal := by
  intro m g m' g' hpre hag
  -- the reference's precondition is the kernel's, read through the agreement
  have hpre' : Cert.Pre_ReferenceIdeal m' := fun c => by
    obtain ⟨h0, h1, h2, h3⟩ := hag c
    have hp := hpre c
    rw [← h0, ← h1, ← h2, ← h3] at hp
    exact hp
  refine ⟨fun c => Cert.Stack.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Proof.KI.run_strong hcore m g hpre, ?_⟩
  refine (θ_run _ _ _).mono (fun _ h c => ?_) (Cert.Stack.Ref.run m' g' hpre')
  obtain ⟨h0, h1, h2, h3⟩ := hag c
  obtain ⟨r5, r0, r1, r2, r3⟩ := h c
  refine ⟨?_, r0, r1, r2, r3⟩
  rw [r5, h0, h1, h2, h3]

end Cert.Proof

end
-- ==== Proof.lean ====
/-
  The certificate's claim.

  Both programs compute, at each of the 4096 × 50 positions, the row of the word table named by the position's word
  index followed by the row of the feature table named by its feature index: one function of the four arguments
  (Proof/Spec.lean). The reference does it by two host lookups and a concatenation (Proof/RefRun.lean); the precondition's
  index ranges make its fill-mode mask all ones. The kernel stacks the two index arrays, widens the feature table with
  zero columns, and hands each of 32 tasks a block of 128 result rows; a task works its block through a ring of four
  slots — index rows staged two rows ahead, the two tables' rows gathered one row ahead, the feature columns moved into
  the assembly buffer beside the word columns while the word gather may still be landing in its own columns, the finished
  row sent out and waited for three rows later. Every copy in flight is stated at what it delivers, one whole-buffer
  function per buffer (Proof/KI/Tile.lean), so that a round of the ring carries one invariant forward (Inv.lean, TripFirst /
  TripMid / TripLast) and the task as a whole leaves the lookup's function in its block (Core.lean). The launch of the tasks
  and the host operations around it are LaunchSplit / LaunchMain / Launch / Obl / Claims. The word-level program is the
  same text read at the other instance (Proof/K/). The index ranges are also what makes every gathered row exist, which
  the frames need.
-/
import proofs.«206843_g13322988552399_fold_wed_c4_279_34_alg».proof.Defs
import proofs.«206843_g13322988552399_fold_wed_c4_279_34_alg».proof.Proof.Gen.Kernel
import proofs.«206843_g13322988552399_fold_wed_c4_279_34_alg».proof.Proof.Gen.Kernel.Skeleton
import proofs.«206843_g13322988552399_fold_wed_c4_279_34_alg».proof.Proof.Gen.KernelIdeal
import proofs.«206843_g13322988552399_fold_wed_c4_279_34_alg».proof.Proof.Gen.KernelIdeal.Skeleton
import proofs.«206843_g13322988552399_fold_wed_c4_279_34_alg».proof.Proof.Gen.ReferenceIdeal
import proofs.«206843_g13322988552399_fold_wed_c4_279_34_alg».proof.Proof.Gen.Pre_input_domain
import proofs.«206843_g13322988552399_fold_wed_c4_279_34_alg».proof.Proof.KI.Core
import proofs.«206843_g13322988552399_fold_wed_c4_279_34_alg».proof.Proof.KI.Claims
import proofs.«206843_g13322988552399_fold_wed_c4_279_34_alg».proof.Proof.K.Core
import proofs.«206843_g13322988552399_fold_wed_c4_279_34_alg».proof.Proof.K.Claims
import proofs.«206843_g13322988552399_fold_wed_c4_279_34_alg».proof.Proof.RefRun
import proofs.«206843_g13322988552399_fold_wed_c4_279_34_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.K.frame_k Cert.Proof.K.tile_core,
    Cert.Proof.KI.frame_ki Cert.Proof.KI.tile_core,
    Cert.Stack.Ref.frame,
    trivial,
    Cert.Proof.algebraic Cert.Proof.KI.tile_core⟩

end Cert.Proof

end
